-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S320x320 : Shape := ⟨2, ![320, 320]⟩
abbrev S320 : Shape := ⟨1, ![320]⟩
abbrev S320x1 : Shape := ⟨2, ![320, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S320x320 : S_.BroadcastsInDim S320x320 (![] : Fin 0 → Fin S320x320.rank)
  reducesTo_S320x320_S_d0_1 : S320x320.ReducesTo [0, 1] S_
  bcast_S_S320 : S_.BroadcastsInDim S320 (![] : Fin 0 → Fin S320.rank)
  reducesTo_S320_S_d0 : S320.ReducesTo [0] S_
  bcast_S_S320x1 : S_.BroadcastsInDim S320x1 (![] : Fin 0 → Fin S320x1.rank)
  reducesTo_S320x1_S_d0_1 : S320x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S320x1 .f32) (main_arg17 : FVec F S1 .f32) (main_v63 : IVec S_ 1) (main_v67 : IVec S_ 1) : IVec S_ 1 :=
  let main_v68 : IVec S_ 1 := andi main_v63 main_v67
  let main_v69 : FVec F S320x1 .f32 := Host.absf main_arg16
  let main_cst_26 : FVec F S_ .f32 := constant S_ .f32 0x7F800000#32
  let main_v70 : FVec F S320x1 .f32 := broadcastInDim S320x1 ![] bcast_S_S320x1 main_cst_26
  let main_v71 : IVec S320x1 1 := cmpf .olt main_v69 main_v70
  let main_c_27 : IVec S_ 1 := constantI S_ 1 1#1
  let main_v72 : IVec S_ 1 := (fun x v => Host.reduce IntOp.andi x v reducesTo_S320x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S64 .f32) (main_arg14 : FVec F S320x320 .f32) (main_arg15 : FVec F S320 .f32) (main_arg16 : FVec F S320x1 .f32) (main_arg17 : FVec F S1 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S320x320 .f32 := Host.absf main_arg14
  let main_cst_22 : FVec F S_ .f32 := constant S_ .f32 0x7F800000#32
  let main_v60 : FVec F S320x320 .f32 := broadcastInDim S320x320 ![] bcast_S_S320x320 main_cst_22
  let main_v61 : IVec S320x320 1 := cmpf .olt main_v59 main_v60
  let main_c_23 : IVec S_ 1 := constantI S_ 1 1#1
  let main_v62 : IVec S_ 1 := (fun x v => Host.reduce IntOp.andi x v reducesTo_S320x320_S_d0_1 h_S_) main_v61 main_c_23
  let main_v63 : IVec S_ 1 := andi main_v58 main_v62
  let main_v64 : FVec F S320 .f32 := Host.absf main_arg15
  let main_cst_24 : FVec F S_ .f32 := constant S_ .f32 0x7F800000#32
  let main_v65 : FVec F S320 .f32 := broadcastInDim S320 ![] bcast_S_S320 main_cst_24
  let main_v66 : IVec S320 1 := cmpf .olt main_v64 main_v65
  let main_c_25 : IVec S_ 1 := constantI S_ 1 1#1
  let main_v67 : IVec S_ 1 := (fun x v => Host.reduce IntOp.andi x v reducesTo_S320_S_d0 h_S_) main_v66 main_c_25
  fn_part4 (F := F) main_arg16 main_arg17 main_v63 main_v67

def fn_part2 {F : FTy → Type} [FloatOps F] (main_arg9 : FVec F S64 .f32) (main_arg10 : FVec F S64 .f32) (main_arg11 : FVec F S4x64x64 .f32) (main_arg12 : FVec F S4x64 .f32) (main_arg13 : FVec F S64 .f32) (main_arg14 : FVec F S320x320 .f32) (main_arg15 : FVec F S320 .f32) (main_arg16 : FVec F S320x1 .f32) (main_arg17 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S4x64x64 .f32 := Host.absf main_arg11
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  let main_v49 : FVec F S4x64 .f32 := Host.absf main_arg12
  let main_cst_18 : FVec F S_ .f32 := constant S_ .f32 0x7F800000#32
  let main_v50 : FVec F S4x64 .f32 := broadcastInDim S4x64 ![] bcast_S_S4x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64 .f32) (main_arg8 : FVec F S64 .f32) (main_arg9 : FVec F S64 .f32) (main_arg10 : FVec F S64 .f32) (main_arg11 : FVec F S4x64x64 .f32) (main_arg12 : FVec F S4x64 .f32) (main_arg13 : FVec F S64 .f32) (main_arg14 : FVec F S320x320 .f32) (main_arg15 : FVec F S320 .f32) (main_arg16 : FVec F S320x1 .f32) (main_arg17 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64 .f32) (main_arg11 : FVec F S4x64x64 .f32) (main_arg12 : FVec F S4x64 .f32) (main_arg13 : FVec F S64 .f32) (main_arg14 : FVec F S320x320 .f32) (main_arg15 : FVec F S320 .f32) (main_arg16 : FVec F S320x1 .f32) (main_arg17 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S320x320 : Shape := ⟨2, ![320, 320]⟩
abbrev S320 : Shape := ⟨1, ![320]⟩
abbrev S320x1 : Shape := ⟨2, ![320, 1]⟩
abbrev S1 : Shape := ⟨1, ![1]⟩
abbrev S1x64 : Shape := ⟨2, ![1, 64]⟩
abbrev S10000x64 : Shape := ⟨2, ![10000, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64x64 : Shape := ⟨3, ![1, 64, 64]⟩
abbrev S25000x64 : Shape := ⟨2, ![25000, 64]⟩
abbrev S100000x320 : Shape := ⟨2, ![100000, 320]⟩
abbrev S512x320 : Shape := ⟨2, ![512, 320]⟩
abbrev S100000x1 : Shape := ⟨2, ![100000, 1]⟩
abbrev S1x320 : Shape := ⟨2, ![1, 320]⟩
abbrev S1x1 : Shape := ⟨2, ![1, 1]⟩
abbrev S512x1 : Shape := ⟨2, ![512, 1]⟩

abbrev nBuf : Space → Nat
  | .hbm => 137
  | .vmem => 80
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S4x64x64, .f32⟩
  | 12 => ⟨S4x64, .f32⟩
  | 13 => ⟨S64, .f32⟩
  | 14 => ⟨S320x320, .f32⟩
  | 15 => ⟨S320, .f32⟩
  | 16 => ⟨S320x1, .f32⟩
  | 17 => ⟨S1, .f32⟩
  | 18 => ⟨S1x64, .f32⟩
  | 19 => ⟨S1x64, .f32⟩
  | 20 => ⟨S1x64, .f32⟩
  | 21 => ⟨S1x64, .f32⟩
  | 22 => ⟨S100000x64, .f32⟩
  | 23 => ⟨S1x64, .f32⟩
  | 24 => ⟨S1x64, .f32⟩
  | 25 => ⟨S64, .f32⟩
  | 26 => ⟨S_, .f32⟩
  | 27 => ⟨S64, .f32⟩
  | 28 => ⟨S64, .f32⟩
  | 29 => ⟨S64, .f32⟩
  | 30 => ⟨S_, .f32⟩
  | 31 => ⟨S64, .f32⟩
  | 32 => ⟨S64, .f32⟩
  | 33 => ⟨S64, .f32⟩
  | 34 => ⟨S64, .f32⟩
  | 35 => ⟨S_, .f32⟩
  | 36 => ⟨S64, .f32⟩
  | 37 => ⟨S64, .f32⟩
  | 38 => ⟨S64, .f32⟩
  | 39 => ⟨S1x64, .f32⟩
  | 40 => ⟨S1x64, .f32⟩
  | 41 => ⟨S1x64, .f32⟩
  | 42 => ⟨S1x64, .f32⟩
  | 43 => ⟨S100000x64, .f32⟩
  | 44 => ⟨S1x1600000, .i32⟩
  | 45 => ⟨S1600000, .i32⟩
  | 46 => ⟨S1x1600000, .i32⟩
  | 47 => ⟨S1600000, .i32⟩
  | 48 => ⟨S1x64, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1x64x64, .f32⟩
  | 59 => ⟨S64x64, .f32⟩
  | 60 => ⟨S1x64, .f32⟩
  | 61 => ⟨S64, .f32⟩
  | 62 => ⟨S1x64, .f32⟩
  | 63 => ⟨S1600000x64, .f32⟩
  | 64 => ⟨S_, .f32⟩
  | 65 => ⟨S100000x64, .f32⟩
  | 66 => ⟨S1600000x1, .i32⟩
  | 67 => ⟨S100000x64, .f32⟩
  | 68 => ⟨S100000x64, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x64, .f32⟩
  | 78 => ⟨S1x64x64, .f32⟩
  | 79 => ⟨S64x64, .f32⟩
  | 80 => ⟨S1x64, .f32⟩
  | 81 => ⟨S64, .f32⟩
  | 82 => ⟨S1x64, .f32⟩
  | 83 => ⟨S1600000x64, .f32⟩
  | 84 => ⟨S_, .f32⟩
  | 85 => ⟨S100000x64, .f32⟩
  | 86 => ⟨S1600000x1, .i32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S1x64x64, .f32⟩
  | 99 => ⟨S64x64, .f32⟩
  | 100 => ⟨S1x64, .f32⟩
  | 101 => ⟨S64, .f32⟩
  | 102 => ⟨S1x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000x64, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1x64x64, .f32⟩
  | 119 => ⟨S64x64, .f32⟩
  | 120 => ⟨S1x64, .f32⟩
  | 121 => ⟨S64, .f32⟩
  | 122 => ⟨S1x64, .f32⟩
  | 123 => ⟨S1600000x64, .f32⟩
  | 124 => ⟨S_, .f32⟩
  | 125 => ⟨S100000x64, .f32⟩
  | 126 => ⟨S1600000x1, .i32⟩
  | 127 => ⟨S100000x64, .f32⟩
  | _ => ⟨S100000x64, .f32⟩

abbrev hbmTy0_1 (i : Nat) : BufTy := match i % 128 with
  | 0 => ⟨S100000x64, .f32⟩
  | 1 => ⟨S100000x320, .f32⟩
  | 2 => ⟨S_, .f32⟩
  | 3 => ⟨S512x320, .f32⟩
  | 4 => ⟨S100000x1, .i32⟩
  | 5 => ⟨S512x320, .f32⟩
  | 6 => ⟨S1x320, .f32⟩
  | 7 => ⟨S1x1, .f32⟩
  | 8 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S25000x64, .f32⟩
  | .local _ .vmem, ⟨23, _⟩ => ⟨S25000x64, .f32⟩
  | .local _ .vmem, ⟨24, _⟩ => ⟨S64x64, .f32⟩
  | .local _ .vmem, ⟨25, _⟩ => ⟨S1x64, .f32⟩
  | .local _ .vmem, ⟨26, _⟩ => ⟨S25000x64, .f32⟩
  | .local _ .vmem, ⟨27, _⟩ => ⟨S25000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S10000x64, .f32⟩
  | .local _ .vmem, ⟨34, _⟩ => ⟨S10000x64, .f32⟩
  | .local _ .vmem, ⟨35, _⟩ => ⟨S25000x64, .f32⟩
  | .local _ .vmem, ⟨36, _⟩ => ⟨S25000x64, .f32⟩
  | .local _ .vmem, ⟨37, _⟩ => ⟨S64x64, .f32⟩
  | .local _ .vmem, ⟨38, _⟩ => ⟨S1x64, .f32⟩
  | .local _ .vmem, ⟨39, _⟩ => ⟨S25000x64, .f32⟩
  | .local _ .vmem, ⟨40, _⟩ => ⟨S25000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S10000x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S25000x64, .f32⟩
  | .local _ .vmem, ⟨49, _⟩ => ⟨S25000x64, .f32⟩
  | .local _ .vmem, ⟨50, _⟩ => ⟨S64x64, .f32⟩
  | .local _ .vmem, ⟨51, _⟩ => ⟨S1x64, .f32⟩
  | .local _ .vmem, ⟨52, _⟩ => ⟨S25000x64, .f32⟩
  | .local _ .vmem, ⟨53, _⟩ => ⟨S25000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S1x64, .f32⟩
  | .local _ .vmem, ⟨59, _⟩ => ⟨S10000x64, .f32⟩
  | .local _ .vmem, ⟨60, _⟩ => ⟨S10000x64, .f32⟩
  | .local _ .vmem, ⟨61, _⟩ => ⟨S25000x64, .f32⟩
  | .local _ .vmem, ⟨62, _⟩ => ⟨S25000x64, .f32⟩
  | .local _ .vmem, ⟨63, _⟩ => ⟨S64x64, .f32⟩
  | .local _ .vmem, ⟨64, _⟩ => ⟨S1x64, .f32⟩
  | .local _ .vmem, ⟨65, _⟩ => ⟨S25000x64, .f32⟩
  | .local _ .vmem, ⟨66, _⟩ => ⟨S25000x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S1x64, .f32⟩
  | .local _ .vmem, ⟨72, _⟩ => ⟨S10000x64, .f32⟩
  | .local _ .vmem, ⟨73, _⟩ => ⟨S10000x64, .f32⟩
  | .local _ .vmem, ⟨74, _⟩ => ⟨S512x320, .f32⟩
  | .local _ .vmem, ⟨75, _⟩ => ⟨S320x320, .f32⟩
  | .local _ .vmem, ⟨76, _⟩ => ⟨S1x320, .f32⟩
  | .local _ .vmem, ⟨77, _⟩ => ⟨S320x1, .f32⟩
  | .local _ .vmem, ⟨78, _⟩ => ⟨S1x1, .f32⟩
  | .local _ .vmem, ⟨79, _⟩ => ⟨S512x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v4_2 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_2 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_4 : Ref sig .tc := ⟨.hbm, 69, rfl⟩
abbrev main_v43 : Ref sig .tc := ⟨.hbm, 70, rfl⟩
abbrev main_v44 : Ref sig .tc := ⟨.hbm, 71, rfl⟩
abbrev main_c_5 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_6 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_c_7 : Ref sig .tc := ⟨.hbm, 89, rfl⟩
abbrev main_v60 : Ref sig .tc := ⟨.hbm, 90, rfl⟩
abbrev main_v61 : Ref sig .tc := ⟨.hbm, 91, rfl⟩
abbrev main_c_8 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_9 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_10 : Ref sig .tc := ⟨.hbm, 109, rfl⟩
abbrev main_v77 : Ref sig .tc := ⟨.hbm, 110, rfl⟩
abbrev main_v78 : Ref sig .tc := ⟨.hbm, 111, rfl⟩
abbrev main_c_11 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_12 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_13 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg3_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg3_1 : Ref sig .tc := ⟨.vmem, 60, rfl⟩
abbrev cc8_stg0_0 : Ref sig .tc := ⟨.vmem, 61, rfl⟩
abbrev cc8_stg0_1 : Ref sig .tc := ⟨.vmem, 62, rfl⟩
abbrev cc8_stg1_0 : Ref sig .tc := ⟨.vmem, 63, rfl⟩
abbrev cc8_stg2_0 : Ref sig .tc := ⟨.vmem, 64, rfl⟩
abbrev cc8_stg3_0 : Ref sig .tc := ⟨.vmem, 65, rfl⟩
abbrev cc8_stg3_1 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg3_0 : Ref sig .tc := ⟨.vmem, 72, rfl⟩
abbrev cc9_stg3_1 : Ref sig .tc := ⟨.vmem, 73, rfl⟩
abbrev cc10_stg0_0 : Ref sig .tc := ⟨.vmem, 74, rfl⟩
abbrev cc10_stg1_0 : Ref sig .tc := ⟨.vmem, 75, rfl⟩
abbrev cc10_stg2_0 : Ref sig .tc := ⟨.vmem, 76, rfl⟩
abbrev cc10_stg3_0 : Ref sig .tc := ⟨.vmem, 77, rfl⟩
abbrev cc10_stg4_0 : Ref sig .tc := ⟨.vmem, 78, rfl⟩
abbrev cc10_stg5_0 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem2_0 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem3_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem3_1 : DmaSem sig := 58
abbrev cc8_sem0_0 : DmaSem sig := 59
abbrev cc8_sem0_1 : DmaSem sig := 60
abbrev cc8_sem1_0 : DmaSem sig := 61
abbrev cc8_sem2_0 : DmaSem sig := 62
abbrev cc8_sem3_0 : DmaSem sig := 63
abbrev cc8_sem3_1 : DmaSem sig := 64
abbrev cc9_sem0_0 : DmaSem sig := 65
abbrev cc9_sem0_1 : DmaSem sig := 66
abbrev cc9_sem1_0 : DmaSem sig := 67
abbrev cc9_sem1_1 : DmaSem sig := 68
abbrev cc9_sem2_0 : DmaSem sig := 69
abbrev cc9_sem3_0 : DmaSem sig := 70
abbrev cc9_sem3_1 : DmaSem sig := 71
abbrev cc10_sem0_0 : DmaSem sig := 72
abbrev cc10_sem1_0 : DmaSem sig := 73
abbrev cc10_sem2_0 : DmaSem sig := 74
abbrev cc10_sem3_0 : DmaSem sig := 75
abbrev cc10_sem4_0 : DmaSem sig := 76
abbrev cc10_sem5_0 : DmaSem sig := 77

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v46 : BitVec 1 := Scalar.cmpi .eq arg0 c9_i32
  let v47 : BitVec 32 := Scalar.extui v46
  let c0_i32_29 : BitVec 32 := 0#32
  let v48 : BitVec 1 := Scalar.cmpi .ne v47 c0_i32_29
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S25000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S25000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S25000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![64], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S25000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S25000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![64], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S25000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S25000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S10000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S512x320 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S320x320 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x320 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S320x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x1 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S512x1 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

class Facts₀ : Prop where
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  broadcasts_S1x64_S10000x64 : S1x64.Broadcasts S10000x64
  reduces_S10000x64_S64 : S10000x64.Reduces [0] S64
  shapeCasts_S1x64_S64 : S1x64.ShapeCasts S64
  bcast_S_S64 : S_.BroadcastsInDim S64 (![] : Fin 0 → Fin S64.rank)
  shapeCasts_S10000x64_S10000x64 : S10000x64.ShapeCasts S10000x64
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  inb_S25000x64_S25000x64_0_0 : ∀ a, (![0, 0] : Fin 2 → Nat) a + S25000x64.size a ≤ S25000x64.size a
  h_S25000x64 : 0 < S25000x64.numel
  shapeCasts_S25000x64_S25000x64 : S25000x64.ShapeCasts S25000x64
  shapeCasts_S64x64_S64x64 : S64x64.ShapeCasts S64x64
  broadcasts_S1x64_S25000x64 : S1x64.Broadcasts S25000x64
  bcast_S_S100000x64 : S_.BroadcastsInDim S100000x64 (![] : Fin 0 → Fin S100000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  concatenates_S100000x64_S100000x64_S100000x64_S100000x64_S100000x64_S100000x320_d1 : Shape.Concatenates [S100000x64, S100000x64, S100000x64, S100000x64, S100000x64] S100000x320 1
  bcast_S_S512x320 : S_.BroadcastsInDim S512x320 (![] : Fin 0 → Fin S512x320.rank)
  bcast_S100000_S100000x1_0 : S100000.BroadcastsInDim S100000x1 (![0] : Fin 1 → Fin S100000x1.rank)
  shapeCasts_S320_S1x320 : S320.ShapeCasts S1x320
  shapeCasts_S1_S1x1 : S1.ShapeCasts S1x1
  inb_S512x320_S512x320_0_0 : ∀ a, (![0, 0] : Fin 2 → Nat) a + S512x320.size a ≤ S512x320.size a
  h_S512x320 : 0 < S512x320.numel
  shapeCasts_S512x320_S512x320 : S512x320.ShapeCasts S512x320
  inb_S320x320_S320x320_0_0 : ∀ a, (![0, 0] : Fin 2 → Nat) a + S320x320.size a ≤ S320x320.size a
  h_S320x320 : 0 < S320x320.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S512x320 : S1x320.Broadcasts S512x320
  inb_S320x1_S320x1_0_0 : ∀ a, (![0, 0] : Fin 2 → Nat) a + S320x1.size a ≤ S320x1.size a
  h_S320x1 : 0 < S320x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  dot_S25000x64_S64x64_S25000x64_1_0_0_1_n_n_wf : DotDims.WF S25000x64 S64x64 S25000x64 [1] [0] [0] [1] [] []
  scatter_S100000x64_S1600000x1_S1600000x64_1_0_0_1_wf : ScatterDims.WF S100000x64 S1600000x1 S1600000x64 [1] [0] [0] 1
  scatter_S512x320_S100000x1_S100000x320_1_0_0_1_wf : ScatterDims.WF S512x320 S100000x1 S100000x320 [1] [0] [0] 1
  dot_S512x320_S320x320_S512x320_1_0_0_1_n_n_wf : DotDims.WF S512x320 S320x320 S512x320 [1] [0] [0] [1] [] []
  dot_S512x320_S320x1_S512x1_1_0_0_1_n_n_wf : DotDims.WF S512x320 S320x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x64.size a ≤ S100000x64.size a
  hwx0_7 : ∀ i : grid0.Coords, EltTy.bits .f32 = 32 ∨ (Rect.block (s := S100000x64) S10000x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x64.size a ≤ S1600000x64.size a
  hwx2_0 : ∀ i : grid2.Coords, EltTy.bits .f32 = 32 ∨ (Rect.block (s := S1600000x64) S25000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S25000x64.size a ≤ S1600000x64.size a
  hwx2_3 : ∀ i : grid2.Coords, EltTy.bits .f32 = 32 ∨ (Rect.block (s := S1600000x64) S25000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S25000x64.size a ≤ S1600000x64.size a
  hwx4_0 : ∀ i : grid4.Coords, EltTy.bits .f32 = 32 ∨ (Rect.block (s := S1600000x64) S25000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S25000x64.size a ≤ S1600000x64.size a
  hwx4_3 : ∀ i : grid4.Coords, EltTy.bits .f32 = 32 ∨ (Rect.block (s := S1600000x64) S25000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S25000x64.size a ≤ S1600000x64.size a
  hwx6_0 : ∀ i : grid6.Coords, EltTy.bits .f32 = 32 ∨ (Rect.block (s := S1600000x64) S25000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S25000x64.size a ≤ S1600000x64.size a
  hwx6_3 : ∀ i : grid6.Coords, EltTy.bits .f32 = 32 ∨ (Rect.block (s := S1600000x64) S25000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S25000x64.size a ≤ S1600000x64.size a
  hwx8_0 : ∀ i : grid8.Coords, EltTy.bits .f32 = 32 ∨ (Rect.block (s := S1600000x64) S25000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S25000x64.size a ≤ S1600000x64.size a
  hwx8_3 : ∀ i : grid8.Coords, EltTy.bits .f32 = 32 ∨ (Rect.block (s := S1600000x64) S25000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S10000x64.size a ≤ S100000x64.size a
  hwx9_1 : ∀ i : grid9.Coords, EltTy.bits .f32 = 32 ∨ (Rect.block (s := S100000x64) S10000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S512x320.size a ≤ S512x320.size a
  hwx10_0 : ∀ i : grid10.Coords, EltTy.bits .f32 = 32 ∨ (Rect.block (s := S512x320) S512x320.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S320x320.size a ≤ S320x320.size a
  hwx10_1 : ∀ i : grid10.Coords, EltTy.bits .f32 = 32 ∨ (Rect.block (s := S320x320) S320x320.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x320.size a ≤ S1x320.size a
  hwx10_2 : ∀ i : grid10.Coords, EltTy.bits .f32 = 32 ∨ (Rect.block (s := S1x320) S1x320.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S320x1.size a ≤ S320x1.size a
  hwx10_3 : ∀ i : grid10.Coords, EltTy.bits .f32 = 32 ∨ (Rect.block (s := S320x1) S320x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x1.size a ≤ S1x1.size a
  hwx10_4 : ∀ i : grid10.Coords, EltTy.bits .f32 = 32 ∨ (Rect.block (s := S1x1) S1x1.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S512x1.size a ≤ S512x1.size a
  hwx10_5 : ∀ i : grid10.Coords, EltTy.bits .f32 = 32 ∨ (Rect.block (s := S512x1) S512x1.size (cc10_transform_5 i) (hinb10_5 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x320_S100000x1_S100000x320_1_0_0_1 : ScatterDims S512x320 S100000x1 S100000x320 where
  updateWindowDims := [1]
  insertedWindowDims := [0]
  scatterDimsToOperandDims := [0]
  indexVectorDim := 1
  wf := scatter_S512x320_S100000x1_S100000x320_1_0_0_1_wf
def dot_S512x320_S320x320_S512x320_1_0_0_1_n_n : DotDims S512x320 S320x320 S512x320 where
  lhsContracting := [1]
  rhsContracting := [0]
  lhsNonContracting := [0]
  rhsNonContracting := [1]
  lhsBatch := []
  rhsBatch := []
  wf := dot_S512x320_S320x320_S512x320_1_0_0_1_n_n_wf
def dot_S512x320_S320x1_S512x1_1_0_0_1_n_n : DotDims S512x320 S320x1 S512x1 where
  lhsContracting := [1]
  rhsContracting := [0]
  lhsNonContracting := [0]
  rhsNonContracting := [1]
  lhsBatch := []
  rhsBatch := []
  wf := dot_S512x320_S320x1_S512x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S10000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S1x64.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S1x64.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

abbrev win1_0 : Pipeline.Window sig grid1 :=
  Pipeline.Window.ofSpec (Memref.whole main_v4_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S25000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S25000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v25) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S25000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v54) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55) S25000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v58) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v42) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v25) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v66) S25000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v68) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v71) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v72) S25000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v75) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v59) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v25) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v76) S10000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v83) S25000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v85) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v88) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v89) S25000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v92) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v76) S10000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v25) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v93) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v97) S512x320.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S320x320.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v98) S1x320.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_arg16) S320x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v99) S1x1.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v100) S512x1.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S4x64x64 : Shape := ⟨3, ![4, 64, 64]⟩
abbrev S4x64 : Shape := ⟨2, ![4, 64]⟩
abbrev S320x320 : Shape := ⟨2, ![320, 320]⟩
abbrev S320 : Shape := ⟨1, ![320]⟩
abbrev S320x1 : Shape := ⟨2, ![320, 1]⟩
abbrev S1 : Shape := ⟨1, ![1]⟩
abbrev S1x64 : Shape := ⟨2, ![1, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S1x64x64 : Shape := ⟨3, ![1, 64, 64]⟩
abbrev S100000x320 : Shape := ⟨2, ![100000, 320]⟩
abbrev S512x320 : Shape := ⟨2, ![512, 320]⟩
abbrev S100000x1 : Shape := ⟨2, ![100000, 1]⟩
abbrev S1x320 : Shape := ⟨2, ![1, 320]⟩
abbrev S512x1 : Shape := ⟨2, ![512, 1]⟩
abbrev S1x1 : Shape := ⟨2, ![1, 1]⟩

abbrev nBuf : Space → Nat
  | .hbm => 210
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64, .f32⟩
  | 11 => ⟨S4x64x64, .f32⟩
  | 12 => ⟨S4x64, .f32⟩
  | 13 => ⟨S64, .f32⟩
  | 14 => ⟨S320x320, .f32⟩
  | 15 => ⟨S320, .f32⟩
  | 16 => ⟨S320x1, .f32⟩
  | 17 => ⟨S1, .f32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .i1⟩
  | 25 => ⟨S1x64, .f32⟩
  | 26 => ⟨S100000x64, .f32⟩
  | 27 => ⟨S100000x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .i1⟩
  | 36 => ⟨S1x64, .f32⟩
  | 37 => ⟨S100000x64, .f32⟩
  | 38 => ⟨S100000x64, .f32⟩
  | 39 => ⟨S100000x64, .f32⟩
  | 40 => ⟨S_, .f32⟩
  | 41 => ⟨S64, .f32⟩
  | 42 => ⟨S_, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S100000x64, .f32⟩
  | 49 => ⟨S_, .f32⟩
  | 50 => ⟨S64, .f32⟩
  | 51 => ⟨S_, .f32⟩
  | 52 => ⟨S64, .f32⟩
  | 53 => ⟨S64, .f32⟩
  | 54 => ⟨S1x64, .f32⟩
  | 55 => ⟨S100000x64, .f32⟩
  | 56 => ⟨S100000x64, .f32⟩
  | 57 => ⟨S_, .f32⟩
  | 58 => ⟨S64, .f32⟩
  | 59 => ⟨S64, .f32⟩
  | 60 => ⟨S64, .f32⟩
  | 61 => ⟨S1x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S1x1600000, .i32⟩
  | 71 => ⟨S1600000, .i32⟩
  | 72 => ⟨S1x1600000, .i32⟩
  | 73 => ⟨S1600000, .i32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x64, .f32⟩
  | 83 => ⟨S1x64x64, .f32⟩
  | 84 => ⟨S64x64, .f32⟩
  | 85 => ⟨S1600000x64, .f32⟩
  | 86 => ⟨S1x64, .f32⟩
  | 87 => ⟨S64, .f32⟩
  | 88 => ⟨S1x64, .f32⟩
  | 89 => ⟨S1600000x64, .f32⟩
  | 90 => ⟨S1600000x64, .f32⟩
  | 91 => ⟨S_, .f32⟩
  | 92 => ⟨S100000x64, .f32⟩
  | 93 => ⟨S1600000x1, .i32⟩
  | 94 => ⟨S100000x64, .f32⟩
  | 95 => ⟨S100000x64, .f32⟩
  | 96 => ⟨S_, .f32⟩
  | 97 => ⟨S100000x64, .f32⟩
  | 98 => ⟨S100000x64, .i1⟩
  | 99 => ⟨S1x64, .f32⟩
  | 100 => ⟨S100000x64, .f32⟩
  | 101 => ⟨S100000x64, .f32⟩
  | 102 => ⟨S100000x64, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1x64x64, .f32⟩
  | 113 => ⟨S64x64, .f32⟩
  | 114 => ⟨S1600000x64, .f32⟩
  | 115 => ⟨S1x64, .f32⟩
  | 116 => ⟨S64, .f32⟩
  | 117 => ⟨S1x64, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000x64, .f32⟩
  | 125 => ⟨S_, .f32⟩
  | 126 => ⟨S100000x64, .f32⟩
  | 127 => ⟨S100000x64, .i1⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S100000x64, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x64, .f32⟩
  | 13 => ⟨S1x64x64, .f32⟩
  | 14 => ⟨S64x64, .f32⟩
  | 15 => ⟨S1600000x64, .f32⟩
  | 16 => ⟨S1x64, .f32⟩
  | 17 => ⟨S64, .f32⟩
  | 18 => ⟨S1x64, .f32⟩
  | 19 => ⟨S1600000x64, .f32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S100000x64, .f32⟩
  | 26 => ⟨S_, .f32⟩
  | 27 => ⟨S100000x64, .f32⟩
  | 28 => ⟨S100000x64, .i1⟩
  | 29 => ⟨S1x64, .f32⟩
  | 30 => ⟨S100000x64, .f32⟩
  | 31 => ⟨S100000x64, .f32⟩
  | 32 => ⟨S100000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S1x64x64, .f32⟩
  | 43 => ⟨S64x64, .f32⟩
  | 44 => ⟨S1600000x64, .f32⟩
  | 45 => ⟨S1x64, .f32⟩
  | 46 => ⟨S64, .f32⟩
  | 47 => ⟨S1x64, .f32⟩
  | 48 => ⟨S1600000x64, .f32⟩
  | 49 => ⟨S1600000x64, .f32⟩
  | 50 => ⟨S_, .f32⟩
  | 51 => ⟨S100000x64, .f32⟩
  | 52 => ⟨S1600000x1, .i32⟩
  | 53 => ⟨S100000x64, .f32⟩
  | 54 => ⟨S100000x64, .f32⟩
  | 55 => ⟨S_, .f32⟩
  | 56 => ⟨S100000x64, .f32⟩
  | 57 => ⟨S100000x64, .i1⟩
  | 58 => ⟨S1x64, .f32⟩
  | 59 => ⟨S100000x64, .f32⟩
  | 60 => ⟨S100000x64, .f32⟩
  | 61 => ⟨S100000x64, .f32⟩
  | 62 => ⟨S100000x320, .f32⟩
  | 63 => ⟨S_, .f32⟩
  | 64 => ⟨S512x320, .f32⟩
  | 65 => ⟨S100000x1, .i32⟩
  | 66 => ⟨S512x320, .f32⟩
  | 67 => ⟨S512x320, .f32⟩
  | 68 => ⟨S1x320, .f32⟩
  | 69 => ⟨S512x320, .f32⟩
  | 70 => ⟨S512x320, .f32⟩
  | 71 => ⟨S_, .f32⟩
  | 72 => ⟨S512x320, .f32⟩
  | 73 => ⟨S512x320, .i1⟩
  | 74 => ⟨S_, .f32⟩
  | 75 => ⟨S512x320, .f32⟩
  | 76 => ⟨S512x320, .f32⟩
  | 77 => ⟨S512x320, .f32⟩
  | 78 => ⟨S512x1, .f32⟩
  | 79 => ⟨S1x1, .f32⟩
  | 80 => ⟨S512x1, .f32⟩
  | 81 => ⟨S512x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_3 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c : Ref sig .tc := ⟨.hbm, 74, rfl⟩
abbrev main_v49 : Ref sig .tc := ⟨.hbm, 75, rfl⟩
abbrev main_v50 : Ref sig .tc := ⟨.hbm, 76, rfl⟩
abbrev main_c_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_8 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_9 : Ref sig .tc := ⟨.hbm, 103, rfl⟩
abbrev main_v74 : Ref sig .tc := ⟨.hbm, 104, rfl⟩
abbrev main_v75 : Ref sig .tc := ⟨.hbm, 105, rfl⟩
abbrev main_c_10 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_11 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_12 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_13 : Ref sig .tc := ⟨.hbm, 132, rfl⟩
abbrev main_v99 : Ref sig .tc := ⟨.hbm, 133, rfl⟩
abbrev main_v100 : Ref sig .tc := ⟨.hbm, 134, rfl⟩
abbrev main_c_14 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_15 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_16 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_c_17 : Ref sig .tc := ⟨.hbm, 161, rfl⟩
abbrev main_v124 : Ref sig .tc := ⟨.hbm, 162, rfl⟩
abbrev main_v125 : Ref sig .tc := ⟨.hbm, 163, rfl⟩
abbrev main_c_18 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_cst_19 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_20 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_21 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_call6_cst : Ref sig .tc := ⟨.hbm, 199, rfl⟩
abbrev main_call6_v0 : Ref sig .tc := ⟨.hbm, 200, rfl⟩
abbrev main_call6_v1 : Ref sig .tc := ⟨.hbm, 201, rfl⟩
abbrev main_call6_cst_0 : Ref sig .tc := ⟨.hbm, 202, rfl⟩
abbrev main_call6_v2 : Ref sig .tc := ⟨.hbm, 203, rfl⟩
abbrev main_call6_v3 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  bcast_S1x64_S1600000x64_0_1 : S1x64.BroadcastsInDim S1600000x64 (![0, 1] : Fin 2 → Fin S1600000x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  concatenates_S100000x64_S100000x64_S100000x64_S100000x64_S100000x64_S100000x320_d1 : Shape.Concatenates [S100000x64, S100000x64, S100000x64, S100000x64, S100000x64] S100000x320 1
  bcast_S_S512x320 : S_.BroadcastsInDim S512x320 (![] : Fin 0 → Fin S512x320.rank)
  bcast_S100000_S100000x1_0 : S100000.BroadcastsInDim S100000x1 (![0] : Fin 1 → Fin S100000x1.rank)
  bcast_S320_S1x320_1 : S320.BroadcastsInDim S1x320 (![1] : Fin 1 → Fin S1x320.rank)
  bcast_S1x320_S512x320_0_1 : S1x320.BroadcastsInDim S512x320 (![0, 1] : Fin 2 → Fin S512x320.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S512x320_S100000x1_S100000x320_1_0_0_1_wf : ScatterDims.WF S512x320 S100000x1 S100000x320 [1] [0] [0] 1
  dot_S512x320_S320x320_S512x320_1_0_0_1_n_n_wf : DotDims.WF S512x320 S320x320 S512x320 [1] [0] [0] [1] [] []
  dot_S512x320_S320x1_S512x1_1_0_0_1_n_n_wf : DotDims.WF S512x320 S320x1 S512x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x320_S100000x1_S100000x320_1_0_0_1 : ScatterDims S512x320 S100000x1 S100000x320 where
  updateWindowDims := [1]
  insertedWindowDims := [0]
  scatterDimsToOperandDims := [0]
  indexVectorDim := 1
  wf := scatter_S512x320_S100000x1_S100000x320_1_0_0_1_wf
def dot_S512x320_S320x320_S512x320_1_0_0_1_n_n : DotDims S512x320 S320x320 S512x320 where
  lhsContracting := [1]
  rhsContracting := [0]
  lhsNonContracting := [0]
  rhsNonContracting := [1]
  lhsBatch := []
  rhsBatch := []
  wf := dot_S512x320_S320x320_S512x320_1_0_0_1_n_n_wf
def dot_S512x320_S320x1_S512x1_1_0_0_1_n_n : DotDims S512x320 S320x1 S512x1 where
  lhsContracting := [1]
  rhsContracting := [0]
  lhsNonContracting := [0]
  rhsNonContracting := [1]
  lhsBatch := []
  rhsBatch := []
  wf := dot_S512x320_S320x1_S512x1_1_0_0_1_n_n_wf

class Facts : Prop extends Facts₀ where

variable [Facts]
-- ==== Proof.K.Reg0Runs.lean ====
/-
  Region 0 of @main, the two-layer head with its column statistics: ten row blocks of the node features go through
  Linear, PReLU, Linear, PReLU; each point stores its block of the result and adds the block's column sums and column
  sums of squares into two [1,64] accumulators kept in scratch between points (zeroed at the first point); the last
  point copies the two accumulators out. This module holds what the three control cases of the body share: the
  windows' blocks as the region finds them, the two branch conditions in closed form over the grid, where the two
  statistics windows are idle, and the scratch operands as memrefs.
-/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Ring
import Idealize.ShloMosaic.Lib.Tactic

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions -/

/-- "This is the first point": the accumulators are zeroed under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last point": the accumulators are copied out under it. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Output 8 is stored only at the last point: elsewhere the window is idle and is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel
/-- Output 9 is stored only at the last point: elsewhere the window is idle and is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9_C : ∀ t : Fin cfg0.N, cond0_1 (grid0.coords t) → cfg0.idle 9 (grid0.coords t) = false := by decide +kernel

/-! ## The staging and scratch memrefs -/

abbrev VO0_7 : View sig .tc .vmem S10000x64 .f32 := (Memref.whole cc0_stg7_0 : Memref sig .tc .vmem S10000x64 .f32).view
abbrev VO0_8 : View sig .tc .vmem S1x64 .f32 := (Memref.whole cc0_stg8_0 : Memref sig .tc .vmem S1x64 .f32).view
abbrev VO0_9 : View sig .tc .vmem S1x64 .f32 := (Memref.whole cc0_stg9_0 : Memref sig .tc .vmem S1x64 .f32).view
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S10000x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
/-- The two accumulators: whole scoped buffers of the kernel's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The region's invariant with the two accumulators split out as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.Reg0RunA.lean ====
/-
  Region 0 of @main (the two-layer head with its column statistics): the body's run in one of its three control cases.
-/
import proofs.«128986_j27779848471455_1_alg».proof.Proof.K.Reg0Runs

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The whole body at the first point (the accumulators are zeroed, then added into; the statistics windows are left alone): on whole staging memrefs, the seven inputs at their contents, the block output at anything,
    the body runs to the continuation holding the inputs as they were and each buffer it stored into with its stores
    written, as lists of pieces (last first) that the symbolic run finds and that are this definition's witness. -/
noncomputable def kernelRun0_A (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (hc0 : cond0_0 i) (hc1 : ¬cond0_1 i)
    (x0 : Vec F S10000x64 .f32) (x1 : Vec F S64x64 .f32) (x2 : Vec F S1x64 .f32) (x3 : Vec F S1x64 .f32) (x4 : Vec F S64x64 .f32) (x5 : Vec F S1x64 .f32) (x6 : Vec F S1x64 .f32) :
    Σ' (L7 : List (View.Piece (Elt F) S10000x64 .f32)), Σ' (L8 : List (View.Piece (Elt F) S1x64 .f32)), Σ' (L9 : List (View.Piece (Elt F) S1x64 .f32)), Σ' (LS0 : List (View.Piece (Elt F) S1x64 .f32)), { LS1 : List (View.Piece (Elt F) S1x64 .f32) //
      ∀ (xi8 : Vec F S1x64 .f32) (xi9 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ owns (c : Thread nD τ) arg9 fullShare xi8
            ∗ owns (c : Thread nD τ) arg10 fullShare xi9
            ∗ (∃ d, owns (c : Thread nD τ) arg11 fullShare d)
            ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xi8
                ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__prenn_kernel i arg1 harg1 arg2 harg2 arg3 harg3 arg4 harg4 arg5 harg5 arg6 harg6 arg7 harg7 arg8 harg8 arg9 harg9 arg10 harg10 arg11 harg11 arg12 harg12) K } := by
  refine ⟨?_, [], [], ?_, ?_, fun xi8 xi9 E K => ?run⟩
  case run =>
    simp only [cc0__prenn_kernel_eq_skeleton]; unfold cc0__prenn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.Kernel.Hand

end
-- ==== Proof.K.Reg0RunB.lean ====
/-
  Region 0 of @main (the two-layer head with its column statistics): the body's run in one of its three control cases.
-/
import proofs.«128986_j27779848471455_1_alg».proof.Proof.K.Reg0RunA

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The whole body at a middle point (the accumulators are added into; the statistics windows are left alone): on whole staging memrefs, the seven inputs at their contents, the block output at anything,
    the body runs to the continuation holding the inputs as they were and each buffer it stored into with its stores
    written, as lists of pieces (last first) that the symbolic run finds and that are this definition's witness. -/
noncomputable def kernelRun0_B (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (hc0 : ¬cond0_0 i) (hc1 : ¬cond0_1 i)
    (x0 : Vec F S10000x64 .f32) (x1 : Vec F S64x64 .f32) (x2 : Vec F S1x64 .f32) (x3 : Vec F S1x64 .f32) (x4 : Vec F S64x64 .f32) (x5 : Vec F S1x64 .f32) (x6 : Vec F S1x64 .f32) (xs0 : Vec F S1x64 .f32) (xs1 : Vec F S1x64 .f32) :
    Σ' (L7 : List (View.Piece (Elt F) S10000x64 .f32)), Σ' (L8 : List (View.Piece (Elt F) S1x64 .f32)), Σ' (L9 : List (View.Piece (Elt F) S1x64 .f32)), Σ' (LS0 : List (View.Piece (Elt F) S1x64 .f32)), { LS1 : List (View.Piece (Elt F) S1x64 .f32) //
      ∀ (xi8 : Vec F S1x64 .f32) (xi9 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ owns (c : Thread nD τ) arg9 fullShare xi8
            ∗ owns (c : Thread nD τ) arg10 fullShare xi9
            ∗ owns (c : Thread nD τ) arg11 fullShare xs0
            ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xi8
                ∗ owns (c : Thread nD τ) arg10 fullShare xi9
                ∗ (arg11.view.loc (c : Thread nD τ) ↦[arg11.view.set]{fullShare} arg11.view.writes (Elt F) (harg11.unread xs0) LS0)
                ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__prenn_kernel i arg1 harg1 arg2 harg2 arg3 harg3 arg4 harg4 arg5 harg5 arg6 harg6 arg7 harg7 arg8 harg8 arg9 harg9 arg10 harg10 arg11 harg11 arg12 harg12) K } := by
  refine ⟨?_, [], [], ?_, ?_, fun xi8 xi9 E K => ?run⟩
  case run =>
    simp only [cc0__prenn_kernel_eq_skeleton]; unfold cc0__prenn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexact HS0
    iexact HS1

end Cert.Kernel.Hand

end
-- ==== Proof.K.Reg0RunC.lean ====
/-
  Region 0 of @main (the two-layer head with its column statistics): the body's run in one of its three control cases.
-/
import proofs.«128986_j27779848471455_1_alg».proof.Proof.K.Reg0RunB

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The whole body at the last point (the accumulators are added into and then copied out to the statistics windows): on whole staging memrefs, the seven inputs at their contents, the block output at anything,
    the body runs to the continuation holding the inputs as they were and each buffer it stored into with its stores
    written, as lists of pieces (last first) that the symbolic run finds and that are this definition's witness. -/
noncomputable def kernelRun0_C (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (hc0 : ¬cond0_0 i) (hc1 : cond0_1 i)
    (x0 : Vec F S10000x64 .f32) (x1 : Vec F S64x64 .f32) (x2 : Vec F S1x64 .f32) (x3 : Vec F S1x64 .f32) (x4 : Vec F S64x64 .f32) (x5 : Vec F S1x64 .f32) (x6 : Vec F S1x64 .f32) (xs0 : Vec F S1x64 .f32) (xs1 : Vec F S1x64 .f32) :
    Σ' (L7 : List (View.Piece (Elt F) S10000x64 .f32)), Σ' (L8 : List (View.Piece (Elt F) S1x64 .f32)), Σ' (L9 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ (∃ d, owns (c : Thread nD τ) arg9 fullShare d)
            ∗ (∃ d, owns (c : Thread nD τ) arg10 fullShare d)
            ∗ owns (c : Thread nD τ) arg11 fullShare xs0
            ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (arg11.view.loc (c : Thread nD τ) ↦[arg11.view.set]{fullShare} arg11.view.writes (Elt F) (harg11.unread xs0) LS0)
                ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__prenn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__prenn_kernel_eq_skeleton]; unfold cc0__prenn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexact HS0
    iexact HS1

end Cert.Kernel.Hand

end
-- ==== Proof.K.Reg0.lean ====
/-
  Region 0 of @main, the two-layer head with its column statistics, as proof data for the pipeline: what each of the
  three control cases leaves in the three output windows' staging buffers and in the two accumulators (the stores the
  run found, read back), these contents point by point along the grid (the accumulators after point t are the
  block sums of point t added to what point t-1 left, starting from zero at point 0), the region's invariant carrying
  the accumulators at those contents, and the body obligation at every point.
-/
import proofs.«128986_j27779848471455_1_alg».proof.Proof.K.Reg0RunC

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Case A -/

/-- The body's run in case A at point `t`: at the point's staging memrefs, the two scratch operands and the input blocks. -/
abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)

/-- Case A's one store into the block output tiles it, so it covers it. -/
theorem cover0_A_7 (c : Dev nD) (t : Fin cfg0.N) (hc0 : cond0_0 (grid0.coords t)) (hc1 : ¬cond0_1 (grid0.coords t)) (y : S10000x64.Idx) : ∃ pc ∈ (runA V c t hc0 hc1).1, y ∈ pc.1.set :=
  View.cover_of_tiledL (runA V c t hc0 hc1).1 S10000x64.size (by sl_kernel_rfl) y
/-- What case A leaves in the block output's staging buffer: its pieces read back. -/
def out0_A_7 (c : Dev nD) (t : Fin cfg0.N) (hc0 : cond0_0 (grid0.coords t)) (hc1 : ¬cond0_1 (grid0.coords t)) : Vec F S10000x64 .f32 :=
  VO0_7.read (Elt F) (VO0_7.writes (Elt F) VO0_7.junk (runA V c t hc0 hc1).1)
/-- Case A stores nothing into statistics window 8 (idle there, not written back): a placeholder nothing consults. -/
def out0_A_8 (c : Dev nD) (t : Fin cfg0.N) (hc0 : cond0_0 (grid0.coords t)) (hc1 : ¬cond0_1 (grid0.coords t)) : Vec F S1x64 .f32 :=
  VO0_8.read (Elt F) (VO0_8.writes (Elt F) VO0_8.junk (runA V c t hc0 hc1).2.1)
/-- Case A stores nothing into statistics window 9 (idle there, not written back): a placeholder nothing consults. -/
def out0_A_9 (c : Dev nD) (t : Fin cfg0.N) (hc0 : cond0_0 (grid0.coords t)) (hc1 : ¬cond0_1 (grid0.coords t)) : Vec F S1x64 .f32 :=
  VO0_9.read (Elt F) (VO0_9.writes (Elt F) VO0_9.junk (runA V c t hc0 hc1).2.2.1)
theorem scover0_A_0 (c : Dev nD) (t : Fin cfg0.N) (hc0 : cond0_0 (grid0.coords t)) (hc1 : ¬cond0_1 (grid0.coords t)) (y : S1x64.Idx) : ∃ pc ∈ (runA V c t hc0 hc1).2.2.2.1, y ∈ pc.1.set :=
  View.cover_of_tiledL (runA V c t hc0 hc1).2.2.2.1 S1x64.size (by sl_kernel_rfl) y
/-- What case A leaves in accumulator 0: its pieces read back. -/
def sout0_A_0 (c : Dev nD) (t : Fin cfg0.N) (hc0 : cond0_0 (grid0.coords t)) (hc1 : ¬cond0_1 (grid0.coords t)) : Vec F S1x64 .f32 :=
  VS0_0.read (Elt F) (VS0_0.writes (Elt F) VS0_0.junk (runA V c t hc0 hc1).2.2.2.1)
theorem scover0_A_1 (c : Dev nD) (t : Fin cfg0.N) (hc0 : cond0_0 (grid0.coords t)) (hc1 : ¬cond0_1 (grid0.coords t)) (y : S1x64.Idx) : ∃ pc ∈ (runA V c t hc0 hc1).2.2.2.2.1, y ∈ pc.1.set :=
  View.cover_of_tiledL (runA V c t hc0 hc1).2.2.2.2.1 S1x64.size (by sl_kernel_rfl) y
/-- What case A leaves in accumulator 1: its pieces read back. -/
def sout0_A_1 (c : Dev nD) (t : Fin cfg0.N) (hc0 : cond0_0 (grid0.coords t)) (hc1 : ¬cond0_1 (grid0.coords t)) : Vec F S1x64 .f32 :=
  VS0_1.read (Elt F) (VS0_1.writes (Elt F) VS0_1.junk (runA V c t hc0 hc1).2.2.2.2.1)
/-- Case A's five contents: the three output windows' staging buffers, then the two accumulators. -/
def tuple0_A (c : Dev nD) (t : Fin cfg0.N) (hc0 : cond0_0 (grid0.coords t)) (hc1 : ¬cond0_1 (grid0.coords t)) : Vec F S10000x64 .f32 × Vec F S1x64 .f32 × Vec F S1x64 .f32 × Vec F S1x64 .f32 × Vec F S1x64 .f32 :=
  (out0_A_7 V c t hc0 hc1, out0_A_8 V c t hc0 hc1, out0_A_9 V c t hc0 hc1, sout0_A_0 V c t hc0 hc1, sout0_A_1 V c t hc0 hc1)

/-! ## Case B -/

/-- The body's run in case B at point `t`: at the point's staging memrefs, the two scratch operands and the input blocks. -/
abbrev runB (c : Dev nD) (t : Fin cfg0.N) (hc0 : ¬cond0_0 (grid0.coords t)) (hc1 : ¬cond0_1 (grid0.coords t)) (xs0 : Vec F S1x64 .f32) (xs1 : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1

/-- Case B's one store into the block output tiles it, so it covers it. -/
theorem cover0_B_7 (c : Dev nD) (t : Fin cfg0.N) (hc0 : ¬cond0_0 (grid0.coords t)) (hc1 : ¬cond0_1 (grid0.coords t)) (xs0 : Vec F S1x64 .f32) (xs1 : Vec F S1x64 .f32) (y : S10000x64.Idx) : ∃ pc ∈ (runB V c t hc0 hc1 xs0 xs1).1, y ∈ pc.1.set :=
  View.cover_of_tiledL (runB V c t hc0 hc1 xs0 xs1).1 S10000x64.size (by sl_kernel_rfl) y
/-- What case B leaves in the block output's staging buffer: its pieces read back. -/
def out0_B_7 (c : Dev nD) (t : Fin cfg0.N) (hc0 : ¬cond0_0 (grid0.coords t)) (hc1 : ¬cond0_1 (grid0.coords t)) (xs0 : Vec F S1x64 .f32) (xs1 : Vec F S1x64 .f32) : Vec F S10000x64 .f32 :=
  VO0_7.read (Elt F) (VO0_7.writes (Elt F) VO0_7.junk (runB V c t hc0 hc1 xs0 xs1).1)
/-- Case B stores nothing into statistics window 8 (idle there, not written back): a placeholder nothing consults. -/
def out0_B_8 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VO0_8.read (Elt F) (VO0_8.writes (Elt F) VO0_8.junk (runB V c t hc0 hc1 xs0 xs1).2.1)
/-- Case B stores nothing into statistics window 9 (idle there, not written back): a placeholder nothing consults. -/
def out0_B_9 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VO0_9.read (Elt F) (VO0_9.writes (Elt F) VO0_9.junk (runB V c t hc0 hc1 xs0 xs1).2.2.1)
theorem scover0_B_0 (c : Dev nD) (t : Fin cfg0.N) (hc0 : ¬cond0_0 (grid0.coords t)) (hc1 : ¬cond0_1 (grid0.coords t)) (xs0 : Vec F S1x64 .f32) (xs1 : Vec F S1x64 .f32) (y : S1x64.Idx) : ∃ pc ∈ (runB V c t hc0 hc1 xs0 xs1).2.2.2.1, y ∈ pc.1.set :=
  View.cover_of_tiledL (runB V c t hc0 hc1 xs0 xs1).2.2.2.1 S1x64.size (by sl_kernel_rfl) y
/-- What case B leaves in accumulator 0: its pieces read back. -/
def sout0_B_0 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VS0_0.read (Elt F) (VS0_0.writes (Elt F) VS0_0.junk (runB V c t hc0 hc1 xs0 xs1).2.2.2.1)
theorem scover0_B_1 (c : Dev nD) (t : Fin cfg0.N) (hc0 : ¬cond0_0 (grid0.coords t)) (hc1 : ¬cond0_1 (grid0.coords t)) (xs0 : Vec F S1x64 .f32) (xs1 : Vec F S1x64 .f32) (y : S1x64.Idx) : ∃ pc ∈ (runB V c t hc0 hc1 xs0 xs1).2.2.2.2.1, y ∈ pc.1.set :=
  View.cover_of_tiledL (runB V c t hc0 hc1 xs0 xs1).2.2.2.2.1 S1x64.size (by sl_kernel_rfl) y
/-- What case B leaves in accumulator 1: its pieces read back. -/
def sout0_B_1 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VS0_1.read (Elt F) (VS0_1.writes (Elt F) VS0_1.junk (runB V c t hc0 hc1 xs0 xs1).2.2.2.2.1)
/-- Case B's five contents: the three output windows' staging buffers, then the two accumulators. -/
def tuple0_B (c : Dev nD) (t : Fin cfg0.N) (hc0 : ¬cond0_0 (grid0.coords t)) (hc1 : ¬cond0_1 (grid0.coords t)) (xs0 : Vec F S1x64 .f32) (xs1 : Vec F S1x64 .f32) : Vec F S10000x64 .f32 × Vec F S1x64 .f32 × Vec F S1x64 .f32 × Vec F S1x64 .f32 × Vec F S1x64 .f32 :=
  (out0_B_7 V c t hc0 hc1 xs0 xs1, out0_B_8 V c t hc0 hc1 xs0 xs1, out0_B_9 V c t hc0 hc1 xs0 xs1, sout0_B_0 V c t hc0 hc1 xs0 xs1, sout0_B_1 V c t hc0 hc1 xs0 xs1)

/-! ## Case C -/

/-- The body's run in case C at point `t`: at the point's staging memrefs, the two scratch operands and the input blocks. -/
abbrev runC (c : Dev nD) (t : Fin cfg0.N) (hc0 : ¬cond0_0 (grid0.coords t)) (hc1 : cond0_1 (grid0.coords t)) (xs0 : Vec F S1x64 .f32) (xs1 : Vec F S1x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1

/-- Case C's one store into the block output tiles it, so it covers it. -/
theorem cover0_C_7 (c : Dev nD) (t : Fin cfg0.N) (hc0 : ¬cond0_0 (grid0.coords t)) (hc1 : cond0_1 (grid0.coords t)) (xs0 : Vec F S1x64 .f32) (xs1 : Vec F S1x64 .f32) (y : S10000x64.Idx) : ∃ pc ∈ (runC V c t hc0 hc1 xs0 xs1).1, y ∈ pc.1.set :=
  View.cover_of_tiledL (runC V c t hc0 hc1 xs0 xs1).1 S10000x64.size (by sl_kernel_rfl) y
/-- What case C leaves in the block output's staging buffer: its pieces read back. -/
def out0_C_7 (c : Dev nD) (t : Fin cfg0.N) (hc0 : ¬cond0_0 (grid0.coords t)) (hc1 : cond0_1 (grid0.coords t)) (xs0 : Vec F S1x64 .f32) (xs1 : Vec F S1x64 .f32) : Vec F S10000x64 .f32 :=
  VO0_7.read (Elt F) (VO0_7.writes (Elt F) VO0_7.junk (runC V c t hc0 hc1 xs0 xs1).1)
theorem cover0_C_8 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.1, y ∈ pc.1.set :=
  View.cover_of_tiledL (runC V c t hc0 hc1 xs0 xs1).2.1 S1x64.size (by sl_kernel_rfl) y
/-- What case C leaves in statistics window 8's staging buffer: its pieces read back. -/
def out0_C_8 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VO0_8.read (Elt F) (VO0_8.writes (Elt F) VO0_8.junk (runC V c t hc0 hc1 xs0 xs1).2.1)
theorem cover0_C_9 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.2.1, y ∈ pc.1.set :=
  View.cover_of_tiledL (runC V c t hc0 hc1 xs0 xs1).2.2.1 S1x64.size (by sl_kernel_rfl) y
/-- What case C leaves in statistics window 9's staging buffer: its pieces read back. -/
def out0_C_9 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VO0_9.read (Elt F) (VO0_9.writes (Elt F) VO0_9.junk (runC V c t hc0 hc1 xs0 xs1).2.2.1)
theorem scover0_C_0 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.2.2.1, y ∈ pc.1.set :=
  View.cover_of_tiledL (runC V c t hc0 hc1 xs0 xs1).2.2.2.1 S1x64.size (by sl_kernel_rfl) y
/-- What case C leaves in accumulator 0: its pieces read back. -/
def sout0_C_0 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VS0_0.read (Elt F) (VS0_0.writes (Elt F) VS0_0.junk (runC V c t hc0 hc1 xs0 xs1).2.2.2.1)
theorem scover0_C_1 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.2.2.2.1, y ∈ pc.1.set :=
  View.cover_of_tiledL (runC V c t hc0 hc1 xs0 xs1).2.2.2.2.1 S1x64.size (by sl_kernel_rfl) y
/-- What case C leaves in accumulator 1: its pieces read back. -/
def sout0_C_1 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VS0_1.read (Elt F) (VS0_1.writes (Elt F) VS0_1.junk (runC V c t hc0 hc1 xs0 xs1).2.2.2.2.1)
/-- Case C's five contents: the three output windows' staging buffers, then the two accumulators. -/
def tuple0_C (c : Dev nD) (t : Fin cfg0.N) (hc0 : ¬cond0_0 (grid0.coords t)) (hc1 : cond0_1 (grid0.coords t)) (xs0 : Vec F S1x64 .f32) (xs1 : Vec F S1x64 .f32) : Vec F S10000x64 .f32 × Vec F S1x64 .f32 × Vec F S1x64 .f32 × Vec F S1x64 .f32 × Vec F S1x64 .f32 :=
  (out0_C_7 V c t hc0 hc1 xs0 xs1, out0_C_8 V c t hc0 hc1 xs0 xs1, out0_C_9 V c t hc0 hc1 xs0 xs1, sout0_C_0 V c t hc0 hc1 xs0 xs1, sout0_C_1 V c t hc0 hc1 xs0 xs1)

/-! ## What the outputs and the accumulators hold after each point -/

/-- The accumulation along the grid: the case the closed forms select at position `n`, run at the point's memrefs and
    input blocks, the accumulators taken at what position `n - 1` left. -/
def outsAt0 (c : Dev nD) : (n : ℕ) → n < cfg0.N → Vec F S10000x64 .f32 × Vec F S1x64 .f32 × Vec F S1x64 .f32 × Vec F S1x64 .f32 × Vec F S1x64 .f32
  | 0, hn => tuple0_A V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 10 = 0 then
      False.elim (by have hN : n + 1 < 10 := lt_of_lt_of_eq hn (show cfg0.N = 10 from N_0); omega)
    else
      if h1 : (n + 1) % 10 = 9 then
        tuple0_C V c ⟨n + 1, hn⟩ (fun h => h0 ((hcond0_0 ⟨n + 1, hn⟩).mp h)) ((hcond0_1 ⟨n + 1, hn⟩).mpr h1)
          (outsAt0 c n (Nat.lt_of_succ_lt hn)).2.2.2.1 (outsAt0 c n (Nat.lt_of_succ_lt hn)).2.2.2.2
      else
        tuple0_B V c ⟨n + 1, hn⟩ (fun h => h0 ((hcond0_0 ⟨n + 1, hn⟩).mp h)) (fun h => h1 ((hcond0_1 ⟨n + 1, hn⟩).mp h))
          (outsAt0 c n (Nat.lt_of_succ_lt hn)).2.2.2.1 (outsAt0 c n (Nat.lt_of_succ_lt hn)).2.2.2.2

theorem outsAt0_A (c : Dev nD) (t : Fin cfg0.N) (h0 : t.val % 10 = 0) (h1 : ¬t.val % 10 = 9) :
    outsAt0 V c t.val t.isLt = tuple0_A V c t ((hcond0_0 t).mpr h0) (fun h => h1 ((hcond0_1 t).mp h)) := by
  obtain ⟨n, hn⟩ := t
  cases n with
  | zero => exact rfl
  | succ n => exact (by exfalso; have hN : n + 1 < 10 := lt_of_lt_of_eq hn (show cfg0.N = 10 from N_0); (try dsimp only at h0); omega)

theorem outsAt0_B (c : Dev nD) (t : Fin cfg0.N) (h0 : ¬t.val % 10 = 0) (h1 : ¬t.val % 10 = 9) :
    outsAt0 V c t.val t.isLt = tuple0_B V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = tuple0_C V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards the two
    accumulators at what the point before left, the other scoped buffers unopened, the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them; after the body at point `t` each
    input's buffer at its block and the outputs' at the accumulation's contents; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the inputs' memrefs hold their blocks; the closed forms say which case the point is in; the
    invariant hands the body the accumulators at what the point before left (at anything at the first point) and takes
    them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val % 10 = 0
  · have h1 : ¬t.val % 10 = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [outsAt0_A V c t h0 h1]
    unfold tuple0_A out0_A_7 sout0_A_0 sout0_A_1; (try dsimp only)
    have hz : t.val = 0 := by omega
    rw [PhiS_castSucc V c t, PhiS_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t ((hcond0_0 t).mpr h0) (fun h => h1 ((hcond0_1 t).mp h))).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, ⟨%e7, H7⟩, H8, H9, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 V c t _ _)
          · unfold owns; iexists _; isplitr
            swap; · iexact HS1
            ipureintro; exact View.read_writes_of_cover _ _ _ _ _ (scover0_A_1 V c t _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 V c t _ _)
    isplitl [H8]; · iexists _; iexact H8
    iexists _; iexact H9
  · by_cases h1 : t.val % 10 = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8_C t ((hcond0_1 t).mpr h1)], after0_8]
      rw [show (dat0 V c).leavesExact 9 t = owns (c : Thread nD τ) (ms0_9 t) fullShare ((dat0 V c).after 9 t) from by
        unfold Dat.leavesExact; rw [liveAt0_9_C t ((hcond0_1 t).mpr h1)], after0_9]
      rw [outsAt0_C V c t h0 h1]
      unfold tuple0_C out0_C_7 out0_C_8 out0_C_9 sout0_C_0 sout0_C_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC V c t (fun h => h0 ((hcond0_0 t).mp h)) ((hcond0_1 t).mpr h1) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, HS0, HS1⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 V c t _ _ _ _)
            · unfold owns; iexists _; isplitr
              swap; · iexact HS1
              ipureintro; exact View.read_writes_of_cover _ _ _ _ _ (scover0_C_1 V c t _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 V c t _ _ _ _)
      isplitl [H8]
      · unfold owns; iexists _; isplitr
        swap; · iexact H8
        ipureintro; exact View.read_writes_of_cover _ _ _ _ _ (cover0_C_8 V c t _ _ _ _)
      unfold owns; iexists _; isplitr
      swap; · iexact H9
      ipureintro; exact View.read_writes_of_cover _ _ _ _ _ (cover0_C_9 V c t _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [outsAt0_B V c t h0 h1]
      unfold tuple0_B out0_B_7 sout0_B_0 sout0_B_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB V c t (fun h => h0 ((hcond0_0 t).mp h)) (fun h => h1 ((hcond0_1 t).mp h)) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e7, H7⟩, H8, H9, HS0, HS1⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 V c t _ _ _ _)
            · unfold owns; iexists _; isplitr
              swap; · iexact HS1
              ipureintro; exact View.read_writes_of_cover _ _ _ _ _ (scover0_B_1 V c t _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 V c t _ _ _ _)
      isplitl [H8]; · iexists _; iexact H8
      iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the accumulators' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end

end Cert.Kernel.Hand

end
-- ==== Proof.K.Reg1.lean ====
/- Region 1 of the program's @main, the pipelined call of `cc1__bn_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or at an
    earlier point (then its block index has not moved since), for any proof data whose array is `V`'s (`hA`) and
    whose body leaves the block in place (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or at an
    earlier point (then its block index has not moved since), for any proof data whose array is `V`'s (`hA`) and
    whose body leaves the block in place (`hafter`). The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or at an
    earlier point (then its block index has not moved since), for any proof data whose array is `V`'s (`hA`) and
    whose body leaves the block in place (`hafter`). The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or at an
    earlier point (then its block index has not moved since), for any proof data whose array is `V`'s (`hA`) and
    whose body leaves the block in place (`hafter`). The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether it was fetched there or at an
    earlier point (then its block index has not moved since), for any proof data whose array is `V`'s (`hA`) and
    whose body leaves the block in place (`hafter`). The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-block rectangle per window -/

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S1x64 := Rect.unit (s := S1x64) ![0, 0] S1x64.size inb_S1x64_S1x64_0_0
abbrev r1_3 : Rect S1x64 := Rect.unit (s := S1x64) ![0, 0] S1x64.size inb_S1x64_S1x64_0_0
abbrev r1_4 : Rect S1x64 := Rect.unit (s := S1x64) ![0, 0] S1x64.size inb_S1x64_S1x64_0_0
abbrev r1_5 : Rect S10000x64 := Rect.unit (s := S10000x64) ![0, 0] S10000x64.size inb_S10000x64_S10000x64_0_0

/-! ## What the body leaves in the output window's buffer -/

/-- Window 5's staging buffer after the body, from the input windows' blocks: its one store as a piece over the
    skeleton's payload. -/
def out1_5 (x0 : Vec F S10000x64 .f32) (x1 : Vec F S1x64 .f32) (x2 : Vec F S1x64 .f32) (x3 : Vec F S1x64 .f32) (x4 : Vec F S1x64 .f32) : Vec F S10000x64 .f32 :=
  View.canon [⟨r1_5, k1_pay1 (View.ld x0 r1_0) (View.ld x1 r1_1) (View.ld x2 r1_2) (View.ld x3 r1_3) (View.ld x4 r1_4)⟩]

/-- The one store is the whole block, so it covers the buffer. -/
theorem cover1_5 (p0 : Vec F S10000x64 .f32) (y : S10000x64.Idx) :
    ∃ pc ∈ ([⟨r1_5, p0⟩] : List (View.Piece (Elt F) S10000x64 .f32)), y ∈ pc.1.set :=
  View.cover_of_tiled [⟨r1_5, p0⟩] S10000x64.size (by rfl) y

/-! ## The body's triple -/

set_option maxHeartbeats 4000000 in
/-- The kernel body on whole staging memrefs, the inputs' at read contents `xW` and the output's at anything, runs to
    the continuation holding the inputs' as they were and the output's at `out1_5` of the inputs'. The grid
    coordinate is not read. -/
theorem sound_kernel1 (c : Dev nD) (E : Set ℕ) (i : grid1.Coords) (arg0 : Memref sig .tc .vmem S10000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/- Region 2 of the program's @main, the pipelined call of `cc2__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or at an
    earlier point (then its block index has not moved since), for any proof data whose array is `V`'s (`hA`) and
    whose body leaves the block in place (`hafter`). The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or at an
    earlier point (then its block index has not moved since), for any proof data whose array is `V`'s (`hA`) and
    whose body leaves the block in place (`hafter`). The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or at an
    earlier point (then its block index has not moved since), for any proof data whose array is `V`'s (`hA`) and
    whose body leaves the block in place (`hafter`). The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one whole-block rectangle per window -/

abbrev r2_0 : Rect S25000x64 := Rect.unit (s := S25000x64) ![0, 0] S25000x64.size inb_S25000x64_S25000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out2_3 (x0 : Vec F S25000x64 .f32) (x1 : Vec F S64x64 .f32) (x2 : Vec F S1x64 .f32) : Vec F S25000x64 .f32 :=
  View.canon [⟨r2_3, k2_pay1 (View.ld x0 r2_0) (View.ld x1 r2_1) (View.ld x2 r2_2)⟩]

/-- The one store is the whole block, so it covers the buffer. -/
theorem cover2_3 (p0 : Vec F S25000x64 .f32) (y : S25000x64.Idx) :
    ∃ pc ∈ ([⟨r2_3, p0⟩] : List (View.Piece (Elt F) S25000x64 .f32)), y ∈ pc.1.set :=
  View.cover_of_tiled [⟨r2_3, p0⟩] S25000x64.size (by rfl) y

/-! ## The body's triple -/

set_option maxHeartbeats 4000000 in
/-- The kernel body on whole staging memrefs, the inputs' at read contents `xW` and the output's at anything, runs to
    the continuation holding the inputs' as they were and the output's at `out2_3` of the inputs'. The grid
    coordinate is not read. -/
theorem sound_kernel2 (c : Dev nD) (E : Set ℕ) (i : grid2.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__msg_linear_kernel i arg0 harg0 arg1 harg1 arg2 harg2 arg3 harg3) K := by
  simp only [cc2__msg_linear_kernel_eq_skeleton]; unfold cc2__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- Region 3 of the program's @main, the pipelined call of `cc3__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or at an
    earlier point (then its block index has not moved since), for any proof data whose array is `V`'s (`hA`) and
    whose body leaves the block in place (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or at an
    earlier point (then its block index has not moved since), for any proof data whose array is `V`'s (`hA`) and
    whose body leaves the block in place (`hafter`). The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether it was fetched there or at an
    earlier point (then its block index has not moved since), for any proof data whose array is `V`'s (`hA`) and
    whose body leaves the block in place (`hafter`). The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: one whole-block rectangle per window -/

abbrev r3_0 : Rect S10000x64 := Rect.unit (s := S10000x64) ![0, 0] S10000x64.size inb_S10000x64_S10000x64_0_0
abbrev r3_1 : Rect S10000x64 := Rect.unit (s := S10000x64) ![0, 0] S10000x64.size inb_S10000x64_S10000x64_0_0
abbrev r3_2 : Rect S1x64 := Rect.unit (s := S1x64) ![0, 0] S1x64.size inb_S1x64_S1x64_0_0
abbrev r3_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out3_3 (x0 : Vec F S10000x64 .f32) (x1 : Vec F S10000x64 .f32) (x2 : Vec F S1x64 .f32) : Vec F S10000x64 .f32 :=
  View.canon [⟨r3_3, k3_pay1 (View.ld x0 r3_0) (View.ld x1 r3_1) (View.ld x2 r3_2)⟩]

/-- The one store is the whole block, so it covers the buffer. -/
theorem cover3_3 (p0 : Vec F S10000x64 .f32) (y : S10000x64.Idx) :
    ∃ pc ∈ ([⟨r3_3, p0⟩] : List (View.Piece (Elt F) S10000x64 .f32)), y ∈ pc.1.set :=
  View.cover_of_tiled [⟨r3_3, p0⟩] S10000x64.size (by rfl) y

/-! ## The body's triple -/

set_option maxHeartbeats 4000000 in
/-- The kernel body on whole staging memrefs, the inputs' at read contents `xW` and the output's at anything, runs to
    the continuation holding the inputs' as they were and the output's at `out3_3` of the inputs'. The grid
    coordinate is not read. -/
theorem sound_kernel3 (c : Dev nD) (E : Set ℕ) (i : grid3.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__self_update_kernel i arg0 harg0 arg1 harg1 arg2 harg2 arg3 harg3) K := by
  simp only [cc3__self_update_kernel_eq_skeleton]; unfold cc3__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- Region 4 of the program's @main, the pipelined call of `cc4__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether it was fetched there or at an
    earlier point (then its block index has not moved since), for any proof data whose array is `V`'s (`hA`) and
    whose body leaves the block in place (`hafter`). The window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether it was fetched there or at an
    earlier point (then its block index has not moved since), for any proof data whose array is `V`'s (`hA`) and
    whose body leaves the block in place (`hafter`). The window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether it was fetched there or at an
    earlier point (then its block index has not moved since), for any proof data whose array is `V`'s (`hA`) and
    whose body leaves the block in place (`hafter`). The window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: one whole-block rectangle per window -/

abbrev r4_0 : Rect S25000x64 := Rect.unit (s := S25000x64) ![0, 0] S25000x64.size inb_S25000x64_S25000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out4_3 (x0 : Vec F S25000x64 .f32) (x1 : Vec F S64x64 .f32) (x2 : Vec F S1x64 .f32) : Vec F S25000x64 .f32 :=
  View.canon [⟨r4_3, k4_pay1 (View.ld x0 r4_0) (View.ld x1 r4_1) (View.ld x2 r4_2)⟩]

/-- The one store is the whole block, so it covers the buffer. -/
theorem cover4_3 (p0 : Vec F S25000x64 .f32) (y : S25000x64.Idx) :
    ∃ pc ∈ ([⟨r4_3, p0⟩] : List (View.Piece (Elt F) S25000x64 .f32)), y ∈ pc.1.set :=
  View.cover_of_tiled [⟨r4_3, p0⟩] S25000x64.size (by rfl) y

/-! ## The body's triple -/

set_option maxHeartbeats 4000000 in
/-- The kernel body on whole staging memrefs, the inputs' at read contents `xW` and the output's at anything, runs to
    the continuation holding the inputs' as they were and the output's at `out4_3` of the inputs'. The grid
    coordinate is not read. -/
theorem sound_kernel4 (c : Dev nD) (E : Set ℕ) (i : grid4.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__msg_linear_kernel i arg0 harg0 arg1 harg1 arg2 harg2 arg3 harg3) K := by
  simp only [cc4__msg_linear_kernel_eq_skeleton]; unfold cc4__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point
    `t` each input's buffer at its block and the output's at `out4_3` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
/- Region 5 of the program's @main, the pipelined call of `cc5__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether it was fetched there or at an
    earlier point (then its block index has not moved since), for any proof data whose array is `V`'s (`hA`) and
    whose body leaves the block in place (`hafter`). The window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether it was fetched there or at an
    earlier point (then its block index has not moved since), for any proof data whose array is `V`'s (`hA`) and
    whose body leaves the block in place (`hafter`). The window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether it was fetched there or at an
    earlier point (then its block index has not moved since), for any proof data whose array is `V`'s (`hA`) and
    whose body leaves the block in place (`hafter`). The window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: one whole-block rectangle per window -/

abbrev r5_0 : Rect S10000x64 := Rect.unit (s := S10000x64) ![0, 0] S10000x64.size inb_S10000x64_S10000x64_0_0
abbrev r5_1 : Rect S10000x64 := Rect.unit (s := S10000x64) ![0, 0] S10000x64.size inb_S10000x64_S10000x64_0_0
abbrev r5_2 : Rect S1x64 := Rect.unit (s := S1x64) ![0, 0] S1x64.size inb_S1x64_S1x64_0_0
abbrev r5_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out5_3 (x0 : Vec F S10000x64 .f32) (x1 : Vec F S10000x64 .f32) (x2 : Vec F S1x64 .f32) : Vec F S10000x64 .f32 :=
  View.canon [⟨r5_3, k5_pay1 (View.ld x0 r5_0) (View.ld x1 r5_1) (View.ld x2 r5_2)⟩]

/-- The one store is the whole block, so it covers the buffer. -/
theorem cover5_3 (p0 : Vec F S10000x64 .f32) (y : S10000x64.Idx) :
    ∃ pc ∈ ([⟨r5_3, p0⟩] : List (View.Piece (Elt F) S10000x64 .f32)), y ∈ pc.1.set :=
  View.cover_of_tiled [⟨r5_3, p0⟩] S10000x64.size (by rfl) y

/-! ## The body's triple -/

set_option maxHeartbeats 4000000 in
/-- The kernel body on whole staging memrefs, the inputs' at read contents `xW` and the output's at anything, runs to
    the continuation holding the inputs' as they were and the output's at `out5_3` of the inputs'. The grid
    coordinate is not read. -/
theorem sound_kernel5 (c : Dev nD) (E : Set ℕ) (i : grid5.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__self_update_kernel i arg0 harg0 arg1 harg1 arg2 harg2 arg3 harg3) K := by
  simp only [cc5__self_update_kernel_eq_skeleton]; unfold cc5__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
/- Region 6 of the program's @main, the pipelined call of `cc6__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether it was fetched there or at an
    earlier point (then its block index has not moved since), for any proof data whose array is `V`'s (`hA`) and
    whose body leaves the block in place (`hafter`). The window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether it was fetched there or at an
    earlier point (then its block index has not moved since), for any proof data whose array is `V`'s (`hA`) and
    whose body leaves the block in place (`hafter`). The window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether it was fetched there or at an
    earlier point (then its block index has not moved since), for any proof data whose array is `V`'s (`hA`) and
    whose body leaves the block in place (`hafter`). The window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: one whole-block rectangle per window -/

abbrev r6_0 : Rect S25000x64 := Rect.unit (s := S25000x64) ![0, 0] S25000x64.size inb_S25000x64_S25000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out6_3 (x0 : Vec F S25000x64 .f32) (x1 : Vec F S64x64 .f32) (x2 : Vec F S1x64 .f32) : Vec F S25000x64 .f32 :=
  View.canon [⟨r6_3, k6_pay1 (View.ld x0 r6_0) (View.ld x1 r6_1) (View.ld x2 r6_2)⟩]

/-- The one store is the whole block, so it covers the buffer. -/
theorem cover6_3 (p0 : Vec F S25000x64 .f32) (y : S25000x64.Idx) :
    ∃ pc ∈ ([⟨r6_3, p0⟩] : List (View.Piece (Elt F) S25000x64 .f32)), y ∈ pc.1.set :=
  View.cover_of_tiled [⟨r6_3, p0⟩] S25000x64.size (by rfl) y

/-! ## The body's triple -/

set_option maxHeartbeats 4000000 in
/-- The kernel body on whole staging memrefs, the inputs' at read contents `xW` and the output's at anything, runs to
    the continuation holding the inputs' as they were and the output's at `out6_3` of the inputs'. The grid
    coordinate is not read. -/
theorem sound_kernel6 (c : Dev nD) (E : Set ℕ) (i : grid6.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__msg_linear_kernel i arg0 harg0 arg1 harg1 arg2 harg2 arg3 harg3) K := by
  simp only [cc6__msg_linear_kernel_eq_skeleton]; unfold cc6__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point
    `t` each input's buffer at its block and the output's at `out6_3` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
/- Region 7 of the program's @main, the pipelined call of `cc7__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether it was fetched there or at an
    earlier point (then its block index has not moved since), for any proof data whose array is `V`'s (`hA`) and
    whose body leaves the block in place (`hafter`). The window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether it was fetched there or at an
    earlier point (then its block index has not moved since), for any proof data whose array is `V`'s (`hA`) and
    whose body leaves the block in place (`hafter`). The window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether it was fetched there or at an
    earlier point (then its block index has not moved since), for any proof data whose array is `V`'s (`hA`) and
    whose body leaves the block in place (`hafter`). The window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: one whole-block rectangle per window -/

abbrev r7_0 : Rect S10000x64 := Rect.unit (s := S10000x64) ![0, 0] S10000x64.size inb_S10000x64_S10000x64_0_0
abbrev r7_1 : Rect S10000x64 := Rect.unit (s := S10000x64) ![0, 0] S10000x64.size inb_S10000x64_S10000x64_0_0
abbrev r7_2 : Rect S1x64 := Rect.unit (s := S1x64) ![0, 0] S1x64.size inb_S1x64_S1x64_0_0
abbrev r7_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out7_3 (x0 : Vec F S10000x64 .f32) (x1 : Vec F S10000x64 .f32) (x2 : Vec F S1x64 .f32) : Vec F S10000x64 .f32 :=
  View.canon [⟨r7_3, k7_pay1 (View.ld x0 r7_0) (View.ld x1 r7_1) (View.ld x2 r7_2)⟩]

/-- The one store is the whole block, so it covers the buffer. -/
theorem cover7_3 (p0 : Vec F S10000x64 .f32) (y : S10000x64.Idx) :
    ∃ pc ∈ ([⟨r7_3, p0⟩] : List (View.Piece (Elt F) S10000x64 .f32)), y ∈ pc.1.set :=
  View.cover_of_tiled [⟨r7_3, p0⟩] S10000x64.size (by rfl) y

/-! ## The body's triple -/

set_option maxHeartbeats 4000000 in
/-- The kernel body on whole staging memrefs, the inputs' at read contents `xW` and the output's at anything, runs to
    the continuation holding the inputs' as they were and the output's at `out7_3` of the inputs'. The grid
    coordinate is not read. -/
theorem sound_kernel7 (c : Dev nD) (E : Set ℕ) (i : grid7.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out7_3 x0 x1 x2)) -∗ K ⟨⟩))
      ⊢ wp frame (wpE (defs₀ (F := F)) Variants.none c none) E (cc7__self_update_kernel i arg0 harg0 arg1 harg1 arg2 harg2 arg3 harg3) K := by
  simp only [cc7__self_update_kernel_eq_skeleton]; unfold cc7__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point
    `t` each input's buffer at its block and the output's at `out7_3` of the input blocks; the invariant is the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Reg8.lean ====
/- Region 8 of the program's @main, the pipelined call of `cc8__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether it was fetched there or at an
    earlier point (then its block index has not moved since), for any proof data whose array is `V`'s (`hA`) and
    whose body leaves the block in place (`hafter`). The window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether it was fetched there or at an
    earlier point (then its block index has not moved since), for any proof data whose array is `V`'s (`hA`) and
    whose body leaves the block in place (`hafter`). The window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether it was fetched there or at an
    earlier point (then its block index has not moved since), for any proof data whose array is `V`'s (`hA`) and
    whose body leaves the block in place (`hafter`). The window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: one whole-block rectangle per window -/

abbrev r8_0 : Rect S25000x64 := Rect.unit (s := S25000x64) ![0, 0] S25000x64.size inb_S25000x64_S25000x64_0_0
abbrev r8_1 : Rect S64x64 := Rect.unit (s := S64x64) ![0, 0] S64x64.size inb_S64x64_S64x64_0_0
abbrev r8_2 : Rect S1x64 := Rect.unit (s := S1x64) ![0, 0] S1x64.size inb_S1x64_S1x64_0_0
abbrev r8_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out8_3 (x0 : Vec F S25000x64 .f32) (x1 : Vec F S64x64 .f32) (x2 : Vec F S1x64 .f32) : Vec F S25000x64 .f32 :=
  View.canon [⟨r8_3, k8_pay1 (View.ld x0 r8_0) (View.ld x1 r8_1) (View.ld x2 r8_2)⟩]

/-- The one store is the whole block, so it covers the buffer. -/
theorem cover8_3 (p0 : Vec F S25000x64 .f32) (y : S25000x64.Idx) :
    ∃ pc ∈ ([⟨r8_3, p0⟩] : List (View.Piece (Elt F) S25000x64 .f32)), y ∈ pc.1.set :=
  View.cover_of_tiled [⟨r8_3, p0⟩] S25000x64.size (by rfl) y

/-! ## The body's triple -/

set_option maxHeartbeats 4000000 in
/-- The kernel body on whole staging memrefs, the inputs' at read contents `xW` and the output's at anything, runs to
    the continuation holding the inputs' as they were and the output's at `out8_3` of the inputs'. The grid
    coordinate is not read. -/
theorem sound_kernel8 (c : Dev nD) (E : Set ℕ) (i : grid8.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__msg_linear_kernel i arg0 harg0 arg1 harg1 arg2 harg2 arg3 harg3) K := by
  simp only [cc8__msg_linear_kernel_eq_skeleton]; unfold cc8__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point
    `t` each input's buffer at its block and the output's at `out8_3` of the input blocks; the invariant is the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Reg9.lean ====
/- Region 9 of the program's @main, the pipelined call of `cc9__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether it was fetched there or at an
    earlier point (then its block index has not moved since), for any proof data whose array is `V`'s (`hA`) and
    whose body leaves the block in place (`hafter`). The window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether it was fetched there or at an
    earlier point (then its block index has not moved since), for any proof data whose array is `V`'s (`hA`) and
    whose body leaves the block in place (`hafter`). The window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether it was fetched there or at an
    earlier point (then its block index has not moved since), for any proof data whose array is `V`'s (`hA`) and
    whose body leaves the block in place (`hafter`). The window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: one whole-block rectangle per window -/

abbrev r9_0 : Rect S10000x64 := Rect.unit (s := S10000x64) ![0, 0] S10000x64.size inb_S10000x64_S10000x64_0_0
abbrev r9_1 : Rect S10000x64 := Rect.unit (s := S10000x64) ![0, 0] S10000x64.size inb_S10000x64_S10000x64_0_0
abbrev r9_2 : Rect S1x64 := Rect.unit (s := S1x64) ![0, 0] S1x64.size inb_S1x64_S1x64_0_0
abbrev r9_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out9_3 (x0 : Vec F S10000x64 .f32) (x1 : Vec F S10000x64 .f32) (x2 : Vec F S1x64 .f32) : Vec F S10000x64 .f32 :=
  View.canon [⟨r9_3, k9_pay1 (View.ld x0 r9_0) (View.ld x1 r9_1) (View.ld x2 r9_2)⟩]

/-- The one store is the whole block, so it covers the buffer. -/
theorem cover9_3 (p0 : Vec F S10000x64 .f32) (y : S10000x64.Idx) :
    ∃ pc ∈ ([⟨r9_3, p0⟩] : List (View.Piece (Elt F) S10000x64 .f32)), y ∈ pc.1.set :=
  View.cover_of_tiled [⟨r9_3, p0⟩] S10000x64.size (by rfl) y

/-! ## The body's triple -/

set_option maxHeartbeats 4000000 in
/-- The kernel body on whole staging memrefs, the inputs' at read contents `xW` and the output's at anything, runs to
    the continuation holding the inputs' as they were and the output's at `out9_3` of the inputs'. The grid
    coordinate is not read. -/
theorem sound_kernel9 (c : Dev nD) (E : Set ℕ) (i : grid9.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__self_update_kernel i arg0 harg0 arg1 harg1 arg2 harg2 arg3 harg3) K := by
  simp only [cc9__self_update_kernel_eq_skeleton]; unfold cc9__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point
    `t` each input's buffer at its block and the output's at `out9_3` of the input blocks; the invariant is the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Reg10.lean ====
/- Region 10 of the program's @main, the pipelined call of `cc10__ffn_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.Kernel.Launch
import proofs.«128986_j27779848471455_1_alg».proof.Proof.Gen.Kernel.Skeleton
import proofs.«128986_j27779848471455_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, whether it was fetched there or at an
    earlier point (then its block index has not moved since), for any proof data whose array is `V`'s (`hA`) and
    whose body leaves the block in place (`hafter`). The window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, whether it was fetched there or at an
    earlier point (then its block index has not moved since), for any proof data whose array is `V`'s (`hA`) and
    whose body leaves the block in place (`hafter`). The window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, whether it was fetched there or at an
    earlier point (then its block index has not moved since), for any proof data whose array is `V`'s (`hA`) and
    whose body leaves the block in place (`hafter`). The window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, whether it was fetched there or at an
    earlier point (then its block index has not moved since), for any proof data whose array is `V`'s (`hA`) and
    whose body leaves the block in place (`hafter`). The window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, whether it was fetched there or at an
    earlier point (then its block index has not moved since), for any proof data whose array is `V`'s (`hA`) and
    whose body leaves the block in place (`hafter`). The window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: one whole-block rectangle per window -/

abbrev r10_0 : Rect S512x320 := Rect.unit (s := S512x320) ![0, 0] S512x320.size inb_S512x320_S512x320_0_0
abbrev r10_1 : Rect S320x320 := Rect.unit (s := S320x320) ![0, 0] S320x320.size inb_S320x320_S320x320_0_0
abbrev r10_2 : Rect S1x320 := Rect.unit (s := S1x320) ![0, 0] S1x320.size inb_S1x320_S1x320_0_0
abbrev r10_3 : Rect S320x1 := Rect.unit (s := S320x1) ![0, 0] S320x1.size inb_S320x1_S320x1_0_0
abbrev r10_4 : Rect S1x1 := Rect.unit (s := S1x1) ![0, 0] S1x1.size inb_S1x1_S1x1_0_0
abbrev r10_5 : Rect S512x1 := Rect.unit (s := S512x1) ![0, 0] S512x1.size inb_S512x1_S512x1_0_0

/-! ## What the body leaves in the output window's buffer -/

/-- Window 5's staging buffer after the body, from the input windows' blocks: its one store as a piece over the
    skeleton's payload. -/
def out10_5 (x0 : Vec F S512x320 .f32) (x1 : Vec F S320x320 .f32) (x2 : Vec F S1x320 .f32) (x3 : Vec F S320x1 .f32) (x4 : Vec F S1x1 .f32) : Vec F S512x1 .f32 :=
  View.canon [⟨r10_5, k10_pay1 (View.ld x0 r10_0) (View.ld x1 r10_1) (View.ld x2 r10_2) (View.ld x3 r10_3) (View.ld x4 r10_4)⟩]

/-- The one store is the whole block, so it covers the buffer. -/
theorem cover10_5 (p0 : Vec F S512x1 .f32) (y : S512x1.Idx) :
    ∃ pc ∈ ([⟨r10_5, p0⟩] : List (View.Piece (Elt F) S512x1 .f32)), y ∈ pc.1.set :=
  View.cover_of_tiled [⟨r10_5, p0⟩] S512x1.size (by rfl) y

/-! ## The body's triple -/

set_option maxHeartbeats 4000000 in
/-- The kernel body on whole staging memrefs, the inputs' at read contents `xW` and the output's at anything, runs to
    the continuation holding the inputs' as they were and the output's at `out10_5` of the inputs'. The grid
    coordinate is not read. -/
theorem sound_kernel10 (c : Dev nD) (E : Set ℕ) (i : grid10.Coords) (arg0 : Memref sig .tc .vmem S512x320 .f32) (harg0 : arg0.IsWhole) (arg1 : Memref sig .tc .vmem S320x320 .f32) (harg1 : arg1.IsWhole) (arg2 : Memref sig .tc .vmem S1x320 .f32) (harg2 : arg2.IsWhole) (arg3 : Memref sig .tc .vmem S320x1 .f32) (harg3 : arg3.IsWhole) (arg4 : Memref sig .tc .vmem S1x1 .f32) (harg4 : arg4.IsWhole) (arg5 : Memref sig .tc .vmem S512x1 .f32) (harg5 : arg5.IsWhole)
    (x0 : Vec F S512x320 .f32) (x1 : Vec F S320x320 .f32) (x2 : Vec F S1x320 .f32) (x3 : Vec F S320x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out10_5 x0 x1 x2 x3 x4)) -∗ K ⟨⟩))
      ⊢ wp frame (wpE (defs₀ (F := F)) Variants.none c none) E (cc10__ffn_kernel i arg0 harg0 arg1 harg1 arg2 harg2 arg3 harg3 arg4 harg4 arg5 harg5) K := by
  simp only [cc10__ffn_kernel_eq_skeleton]; unfold cc10__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of pipeline 10 on core `c`: the arrays as the region finds them (`V`); after the body at point
    `t` each input's buffer at its block and the output's at `out10_5` of the input blocks; the invariant is the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Fold.lean ====
/-
  The TensorCore's buffer contents at every boundary between @main's items, as a fold from the launch memory: after a
  host stretch the stretch's operations applied; after a region its windows' arrays at what the pipeline's write-backs
  leave and every other buffer as entered. A buffer no stretch writes and no region outputs reads back, through the
  whole fold, as launched: so do the eighteen argument arrays.
-/
import proofs.«128986_j27779848471455_1_alg».proof.Proof.K.Reg0
import proofs.«128986_j27779848471455_1_alg».proof.Proof.K.Reg1
import proofs.«128986_j27779848471455_1_alg».proof.Proof.K.Reg2
import proofs.«128986_j27779848471455_1_alg».proof.Proof.K.Reg3
import proofs.«128986_j27779848471455_1_alg».proof.Proof.K.Reg4
import proofs.«128986_j27779848471455_1_alg».proof.Proof.K.Reg5
import proofs.«128986_j27779848471455_1_alg».proof.Proof.K.Reg6
import proofs.«128986_j27779848471455_1_alg».proof.Proof.K.Reg7
import proofs.«128986_j27779848471455_1_alg».proof.Proof.K.Reg8
import proofs.«128986_j27779848471455_1_alg».proof.Proof.K.Reg9
import proofs.«128986_j27779848471455_1_alg».proof.Proof.K.Reg10
import proofs.«128986_j27779848471455_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch before region 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the stretch before region 0 does not write keeps its contents through it. -/
theorem Wodd_of_0 (c : Dev nD) (b : Ref sig .tc) (h : b ∉ hostOps0_W) :
    W1 m ρ c (Proc.devRef .tc b) = W0 m ρ c (Proc.devRef .tc b) :=
  StableHlo.after_of_writes_sub hostOps0 _ hostOps0_writes h
/-- A buffer that is no output array of region 0 keeps its contents through it: an input window's array is
    left as entered, and any other buffer is not the region's. -/
theorem Weven_of_0 (c : Dev nD) (b : Ref sig .tc) (h : b ∉ ([main_v4_0, main_v4_1, main_v4_2] : List (Ref sig .tc))) :
    W2 m ρ c (Proc.devRef .tc b) = W1 m ρ c (Proc.devRef .tc b) := by
  by_cases hb : ∃ w, Pipeline.arrRef spec0 w = b
  · obtain ⟨w, rfl⟩ := hb
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact (W2_arr m ρ c 3).trans (((dat0 (V1 m ρ) c).arrAt_in 3 rfl _).trans (A_eq0 (V1 m ρ) c 3))
    | ⟨4, _⟩ => exact (W2_arr m ρ c 4).trans (((dat0 (V1 m ρ) c).arrAt_in 4 rfl _).trans (A_eq0 (V1 m ρ) c 4))
    | ⟨5, _⟩ => exact (W2_arr m ρ c 5).trans (((dat0 (V1 m ρ) c).arrAt_in 5 rfl _).trans (A_eq0 (V1 m ρ) c 5))
    | ⟨6, _⟩ => exact (W2_arr m ρ c 6).trans (((dat0 (V1 m ρ) c).arrAt_in 6 rfl _).trans (A_eq0 (V1 m ρ) c 6))
    | ⟨7, _⟩ => exact (h (show main_v4_0 ∈ ([main_v4_0, main_v4_1, main_v4_2] : List (Ref sig .tc)) from by decide)).elim
    | ⟨8, _⟩ => exact (h (show main_v4_1 ∈ ([main_v4_0, main_v4_1, main_v4_2] : List (Ref sig .tc)) from by decide)).elim
    | ⟨9, _⟩ => exact (h (show main_v4_2 ∈ ([main_v4_0, main_v4_1, main_v4_2] : List (Ref sig .tc)) from by decide)).elim
  · exact W2_of_ne m ρ c b (fun w e => hb ⟨w, e⟩)
/-- After the host stretch before region 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the stretch before region 1 does not write keeps its contents through it. -/
theorem Wodd_of_1 (c : Dev nD) (b : Ref sig .tc) (h : b ∉ hostOps1_W) :
    W3 m ρ c (Proc.devRef .tc b) = W2 m ρ c (Proc.devRef .tc b) :=
  StableHlo.after_of_writes_sub hostOps1 _ hostOps1_writes h
/-- A buffer that is no output array of region 1 keeps its contents through it: an input window's array is
    left as entered, and any other buffer is not the region's. -/
theorem Weven_of_1 (c : Dev nD) (b : Ref sig .tc) (h : b ∉ ([main_v20] : List (Ref sig .tc))) :
    W4 m ρ c (Proc.devRef .tc b) = W3 m ρ c (Proc.devRef .tc b) := by
  by_cases hb : ∃ w, Pipeline.arrRef spec1 w = b
  · obtain ⟨w, rfl⟩ := hb
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact (h (show main_v20 ∈ ([main_v20] : List (Ref sig .tc)) from by decide)).elim
  · exact W4_of_ne m ρ c b (fun w e => hb ⟨w, e⟩)
/-- After the host stretch before region 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the stretch before region 2 does not write keeps its contents through it. -/
theorem Wodd_of_2 (c : Dev nD) (b : Ref sig .tc) (h : b ∉ hostOps2_W) :
    W5 m ρ c (Proc.devRef .tc b) = W4 m ρ c (Proc.devRef .tc b) :=
  StableHlo.after_of_writes_sub hostOps2 _ hostOps2_writes h
/-- A buffer that is no output array of region 2 keeps its contents through it: an input window's array is
    left as entered, and any other buffer is not the region's. -/
theorem Weven_of_2 (c : Dev nD) (b : Ref sig .tc) (h : b ∉ ([main_v38] : List (Ref sig .tc))) :
    W6 m ρ c (Proc.devRef .tc b) = W5 m ρ c (Proc.devRef .tc b) := by
  by_cases hb : ∃ w, Pipeline.arrRef spec2 w = b
  · obtain ⟨w, rfl⟩ := hb
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (h (show main_v38 ∈ ([main_v38] : List (Ref sig .tc)) from by decide)).elim
  · exact W6_of_ne m ρ c b (fun w e => hb ⟨w, e⟩)
/-- After the host stretch before region 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the stretch before region 3 does not write keeps its contents through it. -/
theorem Wodd_of_3 (c : Dev nD) (b : Ref sig .tc) (h : b ∉ hostOps3_W) :
    W7 m ρ c (Proc.devRef .tc b) = W6 m ρ c (Proc.devRef .tc b) :=
  StableHlo.after_of_writes_sub hostOps3 _ hostOps3_writes h
/-- A buffer that is no output array of region 3 keeps its contents through it: an input window's array is
    left as entered, and any other buffer is not the region's. -/
theorem Weven_of_3 (c : Dev nD) (b : Ref sig .tc) (h : b ∉ ([main_v42] : List (Ref sig .tc))) :
    W8 m ρ c (Proc.devRef .tc b) = W7 m ρ c (Proc.devRef .tc b) := by
  by_cases hb : ∃ w, Pipeline.arrRef spec3 w = b
  · obtain ⟨w, rfl⟩ := hb
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (h (show main_v42 ∈ ([main_v42] : List (Ref sig .tc)) from by decide)).elim
  · exact W8_of_ne m ρ c b (fun w e => hb ⟨w, e⟩)
/-- After the host stretch before region 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer the stretch before region 4 does not write keeps its contents through it. -/
theorem Wodd_of_4 (c : Dev nD) (b : Ref sig .tc) (h : b ∉ hostOps4_W) :
    W9 m ρ c (Proc.devRef .tc b) = W8 m ρ c (Proc.devRef .tc b) :=
  StableHlo.after_of_writes_sub hostOps4 _ hostOps4_writes h
/-- A buffer that is no output array of region 4 keeps its contents through it: an input window's array is
    left as entered, and any other buffer is not the region's. -/
theorem Weven_of_4 (c : Dev nD) (b : Ref sig .tc) (h : b ∉ ([main_v55] : List (Ref sig .tc))) :
    W10 m ρ c (Proc.devRef .tc b) = W9 m ρ c (Proc.devRef .tc b) := by
  by_cases hb : ∃ w, Pipeline.arrRef spec4 w = b
  · obtain ⟨w, rfl⟩ := hb
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (h (show main_v55 ∈ ([main_v55] : List (Ref sig .tc)) from by decide)).elim
  · exact W10_of_ne m ρ c b (fun w e => hb ⟨w, e⟩)
/-- After the host stretch before region 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer the stretch before region 5 does not write keeps its contents through it. -/
theorem Wodd_of_5 (c : Dev nD) (b : Ref sig .tc) (h : b ∉ hostOps5_W) :
    W11 m ρ c (Proc.devRef .tc b) = W10 m ρ c (Proc.devRef .tc b) :=
  StableHlo.after_of_writes_sub hostOps5 _ hostOps5_writes h
/-- A buffer that is no output array of region 5 keeps its contents through it: an input window's array is
    left as entered, and any other buffer is not the region's. -/
theorem Weven_of_5 (c : Dev nD) (b : Ref sig .tc) (h : b ∉ ([main_v59] : List (Ref sig .tc))) :
    W12 m ρ c (Proc.devRef .tc b) = W11 m ρ c (Proc.devRef .tc b) := by
  by_cases hb : ∃ w, Pipeline.arrRef spec5 w = b
  · obtain ⟨w, rfl⟩ := hb
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact (h (show main_v59 ∈ ([main_v59] : List (Ref sig .tc)) from by decide)).elim
  · exact W12_of_ne m ρ c b (fun w e => hb ⟨w, e⟩)
/-- After the host stretch before region 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer the stretch before region 6 does not write keeps its contents through it. -/
theorem Wodd_of_6 (c : Dev nD) (b : Ref sig .tc) (h : b ∉ hostOps6_W) :
    W13 m ρ c (Proc.devRef .tc b) = W12 m ρ c (Proc.devRef .tc b) :=
  StableHlo.after_of_writes_sub hostOps6 _ hostOps6_writes h
/-- A buffer that is no output array of region 6 keeps its contents through it: an input window's array is
    left as entered, and any other buffer is not the region's. -/
theorem Weven_of_6 (c : Dev nD) (b : Ref sig .tc) (h : b ∉ ([main_v72] : List (Ref sig .tc))) :
    W14 m ρ c (Proc.devRef .tc b) = W13 m ρ c (Proc.devRef .tc b) := by
  by_cases hb : ∃ w, Pipeline.arrRef spec6 w = b
  · obtain ⟨w, rfl⟩ := hb
    match w with
    | ⟨0, _⟩ => exact (W14_arr m ρ c 0).trans (((dat6 (V13 m ρ) c).arrAt_in 0 rfl _).trans (A_eq6 (V13 m ρ) c 0))
    | ⟨1, _⟩ => exact (W14_arr m ρ c 1).trans (((dat6 (V13 m ρ) c).arrAt_in 1 rfl _).trans (A_eq6 (V13 m ρ) c 1))
    | ⟨2, _⟩ => exact (W14_arr m ρ c 2).trans (((dat6 (V13 m ρ) c).arrAt_in 2 rfl _).trans (A_eq6 (V13 m ρ) c 2))
    | ⟨3, _⟩ => exact (h (show main_v72 ∈ ([main_v72] : List (Ref sig .tc)) from by decide)).elim
  · exact W14_of_ne m ρ c b (fun w e => hb ⟨w, e⟩)
/-- After the host stretch before region 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer the stretch before region 7 does not write keeps its contents through it. -/
theorem Wodd_of_7 (c : Dev nD) (b : Ref sig .tc) (h : b ∉ hostOps7_W) :
    W15 m ρ c (Proc.devRef .tc b) = W14 m ρ c (Proc.devRef .tc b) :=
  StableHlo.after_of_writes_sub hostOps7 _ hostOps7_writes h
/-- A buffer that is no output array of region 7 keeps its contents through it: an input window's array is
    left as entered, and any other buffer is not the region's. -/
theorem Weven_of_7 (c : Dev nD) (b : Ref sig .tc) (h : b ∉ ([main_v76] : List (Ref sig .tc))) :
    W16 m ρ c (Proc.devRef .tc b) = W15 m ρ c (Proc.devRef .tc b) := by
  by_cases hb : ∃ w, Pipeline.arrRef spec7 w = b
  · obtain ⟨w, rfl⟩ := hb
    match w with
    | ⟨0, _⟩ => exact (W16_arr m ρ c 0).trans (((dat7 (V15 m ρ) c).arrAt_in 0 rfl _).trans (A_eq7 (V15 m ρ) c 0))
    | ⟨1, _⟩ => exact (W16_arr m ρ c 1).trans (((dat7 (V15 m ρ) c).arrAt_in 1 rfl _).trans (A_eq7 (V15 m ρ) c 1))
    | ⟨2, _⟩ => exact (W16_arr m ρ c 2).trans (((dat7 (V15 m ρ) c).arrAt_in 2 rfl _).trans (A_eq7 (V15 m ρ) c 2))
    | ⟨3, _⟩ => exact (h (show main_v76 ∈ ([main_v76] : List (Ref sig .tc)) from by decide)).elim
  · exact W16_of_ne m ρ c b (fun w e => hb ⟨w, e⟩)
/-- After the host stretch before region 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A buffer the stretch before region 8 does not write keeps its contents through it. -/
theorem Wodd_of_8 (c : Dev nD) (b : Ref sig .tc) (h : b ∉ hostOps8_W) :
    W17 m ρ c (Proc.devRef .tc b) = W16 m ρ c (Proc.devRef .tc b) :=
  StableHlo.after_of_writes_sub hostOps8 _ hostOps8_writes h
/-- A buffer that is no output array of region 8 keeps its contents through it: an input window's array is
    left as entered, and any other buffer is not the region's. -/
theorem Weven_of_8 (c : Dev nD) (b : Ref sig .tc) (h : b ∉ ([main_v89] : List (Ref sig .tc))) :
    W18 m ρ c (Proc.devRef .tc b) = W17 m ρ c (Proc.devRef .tc b) := by
  by_cases hb : ∃ w, Pipeline.arrRef spec8 w = b
  · obtain ⟨w, rfl⟩ := hb
    match w with
    | ⟨0, _⟩ => exact (W18_arr m ρ c 0).trans (((dat8 (V17 m ρ) c).arrAt_in 0 rfl _).trans (A_eq8 (V17 m ρ) c 0))
    | ⟨1, _⟩ => exact (W18_arr m ρ c 1).trans (((dat8 (V17 m ρ) c).arrAt_in 1 rfl _).trans (A_eq8 (V17 m ρ) c 1))
    | ⟨2, _⟩ => exact (W18_arr m ρ c 2).trans (((dat8 (V17 m ρ) c).arrAt_in 2 rfl _).trans (A_eq8 (V17 m ρ) c 2))
    | ⟨3, _⟩ => exact (h (show main_v89 ∈ ([main_v89] : List (Ref sig .tc)) from by decide)).elim
  · exact W18_of_ne m ρ c b (fun w e => hb ⟨w, e⟩)
/-- After the host stretch before region 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A buffer the stretch before region 9 does not write keeps its contents through it. -/
theorem Wodd_of_9 (c : Dev nD) (b : Ref sig .tc) (h : b ∉ hostOps9_W) :
    W19 m ρ c (Proc.devRef .tc b) = W18 m ρ c (Proc.devRef .tc b) :=
  StableHlo.after_of_writes_sub hostOps9 _ hostOps9_writes h
/-- A buffer that is no output array of region 9 keeps its contents through it: an input window's array is
    left as entered, and any other buffer is not the region's. -/
theorem Weven_of_9 (c : Dev nD) (b : Ref sig .tc) (h : b ∉ ([main_v93] : List (Ref sig .tc))) :
    W20 m ρ c (Proc.devRef .tc b) = W19 m ρ c (Proc.devRef .tc b) := by
  by_cases hb : ∃ w, Pipeline.arrRef spec9 w = b
  · obtain ⟨w, rfl⟩ := hb
    match w with
    | ⟨0, _⟩ => exact (W20_arr m ρ c 0).trans (((dat9 (V19 m ρ) c).arrAt_in 0 rfl _).trans (A_eq9 (V19 m ρ) c 0))
    | ⟨1, _⟩ => exact (W20_arr m ρ c 1).trans (((dat9 (V19 m ρ) c).arrAt_in 1 rfl _).trans (A_eq9 (V19 m ρ) c 1))
    | ⟨2, _⟩ => exact (W20_arr m ρ c 2).trans (((dat9 (V19 m ρ) c).arrAt_in 2 rfl _).trans (A_eq9 (V19 m ρ) c 2))
    | ⟨3, _⟩ => exact (h (show main_v93 ∈ ([main_v93] : List (Ref sig .tc)) from by decide)).elim
  · exact W20_of_ne m ρ c b (fun w e => hb ⟨w, e⟩)
/-- After the host stretch before region 10 (region 10's entry). -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- A buffer the stretch before region 10 does not write keeps its contents through it. -/
theorem Wodd_of_10 (c : Dev nD) (b : Ref sig .tc) (h : b ∉ hostOps10_W) :
    W21 m ρ c (Proc.devRef .tc b) = W20 m ρ c (Proc.devRef .tc b) :=
  StableHlo.after_of_writes_sub hostOps10 _ hostOps10_writes h
/-- A buffer that is no output array of region 10 keeps its contents through it: an input window's array is
    left as entered, and any other buffer is not the region's. -/
theorem Weven_of_10 (c : Dev nD) (b : Ref sig .tc) (h : b ∉ ([main_v100] : List (Ref sig .tc))) :
    W22 m ρ c (Proc.devRef .tc b) = W21 m ρ c (Proc.devRef .tc b) := by
  by_cases hb : ∃ w, Pipeline.arrRef spec10 w = b
  · obtain ⟨w, rfl⟩ := hb
    match w with
    | ⟨0, _⟩ => exact (W22_arr m ρ c 0).trans (((dat10 (V21 m ρ) c).arrAt_in 0 rfl _).trans (A_eq10 (V21 m ρ) c 0))
    | ⟨1, _⟩ => exact (W22_arr m ρ c 1).trans (((dat10 (V21 m ρ) c).arrAt_in 1 rfl _).trans (A_eq10 (V21 m ρ) c 1))
    | ⟨2, _⟩ => exact (W22_arr m ρ c 2).trans (((dat10 (V21 m ρ) c).arrAt_in 2 rfl _).trans (A_eq10 (V21 m ρ) c 2))
    | ⟨3, _⟩ => exact (W22_arr m ρ c 3).trans (((dat10 (V21 m ρ) c).arrAt_in 3 rfl _).trans (A_eq10 (V21 m ρ) c 3))
    | ⟨4, _⟩ => exact (W22_arr m ρ c 4).trans (((dat10 (V21 m ρ) c).arrAt_in 4 rfl _).trans (A_eq10 (V21 m ρ) c 4))
    | ⟨5, _⟩ => exact (h (show main_v100 ∈ ([main_v100] : List (Ref sig .tc)) from by decide)).elim
  · exact W22_of_ne m ρ c b (fun w e => hb ⟨w, e⟩)

/-! ## The arguments end as launched -/
theorem W22_main_arg0 (c : Dev nD) : W22 m ρ c (Proc.devRef .tc main_arg0) = m ((c : Thread nD τ).loc main_arg0) :=
  (Weven_of_10 m ρ c main_arg0 (by decide)).trans <| (Wodd_of_10 m ρ c main_arg0 (by decide)).trans <| (Weven_of_9 m ρ c main_arg0 (by decide)).trans <| (Wodd_of_9 m ρ c main_arg0 (by decide)).trans <| (Weven_of_8 m ρ c main_arg0 (by decide)).trans <| (Wodd_of_8 m ρ c main_arg0 (by decide)).trans <| (Weven_of_7 m ρ c main_arg0 (by decide)).trans <| (Wodd_of_7 m ρ c main_arg0 (by decide)).trans <| (Weven_of_6 m ρ c main_arg0 (by decide)).trans <| (Wodd_of_6 m ρ c main_arg0 (by decide)).trans <| (Weven_of_5 m ρ c main_arg0 (by decide)).trans <| (Wodd_of_5 m ρ c main_arg0 (by decide)).trans <| (Weven_of_4 m ρ c main_arg0 (by decide)).trans <| (Wodd_of_4 m ρ c main_arg0 (by decide)).trans <| (Weven_of_3 m ρ c main_arg0 (by decide)).trans <| (Wodd_of_3 m ρ c main_arg0 (by decide)).trans <| (Weven_of_2 m ρ c main_arg0 (by decide)).trans <| (Wodd_of_2 m ρ c main_arg0 (by decide)).trans <| (Weven_of_1 m ρ c main_arg0 (by decide)).trans <| (Wodd_of_1 m ρ c main_arg0 (by decide)).trans <| (Weven_of_0 m ρ c main_arg0 (by decide)).trans <| (Wodd_of_0 m ρ c main_arg0 (by decide)).trans <| rfl
theorem W22_main_arg1 (c : Dev nD) : W22 m ρ c (Proc.devRef .tc main_arg1) = m ((c : Thread nD τ).loc main_arg1) :=
  (Weven_of_10 m ρ c main_arg1 (by decide)).trans <| (Wodd_of_10 m ρ c main_arg1 (by decide)).trans <| (Weven_of_9 m ρ c main_arg1 (by decide)).trans <| (Wodd_of_9 m ρ c main_arg1 (by decide)).trans <| (Weven_of_8 m ρ c main_arg1 (by decide)).trans <| (Wodd_of_8 m ρ c main_arg1 (by decide)).trans <| (Weven_of_7 m ρ c main_arg1 (by decide)).trans <| (Wodd_of_7 m ρ c main_arg1 (by decide)).trans <| (Weven_of_6 m ρ c main_arg1 (by decide)).trans <| (Wodd_of_6 m ρ c main_arg1 (by decide)).trans <| (Weven_of_5 m ρ c main_arg1 (by decide)).trans <| (Wodd_of_5 m ρ c main_arg1 (by decide)).trans <| (Weven_of_4 m ρ c main_arg1 (by decide)).trans <| (Wodd_of_4 m ρ c main_arg1 (by decide)).trans <| (Weven_of_3 m ρ c main_arg1 (by decide)).trans <| (Wodd_of_3 m ρ c main_arg1 (by decide)).trans <| (Weven_of_2 m ρ c main_arg1 (by decide)).trans <| (Wodd_of_2 m ρ c main_arg1 (by decide)).trans <| (Weven_of_1 m ρ c main_arg1 (by decide)).trans <| (Wodd_of_1 m ρ c main_arg1 (by decide)).trans <| (Weven_of_0 m ρ c main_arg1 (by decide)).trans <| (Wodd_of_0 m ρ c main_arg1 (by decide)).trans <| rfl
theorem W22_main_arg2 (c : Dev nD) : W22 m ρ c (Proc.devRef .tc main_arg2) = m ((c : Thread nD τ).loc main_arg2) :=
  (Weven_of_10 m ρ c main_arg2 (by decide)).trans <| (Wodd_of_10 m ρ c main_arg2 (by decide)).trans <| (Weven_of_9 m ρ c main_arg2 (by decide)).trans <| (Wodd_of_9 m ρ c main_arg2 (by decide)).trans <| (Weven_of_8 m ρ c main_arg2 (by decide)).trans <| (Wodd_of_8 m ρ c main_arg2 (by decide)).trans <| (Weven_of_7 m ρ c main_arg2 (by decide)).trans <| (Wodd_of_7 m ρ c main_arg2 (by decide)).trans <| (Weven_of_6 m ρ c main_arg2 (by decide)).trans <| (Wodd_of_6 m ρ c main_arg2 (by decide)).trans <| (Weven_of_5 m ρ c main_arg2 (by decide)).trans <| (Wodd_of_5 m ρ c main_arg2 (by decide)).trans <| (Weven_of_4 m ρ c main_arg2 (by decide)).trans <| (Wodd_of_4 m ρ c main_arg2 (by decide)).trans <| (Weven_of_3 m ρ c main_arg2 (by decide)).trans <| (Wodd_of_3 m ρ c main_arg2 (by decide)).trans <| (Weven_of_2 m ρ c main_arg2 (by decide)).trans <| (Wodd_of_2 m ρ c main_arg2 (by decide)).trans <| (Weven_of_1 m ρ c main_arg2 (by decide)).trans <| (Wodd_of_1 m ρ c main_arg2 (by decide)).trans <| (Weven_of_0 m ρ c main_arg2 (by decide)).trans <| (Wodd_of_0 m ρ c main_arg2 (by decide)).trans <| rfl
theorem W22_main_arg3 (c : Dev nD) : W22 m ρ c (Proc.devRef .tc main_arg3) = m ((c : Thread nD τ).loc main_arg3) :=
  (Weven_of_10 m ρ c main_arg3 (by decide)).trans <| (Wodd_of_10 m ρ c main_arg3 (by decide)).trans <| (Weven_of_9 m ρ c main_arg3 (by decide)).trans <| (Wodd_of_9 m ρ c main_arg3 (by decide)).trans <| (Weven_of_8 m ρ c main_arg3 (by decide)).trans <| (Wodd_of_8 m ρ c main_arg3 (by decide)).trans <| (Weven_of_7 m ρ c main_arg3 (by decide)).trans <| (Wodd_of_7 m ρ c main_arg3 (by decide)).trans <| (Weven_of_6 m ρ c main_arg3 (by decide)).trans <| (Wodd_of_6 m ρ c main_arg3 (by decide)).trans <| (Weven_of_5 m ρ c main_arg3 (by decide)).trans <| (Wodd_of_5 m ρ c main_arg3 (by decide)).trans <| (Weven_of_4 m ρ c main_arg3 (by decide)).trans <| (Wodd_of_4 m ρ c main_arg3 (by decide)).trans <| (Weven_of_3 m ρ c main_arg3 (by decide)).trans <| (Wodd_of_3 m ρ c main_arg3 (by decide)).trans <| (Weven_of_2 m ρ c main_arg3 (by decide)).trans <| (Wodd_of_2 m ρ c main_arg3 (by decide)).trans <| (Weven_of_1 m ρ c main_arg3 (by decide)).trans <| (Wodd_of_1 m ρ c main_arg3 (by decide)).trans <| (Weven_of_0 m ρ c main_arg3 (by decide)).trans <| (Wodd_of_0 m ρ c main_arg3 (by decide)).trans <| rfl
theorem W22_main_arg4 (c : Dev nD) : W22 m ρ c (Proc.devRef .tc main_arg4) = m ((c : Thread nD τ).loc main_arg4) :=
  (Weven_of_10 m ρ c main_arg4 (by decide)).trans <| (Wodd_of_10 m ρ c main_arg4 (by decide)).trans <| (Weven_of_9 m ρ c main_arg4 (by decide)).trans <| (Wodd_of_9 m ρ c main_arg4 (by decide)).trans <| (Weven_of_8 m ρ c main_arg4 (by decide)).trans <| (Wodd_of_8 m ρ c main_arg4 (by decide)).trans <| (Weven_of_7 m ρ c main_arg4 (by decide)).trans <| (Wodd_of_7 m ρ c main_arg4 (by decide)).trans <| (Weven_of_6 m ρ c main_arg4 (by decide)).trans <| (Wodd_of_6 m ρ c main_arg4 (by decide)).trans <| (Weven_of_5 m ρ c main_arg4 (by decide)).trans <| (Wodd_of_5 m ρ c main_arg4 (by decide)).trans <| (Weven_of_4 m ρ c main_arg4 (by decide)).trans <| (Wodd_of_4 m ρ c main_arg4 (by decide)).trans <| (Weven_of_3 m ρ c main_arg4 (by decide)).trans <| (Wodd_of_3 m ρ c main_arg4 (by decide)).trans <| (Weven_of_2 m ρ c main_arg4 (by decide)).trans <| (Wodd_of_2 m ρ c main_arg4 (by decide)).trans <| (Weven_of_1 m ρ c main_arg4 (by decide)).trans <| (Wodd_of_1 m ρ c main_arg4 (by decide)).trans <| (Weven_of_0 m ρ c main_arg4 (by decide)).trans <| (Wodd_of_0 m ρ c main_arg4 (by decide)).trans <| rfl
theorem W22_main_arg5 (c : Dev nD) : W22 m ρ c (Proc.devRef .tc main_arg5) = m ((c : Thread nD τ).loc main_arg5) :=
  (Weven_of_10 m ρ c main_arg5 (by decide)).trans <| (Wodd_of_10 m ρ c main_arg5 (by decide)).trans <| (Weven_of_9 m ρ c main_arg5 (by decide)).trans <| (Wodd_of_9 m ρ c main_arg5 (by decide)).trans <| (Weven_of_8 m ρ c main_arg5 (by decide)).trans <| (Wodd_of_8 m ρ c main_arg5 (by decide)).trans <| (Weven_of_7 m ρ c main_arg5 (by decide)).trans <| (Wodd_of_7 m ρ c main_arg5 (by decide)).trans <| (Weven_of_6 m ρ c main_arg5 (by decide)).trans <| (Wodd_of_6 m ρ c main_arg5 (by decide)).trans <| (Weven_of_5 m ρ c main_arg5 (by decide)).trans <| (Wodd_of_5 m ρ c main_arg5 (by decide)).trans <| (Weven_of_4 m ρ c main_arg5 (by decide)).trans <| (Wodd_of_4 m ρ c main_arg5 (by decide)).trans <| (Weven_of_3 m ρ c main_arg5 (by decide)).trans <| (Wodd_of_3 m ρ c main_arg5 (by decide)).trans <| (Weven_of_2 m ρ c main_arg5 (by decide)).trans <| (Wodd_of_2 m ρ c main_arg5 (by decide)).trans <| (Weven_of_1 m ρ c main_arg5 (by decide)).trans <| (Wodd_of_1 m ρ c main_arg5 (by decide)).trans <| (Weven_of_0 m ρ c main_arg5 (by decide)).trans <| (Wodd_of_0 m ρ c main_arg5 (by decide)).trans <| rfl
theorem W22_main_arg6 (c : Dev nD) : W22 m ρ c (Proc.devRef .tc main_arg6) = m ((c : Thread nD τ).loc main_arg6) :=
  (Weven_of_10 m ρ c main_arg6 (by decide)).trans <| (Wodd_of_10 m ρ c main_arg6 (by decide)).trans <| (Weven_of_9 m ρ c main_arg6 (by decide)).trans <| (Wodd_of_9 m ρ c main_arg6 (by decide)).trans <| (Weven_of_8 m ρ c main_arg6 (by decide)).trans <| (Wodd_of_8 m ρ c main_arg6 (by decide)).trans <| (Weven_of_7 m ρ c main_arg6 (by decide)).trans <| (Wodd_of_7 m ρ c main_arg6 (by decide)).trans <| (Weven_of_6 m ρ c main_arg6 (by decide)).trans <| (Wodd_of_6 m ρ c main_arg6 (by decide)).trans <| (Weven_of_5 m ρ c main_arg6 (by decide)).trans <| (Wodd_of_5 m ρ c main_arg6 (by decide)).trans <| (Weven_of_4 m ρ c main_arg6 (by decide)).trans <| (Wodd_of_4 m ρ c main_arg6 (by decide)).trans <| (Weven_of_3 m ρ c main_arg6 (by decide)).trans <| (Wodd_of_3 m ρ c main_arg6 (by decide)).trans <| (Weven_of_2 m ρ c main_arg6 (by decide)).trans <| (Wodd_of_2 m ρ c main_arg6 (by decide)).trans <| (Weven_of_1 m ρ c main_arg6 (by decide)).trans <| (Wodd_of_1 m ρ c main_arg6 (by decide)).trans <| (Weven_of_0 m ρ c main_arg6 (by decide)).trans <| (Wodd_of_0 m ρ c main_arg6 (by decide)).trans <| rfl
theorem W22_main_arg7 (c : Dev nD) : W22 m ρ c (Proc.devRef .tc main_arg7) = m ((c : Thread nD τ).loc main_arg7) :=
  (Weven_of_10 m ρ c main_arg7 (by decide)).trans <| (Wodd_of_10 m ρ c main_arg7 (by decide)).trans <| (Weven_of_9 m ρ c main_arg7 (by decide)).trans <| (Wodd_of_9 m ρ c main_arg7 (by decide)).trans <| (Weven_of_8 m ρ c main_arg7 (by decide)).trans <| (Wodd_of_8 m ρ c main_arg7 (by decide)).trans <| (Weven_of_7 m ρ c main_arg7 (by decide)).trans <| (Wodd_of_7 m ρ c main_arg7 (by decide)).trans <| (Weven_of_6 m ρ c main_arg7 (by decide)).trans <| (Wodd_of_6 m ρ c main_arg7 (by decide)).trans <| (Weven_of_5 m ρ c main_arg7 (by decide)).trans <| (Wodd_of_5 m ρ c main_arg7 (by decide)).trans <| (Weven_of_4 m ρ c main_arg7 (by decide)).trans <| (Wodd_of_4 m ρ c main_arg7 (by decide)).trans <| (Weven_of_3 m ρ c main_arg7 (by decide)).trans <| (Wodd_of_3 m ρ c main_arg7 (by decide)).trans <| (Weven_of_2 m ρ c main_arg7 (by decide)).trans <| (Wodd_of_2 m ρ c main_arg7 (by decide)).trans <| (Weven_of_1 m ρ c main_arg7 (by decide)).trans <| (Wodd_of_1 m ρ c main_arg7 (by decide)).trans <| (Weven_of_0 m ρ c main_arg7 (by decide)).trans <| (Wodd_of_0 m ρ c main_arg7 (by decide)).trans <| rfl
theorem W22_main_arg8 (c : Dev nD) : W22 m ρ c (Proc.devRef .tc main_arg8) = m ((c : Thread nD τ).loc main_arg8) :=
  (Weven_of_10 m ρ c main_arg8 (by decide)).trans <| (Wodd_of_10 m ρ c main_arg8 (by decide)).trans <| (Weven_of_9 m ρ c main_arg8 (by decide)).trans <| (Wodd_of_9 m ρ c main_arg8 (by decide)).trans <| (Weven_of_8 m ρ c main_arg8 (by decide)).trans <| (Wodd_of_8 m ρ c main_arg8 (by decide)).trans <| (Weven_of_7 m ρ c main_arg8 (by decide)).trans <| (Wodd_of_7 m ρ c main_arg8 (by decide)).trans <| (Weven_of_6 m ρ c main_arg8 (by decide)).trans <| (Wodd_of_6 m ρ c main_arg8 (by decide)).trans <| (Weven_of_5 m ρ c main_arg8 (by decide)).trans <| (Wodd_of_5 m ρ c main_arg8 (by decide)).trans <| (Weven_of_4 m ρ c main_arg8 (by decide)).trans <| (Wodd_of_4 m ρ c main_arg8 (by decide)).trans <| (Weven_of_3 m ρ c main_arg8 (by decide)).trans <| (Wodd_of_3 m ρ c main_arg8 (by decide)).trans <| (Weven_of_2 m ρ c main_arg8 (by decide)).trans <| (Wodd_of_2 m ρ c main_arg8 (by decide)).trans <| (Weven_of_1 m ρ c main_arg8 (by decide)).trans <| (Wodd_of_1 m ρ c main_arg8 (by decide)).trans <| (Weven_of_0 m ρ c main_arg8 (by decide)).trans <| (Wodd_of_0 m ρ c main_arg8 (by decide)).trans <| rfl
theorem W22_main_arg9 (c : Dev nD) : W22 m ρ c (Proc.devRef .tc main_arg9) = m ((c : Thread nD τ).loc main_arg9) :=
  (Weven_of_10 m ρ c main_arg9 (by decide)).trans <| (Wodd_of_10 m ρ c main_arg9 (by decide)).trans <| (Weven_of_9 m ρ c main_arg9 (by decide)).trans <| (Wodd_of_9 m ρ c main_arg9 (by decide)).trans <| (Weven_of_8 m ρ c main_arg9 (by decide)).trans <| (Wodd_of_8 m ρ c main_arg9 (by decide)).trans <| (Weven_of_7 m ρ c main_arg9 (by decide)).trans <| (Wodd_of_7 m ρ c main_arg9 (by decide)).trans <| (Weven_of_6 m ρ c main_arg9 (by decide)).trans <| (Wodd_of_6 m ρ c main_arg9 (by decide)).trans <| (Weven_of_5 m ρ c main_arg9 (by decide)).trans <| (Wodd_of_5 m ρ c main_arg9 (by decide)).trans <| (Weven_of_4 m ρ c main_arg9 (by decide)).trans <| (Wodd_of_4 m ρ c main_arg9 (by decide)).trans <| (Weven_of_3 m ρ c main_arg9 (by decide)).trans <| (Wodd_of_3 m ρ c main_arg9 (by decide)).trans <| (Weven_of_2 m ρ c main_arg9 (by decide)).trans <| (Wodd_of_2 m ρ c main_arg9 (by decide)).trans <| (Weven_of_1 m ρ c main_arg9 (by decide)).trans <| (Wodd_of_1 m ρ c main_arg9 (by decide)).trans <| (Weven_of_0 m ρ c main_arg9 (by decide)).trans <| (Wodd_of_0 m ρ c main_arg9 (by decide)).trans <| rfl
theorem W22_main_arg10 (c : Dev nD) : W22 m ρ c (Proc.devRef .tc main_arg10) = m ((c : Thread nD τ).loc main_arg10) :=
  (Weven_of_10 m ρ c main_arg10 (by decide)).trans <| (Wodd_of_10 m ρ c main_arg10 (by decide)).trans <| (Weven_of_9 m ρ c main_arg10 (by decide)).trans <| (Wodd_of_9 m ρ c main_arg10 (by decide)).trans <| (Weven_of_8 m ρ c main_arg10 (by decide)).trans <| (Wodd_of_8 m ρ c main_arg10 (by decide)).trans <| (Weven_of_7 m ρ c main_arg10 (by decide)).trans <| (Wodd_of_7 m ρ c main_arg10 (by decide)).trans <| (Weven_of_6 m ρ c main_arg10 (by decide)).trans <| (Wodd_of_6 m ρ c main_arg10 (by decide)).trans <| (Weven_of_5 m ρ c main_arg10 (by decide)).trans <| (Wodd_of_5 m ρ c main_arg10 (by decide)).trans <| (Weven_of_4 m ρ c main_arg10 (by decide)).trans <| (Wodd_of_4 m ρ c main_arg10 (by decide)).trans <| (Weven_of_3 m ρ c main_arg10 (by decide)).trans <| (Wodd_of_3 m ρ c main_arg10 (by decide)).trans <| (Weven_of_2 m ρ c main_arg10 (by decide)).trans <| (Wodd_of_2 m ρ c main_arg10 (by decide)).trans <| (Weven_of_1 m ρ c main_arg10 (by decide)).trans <| (Wodd_of_1 m ρ c main_arg10 (by decide)).trans <| (Weven_of_0 m ρ c main_arg10 (by decide)).trans <| (Wodd_of_0 m ρ c main_arg10 (by decide)).trans <| rfl
theorem W22_main_arg11 (c : Dev nD) : W22 m ρ c (Proc.devRef .tc main_arg11) = m ((c : Thread nD τ).loc main_arg11) :=
  (Weven_of_10 m ρ c main_arg11 (by decide)).trans <| (Wodd_of_10 m ρ c main_arg11 (by decide)).trans <| (Weven_of_9 m ρ c main_arg11 (by decide)).trans <| (Wodd_of_9 m ρ c main_arg11 (by decide)).trans <| (Weven_of_8 m ρ c main_arg11 (by decide)).trans <| (Wodd_of_8 m ρ c main_arg11 (by decide)).trans <| (Weven_of_7 m ρ c main_arg11 (by decide)).trans <| (Wodd_of_7 m ρ c main_arg11 (by decide)).trans <| (Weven_of_6 m ρ c main_arg11 (by decide)).trans <| (Wodd_of_6 m ρ c main_arg11 (by decide)).trans <| (Weven_of_5 m ρ c main_arg11 (by decide)).trans <| (Wodd_of_5 m ρ c main_arg11 (by decide)).trans <| (Weven_of_4 m ρ c main_arg11 (by decide)).trans <| (Wodd_of_4 m ρ c main_arg11 (by decide)).trans <| (Weven_of_3 m ρ c main_arg11 (by decide)).trans <| (Wodd_of_3 m ρ c main_arg11 (by decide)).trans <| (Weven_of_2 m ρ c main_arg11 (by decide)).trans <| (Wodd_of_2 m ρ c main_arg11 (by decide)).trans <| (Weven_of_1 m ρ c main_arg11 (by decide)).trans <| (Wodd_of_1 m ρ c main_arg11 (by decide)).trans <| (Weven_of_0 m ρ c main_arg11 (by decide)).trans <| (Wodd_of_0 m ρ c main_arg11 (by decide)).trans <| rfl
theorem W22_main_arg12 (c : Dev nD) : W22 m ρ c (Proc.devRef .tc main_arg12) = m ((c : Thread nD τ).loc main_arg12) :=
  (Weven_of_10 m ρ c main_arg12 (by decide)).trans <| (Wodd_of_10 m ρ c main_arg12 (by decide)).trans <| (Weven_of_9 m ρ c main_arg12 (by decide)).trans <| (Wodd_of_9 m ρ c main_arg12 (by decide)).trans <| (Weven_of_8 m ρ c main_arg12 (by decide)).trans <| (Wodd_of_8 m ρ c main_arg12 (by decide)).trans <| (Weven_of_7 m ρ c main_arg12 (by decide)).trans <| (Wodd_of_7 m ρ c main_arg12 (by decide)).trans <| (Weven_of_6 m ρ c main_arg12 (by decide)).trans <| (Wodd_of_6 m ρ c main_arg12 (by decide)).trans <| (Weven_of_5 m ρ c main_arg12 (by decide)).trans <| (Wodd_of_5 m ρ c main_arg12 (by decide)).trans <| (Weven_of_4 m ρ c main_arg12 (by decide)).trans <| (Wodd_of_4 m ρ c main_arg12 (by decide)).trans <| (Weven_of_3 m ρ c main_arg12 (by decide)).trans <| (Wodd_of_3 m ρ c main_arg12 (by decide)).trans <| (Weven_of_2 m ρ c main_arg12 (by decide)).trans <| (Wodd_of_2 m ρ c main_arg12 (by decide)).trans <| (Weven_of_1 m ρ c main_arg12 (by decide)).trans <| (Wodd_of_1 m ρ c main_arg12 (by decide)).trans <| (Weven_of_0 m ρ c main_arg12 (by decide)).trans <| (Wodd_of_0 m ρ c main_arg12 (by decide)).trans <| rfl
theorem W22_main_arg13 (c : Dev nD) : W22 m ρ c (Proc.devRef .tc main_arg13) = m ((c : Thread nD τ).loc main_arg13) :=
  (Weven_of_10 m ρ c main_arg13 (by decide)).trans <| (Wodd_of_10 m ρ c main_arg13 (by decide)).trans <| (Weven_of_9 m ρ c main_arg13 (by decide)).trans <| (Wodd_of_9 m ρ c main_arg13 (by decide)).trans <| (Weven_of_8 m ρ c main_arg13 (by decide)).trans <| (Wodd_of_8 m ρ c main_arg13 (by decide)).trans <| (Weven_of_7 m ρ c main_arg13 (by decide)).trans <| (Wodd_of_7 m ρ c main_arg13 (by decide)).trans <| (Weven_of_6 m ρ c main_arg13 (by decide)).trans <| (Wodd_of_6 m ρ c main_arg13 (by decide)).trans <| (Weven_of_5 m ρ c main_arg13 (by decide)).trans <| (Wodd_of_5 m ρ c main_arg13 (by decide)).trans <| (Weven_of_4 m ρ c main_arg13 (by decide)).trans <| (Wodd_of_4 m ρ c main_arg13 (by decide)).trans <| (Weven_of_3 m ρ c main_arg13 (by decide)).trans <| (Wodd_of_3 m ρ c main_arg13 (by decide)).trans <| (Weven_of_2 m ρ c main_arg13 (by decide)).trans <| (Wodd_of_2 m ρ c main_arg13 (by decide)).trans <| (Weven_of_1 m ρ c main_arg13 (by decide)).trans <| (Wodd_of_1 m ρ c main_arg13 (by decide)).trans <| (Weven_of_0 m ρ c main_arg13 (by decide)).trans <| (Wodd_of_0 m ρ c main_arg13 (by decide)).trans <| rfl
theorem W22_main_arg14 (c : Dev nD) : W22 m ρ c (Proc.devRef .tc main_arg14) = m ((c : Thread nD τ).loc main_arg14) :=
  (Weven_of_10 m ρ c main_arg14 (by decide)).trans <| (Wodd_of_10 m ρ c main_arg14 (by decide)).trans <| (Weven_of_9 m ρ c main_arg14 (by decide)).trans <| (Wodd_of_9 m ρ c main_arg14 (by decide)).trans <| (Weven_of_8 m ρ c main_arg14 (by decide)).trans <| (Wodd_of_8 m ρ c main_arg14 (by decide)).trans <| (Weven_of_7 m ρ c main_arg14 (by decide)).trans <| (Wodd_of_7 m ρ c main_arg14 (by decide)).trans <| (Weven_of_6 m ρ c main_arg14 (by decide)).trans <| (Wodd_of_6 m ρ c main_arg14 (by decide)).trans <| (Weven_of_5 m ρ c main_arg14 (by decide)).trans <| (Wodd_of_5 m ρ c main_arg14 (by decide)).trans <| (Weven_of_4 m ρ c main_arg14 (by decide)).trans <| (Wodd_of_4 m ρ c main_arg14 (by decide)).trans <| (Weven_of_3 m ρ c main_arg14 (by decide)).trans <| (Wodd_of_3 m ρ c main_arg14 (by decide)).trans <| (Weven_of_2 m ρ c main_arg14 (by decide)).trans <| (Wodd_of_2 m ρ c main_arg14 (by decide)).trans <| (Weven_of_1 m ρ c main_arg14 (by decide)).trans <| (Wodd_of_1 m ρ c main_arg14 (by decide)).trans <| (Weven_of_0 m ρ c main_arg14 (by decide)).trans <| (Wodd_of_0 m ρ c main_arg14 (by decide)).trans <| rfl
theorem W22_main_arg15 (c : Dev nD) : W22 m ρ c (Proc.devRef .tc main_arg15) = m ((c : Thread nD τ).loc main_arg15) :=
  (Weven_of_10 m ρ c main_arg15 (by decide)).trans <| (Wodd_of_10 m ρ c main_arg15 (by decide)).trans <| (Weven_of_9 m ρ c main_arg15 (by decide)).trans <| (Wodd_of_9 m ρ c main_arg15 (by decide)).trans <| (Weven_of_8 m ρ c main_arg15 (by decide)).trans <| (Wodd_of_8 m ρ c main_arg15 (by decide)).trans <| (Weven_of_7 m ρ c main_arg15 (by decide)).trans <| (Wodd_of_7 m ρ c main_arg15 (by decide)).trans <| (Weven_of_6 m ρ c main_arg15 (by decide)).trans <| (Wodd_of_6 m ρ c main_arg15 (by decide)).trans <| (Weven_of_5 m ρ c main_arg15 (by decide)).trans <| (Wodd_of_5 m ρ c main_arg15 (by decide)).trans <| (Weven_of_4 m ρ c main_arg15 (by decide)).trans <| (Wodd_of_4 m ρ c main_arg15 (by decide)).trans <| (Weven_of_3 m ρ c main_arg15 (by decide)).trans <| (Wodd_of_3 m ρ c main_arg15 (by decide)).trans <| (Weven_of_2 m ρ c main_arg15 (by decide)).trans <| (Wodd_of_2 m ρ c main_arg15 (by decide)).trans <| (Weven_of_1 m ρ c main_arg15 (by decide)).trans <| (Wodd_of_1 m ρ c main_arg15 (by decide)).trans <| (Weven_of_0 m ρ c main_arg15 (by decide)).trans <| (Wodd_of_0 m ρ c main_arg15 (by decide)).trans <| rfl
theorem W22_main_arg16 (c : Dev nD) : W22 m ρ c (Proc.devRef .tc main_arg16) = m ((c : Thread nD τ).loc main_arg16) :=
  (Weven_of_10 m ρ c main_arg16 (by decide)).trans <| (Wodd_of_10 m ρ c main_arg16 (by decide)).trans <| (Weven_of_9 m ρ c main_arg16 (by decide)).trans <| (Wodd_of_9 m ρ c main_arg16 (by decide)).trans <| (Weven_of_8 m ρ c main_arg16 (by decide)).trans <| (Wodd_of_8 m ρ c main_arg16 (by decide)).trans <| (Weven_of_7 m ρ c main_arg16 (by decide)).trans <| (Wodd_of_7 m ρ c main_arg16 (by decide)).trans <| (Weven_of_6 m ρ c main_arg16 (by decide)).trans <| (Wodd_of_6 m ρ c main_arg16 (by decide)).trans <| (Weven_of_5 m ρ c main_arg16 (by decide)).trans <| (Wodd_of_5 m ρ c main_arg16 (by decide)).trans <| (Weven_of_4 m ρ c main_arg16 (by decide)).trans <| (Wodd_of_4 m ρ c main_arg16 (by decide)).trans <| (Weven_of_3 m ρ c main_arg16 (by decide)).trans <| (Wodd_of_3 m ρ c main_arg16 (by decide)).trans <| (Weven_of_2 m ρ c main_arg16 (by decide)).trans <| (Wodd_of_2 m ρ c main_arg16 (by decide)).trans <| (Weven_of_1 m ρ c main_arg16 (by decide)).trans <| (Wodd_of_1 m ρ c main_arg16 (by decide)).trans <| (Weven_of_0 m ρ c main_arg16 (by decide)).trans <| (Wodd_of_0 m ρ c main_arg16 (by decide)).trans <| rfl
theorem W22_main_arg17 (c : Dev nD) : W22 m ρ c (Proc.devRef .tc main_arg17) = m ((c : Thread nD τ).loc main_arg17) :=
  (Weven_of_10 m ρ c main_arg17 (by decide)).trans <| (Wodd_of_10 m ρ c main_arg17 (by decide)).trans <| (Weven_of_9 m ρ c main_arg17 (by decide)).trans <| (Wodd_of_9 m ρ c main_arg17 (by decide)).trans <| (Weven_of_8 m ρ c main_arg17 (by decide)).trans <| (Wodd_of_8 m ρ c main_arg17 (by decide)).trans <| (Weven_of_7 m ρ c main_arg17 (by decide)).trans <| (Wodd_of_7 m ρ c main_arg17 (by decide)).trans <| (Weven_of_6 m ρ c main_arg17 (by decide)).trans <| (Wodd_of_6 m ρ c main_arg17 (by decide)).trans <| (Weven_of_5 m ρ c main_arg17 (by decide)).trans <| (Wodd_of_5 m ρ c main_arg17 (by decide)).trans <| (Weven_of_4 m ρ c main_arg17 (by decide)).trans <| (Wodd_of_4 m ρ c main_arg17 (by decide)).trans <| (Weven_of_3 m ρ c main_arg17 (by decide)).trans <| (Wodd_of_3 m ρ c main_arg17 (by decide)).trans <| (Weven_of_2 m ρ c main_arg17 (by decide)).trans <| (Wodd_of_2 m ρ c main_arg17 (by decide)).trans <| (Weven_of_1 m ρ c main_arg17 (by decide)).trans <| (Wodd_of_1 m ρ c main_arg17 (by decide)).trans <| (Weven_of_0 m ρ c main_arg17 (by decide)).trans <| (Wodd_of_0 m ρ c main_arg17 (by decide)).trans <| rfl

end Cert.Kernel.Hand

end
-- ==== Proof.K.Run.lean ====
/-
  @main as a list of segments: eleven kernel regions among stretches of host operations. The TensorCore's buffer
  contents at every boundary are a fold from the launch memory — after a host stretch the stretch's operations
  applied, after a region its windows' arrays at what the pipeline's write-backs leave and every other buffer as
  entered —; each region is entered from "every unscoped buffer at the boundary's contents" and left at the next
  boundary's. The run ends with every unscoped buffer at the last boundary's contents, from which the argument arrays
  read back as launched (no stretch and no region writes one) and the result buffer reads as the last region's array.
-/
import proofs.«128986_j27779848471455_1_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W22 m ρ c) ∗ ∃ r, prngReg c r)

/-! ## The regions as segments -/

/-- Region 0's invariant in the launch's form gives back the generator register and the scoped buffers no window stages. -/
theorem PhiA_out0 (c : Dev nD) : (Pipeline.ΦA spec0 c : sProp 𝕄)
    ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `W1`, left at `W2`. Its arrays are split out
    of the unscoped buffers and put back at the exit contents; the generator register goes into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V1 m ρ) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and out. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the invariant and out. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the invariant and out. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split out
    of the unscoped buffers and put back at the exit contents; the generator register goes into the invariant and out. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split out
    of the unscoped buffers and put back at the exit contents; the generator register goes into the invariant and out. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. Its arrays are split out
    of the unscoped buffers and put back at the exit contents; the generator register goes into the invariant and out. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W19`, left at `W20`. Its arrays are split out
    of the unscoped buffers and put back at the exit contents; the generator register goes into the invariant and out. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W21`, left at `W22`. Its arrays are split out
    of the unscoped buffers and put back at the exit contents; the generator register goes into the invariant and out. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h => h)

/-- The frame claim's post and the result's value from the run: each argument's buffer read back through the fold to
    the launch memory, the result buffer read as the last region's output array after its write-backs. -/
theorem run_value : θ_run defs (onTc (τ := τ) (main (F := F))) ⟨m, fun _ => 0, ρ⟩ (fun r => ∀ c : Dev nD,
      r.2.mem ((c.tc : Thread nD τ).loc main_v100) = (dat10 (V21 m ρ) c).arrAt 5 cfg10.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun s h c =>
    ⟨(h c _ (mem_uc main_v100 (by decide))).trans (W22_arr m ρ c 5),
     (h c _ (mem_uc main_arg0 (by decide))).trans (W22_main_arg0 m ρ c),
     (h c _ (mem_uc main_arg1 (by decide))).trans (W22_main_arg1 m ρ c),
     (h c _ (mem_uc main_arg2 (by decide))).trans (W22_main_arg2 m ρ c),
     (h c _ (mem_uc main_arg3 (by decide))).trans (W22_main_arg3 m ρ c),
     (h c _ (mem_uc main_arg4 (by decide))).trans (W22_main_arg4 m ρ c),
     (h c _ (mem_uc main_arg5 (by decide))).trans (W22_main_arg5 m ρ c),
     (h c _ (mem_uc main_arg6 (by decide))).trans (W22_main_arg6 m ρ c),
     (h c _ (mem_uc main_arg7 (by decide))).trans (W22_main_arg7 m ρ c),
     (h c _ (mem_uc main_arg8 (by decide))).trans (W22_main_arg8 m ρ c),
     (h c _ (mem_uc main_arg9 (by decide))).trans (W22_main_arg9 m ρ c),
     (h c _ (mem_uc main_arg10 (by decide))).trans (W22_main_arg10 m ρ c),
     (h c _ (mem_uc main_arg11 (by decide))).trans (W22_main_arg11 m ρ c),
     (h c _ (mem_uc main_arg12 (by decide))).trans (W22_main_arg12 m ρ c),
     (h c _ (mem_uc main_arg13 (by decide))).trans (W22_main_arg13 m ρ c),
     (h c _ (mem_uc main_arg14 (by decide))).trans (W22_main_arg14 m ρ c),
     (h c _ (mem_uc main_arg15 (by decide))).trans (W22_main_arg15 m ρ c),
     (h c _ (mem_uc main_arg16 (by decide))).trans (W22_main_arg16 m ρ c),
     (h c _ (mem_uc main_arg17 (by decide))).trans (W22_main_arg17 m ρ c)⟩) (run m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun s h c => (h c).2) (run_value m ρ)

end Cert.Kernel.Hand

end
-- ==== Proof.KI.Reg0Runs.lean ====
/-
  Region 0 of @main, the two-layer head with its column statistics: ten row blocks of the node features go through
  Linear, PReLU, Linear, PReLU; each point stores its block of the result and adds the block's column sums and column
  sums of squares into two [1,64] accumulators kept in scratch between points (zeroed at the first point); the last
  point copies the two accumulators out. This module holds what the three control cases of the body share: the
  windows' blocks as the region finds them, the two branch conditions in closed form over the grid, where the two
  statistics windows are idle, and the scratch operands as memrefs.
-/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Ring
import Idealize.ShloMosaic.Lib.Tactic

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions -/

/-- "This is the first point": the accumulators are zeroed under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 10 = 0 :=
  (by decide +kernel : ∀ t : Fin grid0.N, cond0_0 (grid0.coords t) ↔ t.val % 10 = 0)

/-- "This is the last point": the accumulators are copied out under it. -/
abbrev cond0_1 (i : grid0.Coords) : Prop := k0_cond2 i = 1#1
theorem hcond0_1 : ∀ t : Fin cfg0.N, cond0_1 (grid0.coords t) ↔ t.val % 10 = 9 :=
  (by decide +kernel : ∀ t : Fin grid0.N, cond0_1 (grid0.coords t) ↔ t.val % 10 = 9)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- Output 8 is stored only at the last point: elsewhere the window is idle and is not written back. -/
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8_C : ∀ t : Fin cfg0.N, cond0_1 (grid0.coords t) → cfg0.idle 8 (grid0.coords t) = false := by decide +kernel
/-- Output 9 is stored only at the last point: elsewhere the window is idle and is not written back. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
theorem liveAt0_9_C : ∀ t : Fin cfg0.N, cond0_1 (grid0.coords t) → cfg0.idle 9 (grid0.coords t) = false := by decide +kernel

/-! ## The staging and scratch memrefs -/

abbrev VO0_7 : View sig .tc .vmem S10000x64 .f32 := (Memref.whole cc0_stg7_0 : Memref sig .tc .vmem S10000x64 .f32).view
abbrev VO0_8 : View sig .tc .vmem S1x64 .f32 := (Memref.whole cc0_stg8_0 : Memref sig .tc .vmem S1x64 .f32).view
abbrev VO0_9 : View sig .tc .vmem S1x64 .f32 := (Memref.whole cc0_stg9_0 : Memref sig .tc .vmem S1x64 .f32).view
abbrev ms0_0 (t : Fin cfg0.N) : Memref sig .tc .vmem S10000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S10000x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
/-- The two accumulators: whole scoped buffers of the kernel's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view

/-- The region's invariant with the two accumulators split out as memrefs owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.Reg0RunA.lean ====
/-
  Region 0 of @main (the two-layer head with its column statistics): the body's run in one of its three control cases.
-/
import proofs.«128986_j27779848471455_1_alg».proof.Proof.KI.Reg0Runs

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The whole body at the first point (the accumulators are zeroed, then added into; the statistics windows are left alone): on whole staging memrefs, the seven inputs at their contents, the block output at anything,
    the body runs to the continuation holding the inputs as they were and each buffer it stored into with its stores
    written, as lists of pieces (last first) that the symbolic run finds and that are this definition's witness. -/
noncomputable def kernelRun0_A (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (hc0 : cond0_0 i) (hc1 : ¬cond0_1 i)
    (x0 : Vec F S10000x64 .f32) (x1 : Vec F S64x64 .f32) (x2 : Vec F S1x64 .f32) (x3 : Vec F S1x64 .f32) (x4 : Vec F S64x64 .f32) (x5 : Vec F S1x64 .f32) (x6 : Vec F S1x64 .f32) :
    Σ' (L7 : List (View.Piece (Elt F) S10000x64 .f32)), Σ' (L8 : List (View.Piece (Elt F) S1x64 .f32)), Σ' (L9 : List (View.Piece (Elt F) S1x64 .f32)), Σ' (LS0 : List (View.Piece (Elt F) S1x64 .f32)), { LS1 : List (View.Piece (Elt F) S1x64 .f32) //
      ∀ (xi8 : Vec F S1x64 .f32) (xi9 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ owns (c : Thread nD τ) arg9 fullShare xi8
            ∗ owns (c : Thread nD τ) arg10 fullShare xi9
            ∗ (∃ d, owns (c : Thread nD τ) arg11 fullShare d)
            ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xi8
                ∗ owns (c : Thread nD τ) arg10 fullShare xi9
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)) -∗ K ⟨⟩))
          ⊢ wp frame (wpE (defs₀ (F := F)) Variants.none c none) E (cc0__prenn_kernel i arg1 harg1 arg2 harg2 arg3 harg3 arg4 harg4 arg5 harg5 arg6 harg6 arg7 harg7 arg8 harg8 arg9 harg9 arg10 harg10 arg11 harg11 arg12 harg12) K } := by
  refine ⟨?_, [], [], ?_, ?_, fun xi8 xi9 E K => ?run⟩
  case run =>
    simp only [cc0__prenn_kernel_eq_skeleton]; unfold cc0__prenn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexists _; iexact HS0
    iexists _; iexact HS1

end Cert.KernelIdeal.Hand

end
-- ==== Proof.KI.Reg0RunB.lean ====
/-
  Region 0 of @main (the two-layer head with its column statistics): the body's run in one of its three control cases.
-/
import proofs.«128986_j27779848471455_1_alg».proof.Proof.KI.Reg0RunA

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The whole body at a middle point (the accumulators are added into; the statistics windows are left alone): on whole staging memrefs, the seven inputs at their contents, the block output at anything,
    the body runs to the continuation holding the inputs as they were and each buffer it stored into with its stores
    written, as lists of pieces (last first) that the symbolic run finds and that are this definition's witness. -/
noncomputable def kernelRun0_B (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (hc0 : ¬cond0_0 i) (hc1 : ¬cond0_1 i)
    (x0 : Vec F S10000x64 .f32) (x1 : Vec F S64x64 .f32) (x2 : Vec F S1x64 .f32) (x3 : Vec F S1x64 .f32) (x4 : Vec F S64x64 .f32) (x5 : Vec F S1x64 .f32) (x6 : Vec F S1x64 .f32) (xs0 : Vec F S1x64 .f32) (xs1 : Vec F S1x64 .f32) :
    Σ' (L7 : List (View.Piece (Elt F) S10000x64 .f32)), Σ' (L8 : List (View.Piece (Elt F) S1x64 .f32)), Σ' (L9 : List (View.Piece (Elt F) S1x64 .f32)), Σ' (LS0 : List (View.Piece (Elt F) S1x64 .f32)), { LS1 : List (View.Piece (Elt F) S1x64 .f32) //
      ∀ (xi8 : Vec F S1x64 .f32) (xi9 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ owns (c : Thread nD τ) arg9 fullShare xi8
            ∗ owns (c : Thread nD τ) arg10 fullShare xi9
            ∗ owns (c : Thread nD τ) arg11 fullShare xs0
            ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ owns (c : Thread nD τ) arg9 fullShare xi8
                ∗ owns (c : Thread nD τ) arg10 fullShare xi9
                ∗ (arg11.view.loc (c : Thread nD τ) ↦[arg11.view.set]{fullShare} arg11.view.writes (Elt F) (harg11.unread xs0) LS0)
                ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__prenn_kernel i arg1 harg1 arg2 harg2 arg3 harg3 arg4 harg4 arg5 harg5 arg6 harg6 arg7 harg7 arg8 harg8 arg9 harg9 arg10 harg10 arg11 harg11 arg12 harg12) K } := by
  refine ⟨?_, [], [], ?_, ?_, fun xi8 xi9 E K => ?run⟩
  case run =>
    simp only [cc0__prenn_kernel_eq_skeleton]; unfold cc0__prenn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]; · iexact HS0
    iexact HS1

end Cert.KernelIdeal.Hand

end
-- ==== Proof.KI.Reg0RunC.lean ====
/-
  Region 0 of @main (the two-layer head with its column statistics): the body's run in one of its three control cases.
-/
import proofs.«128986_j27779848471455_1_alg».proof.Proof.KI.Reg0RunB

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- The whole body at the last point (the accumulators are added into and then copied out to the statistics windows): on whole staging memrefs, the seven inputs at their contents, the block output at anything,
    the body runs to the continuation holding the inputs as they were and each buffer it stored into with its stores
    written, as lists of pieces (last first) that the symbolic run finds and that are this definition's witness. -/
noncomputable def kernelRun0_C (c : Dev nD) (i : grid0.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S10000x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (hc0 : ¬cond0_0 i) (hc1 : cond0_1 i)
    (x0 : Vec F S10000x64 .f32) (x1 : Vec F S64x64 .f32) (x2 : Vec F S1x64 .f32) (x3 : Vec F S1x64 .f32) (x4 : Vec F S64x64 .f32) (x5 : Vec F S1x64 .f32) (x6 : Vec F S1x64 .f32) (xs0 : Vec F S1x64 .f32) (xs1 : Vec F S1x64 .f32) :
    Σ' (L7 : List (View.Piece (Elt F) S10000x64 .f32)), Σ' (L8 : List (View.Piece (Elt F) S1x64 .f32)), Σ' (L9 : List (View.Piece (Elt F) S1x64 .f32)), Σ' (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d)
            ∗ (∃ d, owns (c : Thread nD τ) arg9 fullShare d)
            ∗ (∃ d, owns (c : Thread nD τ) arg10 fullShare d)
            ∗ owns (c : Thread nD τ) arg11 fullShare xs0
            ∗ owns (c : Thread nD τ) arg12 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (arg11.view.loc (c : Thread nD τ) ↦[arg11.view.set]{fullShare} arg11.view.writes (Elt F) (harg11.unread xs0) LS0)
                ∗ (arg12.view.loc (c : Thread nD τ) ↦[arg12.view.set]{fullShare} arg12.view.writes (Elt F) (harg12.unread xs1) LS1)) -∗ K ⟨⟩))
          ⊢ wp frame (wpE (defs₀ (F := F)) Variants.none c none) E (cc0__prenn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0__prenn_kernel_eq_skeleton]; unfold cc0__prenn_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hfs0; obtain rfl := harg12.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexact HS0
    iexact HS1

end Cert.KernelIdeal.Hand

end
-- ==== Proof.KI.Reg0.lean ====
/-
  Region 0 of @main, the two-layer head with its column statistics, as proof data for the pipeline: what each of the
  three control cases leaves in the three output windows' staging buffers and in the two accumulators (the stores the
  run found, read back), these contents point by point along the grid (the accumulators after point t are the
  block sums of point t added to what point t-1 left, starting from zero at point 0), the region's invariant carrying
  the accumulators at those contents, and the body obligation at every point.
-/
import proofs.«128986_j27779848471455_1_alg».proof.Proof.KI.Reg0RunC

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Case A -/

/-- The body's run in case A at point `t`: at the point's staging memrefs, the two scratch operands and the input blocks. -/
abbrev runA (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t)

/-- Case A's one store into the block output tiles it, so it covers it. -/
theorem cover0_A_7 (c : Dev nD) (t : Fin cfg0.N) (hc0 : cond0_0 (grid0.coords t)) (hc1 : ¬cond0_1 (grid0.coords t)) (y : S10000x64.Idx) : ∃ pc ∈ (runA V c t hc0 hc1).1, y ∈ pc.1.set :=
  View.cover_of_tiledL (runA V c t hc0 hc1).1 S10000x64.size (by sl_kernel_rfl) y
/-- What case A leaves in the block output's staging buffer: its pieces read back. -/
def out0_A_7 (c : Dev nD) (t : Fin cfg0.N) (hc0 : cond0_0 (grid0.coords t)) (hc1 : ¬cond0_1 (grid0.coords t)) : Vec F S10000x64 .f32 :=
  VO0_7.read (Elt F) (VO0_7.writes (Elt F) VO0_7.junk (runA V c t hc0 hc1).1)
/-- Case A stores nothing into statistics window 8 (idle there, not written back): a placeholder nothing consults. -/
def out0_A_8 (c : Dev nD) (t : Fin cfg0.N) (hc0 : cond0_0 (grid0.coords t)) (hc1 : ¬cond0_1 (grid0.coords t)) : Vec F S1x64 .f32 :=
  VO0_8.read (Elt F) (VO0_8.writes (Elt F) VO0_8.junk (runA V c t hc0 hc1).2.1)
/-- Case A stores nothing into statistics window 9 (idle there, not written back): a placeholder nothing consults. -/
def out0_A_9 (c : Dev nD) (t : Fin cfg0.N) (hc0 : cond0_0 (grid0.coords t)) (hc1 : ¬cond0_1 (grid0.coords t)) : Vec F S1x64 .f32 :=
  VO0_9.read (Elt F) (VO0_9.writes (Elt F) VO0_9.junk (runA V c t hc0 hc1).2.2.1)
theorem scover0_A_0 (c : Dev nD) (t : Fin cfg0.N) (hc0 : cond0_0 (grid0.coords t)) (hc1 : ¬cond0_1 (grid0.coords t)) (y : S1x64.Idx) : ∃ pc ∈ (runA V c t hc0 hc1).2.2.2.1, y ∈ pc.1.set :=
  View.cover_of_tiledL (runA V c t hc0 hc1).2.2.2.1 S1x64.size (by sl_kernel_rfl) y
/-- What case A leaves in accumulator 0: its pieces read back. -/
def sout0_A_0 (c : Dev nD) (t : Fin cfg0.N) (hc0 : cond0_0 (grid0.coords t)) (hc1 : ¬cond0_1 (grid0.coords t)) : Vec F S1x64 .f32 :=
  VS0_0.read (Elt F) (VS0_0.writes (Elt F) VS0_0.junk (runA V c t hc0 hc1).2.2.2.1)
theorem scover0_A_1 (c : Dev nD) (t : Fin cfg0.N) (hc0 : cond0_0 (grid0.coords t)) (hc1 : ¬cond0_1 (grid0.coords t)) (y : S1x64.Idx) : ∃ pc ∈ (runA V c t hc0 hc1).2.2.2.2.1, y ∈ pc.1.set :=
  View.cover_of_tiledL (runA V c t hc0 hc1).2.2.2.2.1 S1x64.size (by sl_kernel_rfl) y
/-- What case A leaves in accumulator 1: its pieces read back. -/
def sout0_A_1 (c : Dev nD) (t : Fin cfg0.N) (hc0 : cond0_0 (grid0.coords t)) (hc1 : ¬cond0_1 (grid0.coords t)) : Vec F S1x64 .f32 :=
  VS0_1.read (Elt F) (VS0_1.writes (Elt F) VS0_1.junk (runA V c t hc0 hc1).2.2.2.2.1)
/-- Case A's five contents: the three output windows' staging buffers, then the two accumulators. -/
def tuple0_A (c : Dev nD) (t : Fin cfg0.N) (hc0 : cond0_0 (grid0.coords t)) (hc1 : ¬cond0_1 (grid0.coords t)) : Vec F S10000x64 .f32 × Vec F S1x64 .f32 × Vec F S1x64 .f32 × Vec F S1x64 .f32 × Vec F S1x64 .f32 :=
  (out0_A_7 V c t hc0 hc1, out0_A_8 V c t hc0 hc1, out0_A_9 V c t hc0 hc1, sout0_A_0 V c t hc0 hc1, sout0_A_1 V c t hc0 hc1)

/-! ## Case B -/

/-- The body's run in case B at point `t`: at the point's staging memrefs, the two scratch operands and the input blocks. -/
abbrev runB (c : Dev nD) (t : Fin cfg0.N) (hc0 : ¬cond0_0 (grid0.coords t)) (hc1 : ¬cond0_1 (grid0.coords t)) (xs0 : Vec F S1x64 .f32) (xs1 : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1

/-- Case B's one store into the block output tiles it, so it covers it. -/
theorem cover0_B_7 (c : Dev nD) (t : Fin cfg0.N) (hc0 : ¬cond0_0 (grid0.coords t)) (hc1 : ¬cond0_1 (grid0.coords t)) (xs0 : Vec F S1x64 .f32) (xs1 : Vec F S1x64 .f32) (y : S10000x64.Idx) : ∃ pc ∈ (runB V c t hc0 hc1 xs0 xs1).1, y ∈ pc.1.set :=
  View.cover_of_tiledL (runB V c t hc0 hc1 xs0 xs1).1 S10000x64.size (by sl_kernel_rfl) y
/-- What case B leaves in the block output's staging buffer: its pieces read back. -/
def out0_B_7 (c : Dev nD) (t : Fin cfg0.N) (hc0 : ¬cond0_0 (grid0.coords t)) (hc1 : ¬cond0_1 (grid0.coords t)) (xs0 : Vec F S1x64 .f32) (xs1 : Vec F S1x64 .f32) : Vec F S10000x64 .f32 :=
  VO0_7.read (Elt F) (VO0_7.writes (Elt F) VO0_7.junk (runB V c t hc0 hc1 xs0 xs1).1)
/-- Case B stores nothing into statistics window 8 (idle there, not written back): a placeholder nothing consults. -/
def out0_B_8 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VO0_8.read (Elt F) (VO0_8.writes (Elt F) VO0_8.junk (runB V c t hc0 hc1 xs0 xs1).2.1)
/-- Case B stores nothing into statistics window 9 (idle there, not written back): a placeholder nothing consults. -/
def out0_B_9 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VO0_9.read (Elt F) (VO0_9.writes (Elt F) VO0_9.junk (runB V c t hc0 hc1 xs0 xs1).2.2.1)
theorem scover0_B_0 (c : Dev nD) (t : Fin cfg0.N) (hc0 : ¬cond0_0 (grid0.coords t)) (hc1 : ¬cond0_1 (grid0.coords t)) (xs0 : Vec F S1x64 .f32) (xs1 : Vec F S1x64 .f32) (y : S1x64.Idx) : ∃ pc ∈ (runB V c t hc0 hc1 xs0 xs1).2.2.2.1, y ∈ pc.1.set :=
  View.cover_of_tiledL (runB V c t hc0 hc1 xs0 xs1).2.2.2.1 S1x64.size (by sl_kernel_rfl) y
/-- What case B leaves in accumulator 0: its pieces read back. -/
def sout0_B_0 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VS0_0.read (Elt F) (VS0_0.writes (Elt F) VS0_0.junk (runB V c t hc0 hc1 xs0 xs1).2.2.2.1)
theorem scover0_B_1 (c : Dev nD) (t : Fin cfg0.N) (hc0 : ¬cond0_0 (grid0.coords t)) (hc1 : ¬cond0_1 (grid0.coords t)) (xs0 : Vec F S1x64 .f32) (xs1 : Vec F S1x64 .f32) (y : S1x64.Idx) : ∃ pc ∈ (runB V c t hc0 hc1 xs0 xs1).2.2.2.2.1, y ∈ pc.1.set :=
  View.cover_of_tiledL (runB V c t hc0 hc1 xs0 xs1).2.2.2.2.1 S1x64.size (by sl_kernel_rfl) y
/-- What case B leaves in accumulator 1: its pieces read back. -/
def sout0_B_1 (c : Dev nD) (t : Fin cfg0.N) (hc0 : ¬cond0_0 (grid0.coords t)) (hc1 : ¬cond0_1 (grid0.coords t)) (xs0 : Vec F S1x64 .f32) (xs1 : Vec F S1x64 .f32) : Vec F S1x64 .f32 :=
  VS0_1.read (Elt F) (VS0_1.writes (Elt F) VS0_1.junk (runB V c t hc0 hc1 xs0 xs1).2.2.2.2.1)
/-- Case B's five contents: the three output windows' staging buffers, then the two accumulators. -/
def tuple0_B (c : Dev nD) (t : Fin cfg0.N) (hc0 : ¬cond0_0 (grid0.coords t)) (hc1 : ¬cond0_1 (grid0.coords t)) (xs0 : Vec F S1x64 .f32) (xs1 : Vec F S1x64 .f32) : Vec F S10000x64 .f32 × Vec F S1x64 .f32 × Vec F S1x64 .f32 × Vec F S1x64 .f32 × Vec F S1x64 .f32 :=
  (out0_B_7 V c t hc0 hc1 xs0 xs1, out0_B_8 V c t hc0 hc1 xs0 xs1, out0_B_9 V c t hc0 hc1 xs0 xs1, sout0_B_0 V c t hc0 hc1 xs0 xs1, sout0_B_1 V c t hc0 hc1 xs0 xs1)

/-! ## Case C -/

/-- The body's run in case C at point `t`: at the point's staging memrefs, the two scratch operands and the input blocks. -/
abbrev runC (c : Dev nD) (t : Fin cfg0.N) (hc0 : ¬cond0_0 (grid0.coords t)) (hc1 : cond0_1 (grid0.coords t)) (xs0 : Vec F S1x64 .f32) (xs1 : Vec F S1x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) hc0 hc1 (iblk0 V c 0 t) (iblk0 V c 1 t) (iblk0 V c 2 t) (iblk0 V c 3 t) (iblk0 V c 4 t) (iblk0 V c 5 t) (iblk0 V c 6 t) xs0 xs1

/-- Case C's one store into the block output tiles it, so it covers it. -/
theorem cover0_C_7 (c : Dev nD) (t : Fin cfg0.N) (hc0 : ¬cond0_0 (grid0.coords t)) (hc1 : cond0_1 (grid0.coords t)) (xs0 : Vec F S1x64 .f32) (xs1 : Vec F S1x64 .f32) (y : S10000x64.Idx) : ∃ pc ∈ (runC V c t hc0 hc1 xs0 xs1).1, y ∈ pc.1.set :=
  View.cover_of_tiledL (runC V c t hc0 hc1 xs0 xs1).1 S10000x64.size (by sl_kernel_rfl) y
/-- What case C leaves in the block output's staging buffer: its pieces read back. -/
def out0_C_7 (c : Dev nD) (t : Fin cfg0.N) (hc0 : ¬cond0_0 (grid0.coords t)) (hc1 : cond0_1 (grid0.coords t)) (xs0 : Vec F S1x64 .f32) (xs1 : Vec F S1x64 .f32) : Vec F S10000x64 .f32 :=
  VO0_7.read (Elt F) (VO0_7.writes (Elt F) VO0_7.junk (runC V c t hc0 hc1 xs0 xs1).1)
theorem cover0_C_8 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.1, y ∈ pc.1.set :=
  View.cover_of_tiledL (runC V c t hc0 hc1 xs0 xs1).2.1 S1x64.size (by sl_kernel_rfl) y
/-- What case C leaves in statistics window 8's staging buffer: its pieces read back. -/
def out0_C_8 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VO0_8.read (Elt F) (VO0_8.writes (Elt F) VO0_8.junk (runC V c t hc0 hc1 xs0 xs1).2.1)
theorem cover0_C_9 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.2.1, y ∈ pc.1.set :=
  View.cover_of_tiledL (runC V c t hc0 hc1 xs0 xs1).2.2.1 S1x64.size (by sl_kernel_rfl) y
/-- What case C leaves in statistics window 9's staging buffer: its pieces read back. -/
def out0_C_9 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VO0_9.read (Elt F) (VO0_9.writes (Elt F) VO0_9.junk (runC V c t hc0 hc1 xs0 xs1).2.2.1)
theorem scover0_C_0 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.2.2.1, y ∈ pc.1.set :=
  View.cover_of_tiledL (runC V c t hc0 hc1 xs0 xs1).2.2.2.1 S1x64.size (by sl_kernel_rfl) y
/-- What case C leaves in accumulator 0: its pieces read back. -/
def sout0_C_0 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VS0_0.read (Elt F) (VS0_0.writes (Elt F) VS0_0.junk (runC V c t hc0 hc1 xs0 xs1).2.2.2.1)
theorem scover0_C_1 (c : Dev nD) (t : Fin cfg0.N) (hc0 : ¬cond0_0 (grid0.coords t)) (hc1 : cond0_1 (grid0.coords t)) (xs0 : Vec F S1x64 .f32) (xs1 : Vec F S1x64 .f32) (y : S1x64.Idx) : ∃ pc ∈ (runC V c t hc0 hc1 xs0 xs1).2.2.2.2.1, y ∈ pc.1.set :=
  View.cover_of_tiledL (runC V c t hc0 hc1 xs0 xs1).2.2.2.2.1 S1x64.size (by sl_kernel_rfl) y
/-- What case C leaves in accumulator 1: its pieces read back. -/
def sout0_C_1 (c : Dev nD) (t : Fin cfg0.N) (hc0 : ¬cond0_0 (grid0.coords t)) (hc1 : cond0_1 (grid0.coords t)) (xs0 : Vec F S1x64 .f32) (xs1 : Vec F S1x64 .f32) : Vec F S1x64 .f32 :=
  VS0_1.read (Elt F) (VS0_1.writes (Elt F) VS0_1.junk (runC V c t hc0 hc1 xs0 xs1).2.2.2.2.1)
/-- Case C's five contents: the three output windows' staging buffers, then the two accumulators. -/
def tuple0_C (c : Dev nD) (t : Fin cfg0.N) (hc0 : ¬cond0_0 (grid0.coords t)) (hc1 : cond0_1 (grid0.coords t)) (xs0 : Vec F S1x64 .f32) (xs1 : Vec F S1x64 .f32) : Vec F S10000x64 .f32 × Vec F S1x64 .f32 × Vec F S1x64 .f32 × Vec F S1x64 .f32 × Vec F S1x64 .f32 :=
  (out0_C_7 V c t hc0 hc1 xs0 xs1, out0_C_8 V c t hc0 hc1 xs0 xs1, out0_C_9 V c t hc0 hc1 xs0 xs1, sout0_C_0 V c t hc0 hc1 xs0 xs1, sout0_C_1 V c t hc0 hc1 xs0 xs1)

/-! ## What the outputs and the accumulators hold after each point -/

/-- The accumulation along the grid: the case the closed forms select at position `n`, run at the point's memrefs and
    input blocks, the accumulators taken at what position `n - 1` left. -/
def outsAt0 (c : Dev nD) : (n : ℕ) → n < cfg0.N → Vec F S10000x64 .f32 × Vec F S1x64 .f32 × Vec F S1x64 .f32 × Vec F S1x64 .f32 × Vec F S1x64 .f32
  | 0, hn => tuple0_A V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 10 = 0 then
      False.elim (by have hN : n + 1 < 10 := lt_of_lt_of_eq hn (show cfg0.N = 10 from N_0); omega)
    else
      if h1 : (n + 1) % 10 = 9 then
        tuple0_C V c ⟨n + 1, hn⟩ (fun h => h0 ((hcond0_0 ⟨n + 1, hn⟩).mp h)) ((hcond0_1 ⟨n + 1, hn⟩).mpr h1)
          (outsAt0 c n (Nat.lt_of_succ_lt hn)).2.2.2.1 (outsAt0 c n (Nat.lt_of_succ_lt hn)).2.2.2.2
      else
        tuple0_B V c ⟨n + 1, hn⟩ (fun h => h0 ((hcond0_0 ⟨n + 1, hn⟩).mp h)) (fun h => h1 ((hcond0_1 ⟨n + 1, hn⟩).mp h))
          (outsAt0 c n (Nat.lt_of_succ_lt hn)).2.2.2.1 (outsAt0 c n (Nat.lt_of_succ_lt hn)).2.2.2.2

theorem outsAt0_A (c : Dev nD) (t : Fin cfg0.N) (h0 : t.val % 10 = 0) (h1 : ¬t.val % 10 = 9) :
    outsAt0 V c t.val t.isLt = tuple0_A V c t ((hcond0_0 t).mpr h0) (fun h => h1 ((hcond0_1 t).mp h)) := by
  obtain ⟨n, hn⟩ := t
  cases n with
  | zero => exact rfl
  | succ n => exact (by exfalso; have hN : n + 1 < 10 := lt_of_lt_of_eq hn (show cfg0.N = 10 from N_0); (try dsimp only at h0); omega)

theorem outsAt0_B (c : Dev nD) (t : Fin cfg0.N) (h0 : ¬t.val % 10 = 0) (h1 : ¬t.val % 10 = 9) :
    outsAt0 V c t.val t.isLt = tuple0_B V c t (fun h => h0 ((hcond0_0 t).mp h)) (fun h => h1 ((hcond0_1 t).mp h))
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 10 = 0) (h1 : t.val % 10 = 9) :
    outsAt0 V c t.val t.isLt = tuple0_C V c t (fun h => h0 ((hcond0_0 t).mp h)) ((hcond0_1 t).mpr h1)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point every scratch at anything; afterwards the two
    accumulators at what the point before left, the other scoped buffers unopened, the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0_0 fullShare ((outsAt0 V c n hn).2.2.2.1) ∗ owns (c : Thread nD τ) scM0_1 fullShare ((outsAt0 V c n hn).2.2.2.2))
      ∗ Pipeline.scopedRestBut (Ix := Unit) (Name := ℕ) (U := UR sig nD τ) (Lvl := ℕ) (Val := Elt F) spec0 c [cc0_scratch0, cc0_scratch1]) ∗ (∃ r, prngReg c r)) := rfl

theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2))
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of pipeline 0 on core `c`: the arrays as the region finds them; after the body at point `t` each
    input's buffer at its block and the outputs' at the accumulation's contents; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t)

set_option maxHeartbeats 8000000 in
/-- The body at any point: the inputs' memrefs hold their blocks; the closed forms say which case the point is in; the
    invariant hands the body the accumulators at what the point before left (at anything at the first point) and takes
    them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  by_cases h0 : t.val % 10 = 0
  · have h1 : ¬t.val % 10 = 9 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [show (dat0 V c).leavesExact 5 t = owns (c : Thread nD τ) (ms0_5 t) fullShare ((dat0 V c).after 5 t) from by
      unfold Dat.leavesExact; rw [liveAt0_5 t], after0_5]
    rw [show (dat0 V c).leavesExact 6 t = owns (c : Thread nD τ) (ms0_6 t) fullShare ((dat0 V c).after 6 t) from by
      unfold Dat.leavesExact; rw [liveAt0_6 t], after0_6]
    rw [show (dat0 V c).leavesExact 7 t = owns (c : Thread nD τ) (ms0_7 t) fullShare ((dat0 V c).after 7 t) from by
      unfold Dat.leavesExact; rw [liveAt0_7 t], after0_7]
    rw [Dat.leavesExact_idle (dat0 V c) 8 t (idleAt0_8 t (fun h => h1 ((hcond0_1 t).mp h))) (noFlush0_8 t (fun h => h1 ((hcond0_1 t).mp h)))]
    rw [Dat.leavesExact_idle (dat0 V c) 9 t (idleAt0_9 t (fun h => h1 ((hcond0_1 t).mp h))) (noFlush0_9 t (fun h => h1 ((hcond0_1 t).mp h)))]
    rw [outsAt0_A V c t h0 h1]
    unfold tuple0_A out0_A_7 sout0_A_0 sout0_A_1; (try dsimp only)
    have hz : t.val = 0 := by omega
    rw [PhiS_castSucc V c t, PhiS_zero V c _ _ hz, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA V c t ((hcond0_0 t).mpr h0) (fun h => h1 ((hcond0_1 t).mp h))).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, ⟨%e7, H7⟩, H8, H9, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_of_cover _ _ _ _ _ (scover0_A_0 V c t _ _)
          · unfold owns; iexists _; isplitr
            swap; · iexact HS1
            ipureintro; exact View.read_writes_of_cover _ _ _ _ _ (scover0_A_1 V c t _ _)
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 V c t _ _)
    isplitl [H8]; · iexists _; iexact H8
    iexists _; iexact H9
  · by_cases h1 : t.val % 10 = 9
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [show (dat0 V c).leavesExact 8 t = owns (c : Thread nD τ) (ms0_8 t) fullShare ((dat0 V c).after 8 t) from by
        unfold Dat.leavesExact; rw [liveAt0_8_C t ((hcond0_1 t).mpr h1)], after0_8]
      rw [show (dat0 V c).leavesExact 9 t = owns (c : Thread nD τ) (ms0_9 t) fullShare ((dat0 V c).after 9 t) from by
        unfold Dat.leavesExact; rw [liveAt0_9_C t ((hcond0_1 t).mpr h1)], after0_9]
      rw [outsAt0_C V c t h0 h1]
      unfold tuple0_C out0_C_7 out0_C_8 out0_C_9 sout0_C_0 sout0_C_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC V c t (fun h => h0 ((hcond0_0 t).mp h)) ((hcond0_1 t).mpr h1) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, HS0, HS1⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_C_0 V c t _ _ _ _)
            · unfold owns; iexists _; isplitr
              swap; · iexact HS1
              ipureintro; exact View.read_writes_of_cover _ _ _ _ _ (scover0_C_1 V c t _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 V c t _ _ _ _)
      isplitl [H8]
      · unfold owns; iexists _; isplitr
        swap; · iexact H8
        ipureintro; exact View.read_writes_of_cover _ _ _ _ _ (cover0_C_8 V c t _ _ _ _)
      unfold owns; iexists _; isplitr
      swap; · iexact H9
      ipureintro; exact View.read_writes_of_cover _ _ _ _ _ (cover0_C_9 V c t _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7 t], after0_7]
      rw [Dat.leavesExact_idle (dat0 V c) 8 t (idleAt0_8 t (fun h => h1 ((hcond0_1 t).mp h))) (noFlush0_8 t (fun h => h1 ((hcond0_1 t).mp h)))]
      rw [Dat.leavesExact_idle (dat0 V c) 9 t (idleAt0_9 t (fun h => h1 ((hcond0_1 t).mp h))) (noFlush0_9 t (fun h => h1 ((hcond0_1 t).mp h)))]
      rw [outsAt0_B V c t h0 h1]
      unfold tuple0_B out0_B_7 sout0_B_0 sout0_B_1; (try dsimp only)
      have hz : t.val ≠ 0 := by omega
      rw [PhiS_castSucc V c t, PhiS_pos V c _ _ hz]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB V c t (fun h => h0 ((hcond0_0 t).mp h)) (fun h => h1 ((hcond0_1 t).mp h)) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [HS0]; · iexact HS0
      isplitl [HS1]; · iexact HS1
      iintro ⟨H0, H1, H2, H3, H4, H5, H6, ⟨%e7, H7⟩, H8, H9, HS0, HS1⟩
      isplitl [HS0 HS1 Hrest Hg]
      · isplitl [HS0 HS1 Hrest]
        · isplitl [HS0 HS1]
          · isplitl [HS0]
            · unfold owns; iexists _; isplitr
              swap; · iexact HS0
              ipureintro; exact View.read_writes_of_cover _ _ _ _ _ (scover0_B_0 V c t _ _ _ _)
            · unfold owns; iexists _; isplitr
              swap; · iexact HS1
              ipureintro; exact View.read_writes_of_cover _ _ _ _ _ (scover0_B_1 V c t _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 V c t _ _ _ _)
      isplitl [H8]; · iexists _; iexact H8
      iexists _; iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the accumulators' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end

end Cert.KernelIdeal.Hand

end
-- ==== Proof.KI.Reg1.lean ====
/- Region 1 of the program's @main, the pipelined call of `cc1__bn_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether it was fetched there or at an
    earlier point (then its block index has not moved since), for any proof data whose array is `V`'s (`hA`) and
    whose body leaves the block in place (`hafter`). The window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether it was fetched there or at an
    earlier point (then its block index has not moved since), for any proof data whose array is `V`'s (`hA`) and
    whose body leaves the block in place (`hafter`). The window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether it was fetched there or at an
    earlier point (then its block index has not moved since), for any proof data whose array is `V`'s (`hA`) and
    whose body leaves the block in place (`hafter`). The window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether it was fetched there or at an
    earlier point (then its block index has not moved since), for any proof data whose array is `V`'s (`hA`) and
    whose body leaves the block in place (`hafter`). The window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether it was fetched there or at an
    earlier point (then its block index has not moved since), for any proof data whose array is `V`'s (`hA`) and
    whose body leaves the block in place (`hafter`). The window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: one whole-block rectangle per window -/

abbrev r1_0 : Rect S10000x64 := Rect.unit (s := S10000x64) ![0, 0] S10000x64.size inb_S10000x64_S10000x64_0_0
abbrev r1_1 : Rect S1x64 := Rect.unit (s := S1x64) ![0, 0] S1x64.size inb_S1x64_S1x64_0_0
abbrev r1_2 : Rect S1x64 := Rect.unit (s := S1x64) ![0, 0] S1x64.size inb_S1x64_S1x64_0_0
abbrev r1_3 : Rect S1x64 := Rect.unit (s := S1x64) ![0, 0] S1x64.size inb_S1x64_S1x64_0_0
abbrev r1_4 : Rect S1x64 := Rect.unit (s := S1x64) ![0, 0] S1x64.size inb_S1x64_S1x64_0_0
abbrev r1_5 : Rect S10000x64 := Rect.unit (s := S10000x64) ![0, 0] S10000x64.size inb_S10000x64_S10000x64_0_0

/-! ## What the body leaves in the output window's buffer -/

/-- Window 5's staging buffer after the body, from the input windows' blocks: its one store as a piece over the
    skeleton's payload. -/
def out1_5 (x0 : Vec F S10000x64 .f32) (x1 : Vec F S1x64 .f32) (x2 : Vec F S1x64 .f32) (x3 : Vec F S1x64 .f32) (x4 : Vec F S1x64 .f32) : Vec F S10000x64 .f32 :=
  View.canon [⟨r1_5, k1_pay1 (View.ld x0 r1_0) (View.ld x1 r1_1) (View.ld x2 r1_2) (View.ld x3 r1_3) (View.ld x4 r1_4)⟩]

/-- The one store is the whole block, so it covers the buffer. -/
theorem cover1_5 (p0 : Vec F S10000x64 .f32) (y : S10000x64.Idx) :
    ∃ pc ∈ ([⟨r1_5, p0⟩] : List (View.Piece (Elt F) S10000x64 .f32)), y ∈ pc.1.set :=
  View.cover_of_tiled [⟨r1_5, p0⟩] S10000x64.size (by rfl) y

/-! ## The body's triple -/

set_option maxHeartbeats 4000000 in
/-- The kernel body on whole staging memrefs, the inputs' at read contents `xW` and the output's at anything, runs to
    the continuation holding the inputs' as they were and the output's at `out1_5` of the inputs'. The grid
    coordinate is not read. -/
theorem sound_kernel1 (c : Dev nD) (E : Set ℕ) (i : grid1.Coords) (arg0 : Memref sig .tc .vmem S10000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x64 .f32) (x1 : Vec F S1x64 .f32) (x2 : Vec F S1x64 .f32) (x3 : Vec F S1x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out1_5 x0 x1 x2 x3 x4)) -∗ K ⟨⟩))
      ⊢ wp frame (wpE (defs₀ (F := F)) Variants.none c none) E (cc1__bn_kernel i arg0 harg0 arg1 harg1 arg2 harg2 arg3 harg3 arg4 harg4 arg5 harg5) K := by
  simp only [cc1__bn_kernel_eq_skeleton]; unfold cc1__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant is the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/- Region 2 of the program's @main, the pipelined call of `cc2__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether it was fetched there or at an
    earlier point (then its block index has not moved since), for any proof data whose array is `V`'s (`hA`) and
    whose body leaves the block in place (`hafter`). The window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether it was fetched there or at an
    earlier point (then its block index has not moved since), for any proof data whose array is `V`'s (`hA`) and
    whose body leaves the block in place (`hafter`). The window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether it was fetched there or at an
    earlier point (then its block index has not moved since), for any proof data whose array is `V`'s (`hA`) and
    whose body leaves the block in place (`hafter`). The window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: one whole-block rectangle per window -/

abbrev r2_0 : Rect S25000x64 := Rect.unit (s := S25000x64) ![0, 0] S25000x64.size inb_S25000x64_S25000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out2_3 (x0 : Vec F S25000x64 .f32) (x1 : Vec F S64x64 .f32) (x2 : Vec F S1x64 .f32) : Vec F S25000x64 .f32 :=
  View.canon [⟨r2_3, k2_pay1 (View.ld x0 r2_0) (View.ld x1 r2_1) (View.ld x2 r2_2)⟩]

/-- The one store is the whole block, so it covers the buffer. -/
theorem cover2_3 (p0 : Vec F S25000x64 .f32) (y : S25000x64.Idx) :
    ∃ pc ∈ ([⟨r2_3, p0⟩] : List (View.Piece (Elt F) S25000x64 .f32)), y ∈ pc.1.set :=
  View.cover_of_tiled [⟨r2_3, p0⟩] S25000x64.size (by rfl) y

/-! ## The body's triple -/

set_option maxHeartbeats 4000000 in
/-- The kernel body on whole staging memrefs, the inputs' at read contents `xW` and the output's at anything, runs to
    the continuation holding the inputs' as they were and the output's at `out2_3` of the inputs'. The grid
    coordinate is not read. -/
theorem sound_kernel2 (c : Dev nD) (E : Set ℕ) (i : grid2.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__msg_linear_kernel i arg0 harg0 arg1 harg1 arg2 harg2 arg3 harg3) K := by
  simp only [cc2__msg_linear_kernel_eq_skeleton]; unfold cc2__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- Region 3 of the program's @main, the pipelined call of `cc3__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether it was fetched there or at an
    earlier point (then its block index has not moved since), for any proof data whose array is `V`'s (`hA`) and
    whose body leaves the block in place (`hafter`). The window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether it was fetched there or at an
    earlier point (then its block index has not moved since), for any proof data whose array is `V`'s (`hA`) and
    whose body leaves the block in place (`hafter`). The window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether it was fetched there or at an
    earlier point (then its block index has not moved since), for any proof data whose array is `V`'s (`hA`) and
    whose body leaves the block in place (`hafter`). The window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: one whole-block rectangle per window -/

abbrev r3_0 : Rect S10000x64 := Rect.unit (s := S10000x64) ![0, 0] S10000x64.size inb_S10000x64_S10000x64_0_0
abbrev r3_1 : Rect S10000x64 := Rect.unit (s := S10000x64) ![0, 0] S10000x64.size inb_S10000x64_S10000x64_0_0
abbrev r3_2 : Rect S1x64 := Rect.unit (s := S1x64) ![0, 0] S1x64.size inb_S1x64_S1x64_0_0
abbrev r3_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out3_3 (x0 : Vec F S10000x64 .f32) (x1 : Vec F S10000x64 .f32) (x2 : Vec F S1x64 .f32) : Vec F S10000x64 .f32 :=
  View.canon [⟨r3_3, k3_pay1 (View.ld x0 r3_0) (View.ld x1 r3_1) (View.ld x2 r3_2)⟩]

/-- The one store is the whole block, so it covers the buffer. -/
theorem cover3_3 (p0 : Vec F S10000x64 .f32) (y : S10000x64.Idx) :
    ∃ pc ∈ ([⟨r3_3, p0⟩] : List (View.Piece (Elt F) S10000x64 .f32)), y ∈ pc.1.set :=
  View.cover_of_tiled [⟨r3_3, p0⟩] S10000x64.size (by rfl) y

/-! ## The body's triple -/

set_option maxHeartbeats 4000000 in
/-- The kernel body on whole staging memrefs, the inputs' at read contents `xW` and the output's at anything, runs to
    the continuation holding the inputs' as they were and the output's at `out3_3` of the inputs'. The grid
    coordinate is not read. -/
theorem sound_kernel3 (c : Dev nD) (E : Set ℕ) (i : grid3.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2)) -∗ K ⟨⟩))
      ⊢ wp frame (wpE (defs₀ (F := F)) Variants.none c none) E (cc3__self_update_kernel i arg0 harg0 arg1 harg1 arg2 harg2 arg3 harg3) K := by
  simp only [cc3__self_update_kernel_eq_skeleton]; unfold cc3__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant is the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/- Region 4 of the program's @main, the pipelined call of `cc4__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, whether it was fetched there or at an
    earlier point (then its block index has not moved since), for any proof data whose array is `V`'s (`hA`) and
    whose body leaves the block in place (`hafter`). The window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, whether it was fetched there or at an
    earlier point (then its block index has not moved since), for any proof data whose array is `V`'s (`hA`) and
    whose body leaves the block in place (`hafter`). The window is uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, whether it was fetched there or at an
    earlier point (then its block index has not moved since), for any proof data whose array is `V`'s (`hA`) and
    whose body leaves the block in place (`hafter`). The window is uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: one whole-block rectangle per window -/

abbrev r4_0 : Rect S25000x64 := Rect.unit (s := S25000x64) ![0, 0] S25000x64.size inb_S25000x64_S25000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out4_3 (x0 : Vec F S25000x64 .f32) (x1 : Vec F S64x64 .f32) (x2 : Vec F S1x64 .f32) : Vec F S25000x64 .f32 :=
  View.canon [⟨r4_3, k4_pay1 (View.ld x0 r4_0) (View.ld x1 r4_1) (View.ld x2 r4_2)⟩]

/-- The one store is the whole block, so it covers the buffer. -/
theorem cover4_3 (p0 : Vec F S25000x64 .f32) (y : S25000x64.Idx) :
    ∃ pc ∈ ([⟨r4_3, p0⟩] : List (View.Piece (Elt F) S25000x64 .f32)), y ∈ pc.1.set :=
  View.cover_of_tiled [⟨r4_3, p0⟩] S25000x64.size (by rfl) y

/-! ## The body's triple -/

set_option maxHeartbeats 4000000 in
/-- The kernel body on whole staging memrefs, the inputs' at read contents `xW` and the output's at anything, runs to
    the continuation holding the inputs' as they were and the output's at `out4_3` of the inputs'. The grid
    coordinate is not read. -/
theorem sound_kernel4 (c : Dev nD) (E : Set ℕ) (i : grid4.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out4_3 x0 x1 x2)) -∗ K ⟨⟩))
      ⊢ wp frame (wpE (defs₀ (F := F)) Variants.none c none) E (cc4__msg_linear_kernel i arg0 harg0 arg1 harg1 arg2 harg2 arg3 harg3) K := by
  simp only [cc4__msg_linear_kernel_eq_skeleton]; unfold cc4__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of pipeline 4 on core `c`: the arrays as the region finds them (`V`); after the body at point
    `t` each input's buffer at its block and the output's at `out4_3` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks (`before4_W`), so `sound_kernel4` applies; the
    invariant and the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
/- Region 5 of the program's @main, the pipelined call of `cc5__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether it was fetched there or at an
    earlier point (then its block index has not moved since), for any proof data whose array is `V`'s (`hA`) and
    whose body leaves the block in place (`hafter`). The window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether it was fetched there or at an
    earlier point (then its block index has not moved since), for any proof data whose array is `V`'s (`hA`) and
    whose body leaves the block in place (`hafter`). The window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether it was fetched there or at an
    earlier point (then its block index has not moved since), for any proof data whose array is `V`'s (`hA`) and
    whose body leaves the block in place (`hafter`). The window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: one whole-block rectangle per window -/

abbrev r5_0 : Rect S10000x64 := Rect.unit (s := S10000x64) ![0, 0] S10000x64.size inb_S10000x64_S10000x64_0_0
abbrev r5_1 : Rect S10000x64 := Rect.unit (s := S10000x64) ![0, 0] S10000x64.size inb_S10000x64_S10000x64_0_0
abbrev r5_2 : Rect S1x64 := Rect.unit (s := S1x64) ![0, 0] S1x64.size inb_S1x64_S1x64_0_0
abbrev r5_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out5_3 (x0 : Vec F S10000x64 .f32) (x1 : Vec F S10000x64 .f32) (x2 : Vec F S1x64 .f32) : Vec F S10000x64 .f32 :=
  View.canon [⟨r5_3, k5_pay1 (View.ld x0 r5_0) (View.ld x1 r5_1) (View.ld x2 r5_2)⟩]

/-- The one store is the whole block, so it covers the buffer. -/
theorem cover5_3 (p0 : Vec F S10000x64 .f32) (y : S10000x64.Idx) :
    ∃ pc ∈ ([⟨r5_3, p0⟩] : List (View.Piece (Elt F) S10000x64 .f32)), y ∈ pc.1.set :=
  View.cover_of_tiled [⟨r5_3, p0⟩] S10000x64.size (by rfl) y

/-! ## The body's triple -/

set_option maxHeartbeats 4000000 in
/-- The kernel body on whole staging memrefs, the inputs' at read contents `xW` and the output's at anything, runs to
    the continuation holding the inputs' as they were and the output's at `out5_3` of the inputs'. The grid
    coordinate is not read. -/
theorem sound_kernel5 (c : Dev nD) (E : Set ℕ) (i : grid5.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out5_3 x0 x1 x2)) -∗ K ⟨⟩))
      ⊢ wp frame (wpE (defs₀ (F := F)) Variants.none c none) E (cc5__self_update_kernel i arg0 harg0 arg1 harg1 arg2 harg2 arg3 harg3) K := by
  simp only [cc5__self_update_kernel_eq_skeleton]; unfold cc5__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them (`V`); after the body at point
    `t` each input's buffer at its block and the output's at `out5_3` of the input blocks; the invariant is the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the
    invariant and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
/- Region 6 of the program's @main, the pipelined call of `cc6__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether it was fetched there or at an
    earlier point (then its block index has not moved since), for any proof data whose array is `V`'s (`hA`) and
    whose body leaves the block in place (`hafter`). The window is uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether it was fetched there or at an
    earlier point (then its block index has not moved since), for any proof data whose array is `V`'s (`hA`) and
    whose body leaves the block in place (`hafter`). The window is uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether it was fetched there or at an
    earlier point (then its block index has not moved since), for any proof data whose array is `V`'s (`hA`) and
    whose body leaves the block in place (`hafter`). The window is uncut and never idle. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: one whole-block rectangle per window -/

abbrev r6_0 : Rect S25000x64 := Rect.unit (s := S25000x64) ![0, 0] S25000x64.size inb_S25000x64_S25000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out6_3 (x0 : Vec F S25000x64 .f32) (x1 : Vec F S64x64 .f32) (x2 : Vec F S1x64 .f32) : Vec F S25000x64 .f32 :=
  View.canon [⟨r6_3, k6_pay1 (View.ld x0 r6_0) (View.ld x1 r6_1) (View.ld x2 r6_2)⟩]

/-- The one store is the whole block, so it covers the buffer. -/
theorem cover6_3 (p0 : Vec F S25000x64 .f32) (y : S25000x64.Idx) :
    ∃ pc ∈ ([⟨r6_3, p0⟩] : List (View.Piece (Elt F) S25000x64 .f32)), y ∈ pc.1.set :=
  View.cover_of_tiled [⟨r6_3, p0⟩] S25000x64.size (by rfl) y

/-! ## The body's triple -/

set_option maxHeartbeats 4000000 in
/-- The kernel body on whole staging memrefs, the inputs' at read contents `xW` and the output's at anything, runs to
    the continuation holding the inputs' as they were and the output's at `out6_3` of the inputs'. The grid
    coordinate is not read. -/
theorem sound_kernel6 (c : Dev nD) (E : Set ℕ) (i : grid6.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out6_3 x0 x1 x2)) -∗ K ⟨⟩))
      ⊢ wp frame (wpE (defs₀ (F := F)) Variants.none c none) E (cc6__msg_linear_kernel i arg0 harg0 arg1 harg1 arg2 harg2 arg3 harg3) K := by
  simp only [cc6__msg_linear_kernel_eq_skeleton]; unfold cc6__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-! ## The pipeline's proof data -/

/-- The proof data of pipeline 6 on core `c`: the arrays as the region finds them (`V`); after the body at point
    `t` each input's buffer at its block and the output's at `out6_3` of the input blocks; the invariant is the
    scoped rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks (`before6_W`), so `sound_kernel6` applies; the
    invariant and the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
/- Region 7 of the program's @main, the pipelined call of `cc7__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether it was fetched there or at an
    earlier point (then its block index has not moved since), for any proof data whose array is `V`'s (`hA`) and
    whose body leaves the block in place (`hafter`). The window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether it was fetched there or at an
    earlier point (then its block index has not moved since), for any proof data whose array is `V`'s (`hA`) and
    whose body leaves the block in place (`hafter`). The window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether it was fetched there or at an
    earlier point (then its block index has not moved since), for any proof data whose array is `V`'s (`hA`) and
    whose body leaves the block in place (`hafter`). The window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: one whole-block rectangle per window -/

abbrev r7_0 : Rect S10000x64 := Rect.unit (s := S10000x64) ![0, 0] S10000x64.size inb_S10000x64_S10000x64_0_0
abbrev r7_1 : Rect S10000x64 := Rect.unit (s := S10000x64) ![0, 0] S10000x64.size inb_S10000x64_S10000x64_0_0
abbrev r7_2 : Rect S1x64 := Rect.unit (s := S1x64) ![0, 0] S1x64.size inb_S1x64_S1x64_0_0
abbrev r7_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out7_3 (x0 : Vec F S10000x64 .f32) (x1 : Vec F S10000x64 .f32) (x2 : Vec F S1x64 .f32) : Vec F S10000x64 .f32 :=
  View.canon [⟨r7_3, k7_pay1 (View.ld x0 r7_0) (View.ld x1 r7_1) (View.ld x2 r7_2)⟩]

/-- The one store is the whole block, so it covers the buffer. -/
theorem cover7_3 (p0 : Vec F S10000x64 .f32) (y : S10000x64.Idx) :
    ∃ pc ∈ ([⟨r7_3, p0⟩] : List (View.Piece (Elt F) S10000x64 .f32)), y ∈ pc.1.set :=
  View.cover_of_tiled [⟨r7_3, p0⟩] S10000x64.size (by rfl) y

/-! ## The body's triple -/

set_option maxHeartbeats 4000000 in
/-- The kernel body on whole staging memrefs, the inputs' at read contents `xW` and the output's at anything, runs to
    the continuation holding the inputs' as they were and the output's at `out7_3` of the inputs'. The grid
    coordinate is not read. -/
theorem sound_kernel7 (c : Dev nD) (E : Set ℕ) (i : grid7.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out7_3 x0 x1 x2)) -∗ K ⟨⟩))
      ⊢ wp frame (wpE (defs₀ (F := F)) Variants.none c none) E (cc7__self_update_kernel i arg0 harg0 arg1 harg1 arg2 harg2 arg3 harg3) K := by
  simp only [cc7__self_update_kernel_eq_skeleton]; unfold cc7__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them (`V`); after the body at point
    `t` each input's buffer at its block and the output's at `out7_3` of the input blocks; the invariant is the
    scoped rest and the generator register, untouched; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' memrefs hold their blocks (`before7_W`), so `sound_kernel7` applies; the
    invariant and the core's `owes` pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Reg8.lean ====
/- Region 8 of the program's @main, the pipelined call of `cc8__msg_linear_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, whether it was fetched there or at an
    earlier point (then its block index has not moved since), for any proof data whose array is `V`'s (`hA`) and
    whose body leaves the block in place (`hafter`). The window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, whether it was fetched there or at an
    earlier point (then its block index has not moved since), for any proof data whose array is `V`'s (`hA`) and
    whose body leaves the block in place (`hafter`). The window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, whether it was fetched there or at an
    earlier point (then its block index has not moved since), for any proof data whose array is `V`'s (`hA`) and
    whose body leaves the block in place (`hafter`). The window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: one whole-block rectangle per window -/

abbrev r8_0 : Rect S25000x64 := Rect.unit (s := S25000x64) ![0, 0] S25000x64.size inb_S25000x64_S25000x64_0_0
abbrev r8_1 : Rect S64x64 := Rect.unit (s := S64x64) ![0, 0] S64x64.size inb_S64x64_S64x64_0_0
abbrev r8_2 : Rect S1x64 := Rect.unit (s := S1x64) ![0, 0] S1x64.size inb_S1x64_S1x64_0_0
abbrev r8_3 : Rect S25000x64 := Rect.unit (s := S25000x64) ![0, 0] S25000x64.size inb_S25000x64_S25000x64_0_0

/-! ## What the body leaves in the output window's buffer -/

/-- Window 3's staging buffer after the body, from the input windows' blocks: its one store as a piece over the
    skeleton's payload. -/
def out8_3 (x0 : Vec F S25000x64 .f32) (x1 : Vec F S64x64 .f32) (x2 : Vec F S1x64 .f32) : Vec F S25000x64 .f32 :=
  View.canon [⟨r8_3, k8_pay1 (View.ld x0 r8_0) (View.ld x1 r8_1) (View.ld x2 r8_2)⟩]

/-- The one store is the whole block, so it covers the buffer. -/
theorem cover8_3 (p0 : Vec F S25000x64 .f32) (y : S25000x64.Idx) :
    ∃ pc ∈ ([⟨r8_3, p0⟩] : List (View.Piece (Elt F) S25000x64 .f32)), y ∈ pc.1.set :=
  View.cover_of_tiled [⟨r8_3, p0⟩] S25000x64.size (by rfl) y

/-! ## The body's triple -/

set_option maxHeartbeats 4000000 in
/-- The kernel body on whole staging memrefs, the inputs' at read contents `xW` and the output's at anything, runs to
    the continuation holding the inputs' as they were and the output's at `out8_3` of the inputs'. The grid
    coordinate is not read. -/
theorem sound_kernel8 (c : Dev nD) (E : Set ℕ) (i : grid8.Coords) (arg0 : Memref sig .tc .vmem S25000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S25000x64 .f32) (harg3 : arg3.IsWhole)
    (x0 : Vec F S25000x64 .f32) (x1 : Vec F S64x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out8_3 x0 x1 x2)) -∗ K ⟨⟩))
      ⊢ wp frame (wpE (defs₀ (F := F)) Variants.none c none) E (cc8__msg_linear_kernel i arg0 harg0 arg1 harg1 arg2 harg2 arg3 harg3) K := by
  simp only [cc8__msg_linear_kernel_eq_skeleton]; unfold cc8__msg_linear_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them (`V`); after the body at point
    `t` each input's buffer at its block and the output's at `out8_3` of the input blocks; the invariant is the
    scoped rest and the generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' memrefs hold their blocks (`before8_W`), so `sound_kernel8` applies; the
    invariant and the core's `owes` pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Reg9.lean ====
/- Region 9 of the program's @main, the pipelined call of `cc9__self_update_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, whether it was fetched there or at an
    earlier point (then its block index has not moved since), for any proof data whose array is `V`'s (`hA`) and
    whose body leaves the block in place (`hafter`). The window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, whether it was fetched there or at an
    earlier point (then its block index has not moved since), for any proof data whose array is `V`'s (`hA`) and
    whose body leaves the block in place (`hafter`). The window is uncut and never idle. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, whether it was fetched there or at an
    earlier point (then its block index has not moved since), for any proof data whose array is `V`'s (`hA`) and
    whose body leaves the block in place (`hafter`). The window is uncut and never idle. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: one whole-block rectangle per window -/

abbrev r9_0 : Rect S10000x64 := Rect.unit (s := S10000x64) ![0, 0] S10000x64.size inb_S10000x64_S10000x64_0_0
abbrev r9_1 : Rect S10000x64 := Rect.unit (s := S10000x64) ![0, 0] S10000x64.size inb_S10000x64_S10000x64_0_0
abbrev r9_2 : Rect S1x64 := Rect.unit (s := S1x64) ![0, 0] S1x64.size inb_S1x64_S1x64_0_0
abbrev r9_3 : Rect S10000x64 := Rect.unit (s := S10000x64) ![0, 0] S10000x64.size inb_S10000x64_S10000x64_0_0

/-! ## What the body leaves in the output window's buffer -/

/-- Window 3's staging buffer after the body, from the input windows' blocks: its one store as a piece over the
    skeleton's payload. -/
def out9_3 (x0 : Vec F S10000x64 .f32) (x1 : Vec F S10000x64 .f32) (x2 : Vec F S1x64 .f32) : Vec F S10000x64 .f32 :=
  View.canon [⟨r9_3, k9_pay1 (View.ld x0 r9_0) (View.ld x1 r9_1) (View.ld x2 r9_2)⟩]

/-- The one store is the whole block, so it covers the buffer. -/
theorem cover9_3 (p0 : Vec F S10000x64 .f32) (y : S10000x64.Idx) :
    ∃ pc ∈ ([⟨r9_3, p0⟩] : List (View.Piece (Elt F) S10000x64 .f32)), y ∈ pc.1.set :=
  View.cover_of_tiled [⟨r9_3, p0⟩] S10000x64.size (by rfl) y

/-! ## The body's triple -/

set_option maxHeartbeats 4000000 in
/-- The kernel body on whole staging memrefs, the inputs' at read contents `xW` and the output's at anything, runs to
    the continuation holding the inputs' as they were and the output's at `out9_3` of the inputs'. The grid
    coordinate is not read. -/
theorem sound_kernel9 (c : Dev nD) (E : Set ℕ) (i : grid9.Coords) (arg0 : Memref sig .tc .vmem S10000x64 .f32) (harg0 : arg0.IsWhole) (arg1 : Memref sig .tc .vmem S10000x64 .f32) (harg1 : arg1.IsWhole) (arg2 : Memref sig .tc .vmem S1x64 .f32) (harg2 : arg2.IsWhole) (arg3 : Memref sig .tc .vmem S10000x64 .f32) (harg3 : arg3.IsWhole)
    (x0 : Vec F S10000x64 .f32) (x1 : Vec F S10000x64 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out9_3 x0 x1 x2)) -∗ K ⟨⟩))
      ⊢ wp frame (wpE (defs₀ (F := F)) Variants.none c none) E (cc9__self_update_kernel i arg0 harg0 arg1 harg1 arg2 harg2 arg3 harg3) K := by
  simp only [cc9__self_update_kernel_eq_skeleton]; unfold cc9__self_update_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them (`V`); after the body at point
    `t` each input's buffer at its block and the output's at `out9_3` of the input blocks; the invariant is the
    scoped rest and the generator register, untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' memrefs hold their blocks (`before9_W`), so `sound_kernel9` applies; the
    invariant and the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Reg10.lean ====
/- Region 10 of the program's @main, the pipelined call of `cc10__ffn_kernel`, at a parameter `V`: the TensorCore's
   buffer contents when the region is entered. Each window's block at a grid point, the buffer the body's one
   whole-block store leaves in the output window (a function of the input blocks), the body's triple, the
   pipeline's proof data, and the body obligation at every grid point. Stated for any float model `F`. -/
import proofs.«128986_j27779848471455_1_alg».proof.Proof.Gen.KernelIdeal.Launch
import proofs.«128986_j27779848471455_1_alg».proof.Proof.Gen.KernelIdeal.Skeleton
import proofs.«128986_j27779848471455_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with long axes: the structural check recurses once per coordinate of an axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, whether it was fetched there or at an
    earlier point (then its block index has not moved since), for any proof data whose array is `V`'s (`hA`) and
    whose body leaves the block in place (`hafter`). The window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, whether it was fetched there or at an
    earlier point (then its block index has not moved since), for any proof data whose array is `V`'s (`hA`) and
    whose body leaves the block in place (`hafter`). The window is uncut and never idle. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, whether it was fetched there or at an
    earlier point (then its block index has not moved since), for any proof data whose array is `V`'s (`hA`) and
    whose body leaves the block in place (`hafter`). The window is uncut and never idle. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, whether it was fetched there or at an
    earlier point (then its block index has not moved since), for any proof data whose array is `V`'s (`hA`) and
    whose body leaves the block in place (`hafter`). The window is uncut and never idle. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, whether it was fetched there or at an
    earlier point (then its block index has not moved since), for any proof data whose array is `V`'s (`hA`) and
    whose body leaves the block in place (`hafter`). The window is uncut and never idle. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: one whole-block rectangle per window -/

abbrev r10_0 : Rect S512x320 := Rect.unit (s := S512x320) ![0, 0] S512x320.size inb_S512x320_S512x320_0_0
abbrev r10_1 : Rect S320x320 := Rect.unit (s := S320x320) ![0, 0] S320x320.size inb_S320x320_S320x320_0_0
abbrev r10_2 : Rect S1x320 := Rect.unit (s := S1x320) ![0, 0] S1x320.size inb_S1x320_S1x320_0_0
abbrev r10_3 : Rect S320x1 := Rect.unit (s := S320x1) ![0, 0] S320x1.size inb_S320x1_S320x1_0_0
abbrev r10_4 : Rect S1x1 := Rect.unit (s := S1x1) ![0, 0] S1x1.size inb_S1x1_S1x1_0_0
abbrev r10_5 : Rect S512x1 := Rect.unit (s := S512x1) ![0, 0] S512x1.size inb_S512x1_S512x1_0_0

/-! ## What the body leaves in the output window's buffer -/

/-- Window 5's staging buffer after the body, from the input windows' blocks: its one store as a piece over the
    skeleton's payload. -/
def out10_5 (x0 : Vec F S512x320 .f32) (x1 : Vec F S320x320 .f32) (x2 : Vec F S1x320 .f32) (x3 : Vec F S320x1 .f32) (x4 : Vec F S1x1 .f32) : Vec F S512x1 .f32 :=
  View.canon [⟨r10_5, k10_pay1 (View.ld x0 r10_0) (View.ld x1 r10_1) (View.ld x2 r10_2) (View.ld x3 r10_3) (View.ld x4 r10_4)⟩]

/-- The one store is the whole block, so it covers the buffer. -/
theorem cover10_5 (p0 : Vec F S512x1 .f32) (y : S512x1.Idx) :
    ∃ pc ∈ ([⟨r10_5, p0⟩] : List (View.Piece (Elt F) S512x1 .f32)), y ∈ pc.1.set :=
  View.cover_of_tiled [⟨r10_5, p0⟩] S512x1.size (by rfl) y

/-! ## The body's triple -/

set_option maxHeartbeats 4000000 in
/-- The kernel body on whole staging memrefs, the inputs' at read contents `xW` and the output's at anything, runs to
    the continuation holding the inputs' as they were and the output's at `out10_5` of the inputs'. The grid
    coordinate is not read. -/
theorem sound_kernel10 (c : Dev nD) (E : Set ℕ) (i : grid10.Coords) (arg0 : Memref sig .tc .vmem S512x320 .f32) (harg0 : arg0.IsWhole) (arg1 : Memref sig .tc .vmem S320x320 .f32) (harg1 : arg1.IsWhole) (arg2 : Memref sig .tc .vmem S1x320 .f32) (harg2 : arg2.IsWhole) (arg3 : Memref sig .tc .vmem S320x1 .f32) (harg3 : arg3.IsWhole) (arg4 : Memref sig .tc .vmem S1x1 .f32) (harg4 : arg4.IsWhole) (arg5 : Memref sig .tc .vmem S512x1 .f32) (harg5 : arg5.IsWhole)
    (x0 : Vec F S512x320 .f32) (x1 : Vec F S320x320 .f32) (x2 : Vec F S1x320 .f32) (x3 : Vec F S320x1 .f32) (x4 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out10_5 x0 x1 x2 x3 x4)) -∗ K ⟨⟩))
      ⊢ wp frame (wpE (defs₀ (F := F)) Variants.none c none) E (cc10__ffn_kernel i arg0 harg0 arg1 harg1 arg2 harg2 arg3 harg3 arg4 harg4 arg5 harg5) K := by
  simp only [cc10__ffn_kernel_eq_skeleton]; unfold cc10__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover10_5 _)

/-! ## The pipeline's proof data -/

/-- The proof data of pipeline 10 on core `c`: the arrays as the region finds them (`V`); after the body at point
    `t` each input's buffer at its block and the output's at `out10_5` of the input blocks; the invariant is the
    scoped rest and the generator register, untouched; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => out10_5 (iblk10 V c 0 t) (iblk10 V c 1 t) (iblk10 V c 2 t) (iblk10 V c 3 t) (iblk10 V c 4 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = out10_5 (iblk10 V c 0 t) (iblk10 V c 1 t) (iblk10 V c 2 t) (iblk10 V c 3 t) (iblk10 V c 4 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t))

/-- The body at any point: the inputs' memrefs hold their blocks (`before10_W`), so `sound_kernel10` applies; the
    invariant and the core's `owes` pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  iintro ⟨HΦ, Ho, ⟨%d0, H0⟩, ⟨%d1, H1⟩, ⟨%d2, H2⟩, ⟨%d3, H3⟩, ⟨%d4, H4⟩, ⟨%d5, H5⟩⟩
  iapply (sound_kernel10 c Set.univ _ _ _ _ _ _ _ _ _ _ _ _ _ (iblk10 V c 0 t) (iblk10 V c 1 t) (iblk10 V c 2 t) (iblk10 V c 3 t) (iblk10 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Fold.lean ====
/-
  The TensorCore's buffer contents at every boundary between @main's items, as a fold from the launch memory: after a
  host stretch the stretch's operations applied; after a region its windows' arrays at what the pipeline's write-backs
  leave and every other buffer as entered. A buffer no stretch writes and no region outputs reads back, through the
  whole fold, as launched: so do the eighteen argument arrays.
-/
import proofs.«128986_j27779848471455_1_alg».proof.Proof.KI.Reg0
import proofs.«128986_j27779848471455_1_alg».proof.Proof.KI.Reg1
import proofs.«128986_j27779848471455_1_alg».proof.Proof.KI.Reg2
import proofs.«128986_j27779848471455_1_alg».proof.Proof.KI.Reg3
import proofs.«128986_j27779848471455_1_alg».proof.Proof.KI.Reg4
import proofs.«128986_j27779848471455_1_alg».proof.Proof.KI.Reg5
import proofs.«128986_j27779848471455_1_alg».proof.Proof.KI.Reg6
import proofs.«128986_j27779848471455_1_alg».proof.Proof.KI.Reg7
import proofs.«128986_j27779848471455_1_alg».proof.Proof.KI.Reg8
import proofs.«128986_j27779848471455_1_alg».proof.Proof.KI.Reg9
import proofs.«128986_j27779848471455_1_alg».proof.Proof.KI.Reg10
import proofs.«128986_j27779848471455_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the host stretch before region 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A buffer the stretch before region 0 does not write keeps its contents through it. -/
theorem Wodd_of_0 (c : Dev nD) (b : Ref sig .tc) (h : b ∉ hostOps0_W) :
    W1 m ρ c (Proc.devRef .tc b) = W0 m ρ c (Proc.devRef .tc b) :=
  StableHlo.after_of_writes_sub hostOps0 _ hostOps0_writes h
/-- A buffer that is no output array of region 0 keeps its contents through it: an input window's array is
    left as entered, and any other buffer is not the region's. -/
theorem Weven_of_0 (c : Dev nD) (b : Ref sig .tc) (h : b ∉ ([main_v4_0, main_v4_1, main_v4_2] : List (Ref sig .tc))) :
    W2 m ρ c (Proc.devRef .tc b) = W1 m ρ c (Proc.devRef .tc b) := by
  by_cases hb : ∃ w, Pipeline.arrRef spec0 w = b
  · obtain ⟨w, rfl⟩ := hb
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact (W2_arr m ρ c 3).trans (((dat0 (V1 m ρ) c).arrAt_in 3 rfl _).trans (A_eq0 (V1 m ρ) c 3))
    | ⟨4, _⟩ => exact (W2_arr m ρ c 4).trans (((dat0 (V1 m ρ) c).arrAt_in 4 rfl _).trans (A_eq0 (V1 m ρ) c 4))
    | ⟨5, _⟩ => exact (W2_arr m ρ c 5).trans (((dat0 (V1 m ρ) c).arrAt_in 5 rfl _).trans (A_eq0 (V1 m ρ) c 5))
    | ⟨6, _⟩ => exact (W2_arr m ρ c 6).trans (((dat0 (V1 m ρ) c).arrAt_in 6 rfl _).trans (A_eq0 (V1 m ρ) c 6))
    | ⟨7, _⟩ => exact (h (show main_v4_0 ∈ ([main_v4_0, main_v4_1, main_v4_2] : List (Ref sig .tc)) from by decide)).elim
    | ⟨8, _⟩ => exact (h (show main_v4_1 ∈ ([main_v4_0, main_v4_1, main_v4_2] : List (Ref sig .tc)) from by decide)).elim
    | ⟨9, _⟩ => exact (h (show main_v4_2 ∈ ([main_v4_0, main_v4_1, main_v4_2] : List (Ref sig .tc)) from by decide)).elim
  · exact W2_of_ne m ρ c b (fun w e => hb ⟨w, e⟩)
/-- After the host stretch before region 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A buffer the stretch before region 1 does not write keeps its contents through it. -/
theorem Wodd_of_1 (c : Dev nD) (b : Ref sig .tc) (h : b ∉ hostOps1_W) :
    W3 m ρ c (Proc.devRef .tc b) = W2 m ρ c (Proc.devRef .tc b) :=
  StableHlo.after_of_writes_sub hostOps1 _ hostOps1_writes h
/-- A buffer that is no output array of region 1 keeps its contents through it: an input window's array is
    left as entered, and any other buffer is not the region's. -/
theorem Weven_of_1 (c : Dev nD) (b : Ref sig .tc) (h : b ∉ ([main_v20] : List (Ref sig .tc))) :
    W4 m ρ c (Proc.devRef .tc b) = W3 m ρ c (Proc.devRef .tc b) := by
  by_cases hb : ∃ w, Pipeline.arrRef spec1 w = b
  · obtain ⟨w, rfl⟩ := hb
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact (h (show main_v20 ∈ ([main_v20] : List (Ref sig .tc)) from by decide)).elim
  · exact W4_of_ne m ρ c b (fun w e => hb ⟨w, e⟩)
/-- After the host stretch before region 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- A buffer the stretch before region 2 does not write keeps its contents through it. -/
theorem Wodd_of_2 (c : Dev nD) (b : Ref sig .tc) (h : b ∉ hostOps2_W) :
    W5 m ρ c (Proc.devRef .tc b) = W4 m ρ c (Proc.devRef .tc b) :=
  StableHlo.after_of_writes_sub hostOps2 _ hostOps2_writes h
/-- A buffer that is no output array of region 2 keeps its contents through it: an input window's array is
    left as entered, and any other buffer is not the region's. -/
theorem Weven_of_2 (c : Dev nD) (b : Ref sig .tc) (h : b ∉ ([main_v38] : List (Ref sig .tc))) :
    W6 m ρ c (Proc.devRef .tc b) = W5 m ρ c (Proc.devRef .tc b) := by
  by_cases hb : ∃ w, Pipeline.arrRef spec2 w = b
  · obtain ⟨w, rfl⟩ := hb
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (h (show main_v38 ∈ ([main_v38] : List (Ref sig .tc)) from by decide)).elim
  · exact W6_of_ne m ρ c b (fun w e => hb ⟨w, e⟩)
/-- After the host stretch before region 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- A buffer the stretch before region 3 does not write keeps its contents through it. -/
theorem Wodd_of_3 (c : Dev nD) (b : Ref sig .tc) (h : b ∉ hostOps3_W) :
    W7 m ρ c (Proc.devRef .tc b) = W6 m ρ c (Proc.devRef .tc b) :=
  StableHlo.after_of_writes_sub hostOps3 _ hostOps3_writes h
/-- A buffer that is no output array of region 3 keeps its contents through it: an input window's array is
    left as entered, and any other buffer is not the region's. -/
theorem Weven_of_3 (c : Dev nD) (b : Ref sig .tc) (h : b ∉ ([main_v42] : List (Ref sig .tc))) :
    W8 m ρ c (Proc.devRef .tc b) = W7 m ρ c (Proc.devRef .tc b) := by
  by_cases hb : ∃ w, Pipeline.arrRef spec3 w = b
  · obtain ⟨w, rfl⟩ := hb
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact (h (show main_v42 ∈ ([main_v42] : List (Ref sig .tc)) from by decide)).elim
  · exact W8_of_ne m ρ c b (fun w e => hb ⟨w, e⟩)
/-- After the host stretch before region 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- A buffer the stretch before region 4 does not write keeps its contents through it. -/
theorem Wodd_of_4 (c : Dev nD) (b : Ref sig .tc) (h : b ∉ hostOps4_W) :
    W9 m ρ c (Proc.devRef .tc b) = W8 m ρ c (Proc.devRef .tc b) :=
  StableHlo.after_of_writes_sub hostOps4 _ hostOps4_writes h
/-- A buffer that is no output array of region 4 keeps its contents through it: an input window's array is
    left as entered, and any other buffer is not the region's. -/
theorem Weven_of_4 (c : Dev nD) (b : Ref sig .tc) (h : b ∉ ([main_v55] : List (Ref sig .tc))) :
    W10 m ρ c (Proc.devRef .tc b) = W9 m ρ c (Proc.devRef .tc b) := by
  by_cases hb : ∃ w, Pipeline.arrRef spec4 w = b
  · obtain ⟨w, rfl⟩ := hb
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (h (show main_v55 ∈ ([main_v55] : List (Ref sig .tc)) from by decide)).elim
  · exact W10_of_ne m ρ c b (fun w e => hb ⟨w, e⟩)
/-- After the host stretch before region 5 (region 5's entry). -/
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
/-- At region 5's exit: its arrays at what the pipeline leaves, every other buffer as entered. -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
abbrev V12 : (c : Dev nD) → (b : Ref sig .tc) → Buf (Elt F) ((c : Thread nD τ).loc b) := fun c b => W12 m ρ c b
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)
/-- A buffer the stretch before region 5 does not write keeps its contents through it. -/
theorem Wodd_of_5 (c : Dev nD) (b : Ref sig .tc) (h : b ∉ hostOps5_W) :
    W11 m ρ c (Proc.devRef .tc b) = W10 m ρ c (Proc.devRef .tc b) :=
  StableHlo.after_of_writes_sub hostOps5 _ hostOps5_writes h
/-- A buffer that is no output array of region 5 keeps its contents through it: an input window's array is
    left as entered, and any other buffer is not the region's. -/
theorem Weven_of_5 (c : Dev nD) (b : Ref sig .tc) (h : b ∉ ([main_v59] : List (Ref sig .tc))) :
    W12 m ρ c (Proc.devRef .tc b) = W11 m ρ c (Proc.devRef .tc b) := by
  by_cases hb : ∃ w, Pipeline.arrRef spec5 w = b
  · obtain ⟨w, rfl⟩ := hb
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact (h (show main_v59 ∈ ([main_v59] : List (Ref sig .tc)) from by decide)).elim
  · exact W12_of_ne m ρ c b (fun w e => hb ⟨w, e⟩)
/-- After the host stretch before region 6 (region 6's entry). -/
abbrev W13 : Dev nD → Valuation τ sig (Elt F) := fun c => StableHlo.after hostOps6 (W12 m ρ c)
abbrev V13 : (c : Dev nD) → (b : Ref sig .tc) → Buf (Elt F) ((c : Thread nD τ).loc b) := fun c b => W13 m ρ c b
/-- At region 6's exit: its arrays at what the pipeline leaves, every other buffer as entered. -/
def W14 (c : Dev nD) : Valuation τ sig (Elt F) :=
  Pipeline.withArrays spec6 c (W13 m ρ c) fun w => (dat6 (V13 m ρ) c).arrAt w cfg6.N
theorem W14_arr (c : Dev nD) (w : Fin cfg6.W) :
    W14 m ρ c (Proc.devRef .tc (Pipeline.arrRef spec6 w)) = (dat6 (V13 m ρ) c).arrAt w cfg6.N := by
  unfold W14; exact Pipeline.withArrays_arr spec6 launch6.win.arr_inj c _ _ w
theorem W14_of_ne (c : Dev nD) (b : Ref sig .tc) (hb : ∀ w, Pipeline.arrRef spec6 w ≠ b) :
    W14 m ρ c (Proc.devRef .tc b) = W13 m ρ c (Proc.devRef .tc b) := by
  unfold W14; exact Pipeline.withArrays_of_ne spec6 c _ _ b hb
abbrev V14 : (c : Dev nD) → (b : Ref sig .tc) → Buf (Elt F) ((c : Thread nD τ).loc b) := fun c b => W14 m ρ c b
theorem hF6 (c : Dev nD) (w : Fin cfg6.W) : (dat6 (V13 m ρ) c).arrAt w cfg6.N = V14 m ρ c (Pipeline.arrRef spec6 w) :=
  (W14_arr m ρ c w).symm
theorem hrest6 (c : Dev nD) : ∀ b, b ∉ Finset.univ.image (Pipeline.arrRef spec6) → V14 m ρ c b = V13 m ρ c b :=
  fun b hb => W14_of_ne m ρ c b fun w e => hb (Finset.mem_image.mpr ⟨w, Finset.mem_univ _, e⟩)
/-- A buffer the stretch before region 6 does not write keeps its contents through it. -/
theorem Wodd_of_6 (c : Dev nD) (b : Ref sig .tc) (h : b ∉ hostOps6_W) :
    W13 m ρ c (Proc.devRef .tc b) = W12 m ρ c (Proc.devRef .tc b) :=
  StableHlo.after_of_writes_sub hostOps6 _ hostOps6_writes h
/-- A buffer that is no output array of region 6 keeps its contents through it: an input window's array is
    left as entered, and any other buffer is not the region's. -/
theorem Weven_of_6 (c : Dev nD) (b : Ref sig .tc) (h : b ∉ ([main_v72] : List (Ref sig .tc))) :
    W14 m ρ c (Proc.devRef .tc b) = W13 m ρ c (Proc.devRef .tc b) := by
  by_cases hb : ∃ w, Pipeline.arrRef spec6 w = b
  · obtain ⟨w, rfl⟩ := hb
    match w with
    | ⟨0, _⟩ => exact (W14_arr m ρ c 0).trans (((dat6 (V13 m ρ) c).arrAt_in 0 rfl _).trans (A_eq6 (V13 m ρ) c 0))
    | ⟨1, _⟩ => exact (W14_arr m ρ c 1).trans (((dat6 (V13 m ρ) c).arrAt_in 1 rfl _).trans (A_eq6 (V13 m ρ) c 1))
    | ⟨2, _⟩ => exact (W14_arr m ρ c 2).trans (((dat6 (V13 m ρ) c).arrAt_in 2 rfl _).trans (A_eq6 (V13 m ρ) c 2))
    | ⟨3, _⟩ => exact (h (show main_v72 ∈ ([main_v72] : List (Ref sig .tc)) from by decide)).elim
  · exact W14_of_ne m ρ c b (fun w e => hb ⟨w, e⟩)
/-- After the host stretch before region 7 (region 7's entry). -/
abbrev W15 : Dev nD → Valuation τ sig (Elt F) := fun c => StableHlo.after hostOps7 (W14 m ρ c)
abbrev V15 : (c : Dev nD) → (b : Ref sig .tc) → Buf (Elt F) ((c : Thread nD τ).loc b) := fun c b => W15 m ρ c b
/-- At region 7's exit: its arrays at what the pipeline leaves, every other buffer as entered. -/
def W16 (c : Dev nD) : Valuation τ sig (Elt F) :=
  Pipeline.withArrays spec7 c (W15 m ρ c) fun w => (dat7 (V15 m ρ) c).arrAt w cfg7.N
theorem W16_arr (c : Dev nD) (w : Fin cfg7.W) :
    W16 m ρ c (Proc.devRef .tc (Pipeline.arrRef spec7 w)) = (dat7 (V15 m ρ) c).arrAt w cfg7.N := by
  unfold W16; exact Pipeline.withArrays_arr spec7 launch7.win.arr_inj c _ _ w
theorem W16_of_ne (c : Dev nD) (b : Ref sig .tc) (hb : ∀ w, Pipeline.arrRef spec7 w ≠ b) :
    W16 m ρ c (Proc.devRef .tc b) = W15 m ρ c (Proc.devRef .tc b) := by
  unfold W16; exact Pipeline.withArrays_of_ne spec7 c _ _ b hb
abbrev V16 : (c : Dev nD) → (b : Ref sig .tc) → Buf (Elt F) ((c : Thread nD τ).loc b) := fun c b => W16 m ρ c b
theorem hF7 (c : Dev nD) (w : Fin cfg7.W) : (dat7 (V15 m ρ) c).arrAt w cfg7.N = V16 m ρ c (Pipeline.arrRef spec7 w) :=
  (W16_arr m ρ c w).symm
theorem hrest7 (c : Dev nD) : ∀ b, b ∉ Finset.univ.image (Pipeline.arrRef spec7) → V16 m ρ c b = V15 m ρ c b :=
  fun b hb => W16_of_ne m ρ c b fun w e => hb (Finset.mem_image.mpr ⟨w, Finset.mem_univ _, e⟩)
/-- A buffer the stretch before region 7 does not write keeps its contents through it. -/
theorem Wodd_of_7 (c : Dev nD) (b : Ref sig .tc) (h : b ∉ hostOps7_W) :
    W15 m ρ c (Proc.devRef .tc b) = W14 m ρ c (Proc.devRef .tc b) :=
  StableHlo.after_of_writes_sub hostOps7 _ hostOps7_writes h
/-- A buffer that is no output array of region 7 keeps its contents through it: an input window's array is
    left as entered, and any other buffer is not the region's. -/
theorem Weven_of_7 (c : Dev nD) (b : Ref sig .tc) (h : b ∉ ([main_v76] : List (Ref sig .tc))) :
    W16 m ρ c (Proc.devRef .tc b) = W15 m ρ c (Proc.devRef .tc b) := by
  by_cases hb : ∃ w, Pipeline.arrRef spec7 w = b
  · obtain ⟨w, rfl⟩ := hb
    match w with
    | ⟨0, _⟩ => exact (W16_arr m ρ c 0).trans (((dat7 (V15 m ρ) c).arrAt_in 0 rfl _).trans (A_eq7 (V15 m ρ) c 0))
    | ⟨1, _⟩ => exact (W16_arr m ρ c 1).trans (((dat7 (V15 m ρ) c).arrAt_in 1 rfl _).trans (A_eq7 (V15 m ρ) c 1))
    | ⟨2, _⟩ => exact (W16_arr m ρ c 2).trans (((dat7 (V15 m ρ) c).arrAt_in 2 rfl _).trans (A_eq7 (V15 m ρ) c 2))
    | ⟨3, _⟩ => exact (h (show main_v76 ∈ ([main_v76] : List (Ref sig .tc)) from by decide)).elim
  · exact W16_of_ne m ρ c b (fun w e => hb ⟨w, e⟩)
/-- After the host stretch before region 8 (region 8's entry). -/
abbrev W17 : Dev nD → Valuation τ sig (Elt F) := fun c => StableHlo.after hostOps8 (W16 m ρ c)
abbrev V17 : (c : Dev nD) → (b : Ref sig .tc) → Buf (Elt F) ((c : Thread nD τ).loc b) := fun c b => W17 m ρ c b
/-- At region 8's exit: its arrays at what the pipeline leaves, every other buffer as entered. -/
def W18 (c : Dev nD) : Valuation τ sig (Elt F) :=
  Pipeline.withArrays spec8 c (W17 m ρ c) fun w => (dat8 (V17 m ρ) c).arrAt w cfg8.N
theorem W18_arr (c : Dev nD) (w : Fin cfg8.W) :
    W18 m ρ c (Proc.devRef .tc (Pipeline.arrRef spec8 w)) = (dat8 (V17 m ρ) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m ρ c (Proc.devRef .tc b) = W17 m ρ c (Proc.devRef .tc b) := by
  unfold W18; exact Pipeline.withArrays_of_ne spec8 c _ _ b hb
abbrev V18 : (c : Dev nD) → (b : Ref sig .tc) → Buf (Elt F) ((c : Thread nD τ).loc b) := fun c b => W18 m ρ c b
theorem hF8 (c : Dev nD) (w : Fin cfg8.W) : (dat8 (V17 m ρ) c).arrAt w cfg8.N = V18 m ρ c (Pipeline.arrRef spec8 w) :=
  (W18_arr m ρ c w).symm
theorem hrest8 (c : Dev nD) : ∀ b, b ∉ Finset.univ.image (Pipeline.arrRef spec8) → V18 m ρ c b = V17 m ρ c b :=
  fun b hb => W18_of_ne m ρ c b fun w e => hb (Finset.mem_image.mpr ⟨w, Finset.mem_univ _, e⟩)
/-- A buffer the stretch before region 8 does not write keeps its contents through it. -/
theorem Wodd_of_8 (c : Dev nD) (b : Ref sig .tc) (h : b ∉ hostOps8_W) :
    W17 m ρ c (Proc.devRef .tc b) = W16 m ρ c (Proc.devRef .tc b) :=
  StableHlo.after_of_writes_sub hostOps8 _ hostOps8_writes h
/-- A buffer that is no output array of region 8 keeps its contents through it: an input window's array is
    left as entered, and any other buffer is not the region's. -/
theorem Weven_of_8 (c : Dev nD) (b : Ref sig .tc) (h : b ∉ ([main_v89] : List (Ref sig .tc))) :
    W18 m ρ c (Proc.devRef .tc b) = W17 m ρ c (Proc.devRef .tc b) := by
  by_cases hb : ∃ w, Pipeline.arrRef spec8 w = b
  · obtain ⟨w, rfl⟩ := hb
    match w with
    | ⟨0, _⟩ => exact (W18_arr m ρ c 0).trans (((dat8 (V17 m ρ) c).arrAt_in 0 rfl _).trans (A_eq8 (V17 m ρ) c 0))
    | ⟨1, _⟩ => exact (W18_arr m ρ c 1).trans (((dat8 (V17 m ρ) c).arrAt_in 1 rfl _).trans (A_eq8 (V17 m ρ) c 1))
    | ⟨2, _⟩ => exact (W18_arr m ρ c 2).trans (((dat8 (V17 m ρ) c).arrAt_in 2 rfl _).trans (A_eq8 (V17 m ρ) c 2))
    | ⟨3, _⟩ => exact (h (show main_v89 ∈ ([main_v89] : List (Ref sig .tc)) from by decide)).elim
  · exact W18_of_ne m ρ c b (fun w e => hb ⟨w, e⟩)
/-- After the host stretch before region 9 (region 9's entry). -/
abbrev W19 : Dev nD → Valuation τ sig (Elt F) := fun c => StableHlo.after hostOps9 (W18 m ρ c)
abbrev V19 : (c : Dev nD) → (b : Ref sig .tc) → Buf (Elt F) ((c : Thread nD τ).loc b) := fun c b => W19 m ρ c b
/-- At region 9's exit: its arrays at what the pipeline leaves, every other buffer as entered. -/
def W20 (c : Dev nD) : Valuation τ sig (Elt F) :=
  Pipeline.withArrays spec9 c (W19 m ρ c) fun w => (dat9 (V19 m ρ) c).arrAt w cfg9.N
theorem W20_arr (c : Dev nD) (w : Fin cfg9.W) :
    W20 m ρ c (Proc.devRef .tc (Pipeline.arrRef spec9 w)) = (dat9 (V19 m ρ) c).arrAt w cfg9.N := by
  unfold W20; exact Pipeline.withArrays_arr spec9 launch9.win.arr_inj c _ _ w
theorem W20_of_ne (c : Dev nD) (b : Ref sig .tc) (hb : ∀ w, Pipeline.arrRef spec9 w ≠ b) :
    W20 m ρ c (Proc.devRef .tc b) = W19 m ρ c (Proc.devRef .tc b) := by
  unfold W20; exact Pipeline.withArrays_of_ne spec9 c _ _ b hb
abbrev V20 : (c : Dev nD) → (b : Ref sig .tc) → Buf (Elt F) ((c : Thread nD τ).loc b) := fun c b => W20 m ρ c b
theorem hF9 (c : Dev nD) (w : Fin cfg9.W) : (dat9 (V19 m ρ) c).arrAt w cfg9.N = V20 m ρ c (Pipeline.arrRef spec9 w) :=
  (W20_arr m ρ c w).symm
theorem hrest9 (c : Dev nD) : ∀ b, b ∉ Finset.univ.image (Pipeline.arrRef spec9) → V20 m ρ c b = V19 m ρ c b :=
  fun b hb => W20_of_ne m ρ c b fun w e => hb (Finset.mem_image.mpr ⟨w, Finset.mem_univ _, e⟩)
/-- A buffer the stretch before region 9 does not write keeps its contents through it. -/
theorem Wodd_of_9 (c : Dev nD) (b : Ref sig .tc) (h : b ∉ hostOps9_W) :
    W19 m ρ c (Proc.devRef .tc b) = W18 m ρ c (Proc.devRef .tc b) :=
  StableHlo.after_of_writes_sub hostOps9 _ hostOps9_writes h
/-- A buffer that is no output array of region 9 keeps its contents through it: an input window's array is
    left as entered, and any other buffer is not the region's. -/
theorem Weven_of_9 (c : Dev nD) (b : Ref sig .tc) (h : b ∉ ([main_v93] : List (Ref sig .tc))) :
    W20 m ρ c (Proc.devRef .tc b) = W19 m ρ c (Proc.devRef .tc b) := by
  by_cases hb : ∃ w, Pipeline.arrRef spec9 w = b
  · obtain ⟨w, rfl⟩ := hb
    match w with
    | ⟨0, _⟩ => exact (W20_arr m ρ c 0).trans (((dat9 (V19 m ρ) c).arrAt_in 0 rfl _).trans (A_eq9 (V19 m ρ) c 0))
    | ⟨1, _⟩ => exact (W20_arr m ρ c 1).trans (((dat9 (V19 m ρ) c).arrAt_in 1 rfl _).trans (A_eq9 (V19 m ρ) c 1))
    | ⟨2, _⟩ => exact (W20_arr m ρ c 2).trans (((dat9 (V19 m ρ) c).arrAt_in 2 rfl _).trans (A_eq9 (V19 m ρ) c 2))
    | ⟨3, _⟩ => exact (h (show main_v93 ∈ ([main_v93] : List (Ref sig .tc)) from by decide)).elim
  · exact W20_of_ne m ρ c b (fun w e => hb ⟨w, e⟩)
/-- After the host stretch before region 10 (region 10's entry). -/
abbrev W21 : Dev nD → Valuation τ sig (Elt F) := fun c => StableHlo.after hostOps10 (W20 m ρ c)
abbrev V21 : (c : Dev nD) → (b : Ref sig .tc) → Buf (Elt F) ((c : Thread nD τ).loc b) := fun c b => W21 m ρ c b
/-- At region 10's exit: its arrays at what the pipeline leaves, every other buffer as entered. -/
def W22 (c : Dev nD) : Valuation τ sig (Elt F) :=
  Pipeline.withArrays spec10 c (W21 m ρ c) fun w => (dat10 (V21 m ρ) c).arrAt w cfg10.N
theorem W22_arr (c : Dev nD) (w : Fin cfg10.W) :
    W22 m ρ c (Proc.devRef .tc (Pipeline.arrRef spec10 w)) = (dat10 (V21 m ρ) c).arrAt w cfg10.N := by
  unfold W22; exact Pipeline.withArrays_arr spec10 launch10.win.arr_inj c _ _ w
theorem W22_of_ne (c : Dev nD) (b : Ref sig .tc) (hb : ∀ w, Pipeline.arrRef spec10 w ≠ b) :
    W22 m ρ c (Proc.devRef .tc b) = W21 m ρ c (Proc.devRef .tc b) := by
  unfold W22; exact Pipeline.withArrays_of_ne spec10 c _ _ b hb
abbrev V22 : (c : Dev nD) → (b : Ref sig .tc) → Buf (Elt F) ((c : Thread nD τ).loc b) := fun c b => W22 m ρ c b
theorem hF10 (c : Dev nD) (w : Fin cfg10.W) : (dat10 (V21 m ρ) c).arrAt w cfg10.N = V22 m ρ c (Pipeline.arrRef spec10 w) :=
  (W22_arr m ρ c w).symm
theorem hrest10 (c : Dev nD) : ∀ b, b ∉ Finset.univ.image (Pipeline.arrRef spec10) → V22 m ρ c b = V21 m ρ c b :=
  fun b hb => W22_of_ne m ρ c b fun w e => hb (Finset.mem_image.mpr ⟨w, Finset.mem_univ _, e⟩)
/-- A buffer the stretch before region 10 does not write keeps its contents through it. -/
theorem Wodd_of_10 (c : Dev nD) (b : Ref sig .tc) (h : b ∉ hostOps10_W) :
    W21 m ρ c (Proc.devRef .tc b) = W20 m ρ c (Proc.devRef .tc b) :=
  StableHlo.after_of_writes_sub hostOps10 _ hostOps10_writes h
/-- A buffer that is no output array of region 10 keeps its contents through it: an input window's array is
    left as entered, and any other buffer is not the region's. -/
theorem Weven_of_10 (c : Dev nD) (b : Ref sig .tc) (h : b ∉ ([main_v100] : List (Ref sig .tc))) :
    W22 m ρ c (Proc.devRef .tc b) = W21 m ρ c (Proc.devRef .tc b) := by
  by_cases hb : ∃ w, Pipeline.arrRef spec10 w = b
  · obtain ⟨w, rfl⟩ := hb
    match w with
    | ⟨0, _⟩ => exact (W22_arr m ρ c 0).trans (((dat10 (V21 m ρ) c).arrAt_in 0 rfl _).trans (A_eq10 (V21 m ρ) c 0))
    | ⟨1, _⟩ => exact (W22_arr m ρ c 1).trans (((dat10 (V21 m ρ) c).arrAt_in 1 rfl _).trans (A_eq10 (V21 m ρ) c 1))
    | ⟨2, _⟩ => exact (W22_arr m ρ c 2).trans (((dat10 (V21 m ρ) c).arrAt_in 2 rfl _).trans (A_eq10 (V21 m ρ) c 2))
    | ⟨3, _⟩ => exact (W22_arr m ρ c 3).trans (((dat10 (V21 m ρ) c).arrAt_in 3 rfl _).trans (A_eq10 (V21 m ρ) c 3))
    | ⟨4, _⟩ => exact (W22_arr m ρ c 4).trans (((dat10 (V21 m ρ) c).arrAt_in 4 rfl _).trans (A_eq10 (V21 m ρ) c 4))
    | ⟨5, _⟩ => exact (h (show main_v100 ∈ ([main_v100] : List (Ref sig .tc)) from by decide)).elim
  · exact W22_of_ne m ρ c b (fun w e => hb ⟨w, e⟩)

/-! ## The arguments end as launched -/
theorem W22_main_arg0 (c : Dev nD) : W22 m ρ c (Proc.devRef .tc main_arg0) = m ((c : Thread nD τ).loc main_arg0) :=
  (Weven_of_10 m ρ c main_arg0 (by decide)).trans <| (Wodd_of_10 m ρ c main_arg0 (by decide)).trans <| (Weven_of_9 m ρ c main_arg0 (by decide)).trans <| (Wodd_of_9 m ρ c main_arg0 (by decide)).trans <| (Weven_of_8 m ρ c main_arg0 (by decide)).trans <| (Wodd_of_8 m ρ c main_arg0 (by decide)).trans <| (Weven_of_7 m ρ c main_arg0 (by decide)).trans <| (Wodd_of_7 m ρ c main_arg0 (by decide)).trans <| (Weven_of_6 m ρ c main_arg0 (by decide)).trans <| (Wodd_of_6 m ρ c main_arg0 (by decide)).trans <| (Weven_of_5 m ρ c main_arg0 (by decide)).trans <| (Wodd_of_5 m ρ c main_arg0 (by decide)).trans <| (Weven_of_4 m ρ c main_arg0 (by decide)).trans <| (Wodd_of_4 m ρ c main_arg0 (by decide)).trans <| (Weven_of_3 m ρ c main_arg0 (by decide)).trans <| (Wodd_of_3 m ρ c main_arg0 (by decide)).trans <| (Weven_of_2 m ρ c main_arg0 (by decide)).trans <| (Wodd_of_2 m ρ c main_arg0 (by decide)).trans <| (Weven_of_1 m ρ c main_arg0 (by decide)).trans <| (Wodd_of_1 m ρ c main_arg0 (by decide)).trans <| (Weven_of_0 m ρ c main_arg0 (by decide)).trans <| (Wodd_of_0 m ρ c main_arg0 (by decide)).trans <| rfl
theorem W22_main_arg1 (c : Dev nD) : W22 m ρ c (Proc.devRef .tc main_arg1) = m ((c : Thread nD τ).loc main_arg1) :=
  (Weven_of_10 m ρ c main_arg1 (by decide)).trans <| (Wodd_of_10 m ρ c main_arg1 (by decide)).trans <| (Weven_of_9 m ρ c main_arg1 (by decide)).trans <| (Wodd_of_9 m ρ c main_arg1 (by decide)).trans <| (Weven_of_8 m ρ c main_arg1 (by decide)).trans <| (Wodd_of_8 m ρ c main_arg1 (by decide)).trans <| (Weven_of_7 m ρ c main_arg1 (by decide)).trans <| (Wodd_of_7 m ρ c main_arg1 (by decide)).trans <| (Weven_of_6 m ρ c main_arg1 (by decide)).trans <| (Wodd_of_6 m ρ c main_arg1 (by decide)).trans <| (Weven_of_5 m ρ c main_arg1 (by decide)).trans <| (Wodd_of_5 m ρ c main_arg1 (by decide)).trans <| (Weven_of_4 m ρ c main_arg1 (by decide)).trans <| (Wodd_of_4 m ρ c main_arg1 (by decide)).trans <| (Weven_of_3 m ρ c main_arg1 (by decide)).trans <| (Wodd_of_3 m ρ c main_arg1 (by decide)).trans <| (Weven_of_2 m ρ c main_arg1 (by decide)).trans <| (Wodd_of_2 m ρ c main_arg1 (by decide)).trans <| (Weven_of_1 m ρ c main_arg1 (by decide)).trans <| (Wodd_of_1 m ρ c main_arg1 (by decide)).trans <| (Weven_of_0 m ρ c main_arg1 (by decide)).trans <| (Wodd_of_0 m ρ c main_arg1 (by decide)).trans <| rfl
theorem W22_main_arg2 (c : Dev nD) : W22 m ρ c (Proc.devRef .tc main_arg2) = m ((c : Thread nD τ).loc main_arg2) :=
  (Weven_of_10 m ρ c main_arg2 (by decide)).trans <| (Wodd_of_10 m ρ c main_arg2 (by decide)).trans <| (Weven_of_9 m ρ c main_arg2 (by decide)).trans <| (Wodd_of_9 m ρ c main_arg2 (by decide)).trans <| (Weven_of_8 m ρ c main_arg2 (by decide)).trans <| (Wodd_of_8 m ρ c main_arg2 (by decide)).trans <| (Weven_of_7 m ρ c main_arg2 (by decide)).trans <| (Wodd_of_7 m ρ c main_arg2 (by decide)).trans <| (Weven_of_6 m ρ c main_arg2 (by decide)).trans <| (Wodd_of_6 m ρ c main_arg2 (by decide)).trans <| (Weven_of_5 m ρ c main_arg2 (by decide)).trans <| (Wodd_of_5 m ρ c main_arg2 (by decide)).trans <| (Weven_of_4 m ρ c main_arg2 (by decide)).trans <| (Wodd_of_4 m ρ c main_arg2 (by decide)).trans <| (Weven_of_3 m ρ c main_arg2 (by decide)).trans <| (Wodd_of_3 m ρ c main_arg2 (by decide)).trans <| (Weven_of_2 m ρ c main_arg2 (by decide)).trans <| (Wodd_of_2 m ρ c main_arg2 (by decide)).trans <| (Weven_of_1 m ρ c main_arg2 (by decide)).trans <| (Wodd_of_1 m ρ c main_arg2 (by decide)).trans <| (Weven_of_0 m ρ c main_arg2 (by decide)).trans <| (Wodd_of_0 m ρ c main_arg2 (by decide)).trans <| rfl
theorem W22_main_arg3 (c : Dev nD) : W22 m ρ c (Proc.devRef .tc main_arg3) = m ((c : Thread nD τ).loc main_arg3) :=
  (Weven_of_10 m ρ c main_arg3 (by decide)).trans <| (Wodd_of_10 m ρ c main_arg3 (by decide)).trans <| (Weven_of_9 m ρ c main_arg3 (by decide)).trans <| (Wodd_of_9 m ρ c main_arg3 (by decide)).trans <| (Weven_of_8 m ρ c main_arg3 (by decide)).trans <| (Wodd_of_8 m ρ c main_arg3 (by decide)).trans <| (Weven_of_7 m ρ c main_arg3 (by decide)).trans <| (Wodd_of_7 m ρ c main_arg3 (by decide)).trans <| (Weven_of_6 m ρ c main_arg3 (by decide)).trans <| (Wodd_of_6 m ρ c main_arg3 (by decide)).trans <| (Weven_of_5 m ρ c main_arg3 (by decide)).trans <| (Wodd_of_5 m ρ c main_arg3 (by decide)).trans <| (Weven_of_4 m ρ c main_arg3 (by decide)).trans <| (Wodd_of_4 m ρ c main_arg3 (by decide)).trans <| (Weven_of_3 m ρ c main_arg3 (by decide)).trans <| (Wodd_of_3 m ρ c main_arg3 (by decide)).trans <| (Weven_of_2 m ρ c main_arg3 (by decide)).trans <| (Wodd_of_2 m ρ c main_arg3 (by decide)).trans <| (Weven_of_1 m ρ c main_arg3 (by decide)).trans <| (Wodd_of_1 m ρ c main_arg3 (by decide)).trans <| (Weven_of_0 m ρ c main_arg3 (by decide)).trans <| (Wodd_of_0 m ρ c main_arg3 (by decide)).trans <| rfl
theorem W22_main_arg4 (c : Dev nD) : W22 m ρ c (Proc.devRef .tc main_arg4) = m ((c : Thread nD τ).loc main_arg4) :=
  (Weven_of_10 m ρ c main_arg4 (by decide)).trans <| (Wodd_of_10 m ρ c main_arg4 (by decide)).trans <| (Weven_of_9 m ρ c main_arg4 (by decide)).trans <| (Wodd_of_9 m ρ c main_arg4 (by decide)).trans <| (Weven_of_8 m ρ c main_arg4 (by decide)).trans <| (Wodd_of_8 m ρ c main_arg4 (by decide)).trans <| (Weven_of_7 m ρ c main_arg4 (by decide)).trans <| (Wodd_of_7 m ρ c main_arg4 (by decide)).trans <| (Weven_of_6 m ρ c main_arg4 (by decide)).trans <| (Wodd_of_6 m ρ c main_arg4 (by decide)).trans <| (Weven_of_5 m ρ c main_arg4 (by decide)).trans <| (Wodd_of_5 m ρ c main_arg4 (by decide)).trans <| (Weven_of_4 m ρ c main_arg4 (by decide)).trans <| (Wodd_of_4 m ρ c main_arg4 (by decide)).trans <| (Weven_of_3 m ρ c main_arg4 (by decide)).trans <| (Wodd_of_3 m ρ c main_arg4 (by decide)).trans <| (Weven_of_2 m ρ c main_arg4 (by decide)).trans <| (Wodd_of_2 m ρ c main_arg4 (by decide)).trans <| (Weven_of_1 m ρ c main_arg4 (by decide)).trans <| (Wodd_of_1 m ρ c main_arg4 (by decide)).trans <| (Weven_of_0 m ρ c main_arg4 (by decide)).trans <| (Wodd_of_0 m ρ c main_arg4 (by decide)).trans <| rfl
theorem W22_main_arg5 (c : Dev nD) : W22 m ρ c (Proc.devRef .tc main_arg5) = m ((c : Thread nD τ).loc main_arg5) :=
  (Weven_of_10 m ρ c main_arg5 (by decide)).trans <| (Wodd_of_10 m ρ c main_arg5 (by decide)).trans <| (Weven_of_9 m ρ c main_arg5 (by decide)).trans <| (Wodd_of_9 m ρ c main_arg5 (by decide)).trans <| (Weven_of_8 m ρ c main_arg5 (by decide)).trans <| (Wodd_of_8 m ρ c main_arg5 (by decide)).trans <| (Weven_of_7 m ρ c main_arg5 (by decide)).trans <| (Wodd_of_7 m ρ c main_arg5 (by decide)).trans <| (Weven_of_6 m ρ c main_arg5 (by decide)).trans <| (Wodd_of_6 m ρ c main_arg5 (by decide)).trans <| (Weven_of_5 m ρ c main_arg5 (by decide)).trans <| (Wodd_of_5 m ρ c main_arg5 (by decide)).trans <| (Weven_of_4 m ρ c main_arg5 (by decide)).trans <| (Wodd_of_4 m ρ c main_arg5 (by decide)).trans <| (Weven_of_3 m ρ c main_arg5 (by decide)).trans <| (Wodd_of_3 m ρ c main_arg5 (by decide)).trans <| (Weven_of_2 m ρ c main_arg5 (by decide)).trans <| (Wodd_of_2 m ρ c main_arg5 (by decide)).trans <| (Weven_of_1 m ρ c main_arg5 (by decide)).trans <| (Wodd_of_1 m ρ c main_arg5 (by decide)).trans <| (Weven_of_0 m ρ c main_arg5 (by decide)).trans <| (Wodd_of_0 m ρ c main_arg5 (by decide)).trans <| rfl
theorem W22_main_arg6 (c : Dev nD) : W22 m ρ c (Proc.devRef .tc main_arg6) = m ((c : Thread nD τ).loc main_arg6) :=
  (Weven_of_10 m ρ c main_arg6 (by decide)).trans <| (Wodd_of_10 m ρ c main_arg6 (by decide)).trans <| (Weven_of_9 m ρ c main_arg6 (by decide)).trans <| (Wodd_of_9 m ρ c main_arg6 (by decide)).trans <| (Weven_of_8 m ρ c main_arg6 (by decide)).trans <| (Wodd_of_8 m ρ c main_arg6 (by decide)).trans <| (Weven_of_7 m ρ c main_arg6 (by decide)).trans <| (Wodd_of_7 m ρ c main_arg6 (by decide)).trans <| (Weven_of_6 m ρ c main_arg6 (by decide)).trans <| (Wodd_of_6 m ρ c main_arg6 (by decide)).trans <| (Weven_of_5 m ρ c main_arg6 (by decide)).trans <| (Wodd_of_5 m ρ c main_arg6 (by decide)).trans <| (Weven_of_4 m ρ c main_arg6 (by decide)).trans <| (Wodd_of_4 m ρ c main_arg6 (by decide)).trans <| (Weven_of_3 m ρ c main_arg6 (by decide)).trans <| (Wodd_of_3 m ρ c main_arg6 (by decide)).trans <| (Weven_of_2 m ρ c main_arg6 (by decide)).trans <| (Wodd_of_2 m ρ c main_arg6 (by decide)).trans <| (Weven_of_1 m ρ c main_arg6 (by decide)).trans <| (Wodd_of_1 m ρ c main_arg6 (by decide)).trans <| (Weven_of_0 m ρ c main_arg6 (by decide)).trans <| (Wodd_of_0 m ρ c main_arg6 (by decide)).trans <| rfl
theorem W22_main_arg7 (c : Dev nD) : W22 m ρ c (Proc.devRef .tc main_arg7) = m ((c : Thread nD τ).loc main_arg7) :=
  (Weven_of_10 m ρ c main_arg7 (by decide)).trans <| (Wodd_of_10 m ρ c main_arg7 (by decide)).trans <| (Weven_of_9 m ρ c main_arg7 (by decide)).trans <| (Wodd_of_9 m ρ c main_arg7 (by decide)).trans <| (Weven_of_8 m ρ c main_arg7 (by decide)).trans <| (Wodd_of_8 m ρ c main_arg7 (by decide)).trans <| (Weven_of_7 m ρ c main_arg7 (by decide)).trans <| (Wodd_of_7 m ρ c main_arg7 (by decide)).trans <| (Weven_of_6 m ρ c main_arg7 (by decide)).trans <| (Wodd_of_6 m ρ c main_arg7 (by decide)).trans <| (Weven_of_5 m ρ c main_arg7 (by decide)).trans <| (Wodd_of_5 m ρ c main_arg7 (by decide)).trans <| (Weven_of_4 m ρ c main_arg7 (by decide)).trans <| (Wodd_of_4 m ρ c main_arg7 (by decide)).trans <| (Weven_of_3 m ρ c main_arg7 (by decide)).trans <| (Wodd_of_3 m ρ c main_arg7 (by decide)).trans <| (Weven_of_2 m ρ c main_arg7 (by decide)).trans <| (Wodd_of_2 m ρ c main_arg7 (by decide)).trans <| (Weven_of_1 m ρ c main_arg7 (by decide)).trans <| (Wodd_of_1 m ρ c main_arg7 (by decide)).trans <| (Weven_of_0 m ρ c main_arg7 (by decide)).trans <| (Wodd_of_0 m ρ c main_arg7 (by decide)).trans <| rfl
theorem W22_main_arg8 (c : Dev nD) : W22 m ρ c (Proc.devRef .tc main_arg8) = m ((c : Thread nD τ).loc main_arg8) :=
  (Weven_of_10 m ρ c main_arg8 (by decide)).trans <| (Wodd_of_10 m ρ c main_arg8 (by decide)).trans <| (Weven_of_9 m ρ c main_arg8 (by decide)).trans <| (Wodd_of_9 m ρ c main_arg8 (by decide)).trans <| (Weven_of_8 m ρ c main_arg8 (by decide)).trans <| (Wodd_of_8 m ρ c main_arg8 (by decide)).trans <| (Weven_of_7 m ρ c main_arg8 (by decide)).trans <| (Wodd_of_7 m ρ c main_arg8 (by decide)).trans <| (Weven_of_6 m ρ c main_arg8 (by decide)).trans <| (Wodd_of_6 m ρ c main_arg8 (by decide)).trans <| (Weven_of_5 m ρ c main_arg8 (by decide)).trans <| (Wodd_of_5 m ρ c main_arg8 (by decide)).trans <| (Weven_of_4 m ρ c main_arg8 (by decide)).trans <| (Wodd_of_4 m ρ c main_arg8 (by decide)).trans <| (Weven_of_3 m ρ c main_arg8 (by decide)).trans <| (Wodd_of_3 m ρ c main_arg8 (by decide)).trans <| (Weven_of_2 m ρ c main_arg8 (by decide)).trans <| (Wodd_of_2 m ρ c main_arg8 (by decide)).trans <| (Weven_of_1 m ρ c main_arg8 (by decide)).trans <| (Wodd_of_1 m ρ c main_arg8 (by decide)).trans <| (Weven_of_0 m ρ c main_arg8 (by decide)).trans <| (Wodd_of_0 m ρ c main_arg8 (by decide)).trans <| rfl
theorem W22_main_arg9 (c : Dev nD) : W22 m ρ c (Proc.devRef .tc main_arg9) = m ((c : Thread nD τ).loc main_arg9) :=
  (Weven_of_10 m ρ c main_arg9 (by decide)).trans <| (Wodd_of_10 m ρ c main_arg9 (by decide)).trans <| (Weven_of_9 m ρ c main_arg9 (by decide)).trans <| (Wodd_of_9 m ρ c main_arg9 (by decide)).trans <| (Weven_of_8 m ρ c main_arg9 (by decide)).trans <| (Wodd_of_8 m ρ c main_arg9 (by decide)).trans <| (Weven_of_7 m ρ c main_arg9 (by decide)).trans <| (Wodd_of_7 m ρ c main_arg9 (by decide)).trans <| (Weven_of_6 m ρ c main_arg9 (by decide)).trans <| (Wodd_of_6 m ρ c main_arg9 (by decide)).trans <| (Weven_of_5 m ρ c main_arg9 (by decide)).trans <| (Wodd_of_5 m ρ c main_arg9 (by decide)).trans <| (Weven_of_4 m ρ c main_arg9 (by decide)).trans <| (Wodd_of_4 m ρ c main_arg9 (by decide)).trans <| (Weven_of_3 m ρ c main_arg9 (by decide)).trans <| (Wodd_of_3 m ρ c main_arg9 (by decide)).trans <| (Weven_of_2 m ρ c main_arg9 (by decide)).trans <| (Wodd_of_2 m ρ c main_arg9 (by decide)).trans <| (Weven_of_1 m ρ c main_arg9 (by decide)).trans <| (Wodd_of_1 m ρ c main_arg9 (by decide)).trans <| (Weven_of_0 m ρ c main_arg9 (by decide)).trans <| (Wodd_of_0 m ρ c main_arg9 (by decide)).trans <| rfl
theorem W22_main_arg10 (c : Dev nD) : W22 m ρ c (Proc.devRef .tc main_arg10) = m ((c : Thread nD τ).loc main_arg10) :=
  (Weven_of_10 m ρ c main_arg10 (by decide)).trans <| (Wodd_of_10 m ρ c main_arg10 (by decide)).trans <| (Weven_of_9 m ρ c main_arg10 (by decide)).trans <| (Wodd_of_9 m ρ c main_arg10 (by decide)).trans <| (Weven_of_8 m ρ c main_arg10 (by decide)).trans <| (Wodd_of_8 m ρ c main_arg10 (by decide)).trans <| (Weven_of_7 m ρ c main_arg10 (by decide)).trans <| (Wodd_of_7 m ρ c main_arg10 (by decide)).trans <| (Weven_of_6 m ρ c main_arg10 (by decide)).trans <| (Wodd_of_6 m ρ c main_arg10 (by decide)).trans <| (Weven_of_5 m ρ c main_arg10 (by decide)).trans <| (Wodd_of_5 m ρ c main_arg10 (by decide)).trans <| (Weven_of_4 m ρ c main_arg10 (by decide)).trans <| (Wodd_of_4 m ρ c main_arg10 (by decide)).trans <| (Weven_of_3 m ρ c main_arg10 (by decide)).trans <| (Wodd_of_3 m ρ c main_arg10 (by decide)).trans <| (Weven_of_2 m ρ c main_arg10 (by decide)).trans <| (Wodd_of_2 m ρ c main_arg10 (by decide)).trans <| (Weven_of_1 m ρ c main_arg10 (by decide)).trans <| (Wodd_of_1 m ρ c main_arg10 (by decide)).trans <| (Weven_of_0 m ρ c main_arg10 (by decide)).trans <| (Wodd_of_0 m ρ c main_arg10 (by decide)).trans <| rfl
theorem W22_main_arg11 (c : Dev nD) : W22 m ρ c (Proc.devRef .tc main_arg11) = m ((c : Thread nD τ).loc main_arg11) :=
  (Weven_of_10 m ρ c main_arg11 (by decide)).trans <| (Wodd_of_10 m ρ c main_arg11 (by decide)).trans <| (Weven_of_9 m ρ c main_arg11 (by decide)).trans <| (Wodd_of_9 m ρ c main_arg11 (by decide)).trans <| (Weven_of_8 m ρ c main_arg11 (by decide)).trans <| (Wodd_of_8 m ρ c main_arg11 (by decide)).trans <| (Weven_of_7 m ρ c main_arg11 (by decide)).trans <| (Wodd_of_7 m ρ c main_arg11 (by decide)).trans <| (Weven_of_6 m ρ c main_arg11 (by decide)).trans <| (Wodd_of_6 m ρ c main_arg11 (by decide)).trans <| (Weven_of_5 m ρ c main_arg11 (by decide)).trans <| (Wodd_of_5 m ρ c main_arg11 (by decide)).trans <| (Weven_of_4 m ρ c main_arg11 (by decide)).trans <| (Wodd_of_4 m ρ c main_arg11 (by decide)).trans <| (Weven_of_3 m ρ c main_arg11 (by decide)).trans <| (Wodd_of_3 m ρ c main_arg11 (by decide)).trans <| (Weven_of_2 m ρ c main_arg11 (by decide)).trans <| (Wodd_of_2 m ρ c main_arg11 (by decide)).trans <| (Weven_of_1 m ρ c main_arg11 (by decide)).trans <| (Wodd_of_1 m ρ c main_arg11 (by decide)).trans <| (Weven_of_0 m ρ c main_arg11 (by decide)).trans <| (Wodd_of_0 m ρ c main_arg11 (by decide)).trans <| rfl
theorem W22_main_arg12 (c : Dev nD) : W22 m ρ c (Proc.devRef .tc main_arg12) = m ((c : Thread nD τ).loc main_arg12) :=
  (Weven_of_10 m ρ c main_arg12 (by decide)).trans <| (Wodd_of_10 m ρ c main_arg12 (by decide)).trans <| (Weven_of_9 m ρ c main_arg12 (by decide)).trans <| (Wodd_of_9 m ρ c main_arg12 (by decide)).trans <| (Weven_of_8 m ρ c main_arg12 (by decide)).trans <| (Wodd_of_8 m ρ c main_arg12 (by decide)).trans <| (Weven_of_7 m ρ c main_arg12 (by decide)).trans <| (Wodd_of_7 m ρ c main_arg12 (by decide)).trans <| (Weven_of_6 m ρ c main_arg12 (by decide)).trans <| (Wodd_of_6 m ρ c main_arg12 (by decide)).trans <| (Weven_of_5 m ρ c main_arg12 (by decide)).trans <| (Wodd_of_5 m ρ c main_arg12 (by decide)).trans <| (Weven_of_4 m ρ c main_arg12 (by decide)).trans <| (Wodd_of_4 m ρ c main_arg12 (by decide)).trans <| (Weven_of_3 m ρ c main_arg12 (by decide)).trans <| (Wodd_of_3 m ρ c main_arg12 (by decide)).trans <| (Weven_of_2 m ρ c main_arg12 (by decide)).trans <| (Wodd_of_2 m ρ c main_arg12 (by decide)).trans <| (Weven_of_1 m ρ c main_arg12 (by decide)).trans <| (Wodd_of_1 m ρ c main_arg12 (by decide)).trans <| (Weven_of_0 m ρ c main_arg12 (by decide)).trans <| (Wodd_of_0 m ρ c main_arg12 (by decide)).trans <| rfl
theorem W22_main_arg13 (c : Dev nD) : W22 m ρ c (Proc.devRef .tc main_arg13) = m ((c : Thread nD τ).loc main_arg13) :=
  (Weven_of_10 m ρ c main_arg13 (by decide)).trans <| (Wodd_of_10 m ρ c main_arg13 (by decide)).trans <| (Weven_of_9 m ρ c main_arg13 (by decide)).trans <| (Wodd_of_9 m ρ c main_arg13 (by decide)).trans <| (Weven_of_8 m ρ c main_arg13 (by decide)).trans <| (Wodd_of_8 m ρ c main_arg13 (by decide)).trans <| (Weven_of_7 m ρ c main_arg13 (by decide)).trans <| (Wodd_of_7 m ρ c main_arg13 (by decide)).trans <| (Weven_of_6 m ρ c main_arg13 (by decide)).trans <| (Wodd_of_6 m ρ c main_arg13 (by decide)).trans <| (Weven_of_5 m ρ c main_arg13 (by decide)).trans <| (Wodd_of_5 m ρ c main_arg13 (by decide)).trans <| (Weven_of_4 m ρ c main_arg13 (by decide)).trans <| (Wodd_of_4 m ρ c main_arg13 (by decide)).trans <| (Weven_of_3 m ρ c main_arg13 (by decide)).trans <| (Wodd_of_3 m ρ c main_arg13 (by decide)).trans <| (Weven_of_2 m ρ c main_arg13 (by decide)).trans <| (Wodd_of_2 m ρ c main_arg13 (by decide)).trans <| (Weven_of_1 m ρ c main_arg13 (by decide)).trans <| (Wodd_of_1 m ρ c main_arg13 (by decide)).trans <| (Weven_of_0 m ρ c main_arg13 (by decide)).trans <| (Wodd_of_0 m ρ c main_arg13 (by decide)).trans <| rfl
theorem W22_main_arg14 (c : Dev nD) : W22 m ρ c (Proc.devRef .tc main_arg14) = m ((c : Thread nD τ).loc main_arg14) :=
  (Weven_of_10 m ρ c main_arg14 (by decide)).trans <| (Wodd_of_10 m ρ c main_arg14 (by decide)).trans <| (Weven_of_9 m ρ c main_arg14 (by decide)).trans <| (Wodd_of_9 m ρ c main_arg14 (by decide)).trans <| (Weven_of_8 m ρ c main_arg14 (by decide)).trans <| (Wodd_of_8 m ρ c main_arg14 (by decide)).trans <| (Weven_of_7 m ρ c main_arg14 (by decide)).trans <| (Wodd_of_7 m ρ c main_arg14 (by decide)).trans <| (Weven_of_6 m ρ c main_arg14 (by decide)).trans <| (Wodd_of_6 m ρ c main_arg14 (by decide)).trans <| (Weven_of_5 m ρ c main_arg14 (by decide)).trans <| (Wodd_of_5 m ρ c main_arg14 (by decide)).trans <| (Weven_of_4 m ρ c main_arg14 (by decide)).trans <| (Wodd_of_4 m ρ c main_arg14 (by decide)).trans <| (Weven_of_3 m ρ c main_arg14 (by decide)).trans <| (Wodd_of_3 m ρ c main_arg14 (by decide)).trans <| (Weven_of_2 m ρ c main_arg14 (by decide)).trans <| (Wodd_of_2 m ρ c main_arg14 (by decide)).trans <| (Weven_of_1 m ρ c main_arg14 (by decide)).trans <| (Wodd_of_1 m ρ c main_arg14 (by decide)).trans <| (Weven_of_0 m ρ c main_arg14 (by decide)).trans <| (Wodd_of_0 m ρ c main_arg14 (by decide)).trans <| rfl
theorem W22_main_arg15 (c : Dev nD) : W22 m ρ c (Proc.devRef .tc main_arg15) = m ((c : Thread nD τ).loc main_arg15) :=
  (Weven_of_10 m ρ c main_arg15 (by decide)).trans <| (Wodd_of_10 m ρ c main_arg15 (by decide)).trans <| (Weven_of_9 m ρ c main_arg15 (by decide)).trans <| (Wodd_of_9 m ρ c main_arg15 (by decide)).trans <| (Weven_of_8 m ρ c main_arg15 (by decide)).trans <| (Wodd_of_8 m ρ c main_arg15 (by decide)).trans <| (Weven_of_7 m ρ c main_arg15 (by decide)).trans <| (Wodd_of_7 m ρ c main_arg15 (by decide)).trans <| (Weven_of_6 m ρ c main_arg15 (by decide)).trans <| (Wodd_of_6 m ρ c main_arg15 (by decide)).trans <| (Weven_of_5 m ρ c main_arg15 (by decide)).trans <| (Wodd_of_5 m ρ c main_arg15 (by decide)).trans <| (Weven_of_4 m ρ c main_arg15 (by decide)).trans <| (Wodd_of_4 m ρ c main_arg15 (by decide)).trans <| (Weven_of_3 m ρ c main_arg15 (by decide)).trans <| (Wodd_of_3 m ρ c main_arg15 (by decide)).trans <| (Weven_of_2 m ρ c main_arg15 (by decide)).trans <| (Wodd_of_2 m ρ c main_arg15 (by decide)).trans <| (Weven_of_1 m ρ c main_arg15 (by decide)).trans <| (Wodd_of_1 m ρ c main_arg15 (by decide)).trans <| (Weven_of_0 m ρ c main_arg15 (by decide)).trans <| (Wodd_of_0 m ρ c main_arg15 (by decide)).trans <| rfl
theorem W22_main_arg16 (c : Dev nD) : W22 m ρ c (Proc.devRef .tc main_arg16) = m ((c : Thread nD τ).loc main_arg16) :=
  (Weven_of_10 m ρ c main_arg16 (by decide)).trans <| (Wodd_of_10 m ρ c main_arg16 (by decide)).trans <| (Weven_of_9 m ρ c main_arg16 (by decide)).trans <| (Wodd_of_9 m ρ c main_arg16 (by decide)).trans <| (Weven_of_8 m ρ c main_arg16 (by decide)).trans <| (Wodd_of_8 m ρ c main_arg16 (by decide)).trans <| (Weven_of_7 m ρ c main_arg16 (by decide)).trans <| (Wodd_of_7 m ρ c main_arg16 (by decide)).trans <| (Weven_of_6 m ρ c main_arg16 (by decide)).trans <| (Wodd_of_6 m ρ c main_arg16 (by decide)).trans <| (Weven_of_5 m ρ c main_arg16 (by decide)).trans <| (Wodd_of_5 m ρ c main_arg16 (by decide)).trans <| (Weven_of_4 m ρ c main_arg16 (by decide)).trans <| (Wodd_of_4 m ρ c main_arg16 (by decide)).trans <| (Weven_of_3 m ρ c main_arg16 (by decide)).trans <| (Wodd_of_3 m ρ c main_arg16 (by decide)).trans <| (Weven_of_2 m ρ c main_arg16 (by decide)).trans <| (Wodd_of_2 m ρ c main_arg16 (by decide)).trans <| (Weven_of_1 m ρ c main_arg16 (by decide)).trans <| (Wodd_of_1 m ρ c main_arg16 (by decide)).trans <| (Weven_of_0 m ρ c main_arg16 (by decide)).trans <| (Wodd_of_0 m ρ c main_arg16 (by decide)).trans <| rfl
theorem W22_main_arg17 (c : Dev nD) : W22 m ρ c (Proc.devRef .tc main_arg17) = m ((c : Thread nD τ).loc main_arg17) :=
  (Weven_of_10 m ρ c main_arg17 (by decide)).trans <| (Wodd_of_10 m ρ c main_arg17 (by decide)).trans <| (Weven_of_9 m ρ c main_arg17 (by decide)).trans <| (Wodd_of_9 m ρ c main_arg17 (by decide)).trans <| (Weven_of_8 m ρ c main_arg17 (by decide)).trans <| (Wodd_of_8 m ρ c main_arg17 (by decide)).trans <| (Weven_of_7 m ρ c main_arg17 (by decide)).trans <| (Wodd_of_7 m ρ c main_arg17 (by decide)).trans <| (Weven_of_6 m ρ c main_arg17 (by decide)).trans <| (Wodd_of_6 m ρ c main_arg17 (by decide)).trans <| (Weven_of_5 m ρ c main_arg17 (by decide)).trans <| (Wodd_of_5 m ρ c main_arg17 (by decide)).trans <| (Weven_of_4 m ρ c main_arg17 (by decide)).trans <| (Wodd_of_4 m ρ c main_arg17 (by decide)).trans <| (Weven_of_3 m ρ c main_arg17 (by decide)).trans <| (Wodd_of_3 m ρ c main_arg17 (by decide)).trans <| (Weven_of_2 m ρ c main_arg17 (by decide)).trans <| (Wodd_of_2 m ρ c main_arg17 (by decide)).trans <| (Weven_of_1 m ρ c main_arg17 (by decide)).trans <| (Wodd_of_1 m ρ c main_arg17 (by decide)).trans <| (Weven_of_0 m ρ c main_arg17 (by decide)).trans <| (Wodd_of_0 m ρ c main_arg17 (by decide)).trans <| rfl

end Cert.KernelIdeal.Hand

end
-- ==== Proof.KI.Run.lean ====
/-
  @main as a list of segments: eleven kernel regions among stretches of host operations. The TensorCore's buffer
  contents at every boundary are a fold from the launch memory — after a host stretch the stretch's operations
  applied, after a region its windows' arrays at what the pipeline's write-backs leave and every other buffer as
  entered —; each region is entered from "every unscoped buffer at the boundary's contents" and left at the next
  boundary's. The run ends with every unscoped buffer at the last boundary's contents, from which the argument arrays
  read back as launched (no stretch and no region writes one) and the result buffer reads as the last region's array.
-/
import proofs.«128986_j27779848471455_1_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 11) → (pcfgs (F := F) p).Adm := fun p => (cfgs p).toPCfg_adm
/-- Every pipeline's proof data, each at its region's entry contents. -/
def pdats : (p : Fin 11) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
  | ⟨6, _⟩ => fun c => dat6 (V13 m ρ) c
  | ⟨7, _⟩ => fun c => dat7 (V15 m ρ) c
  | ⟨8, _⟩ => fun c => dat8 (V17 m ρ) c
  | ⟨9, _⟩ => fun c => dat9 (V19 m ρ) c
  | ⟨10, _⟩ => fun c => dat10 (V21 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes` at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W22 m ρ c) ∗ ∃ r, prngReg c r)

/-! ## The regions as segments -/

/-- Region 0's invariant in the launch's form gives back the generator register and the scoped buffers no window stages. -/
theorem PhiA_out0 (c : Dev nD) : (Pipeline.ΦA spec0 c : sProp 𝕄)
    ⊢ iprop((∃ r, prngReg c r) ∗ BI.emp ∗ Pipeline.scopedRest (Ix := Unit) (Name := ℕ) (U := UR sig nD τ) (Lvl := ℕ) (Val := Elt F) spec0 c) := by
  unfold Pipeline.ΦA
  iintro ⟨Hr, Hp⟩
  isplitl [Hp]; · iexact Hp
  isplitr; · iempintro
  iexact Hr

set_option backward.isDefEq.respectTransparency.types false in
/-- Region 0 over the thread state: entered from every unscoped buffer at `W1`, left at `W2`. Its arrays are split out
    of the unscoped buffers and put back at the exit contents; the generator register goes into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (hout0 (V1 m ρ) c).trans (PhiA_out0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out
    of the unscoped buffers and put back at the exit contents; the generator register goes into the invariant and out. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out
    of the unscoped buffers and put back at the exit contents; the generator register goes into the invariant and out. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. Its arrays are split out
    of the unscoped buffers and put back at the exit contents; the generator register goes into the invariant and out. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. Its arrays are split out
    of the unscoped buffers and put back at the exit contents; the generator register goes into the invariant and out. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W11`, left at `W12`. Its arrays are split out
    of the unscoped buffers and put back at the exit contents; the generator register goes into the invariant and out. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at `W13`, left at `W14`. Its arrays are split out
    of the unscoped buffers and put back at the exit contents; the generator register goes into the invariant and out. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V13 m ρ) c).loose
  hwaits := Pipeline.hwaits_of_owed_zero _ _ _ _ L lv 6 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec6 c (V13 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V13 m ρ c) (V14 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7 over the thread state: entered from every unscoped buffer at `W15`, left at `W16`. Its arrays are split out
    of the unscoped buffers and put back at the exit contents; the generator register goes into the invariant and out. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V15 m ρ) c).loose
  hwaits := Pipeline.hwaits_of_owed_zero _ _ _ _ L lv 7 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec7 c (V15 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V15 m ρ c) (V16 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8 over the thread state: entered from every unscoped buffer at `W17`, left at `W18`. Its arrays are split out
    of the unscoped buffers and put back at the exit contents; the generator register goes into the invariant and out. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V17 m ρ) c).loose
  hwaits := Pipeline.hwaits_of_owed_zero _ _ _ _ L lv 8 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec8 c (V17 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V17 m ρ c) (V18 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 9 over the thread state: entered from every unscoped buffer at `W19`, left at `W20`. Its arrays are split out
    of the unscoped buffers and put back at the exit contents; the generator register goes into the invariant and out. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V19 m ρ) c).loose
  hwaits := Pipeline.hwaits_of_owed_zero _ _ _ _ L lv 9 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec9 c (V19 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V19 m ρ c) (V20 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 10 over the thread state: entered from every unscoped buffer at `W21`, left at `W22`. Its arrays are split out
    of the unscoped buffers and put back at the exit contents; the generator register goes into the invariant and out. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V21 m ρ) c).loose
  hwaits := Pipeline.hwaits_of_owed_zero _ _ _ _ L lv 10 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec10 c (V21 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V21 m ρ c) (V22 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)),
    .region (reg6 m ρ),
    .host (hseg hostOps7 hostOps7_sub hostOps7_fresh (W14 m ρ)),
    .region (reg7 m ρ),
    .host (hseg hostOps8 hostOps8_sub hostOps8_fresh (W16 m ρ)),
    .region (reg8 m ρ),
    .host (hseg hostOps9 hostOps9_sub hostOps9_fresh (W18 m ρ)),
    .region (reg9 m ρ),
    .host (hseg hostOps10 hostOps10_sub hostOps10_fresh (W20 m ρ)),
    .region (reg10 m ρ) ]

theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W22 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h => h)

/-- The frame claim's post and the result's value from the run: each argument's buffer read back through the fold to
    the launch memory, the result buffer read as the last region's output array after its write-backs. -/
theorem run_value : θ_run defs (onTc (τ := τ) (main (F := F))) ⟨m, fun _ => 0, ρ⟩ (fun r => ∀ c : Dev nD,
      r.2.mem ((c.tc : Thread nD τ).loc main_v100) = (dat10 (V21 m ρ) c).arrAt 5 cfg10.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun s h c =>
    ⟨(h c _ (mem_uc main_v100 (by decide))).trans (W22_arr m ρ c 5),
     (h c _ (mem_uc main_arg0 (by decide))).trans (W22_main_arg0 m ρ c),
     (h c _ (mem_uc main_arg1 (by decide))).trans (W22_main_arg1 m ρ c),
     (h c _ (mem_uc main_arg2 (by decide))).trans (W22_main_arg2 m ρ c),
     (h c _ (mem_uc main_arg3 (by decide))).trans (W22_main_arg3 m ρ c),
     (h c _ (mem_uc main_arg4 (by decide))).trans (W22_main_arg4 m ρ c),
     (h c _ (mem_uc main_arg5 (by decide))).trans (W22_main_arg5 m ρ c),
     (h c _ (mem_uc main_arg6 (by decide))).trans (W22_main_arg6 m ρ c),
     (h c _ (mem_uc main_arg7 (by decide))).trans (W22_main_arg7 m ρ c),
     (h c _ (mem_uc main_arg8 (by decide))).trans (W22_main_arg8 m ρ c),
     (h c _ (mem_uc main_arg9 (by decide))).trans (W22_main_arg9 m ρ c),
     (h c _ (mem_uc main_arg10 (by decide))).trans (W22_main_arg10 m ρ c),
     (h c _ (mem_uc main_arg11 (by decide))).trans (W22_main_arg11 m ρ c),
     (h c _ (mem_uc main_arg12 (by decide))).trans (W22_main_arg12 m ρ c),
     (h c _ (mem_uc main_arg13 (by decide))).trans (W22_main_arg13 m ρ c),
     (h c _ (mem_uc main_arg14 (by decide))).trans (W22_main_arg14 m ρ c),
     (h c _ (mem_uc main_arg15 (by decide))).trans (W22_main_arg15 m ρ c),
     (h c _ (mem_uc main_arg16 (by decide))).trans (W22_main_arg16 m ρ c),
     (h c _ (mem_uc main_arg17 (by decide))).trans (W22_main_arg17 m ρ c)⟩) (run m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun s h c => (h c).2) (run_value m ρ)

end Cert.KernelIdeal.Hand

end
-- ==== Proof.Ref.Run1.lean ====
/- The reference program's @main as a list of host operations, cut into ten consecutive windows, with the
   equation `main = seq ops`, the inclusion of every touched buffer in the TensorCore's references, the list of
   buffers each window writes, and that a buffer a window does not write keeps its contents through it.
   A called function's operations stand in its call's place, at the call's buffers. -/
import proofs.«128986_j27779848471455_1_alg».proof.ReferenceIdeal
import proofs.«128986_j27779848471455_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 22 of 192: the two input layers (linear, PReLU, linear, PReLU). -/
def w0 : List (HloOp τ sig (Elt F)) :=
  [ binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    nullary main_cst (constant S_ .f32 0x00000000#32),
    unary main_cst main_v4 (broadcastInDim S100000x64 ![] bcast_S_S100000x64 : (⟨S_, .f32⟩ : BufTy).Contents (Elt F) → (⟨S100000x64, .f32⟩ : BufTy).Contents (Elt F)),
    binary main_v3 main_v4 main_v5 (cmpf .oge : (⟨S100000x64, .f32⟩ : BufTy).Contents (Elt F) → (⟨S100000x64, .f32⟩ : BufTy).Contents (Elt F) → (⟨S100000x64, .i1⟩ : BufTy).Contents (Elt F)),
    unary main_arg5 main_v6 (broadcastInDim S1x64 ![1] bcast_S64_S1x64_1 : (⟨S64, .f32⟩ : BufTy).Contents (Elt F) → (⟨S1x64, .f32⟩ : BufTy).Contents (Elt F)),
    unary main_v6 main_v7 (broadcastInDim S100000x64 ![0, 1] bcast_S1x64_S100000x64_0_1 : (⟨S1x64, .f32⟩ : BufTy).Contents (Elt F) → (⟨S100000x64, .f32⟩ : BufTy).Contents (Elt F)),
    binary main_v7 main_v3 main_v8 (mulf : (⟨S100000x64, .f32⟩ : BufTy).Contents (Elt F) → (⟨S100000x64, .f32⟩ : BufTy).Contents (Elt F) → (⟨S100000x64, .f32⟩ : BufTy).Contents (Elt F)),
    ternary main_v5 main_v3 main_v8 main_v9 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v9 main_arg6 main_v10 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v11 (broadcastInDim S1x64 ![1] bcast_S64_S1x64_1 : (⟨S64, .f32⟩ : BufTy).Contents (Elt F) → (⟨S1x64, .f32⟩ : BufTy).Contents (Elt F)),
    unary main_v11 main_v12 (broadcastInDim S100000x64 ![0, 1] bcast_S1x64_S100000x64_0_1 : (⟨S1x64, .f32⟩ : BufTy).Contents (Elt F) → (⟨S100000x64, .f32⟩ : BufTy).Contents (Elt F)),
    binary main_v10 main_v12 main_v13 (addf : (⟨S100000x64, .f32⟩ : BufTy).Contents (Elt F) → (⟨S100000x64, .f32⟩ : BufTy).Contents (Elt F) → (⟨S100000x64, .f32⟩ : BufTy).Contents (Elt F)),
    nullary main_cst_0 (constant S_ .f32 0x00000000#32),
    unary main_cst_0 main_v14 (broadcastInDim S100000x64 ![] bcast_S_S100000x64 : (⟨S_, .f32⟩ : BufTy).Contents (Elt F) → (⟨S100000x64, .f32⟩ : BufTy).Contents (Elt F)),
    binary main_v13 main_v14 main_v15 (cmpf .oge : (⟨S100000x64, .f32⟩ : BufTy).Contents (Elt F) → (⟨S100000x64, .f32⟩ : BufTy).Contents (Elt F) → (⟨S100000x64, .i1⟩ : BufTy).Contents (Elt F)),
    unary main_arg8 main_v16 (broadcastInDim S1x64 ![1] bcast_S64_S1x64_1 : (⟨S64, .f32⟩ : BufTy).Contents (Elt F) → (⟨S1x64, .f32⟩ : BufTy).Contents (Elt F)),
    unary main_v16 main_v17 (broadcastInDim S100000x64 ![0, 1] bcast_S1x64_S100000x64_0_1 : (⟨S1x64, .f32⟩ : BufTy).Contents (Elt F) → (⟨S100000x64, .f32⟩ : BufTy).Contents (Elt F)),
    binary main_v17 main_v13 main_v18 (mulf : (⟨S100000x64, .f32⟩ : BufTy).Contents (Elt F) → (⟨S100000x64, .f32⟩ : BufTy).Contents (Elt F) → (⟨S100000x64, .f32⟩ : BufTy).Contents (Elt F)),
    ternary main_v15 main_v13 main_v18 main_v19 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Operations 23 … 52 of 192: batch normalisation over the node axis. -/
def w1 : List (HloOp τ sig (Elt F)) :=
  [ nullary main_cst_1 (constant S_ .f32 0x00000000#32),
    binary main_v19 main_cst_1 main_v20 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_2 (constant S_ .f32 0x47C35000#32),
    unary main_cst_2 main_v21 (broadcastInDim S64 ![] bcast_S_S64 : (⟨S_, .f32⟩ : BufTy).Contents (Elt F) → (⟨S64, .f32⟩ : BufTy).Contents (Elt F)),
    binary main_v20 main_v21 main_v22 (Host.divf : (⟨S64, .f32⟩ : BufTy).Contents (Elt F) → (⟨S64, .f32⟩ : BufTy).Contents (Elt F) → (⟨S64, .f32⟩ : BufTy).Contents (Elt F)),
    unary main_v22 main_v23 (broadcastInDim S1x64 ![1] bcast_S64_S1x64_1 : (⟨S64, .f32⟩ : BufTy).Contents (Elt F) → (⟨S1x64, .f32⟩ : BufTy).Contents (Elt F)),
    unary main_v23 main_v24 (broadcastInDim S100000x64 ![0, 1] bcast_S1x64_S100000x64_0_1 : (⟨S1x64, .f32⟩ : BufTy).Contents (Elt F) → (⟨S100000x64, .f32⟩ : BufTy).Contents (Elt F)),
    binary main_v19 main_v24 main_v25 (subf : (⟨S100000x64, .f32⟩ : BufTy).Contents (Elt F) → (⟨S100000x64, .f32⟩ : BufTy).Contents (Elt F) → (⟨S100000x64, .f32⟩ : BufTy).Contents (Elt F)),
    binary main_v25 main_v25 main_v26 (mulf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x00000000#32),
    binary main_v26 main_cst_3 main_v27 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_4 (constant S_ .f32 0x47C35000#32),
    unary main_cst_4 main_v28 (broadcastInDim S64 ![] bcast_S_S64 : (⟨S_, .f32⟩ : BufTy).Contents (Elt F) → (⟨S64, .f32⟩ : BufTy).Contents (Elt F)),
    binary main_v27 main_v28 main_v29 (Host.divf : (⟨S64, .f32⟩ : BufTy).Contents (Elt F) → (⟨S64, .f32⟩ : BufTy).Contents (Elt F) → (⟨S64, .f32⟩ : BufTy).Contents (Elt F)),
    unary main_v22 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v19 main_v31 main_v32 (subf : (⟨S100000x64, .f32⟩ : BufTy).Contents (Elt F) → (⟨S100000x64, .f32⟩ : BufTy).Contents (Elt F) → (⟨S100000x64, .f32⟩ : BufTy).Contents (Elt F)),
    nullary main_cst_5 (constant S_ .f32 0x3727C5AC#32),
    unary main_cst_5 main_v33 (broadcastInDim S64 ![] bcast_S_S64 : (⟨S_, .f32⟩ : BufTy).Contents (Elt F) → (⟨S64, .f32⟩ : BufTy).Contents (Elt F)),
    binary main_v29 main_v33 main_v34 (addf : (⟨S64, .f32⟩ : BufTy).Contents (Elt F) → (⟨S64, .f32⟩ : BufTy).Contents (Elt F) → (⟨S64, .f32⟩ : BufTy).Contents (Elt F)),
    unary main_v34 main_v35 (Host.sqrt : (⟨S64, .f32⟩ : BufTy).Contents (Elt F) → (⟨S64, .f32⟩ : BufTy).Contents (Elt F)),
    unary main_v35 main_v36 (broadcastInDim S1x64 ![1] bcast_S64_S1x64_1 : (⟨S64, .f32⟩ : BufTy).Contents (Elt F) → (⟨S1x64, .f32⟩ : BufTy).Contents (Elt F)),
    unary main_v36 main_v37 (broadcastInDim S100000x64 ![0, 1] bcast_S1x64_S100000x64_0_1 : (⟨S1x64, .f32⟩ : BufTy).Contents (Elt F) → (⟨S100000x64, .f32⟩ : BufTy).Contents (Elt F)),
    binary main_v32 main_v37 main_v38 (Host.divf : (⟨S100000x64, .f32⟩ : BufTy).Contents (Elt F) → (⟨S100000x64, .f32⟩ : BufTy).Contents (Elt F) → (⟨S100000x64, .f32⟩ : BufTy).Contents (Elt F)),
    unary main_arg9 main_v39 (broadcastInDim S1x64 ![1] bcast_S64_S1x64_1 : (⟨S64, .f32⟩ : BufTy).Contents (Elt F) → (⟨S1x64, .f32⟩ : BufTy).Contents (Elt F)),
    unary main_v39 main_v40 (broadcastInDim S100000x64 ![0, 1] bcast_S1x64_S100000x64_0_1 : (⟨S1x64, .f32⟩ : BufTy).Contents (Elt F) → (⟨S100000x64, .f32⟩ : BufTy).Contents (Elt F)),
    binary main_v38 main_v40 main_v41 (mulf : (⟨S100000x64, .f32⟩ : BufTy).Contents (Elt F) → (⟨S100000x64, .f32⟩ : BufTy).Contents (Elt F) → (⟨S100000x64, .f32⟩ : BufTy).Contents (Elt F)),
    unary main_arg10 main_v42 (broadcastInDim S1x64 ![1] bcast_S64_S1x64_1 : (⟨S64, .f32⟩ : BufTy).Contents (Elt F) → (⟨S1x64, .f32⟩ : BufTy).Contents (Elt F)),
    unary main_v42 main_v43 (broadcastInDim S100000x64 ![0, 1] bcast_S1x64_S100000x64_0_1 : (⟨S1x64, .f32⟩ : BufTy).Contents (Elt F) → (⟨S100000x64, .f32⟩ : BufTy).Contents (Elt F)),
    binary main_v41 main_v43 main_v44 (addf : (⟨S100000x64, .f32⟩ : BufTy).Contents (Elt F) → (⟨S100000x64, .f32⟩ : BufTy).Contents (Elt F) → (⟨S100000x64, .f32⟩ : BufTy).Contents (Elt F)) ]

/-- Operations 53 … 60 of 192: the edge list's two rows, and the start of the source index's wrap-around. -/
def w2 : List (HloOp τ sig (Elt F)) :=
  [ unary main_arg1 main_v45 ((extractStridedSlice S1x1600000 ![0, 0] · slices_S2x1600000_S1x1600000_0_0) : (⟨S2x1600000, .i32⟩ : BufTy).Contents (Elt F) → (⟨S1x1600000, .i32⟩ : BufTy).Contents (Elt F)),
    reshape main_v45 main_v46 rfl shapeCasts_S1x1600000_S1600000,
    unary main_arg1 main_v47 ((extractStridedSlice S1x1600000 ![1, 0] · slices_S2x1600000_S1x1600000_1_0) : (⟨S2x1600000, .i32⟩ : BufTy).Contents (Elt F) → (⟨S1x1600000, .i32⟩ : BufTy).Contents (Elt F)),
    reshape main_v47 main_v48 rfl shapeCasts_S1x1600000_S1600000,
    nullary main_c (constantI S_ 32 0#32),
    unary main_c main_v49 (broadcastInDim S1600000 ![] bcast_S_S1600000 : (⟨S_, .i32⟩ : BufTy).Contents (Elt F) → (⟨S1600000, .i32⟩ : BufTy).Contents (Elt F)),
    binary main_v46 main_v49 main_v50 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32) ]

/-- Operations 61 … 85 of 192: first message-passing layer. -/
def w3 : List (HloOp τ sig (Elt F)) :=
  [ unary main_c_6 main_v51 (broadcastInDim S1600000 ![] bcast_S_S1600000 : (⟨S_, .i32⟩ : BufTy).Contents (Elt F) → (⟨S1600000, .i32⟩ : BufTy).Contents (Elt F)),
    binary main_v46 main_v51 main_v52 (addi : (⟨S1600000, .i32⟩ : BufTy).Contents (Elt F) → (⟨S1600000, .i32⟩ : BufTy).Contents (Elt F) → (⟨S1600000, .i32⟩ : BufTy).Contents (Elt F)),
    ternary main_v50 main_v52 main_v46 main_v53 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v53 main_v54 (broadcastInDim S1600000x1 ![0] bcast_S1600000_S1600000x1_0 : (⟨S1600000, .i32⟩ : BufTy).Contents (Elt F) → (⟨S1600000x1, .i32⟩ : BufTy).Contents (Elt F)),
    binary main_v44 main_v54 main_v55 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg11 main_v56 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v56 main_v57 rfl shapeCasts_S1x64x64_S64x64,
    binary main_v55 main_v57 main_v58 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg12 main_v59 ((extractStridedSlice S1x64 ![0, 0] · slices_S4x64_S1x64_0_0) : (⟨S4x64, .f32⟩ : BufTy).Contents (Elt F) → (⟨S1x64, .f32⟩ : BufTy).Contents (Elt F)),
    reshape main_v59 main_v60 rfl shapeCasts_S1x64_S64,
    unary main_v60 main_v61 (broadcastInDim S1x64 ![1] bcast_S64_S1x64_1 : (⟨S64, .f32⟩ : BufTy).Contents (Elt F) → (⟨S1x64, .f32⟩ : BufTy).Contents (Elt F)),
    unary main_v61 main_v62 (broadcastInDim S1600000x64 ![0, 1] bcast_S1x64_S1600000x64_0_1 : (⟨S1x64, .f32⟩ : BufTy).Contents (Elt F) → (⟨S1600000x64, .f32⟩ : BufTy).Contents (Elt F)),
    binary main_v58 main_v62 main_v63 (addf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v64 (broadcastInDim S100000x64 ![] bcast_S_S100000x64 : (⟨S_, .f32⟩ : BufTy).Contents (Elt F) → (⟨S100000x64, .f32⟩ : BufTy).Contents (Elt F)),
    unary main_v48 main_v65 (broadcastInDim S1600000x1 ![0] bcast_S1600000_S1600000x1_0 : (⟨S1600000, .i32⟩ : BufTy).Contents (Elt F) → (⟨S1600000x1, .i32⟩ : BufTy).Contents (Elt F)),
    ternary main_v64 main_v65 main_v63 main_v66 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v66 main_v44 main_v67 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    unary main_cst_8 main_v68 (broadcastInDim S100000x64 ![] bcast_S_S100000x64 : (⟨S_, .f32⟩ : BufTy).Contents (Elt F) → (⟨S100000x64, .f32⟩ : BufTy).Contents (Elt F)),
    binary main_v67 main_v68 main_v69 (cmpf .oge : (⟨S100000x64, .f32⟩ : BufTy).Contents (Elt F) → (⟨S100000x64, .f32⟩ : BufTy).Contents (Elt F) → (⟨S100000x64, .i1⟩ : BufTy).Contents (Elt F)),
    unary main_arg13 main_v70 (broadcastInDim S1x64 ![1] bcast_S64_S1x64_1 : (⟨S64, .f32⟩ : BufTy).Contents (Elt F) → (⟨S1x64, .f32⟩ : BufTy).Contents (Elt F)),
    unary main_v70 main_v71 (broadcastInDim S100000x64 ![0, 1] bcast_S1x64_S100000x64_0_1 : (⟨S1x64, .f32⟩ : BufTy).Contents (Elt F) → (⟨S100000x64, .f32⟩ : BufTy).Contents (Elt F)),
    binary main_v71 main_v67 main_v72 (mulf : (⟨S100000x64, .f32⟩ : BufTy).Contents (Elt F) → (⟨S100000x64, .f32⟩ : BufTy).Contents (Elt F) → (⟨S100000x64, .f32⟩ : BufTy).Contents (Elt F)),
    ternary main_v69 main_v67 main_v72 main_v73 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Operations 86 … 114 of 192: second message-passing layer. -/
def w4 : List (HloOp τ sig (Elt F)) :=
  [ nullary main_c_9 (constantI S_ 32 0#32),
    unary main_c_9 main_v74 (broadcastInDim S1600000 ![] bcast_S_S1600000 : (⟨S_, .i32⟩ : BufTy).Contents (Elt F) → (⟨S1600000, .i32⟩ : BufTy).Contents (Elt F)),
    binary main_v46 main_v74 main_v75 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 100000#32),
    unary main_c_10 main_v76 (broadcastInDim S1600000 ![] bcast_S_S1600000 : (⟨S_, .i32⟩ : BufTy).Contents (Elt F) → (⟨S1600000, .i32⟩ : BufTy).Contents (Elt F)),
    binary main_v46 main_v76 main_v77 (addi : (⟨S1600000, .i32⟩ : BufTy).Contents (Elt F) → (⟨S1600000, .i32⟩ : BufTy).Contents (Elt F) → (⟨S1600000, .i32⟩ : BufTy).Contents (Elt F)),
    ternary main_v75 main_v77 main_v46 main_v78 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v78 main_v79 (broadcastInDim S1600000x1 ![0] bcast_S1600000_S1600000x1_0 : (⟨S1600000, .i32⟩ : BufTy).Contents (Elt F) → (⟨S1600000x1, .i32⟩ : BufTy).Contents (Elt F)),
    binary main_v73 main_v79 main_v80 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg11 main_v81 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v81 main_v82 rfl shapeCasts_S1x64x64_S64x64,
    binary main_v80 main_v82 main_v83 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg12 main_v84 ((extractStridedSlice S1x64 ![1, 0] · slices_S4x64_S1x64_1_0) : (⟨S4x64, .f32⟩ : BufTy).Contents (Elt F) → (⟨S1x64, .f32⟩ : BufTy).Contents (Elt F)),
    reshape main_v84 main_v85 rfl shapeCasts_S1x64_S64,
    unary main_v85 main_v86 (broadcastInDim S1x64 ![1] bcast_S64_S1x64_1 : (⟨S64, .f32⟩ : BufTy).Contents (Elt F) → (⟨S1x64, .f32⟩ : BufTy).Contents (Elt F)),
    unary main_v86 main_v87 (broadcastInDim S1600000x64 ![0, 1] bcast_S1x64_S1600000x64_0_1 : (⟨S1x64, .f32⟩ : BufTy).Contents (Elt F) → (⟨S1600000x64, .f32⟩ : BufTy).Contents (Elt F)),
    binary main_v83 main_v87 main_v88 (addf : (⟨S1600000x64, .f32⟩ : BufTy).Contents (Elt F) → (⟨S1600000x64, .f32⟩ : BufTy).Contents (Elt F) → (⟨S1600000x64, .f32⟩ : BufTy).Contents (Elt F)),
    nullary main_cst_11 (constant S_ .f32 0x00000000#32),
    unary main_cst_11 main_v89 (broadcastInDim S100000x64 ![] bcast_S_S100000x64 : (⟨S_, .f32⟩ : BufTy).Contents (Elt F) → (⟨S100000x64, .f32⟩ : BufTy).Contents (Elt F)),
    unary main_v48 main_v90 (broadcastInDim S1600000x1 ![0] bcast_S1600000_S1600000x1_0 : (⟨S1600000, .i32⟩ : BufTy).Contents (Elt F) → (⟨S1600000x1, .i32⟩ : BufTy).Contents (Elt F)),
    ternary main_v89 main_v90 main_v88 main_v91 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v91 main_v73 main_v92 (addf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x00000000#32),
    unary main_cst_12 main_v93 (broadcastInDim S100000x64 ![] bcast_S_S100000x64 : (⟨S_, .f32⟩ : BufTy).Contents (Elt F) → (⟨S100000x64, .f32⟩ : BufTy).Contents (Elt F)),
    binary main_v92 main_v93 main_v94 (cmpf .oge : (⟨S100000x64, .f32⟩ : BufTy).Contents (Elt F) → (⟨S100000x64, .f32⟩ : BufTy).Contents (Elt F) → (⟨S100000x64, .i1⟩ : BufTy).Contents (Elt F)),
    unary main_arg13 main_v95 (broadcastInDim S1x64 ![1] bcast_S64_S1x64_1 : (⟨S64, .f32⟩ : BufTy).Contents (Elt F) → (⟨S1x64, .f32⟩ : BufTy).Contents (Elt F)),
    unary main_v95 main_v96 (broadcastInDim S100000x64 ![0, 1] bcast_S1x64_S100000x64_0_1 : (⟨S1x64, .f32⟩ : BufTy).Contents (Elt F) → (⟨S100000x64, .f32⟩ : BufTy).Contents (Elt F)),
    binary main_v96 main_v92 main_v97 (mulf : (⟨S100000x64, .f32⟩ : BufTy).Contents (Elt F) → (⟨S100000x64, .f32⟩ : BufTy).Contents (Elt F) → (⟨S100000x64, .f32⟩ : BufTy).Contents (Elt F)),
    ternary main_v94 main_v92 main_v97 main_v98 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Operations 115 … 120 of 192: start of the third layer's index wrap-around. -/
def w5 : List (HloOp τ sig (Elt F)) :=
  [ nullary main_c_13 (constantI S_ 32 0#32),
    unary main_c_13 main_v99 (broadcastInDim S1600000 ![] bcast_S_S1600000 : (⟨S_, .i32⟩ : BufTy).Contents (Elt F) → (⟨S1600000, .i32⟩ : BufTy).Contents (Elt F)),
    binary main_v46 main_v99 main_v100 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v101 (broadcastInDim S1600000 ![] bcast_S_S1600000 : (⟨S_, .i32⟩ : BufTy).Contents (Elt F) → (⟨S1600000, .i32⟩ : BufTy).Contents (Elt F)),
    binary main_v46 main_v101 main_v102 (addi : (⟨S1600000, .i32⟩ : BufTy).Contents (Elt F) → (⟨S1600000, .i32⟩ : BufTy).Contents (Elt F) → (⟨S1600000, .i32⟩ : BufTy).Contents (Elt F)) ]

/-- Operations 121 … 143 of 192: third message-passing layer. -/
def w6 : List (HloOp τ sig (Elt F)) :=
  [ ternary main_v100 main_v102 main_v46 main_v103 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v103 main_v104 (broadcastInDim S1600000x1 ![0] bcast_S1600000_S1600000x1_0 : (⟨S1600000, .i32⟩ : BufTy).Contents (Elt F) → (⟨S1600000x1, .i32⟩ : BufTy).Contents (Elt F)),
    binary main_v98 main_v104 main_v105 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg11 main_v106 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v106 main_v107 rfl shapeCasts_S1x64x64_S64x64,
    binary main_v105 main_v107 main_v108 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg12 main_v109 ((extractStridedSlice S1x64 ![2, 0] · slices_S4x64_S1x64_2_0) : (⟨S4x64, .f32⟩ : BufTy).Contents (Elt F) → (⟨S1x64, .f32⟩ : BufTy).Contents (Elt F)),
    reshape main_v109 main_v110 rfl shapeCasts_S1x64_S64,
    unary main_v110 main_v111 (broadcastInDim S1x64 ![1] bcast_S64_S1x64_1 : (⟨S64, .f32⟩ : BufTy).Contents (Elt F) → (⟨S1x64, .f32⟩ : BufTy).Contents (Elt F)),
    unary main_v111 main_v112 (broadcastInDim S1600000x64 ![0, 1] bcast_S1x64_S1600000x64_0_1 : (⟨S1x64, .f32⟩ : BufTy).Contents (Elt F) → (⟨S1600000x64, .f32⟩ : BufTy).Contents (Elt F)),
    binary main_v108 main_v112 main_v113 (addf : (⟨S1600000x64, .f32⟩ : BufTy).Contents (Elt F) → (⟨S1600000x64, .f32⟩ : BufTy).Contents (Elt F) → (⟨S1600000x64, .f32⟩ : BufTy).Contents (Elt F)),
    nullary main_cst_15 (constant S_ .f32 0x00000000#32),
    unary main_cst_15 main_v114 (broadcastInDim S100000x64 ![] bcast_S_S100000x64 : (⟨S_, .f32⟩ : BufTy).Contents (Elt F) → (⟨S100000x64, .f32⟩ : BufTy).Contents (Elt F)),
    unary main_v48 main_v115 (broadcastInDim S1600000x1 ![0] bcast_S1600000_S1600000x1_0 : (⟨S1600000, .i32⟩ : BufTy).Contents (Elt F) → (⟨S1600000x1, .i32⟩ : BufTy).Contents (Elt F)),
    ternary main_v114 main_v115 main_v113 main_v116 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v116 main_v98 main_v117 (addf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x00000000#32),
    unary main_cst_16 main_v118 (broadcastInDim S100000x64 ![] bcast_S_S100000x64 : (⟨S_, .f32⟩ : BufTy).Contents (Elt F) → (⟨S100000x64, .f32⟩ : BufTy).Contents (Elt F)),
    binary main_v117 main_v118 main_v119 (cmpf .oge : (⟨S100000x64, .f32⟩ : BufTy).Contents (Elt F) → (⟨S100000x64, .f32⟩ : BufTy).Contents (Elt F) → (⟨S100000x64, .i1⟩ : BufTy).Contents (Elt F)),
    unary main_arg13 main_v120 (broadcastInDim S1x64 ![1] bcast_S64_S1x64_1 : (⟨S64, .f32⟩ : BufTy).Contents (Elt F) → (⟨S1x64, .f32⟩ : BufTy).Contents (Elt F)),
    unary main_v120 main_v121 (broadcastInDim S100000x64 ![0, 1] bcast_S1x64_S100000x64_0_1 : (⟨S1x64, .f32⟩ : BufTy).Contents (Elt F) → (⟨S100000x64, .f32⟩ : BufTy).Contents (Elt F)),
    binary main_v121 main_v117 main_v122 (mulf : (⟨S100000x64, .f32⟩ : BufTy).Contents (Elt F) → (⟨S100000x64, .f32⟩ : BufTy).Contents (Elt F) → (⟨S100000x64, .f32⟩ : BufTy).Contents (Elt F)),
    ternary main_v119 main_v117 main_v122 main_v123 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Operations 144 … 172 of 192: fourth message-passing layer. -/
def w7 : List (HloOp τ sig (Elt F)) :=
  [ nullary main_c_17 (constantI S_ 32 0#32),
    unary main_c_17 main_v124 (broadcastInDim S1600000 ![] bcast_S_S1600000 : (⟨S_, .i32⟩ : BufTy).Contents (Elt F) → (⟨S1600000, .i32⟩ : BufTy).Contents (Elt F)),
    binary main_v46 main_v124 main_v125 (cmpi .slt : (⟨S1600000, .i32⟩ : BufTy).Contents (Elt F) → (⟨S1600000, .i32⟩ : BufTy).Contents (Elt F) → (⟨S1600000, .i1⟩ : BufTy).Contents (Elt F)),
    nullary main_c_18 (constantI S_ 32 100000#32),
    unary main_c_18 main_v126 (broadcastInDim S1600000 ![] bcast_S_S1600000 : (⟨S_, .i32⟩ : BufTy).Contents (Elt F) → (⟨S1600000, .i32⟩ : BufTy).Contents (Elt F)),
    binary main_v46 main_v126 main_v127 (addi : (⟨S1600000, .i32⟩ : BufTy).Contents (Elt F) → (⟨S1600000, .i32⟩ : BufTy).Contents (Elt F) → (⟨S1600000, .i32⟩ : BufTy).Contents (Elt F)),
    ternary main_v125 main_v127 main_v46 main_v128 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v128 main_v129 (broadcastInDim S1600000x1 ![0] bcast_S1600000_S1600000x1_0 : (⟨S1600000, .i32⟩ : BufTy).Contents (Elt F) → (⟨S1600000x1, .i32⟩ : BufTy).Contents (Elt F)),
    binary main_v123 main_v129 main_v130 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg11 main_v131 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v131 main_v132 rfl shapeCasts_S1x64x64_S64x64,
    binary main_v130 main_v132 main_v133 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg12 main_v134 ((extractStridedSlice S1x64 ![3, 0] · slices_S4x64_S1x64_3_0) : (⟨S4x64, .f32⟩ : BufTy).Contents (Elt F) → (⟨S1x64, .f32⟩ : BufTy).Contents (Elt F)),
    reshape main_v134 main_v135 rfl shapeCasts_S1x64_S64,
    unary main_v135 main_v136 (broadcastInDim S1x64 ![1] bcast_S64_S1x64_1 : (⟨S64, .f32⟩ : BufTy).Contents (Elt F) → (⟨S1x64, .f32⟩ : BufTy).Contents (Elt F)),
    unary main_v136 main_v137 (broadcastInDim S1600000x64 ![0, 1] bcast_S1x64_S1600000x64_0_1 : (⟨S1x64, .f32⟩ : BufTy).Contents (Elt F) → (⟨S1600000x64, .f32⟩ : BufTy).Contents (Elt F)),
    binary main_v133 main_v137 main_v138 (addf : (⟨S1600000x64, .f32⟩ : BufTy).Contents (Elt F) → (⟨S1600000x64, .f32⟩ : BufTy).Contents (Elt F) → (⟨S1600000x64, .f32⟩ : BufTy).Contents (Elt F)),
    nullary main_cst_19 (constant S_ .f32 0x00000000#32),
    unary main_cst_19 main_v139 (broadcastInDim S100000x64 ![] bcast_S_S100000x64 : (⟨S_, .f32⟩ : BufTy).Contents (Elt F) → (⟨S100000x64, .f32⟩ : BufTy).Contents (Elt F)),
    unary main_v48 main_v140 (broadcastInDim S1600000x1 ![0] bcast_S1600000_S1600000x1_0 : (⟨S1600000, .i32⟩ : BufTy).Contents (Elt F) → (⟨S1600000x1, .i32⟩ : BufTy).Contents (Elt F)),
    ternary main_v139 main_v140 main_v138 main_v141 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_v141 main_v123 main_v142 (addf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x00000000#32),
    unary main_cst_20 main_v143 (broadcastInDim S100000x64 ![] bcast_S_S100000x64 : (⟨S_, .f32⟩ : BufTy).Contents (Elt F) → (⟨S100000x64, .f32⟩ : BufTy).Contents (Elt F)),
    binary main_v142 main_v143 main_v144 (cmpf .oge : (⟨S100000x64, .f32⟩ : BufTy).Contents (Elt F) → (⟨S100000x64, .f32⟩ : BufTy).Contents (Elt F) → (⟨S100000x64, .i1⟩ : BufTy).Contents (Elt F)),
    unary main_arg13 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v146 main_v142 main_v147 (mulf : (⟨S100000x64, .f32⟩ : BufTy).Contents (Elt F) → (⟨S100000x64, .f32⟩ : BufTy).Contents (Elt F) → (⟨S100000x64, .f32⟩ : BufTy).Contents (Elt F)),
    ternary main_v144 main_v142 main_v147 main_v148 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Operations 173 … 180 of 192: concatenation of the five node feature blocks, pooling per graph, first output product. -/
def w8 : List (HloOp τ sig (Elt F)) :=
  [ nary ![main_v44, main_v73, main_v98, main_v123, main_v148] main_v149 (fun u => concatenate S100000x320 1 [⟨S100000x64, u 0⟩, ⟨S100000x64, u 1⟩, ⟨S100000x64, u 2⟩, ⟨S100000x64, u 3⟩, ⟨S100000x64, u 4⟩] concatenates_S100000x64_S100000x64_S100000x64_S100000x64_S100000x64_S100000x320_d1),
    nullary main_cst_21 (constant S_ .f32 0x00000000#32),
    unary main_cst_21 main_v150 (broadcastInDim S512x320 ![] bcast_S_S512x320 : (⟨S_, .f32⟩ : BufTy).Contents (Elt F) → (⟨S512x320, .f32⟩ : BufTy).Contents (Elt F)),
    unary main_arg2 main_v151 (broadcastInDim S100000x1 ![0] bcast_S100000_S100000x1_0 : (⟨S100000, .i32⟩ : BufTy).Contents (Elt F) → (⟨S100000x1, .i32⟩ : BufTy).Contents (Elt F)),
    ternary main_v150 main_v151 main_v149 main_v152 ((fun x i u => Host.scatterAdd scatter_S512x320_S100000x1_S100000x320_1_0_0_1 x i u) : (⟨S512x320, .f32⟩ : BufTy).Contents (Elt F) → (⟨S100000x1, .i32⟩ : BufTy).Contents (Elt F) → (⟨S100000x320, .f32⟩ : BufTy).Contents (Elt F) → (⟨S512x320, .f32⟩ : BufTy).Contents (Elt F)),
    binary main_v152 main_arg14 main_v153 ((fun l r => Host.dotGeneral dot_S512x320_S320x320_S512x320_1_0_0_1_n_n none l r) : (⟨S512x320, .f32⟩ : BufTy).Contents (Elt F) → (⟨S320x320, .f32⟩ : BufTy).Contents (Elt F) → (⟨S512x320, .f32⟩ : BufTy).Contents (Elt F)),
    unary main_arg15 main_v154 (broadcastInDim S1x320 ![1] bcast_S320_S1x320_1 : (⟨S320, .f32⟩ : BufTy).Contents (Elt F) → (⟨S1x320, .f32⟩ : BufTy).Contents (Elt F)),
    unary main_v154 main_v155 (broadcastInDim S512x320 ![0, 1] bcast_S1x320_S512x320_0_1 : (⟨S1x320, .f32⟩ : BufTy).Contents (Elt F) → (⟨S512x320, .f32⟩ : BufTy).Contents (Elt F)) ]

/-- Operations 181 … 192 of 192: output layers (bias, leaky ReLU, product, bias). -/
def w9 : List (HloOp τ sig (Elt F)) :=
  [ binary main_v153 main_v155 main_v156 (addf : (⟨S512x320, .f32⟩ : BufTy).Contents (Elt F) → (⟨S512x320, .f32⟩ : BufTy).Contents (Elt F) → (⟨S512x320, .f32⟩ : BufTy).Contents (Elt F)),
    nullary main_call6_cst (constant S_ .f32 0x00000000#32),
    unary main_call6_cst main_call6_v0 (broadcastInDim S512x320 ![] bcast_S_S512x320 : (⟨S_, .f32⟩ : BufTy).Contents (Elt F) → (⟨S512x320, .f32⟩ : BufTy).Contents (Elt F)),
    binary main_v156 main_call6_v0 main_call6_v1 (cmpf .oge : (⟨S512x320, .f32⟩ : BufTy).Contents (Elt F) → (⟨S512x320, .f32⟩ : BufTy).Contents (Elt F) → (⟨S512x320, .i1⟩ : BufTy).Contents (Elt F)),
    nullary main_call6_cst_0 (constant S_ .f32 0x3C23D70A#32),
    unary main_call6_cst_0 main_call6_v2 (broadcastInDim S512x320 ![] bcast_S_S512x320 : (⟨S_, .f32⟩ : BufTy).Contents (Elt F) → (⟨S512x320, .f32⟩ : BufTy).Contents (Elt F)),
    binary main_call6_v2 main_v156 main_call6_v3 (mulf : (⟨S512x320, .f32⟩ : BufTy).Contents (Elt F) → (⟨S512x320, .f32⟩ : BufTy).Contents (Elt F) → (⟨S512x320, .f32⟩ : BufTy).Contents (Elt F)),
    ternary main_call6_v1 main_v156 main_call6_v3 main_v157 (select : (⟨S512x320, .i1⟩ : BufTy).Contents (Elt F) → (⟨S512x320, .f32⟩ : BufTy).Contents (Elt F) → (⟨S512x320, .f32⟩ : BufTy).Contents (Elt F) → (⟨S512x320, .f32⟩ : BufTy).Contents (Elt F)),
    binary main_v157 main_arg16 main_v158 ((fun l r => Host.dotGeneral dot_S512x320_S320x1_S512x1_1_0_0_1_n_n none l r) : (⟨S512x320, .f32⟩ : BufTy).Contents (Elt F) → (⟨S320x1, .f32⟩ : BufTy).Contents (Elt F) → (⟨S512x1, .f32⟩ : BufTy).Contents (Elt F)),
    unary main_arg17 main_v159 (broadcastInDim S1x1 ![1] bcast_S1_S1x1_1 : (⟨S1, .f32⟩ : BufTy).Contents (Elt F) → (⟨S1x1, .f32⟩ : BufTy).Contents (Elt F)),
    unary main_v159 main_v160 (broadcastInDim S512x1 ![0, 1] bcast_S1x1_S512x1_0_1 : (⟨S1x1, .f32⟩ : BufTy).Contents (Elt F) → (⟨S512x1, .f32⟩ : BufTy).Contents (Elt F)),
    binary main_v158 main_v160 main_v161 (addf : (⟨S512x1, .f32⟩ : BufTy).Contents (Elt F) → (⟨S512x1, .f32⟩ : BufTy).Contents (Elt F) → (⟨S512x1, .f32⟩ : BufTy).Contents (Elt F)) ]

/-- The operations of @main's window `main_part0`. -/
abbrev ops_part0 : List (HloOp τ sig (Elt F)) := w0 ++ (w1 ++ (w2))

/-- The operations of @main's window `main_part1`. -/
abbrev ops_part1 : List (HloOp τ sig (Elt F)) := w3 ++ (w4 ++ (w5))

/-- The operations of @main's window `main_part2`. -/
abbrev ops_part2 : List (HloOp τ sig (Elt F)) := w6 ++ (w7 ++ (w8))

/-- The operations of @main's window `main_part3`. -/
abbrev ops_part3 : List (HloOp τ sig (Elt F)) := w9

/-- @main's 192 operations, in order. -/
abbrev ops : List (HloOp τ sig (Elt F)) :=
  ops_part0 ++ (ops_part1 ++ (ops_part2 ++ ops_part3))

set_option maxRecDepth 8192 in
theorem main_part0_eq (c : Dev nD) : main_part0 (F := F) c = seq ops_part0 := rfl

set_option maxRecDepth 8192 in
theorem main_part1_eq (c : Dev nD) : main_part1 (F := F) c = seq ops_part1 := rfl

set_option maxRecDepth 8192 in
theorem main_part2_eq (c : Dev nD) : main_part2 (F := F) c = seq ops_part2 := rfl

set_option maxRecDepth 8192 in
theorem main_part3_eq (c : Dev nD) : main_part3 (F := F) c = seq ops_part3 := rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-! ### Window `w0` -/

set_option maxRecDepth 8192 in
/-- Every operation of the window touches TensorCore references only. -/
theorem w0_sub : (w0 : List (HloOp τ sig (Elt F))).Forall fun op => op.bufs ⊆ tcRefs τ sig := by
  unfold w0
  exact ⟨binary_bufs_sub .., unary_bufs_sub .., unary_bufs_sub .., binary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub ..⟩

set_option maxRecDepth 8192 in
/-- Every operation of the window determines its results. -/
theorem w0_fresh : ∀ op ∈ (w0 : List (HloOp τ sig (Elt F))), op.fresh = ∅ := by
  unfold w0
  intro _ h; (repeat (cases h with | head => rfl | tail _ h => ?_)); exact nomatch h

/-- The buffers the window's operations write. -/
abbrev w0_W : List (Ref sig .tc) := [main_v0, main_v1, main_v2, main_v3, main_cst, main_v4, main_v5, main_v6, main_v7, main_v8, main_v9, main_v10, main_v11, main_v12, main_v13, main_cst_0, main_v14, main_v15, main_v16, main_v17, main_v18, main_v19]

set_option maxRecDepth 8192 in
theorem w0_writes : (w0 : List (HloOp τ sig (Elt F))).Forall fun op => op.writes ⊆ (w0_W.map (Proc.devRef (τ := τ) .tc)).toFinset := by
  unfold w0
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w0_keep (V : Valuation τ sig (Elt F)) (r : Ref sig .tc) (h : r ∉ w0_W) :
    after w0 V (no_index (Proc.devRef .tc r)) = V (Proc.devRef .tc r) :=
  after_of_writes_sub w0 V w0_writes h

/-! ### Window `w1` -/

set_option maxRecDepth 8192 in
/-- Every operation of the window touches TensorCore references only. -/
theorem w1_sub : (w1 : List (HloOp τ sig (Elt F))).Forall fun op => op.bufs ⊆ tcRefs τ sig := by
  unfold w1
  exact ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
/-- Every operation of the window determines its results. -/
theorem w1_fresh : ∀ op ∈ (w1 : List (HloOp τ sig (Elt F))), op.fresh = ∅ := by
  unfold w1
  intro _ h; (repeat (cases h with | head => rfl | tail _ h => ?_)); exact nomatch h

/-- The buffers the window's operations write. -/
abbrev w1_W : List (Ref sig .tc) := [main_cst_1, main_v20, main_cst_2, main_v21, main_v22, main_v23, main_v24, main_v25, main_v26, main_cst_3, main_v27, main_cst_4, main_v28, main_v29, main_v30, main_v31, main_v32, main_cst_5, main_v33, main_v34, main_v35, main_v36, main_v37, main_v38, main_v39, main_v40, main_v41, main_v42, main_v43, main_v44]

set_option maxRecDepth 8192 in
theorem w1_writes : (w1 : List (HloOp τ sig (Elt F))).Forall fun op => op.writes ⊆ (w1_W.map (Proc.devRef (τ := τ) .tc)).toFinset := by
  unfold w1
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w1_keep (V : Valuation τ sig (Elt F)) (r : Ref sig .tc) (h : r ∉ w1_W) :
    after w1 V (no_index (Proc.devRef .tc r)) = V (Proc.devRef .tc r) :=
  after_of_writes_sub w1 V w1_writes h

/-! ### Window `w2` -/

set_option maxRecDepth 8192 in
/-- Every operation of the window touches TensorCore references only. -/
theorem w2_sub : (w2 : List (HloOp τ sig (Elt F))).Forall fun op => op.bufs ⊆ tcRefs τ sig := by
  unfold w2
  exact ⟨unary_bufs_sub .., reshape_bufs_sub .., unary_bufs_sub .., reshape_bufs_sub .., nullary_bufs_sub .., unary_bufs_sub .., binary_bufs_sub .., nullary_bufs_sub ..⟩

set_option maxRecDepth 8192 in
/-- Every operation of the window determines its results. -/
theorem w2_fresh : ∀ op ∈ (w2 : List (HloOp τ sig (Elt F))), op.fresh = ∅ := by
  unfold w2
  intro _ h; (repeat (cases h with | head => rfl | tail _ h => ?_)); exact nomatch h

/-- The buffers the window's operations write. -/
abbrev w2_W : List (Ref sig .tc) := [main_v45, main_v46, main_v47, main_v48, main_c, main_v49, main_v50, main_c_6]

set_option maxRecDepth 8192 in
theorem w2_writes : (w2 : List (HloOp τ sig (Elt F))).Forall fun op => op.writes ⊆ (w2_W.map (Proc.devRef (τ := τ) .tc)).toFinset := by
  unfold w2
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w2_keep (V : Valuation τ sig (Elt F)) (r : Ref sig .tc) (h : r ∉ w2_W) :
    after w2 V (no_index (Proc.devRef .tc r)) = V (Proc.devRef .tc r) :=
  after_of_writes_sub w2 V w2_writes h

/-! ### Window `w3` -/

set_option maxRecDepth 8192 in
/-- Every operation of the window touches TensorCore references only. -/
theorem w3_sub : (w3 : List (HloOp τ sig (Elt F))).Forall fun op => op.bufs ⊆ tcRefs τ sig := by
  unfold w3
  exact ⟨unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., ternary_bufs_sub ..⟩

set_option maxRecDepth 8192 in
/-- Every operation of the window determines its results. -/
theorem w3_fresh : ∀ op ∈ (w3 : List (HloOp τ sig (Elt F))), op.fresh = ∅ := by
  unfold w3
  intro _ h; (repeat (cases h with | head => rfl | tail _ h => ?_)); exact nomatch h

/-- The buffers the window's operations write. -/
abbrev w3_W : List (Ref sig .tc) := [main_v51, main_v52, main_v53, main_v54, main_v55, main_v56, main_v57, main_v58, main_v59, main_v60, main_v61, main_v62, main_v63, main_cst_7, main_v64, main_v65, main_v66, main_v67, main_cst_8, main_v68, main_v69, main_v70, main_v71, main_v72, main_v73]

set_option maxRecDepth 8192 in
theorem w3_writes : (w3 : List (HloOp τ sig (Elt F))).Forall fun op => op.writes ⊆ (w3_W.map (Proc.devRef (τ := τ) .tc)).toFinset := by
  unfold w3
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w3_keep (V : Valuation τ sig (Elt F)) (r : Ref sig .tc) (h : r ∉ w3_W) :
    after w3 V (no_index (Proc.devRef .tc r)) = V (Proc.devRef .tc r) :=
  after_of_writes_sub w3 V w3_writes h

/-! ### Window `w4` -/

set_option maxRecDepth 8192 in
/-- Every operation of the window touches TensorCore references only. -/
theorem w4_sub : (w4 : List (HloOp τ sig (Elt F))).Forall fun op => op.bufs ⊆ tcRefs τ sig := by
  unfold w4
  exact ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., ternary_bufs_sub ..⟩

set_option maxRecDepth 8192 in
/-- Every operation of the window determines its results. -/
theorem w4_fresh : ∀ op ∈ (w4 : List (HloOp τ sig (Elt F))), op.fresh = ∅ := by
  unfold w4
  intro _ h; (repeat (cases h with | head => rfl | tail _ h => ?_)); exact nomatch h

/-- The buffers the window's operations write. -/
abbrev w4_W : List (Ref sig .tc) := [main_c_9, main_v74, main_v75, main_c_10, main_v76, main_v77, main_v78, main_v79, main_v80, main_v81, main_v82, main_v83, main_v84, main_v85, main_v86, main_v87, main_v88, main_cst_11, main_v89, main_v90, main_v91, main_v92, main_cst_12, main_v93, main_v94, main_v95, main_v96, main_v97, main_v98]

set_option maxRecDepth 8192 in
theorem w4_writes : (w4 : List (HloOp τ sig (Elt F))).Forall fun op => op.writes ⊆ (w4_W.map (Proc.devRef (τ := τ) .tc)).toFinset := by
  unfold w4
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w4_keep (V : Valuation τ sig (Elt F)) (r : Ref sig .tc) (h : r ∉ w4_W) :
    after w4 V (no_index (Proc.devRef .tc r)) = V (Proc.devRef .tc r) :=
  after_of_writes_sub w4 V w4_writes h

/-! ### Window `w5` -/

set_option maxRecDepth 8192 in
/-- Every operation of the window touches TensorCore references only. -/
theorem w5_sub : (w5 : List (HloOp τ sig (Elt F))).Forall fun op => op.bufs ⊆ tcRefs τ sig := by
  unfold w5
  exact ⟨nullary_bufs_sub .., unary_bufs_sub .., binary_bufs_sub .., nullary_bufs_sub .., unary_bufs_sub .., binary_bufs_sub ..⟩

set_option maxRecDepth 8192 in
/-- Every operation of the window determines its results. -/
theorem w5_fresh : ∀ op ∈ (w5 : List (HloOp τ sig (Elt F))), op.fresh = ∅ := by
  unfold w5
  intro _ h; (repeat (cases h with | head => rfl | tail _ h => ?_)); exact nomatch h

/-- The buffers the window's operations write. -/
abbrev w5_W : List (Ref sig .tc) := [main_c_13, main_v99, main_v100, main_c_14, main_v101, main_v102]

set_option maxRecDepth 8192 in
theorem w5_writes : (w5 : List (HloOp τ sig (Elt F))).Forall fun op => op.writes ⊆ (w5_W.map (Proc.devRef (τ := τ) .tc)).toFinset := by
  unfold w5
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w5_keep (V : Valuation τ sig (Elt F)) (r : Ref sig .tc) (h : r ∉ w5_W) :
    after w5 V (no_index (Proc.devRef .tc r)) = V (Proc.devRef .tc r) :=
  after_of_writes_sub w5 V w5_writes h

/-! ### Window `w6` -/

set_option maxRecDepth 8192 in
/-- Every operation of the window touches TensorCore references only. -/
theorem w6_sub : (w6 : List (HloOp τ sig (Elt F))).Forall fun op => op.bufs ⊆ tcRefs τ sig := by
  unfold w6
  exact ⟨ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., ternary_bufs_sub ..⟩

set_option maxRecDepth 8192 in
/-- Every operation of the window determines its results. -/
theorem w6_fresh : ∀ op ∈ (w6 : List (HloOp τ sig (Elt F))), op.fresh = ∅ := by
  unfold w6
  intro _ h; (repeat (cases h with | head => rfl | tail _ h => ?_)); exact nomatch h

/-- The buffers the window's operations write. -/
abbrev w6_W : List (Ref sig .tc) := [main_v103, main_v104, main_v105, main_v106, main_v107, main_v108, main_v109, main_v110, main_v111, main_v112, main_v113, main_cst_15, main_v114, main_v115, main_v116, main_v117, main_cst_16, main_v118, main_v119, main_v120, main_v121, main_v122, main_v123]

set_option maxRecDepth 8192 in
theorem w6_writes : (w6 : List (HloOp τ sig (Elt F))).Forall fun op => op.writes ⊆ (w6_W.map (Proc.devRef (τ := τ) .tc)).toFinset := by
  unfold w6
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w6_keep (V : Valuation τ sig (Elt F)) (r : Ref sig .tc) (h : r ∉ w6_W) :
    after w6 V (no_index (Proc.devRef .tc r)) = V (Proc.devRef .tc r) :=
  after_of_writes_sub w6 V w6_writes h

/-! ### Window `w7` -/

set_option maxRecDepth 8192 in
/-- Every operation of the window touches TensorCore references only. -/
theorem w7_sub : (w7 : List (HloOp τ sig (Elt F))).Forall fun op => op.bufs ⊆ tcRefs τ sig := by
  unfold w7
  exact ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., nullary_bufs_sub .., unary_bufs_sub .., binary_bufs_sub .., unary_bufs_sub .., unary_bufs_sub .., binary_bufs_sub .., ternary_bufs_sub ..⟩

set_option maxRecDepth 8192 in
/-- Every operation of the window determines its results. -/
theorem w7_fresh : ∀ op ∈ (w7 : List (HloOp τ sig (Elt F))), op.fresh = ∅ := by
  unfold w7
  intro _ h; (repeat (cases h with | head => rfl | tail _ h => ?_)); exact nomatch h

/-- The buffers the window's operations write. -/
abbrev w7_W : List (Ref sig .tc) := [main_c_17, main_v124, main_v125, main_c_18, main_v126, main_v127, main_v128, main_v129, main_v130, main_v131, main_v132, main_v133, main_v134, main_v135, main_v136, main_v137, main_v138, main_cst_19, main_v139, main_v140, main_v141, main_v142, main_cst_20, main_v143, main_v144, main_v145, main_v146, main_v147, main_v148]

set_option maxRecDepth 8192 in
theorem w7_writes : (w7 : List (HloOp τ sig (Elt F))).Forall fun op => op.writes ⊆ (w7_W.map (Proc.devRef (τ := τ) .tc)).toFinset := by
  unfold w7
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w7_keep (V : Valuation τ sig (Elt F)) (r : Ref sig .tc) (h : r ∉ w7_W) :
    after w7 V (no_index (Proc.devRef .tc r)) = V (Proc.devRef .tc r) :=
  after_of_writes_sub w7 V w7_writes h

/-! ### Window `w8` -/

set_option maxRecDepth 8192 in
/-- Every operation of the window touches TensorCore references only. -/
theorem w8_sub : (w8 : List (HloOp τ sig (Elt F))).Forall fun op => op.bufs ⊆ tcRefs τ sig := by
  unfold w8
  exact ⟨nary_bufs_sub .., nullary_bufs_sub .., unary_bufs_sub .., unary_bufs_sub .., ternary_bufs_sub .., binary_bufs_sub .., unary_bufs_sub .., unary_bufs_sub ..⟩

set_option maxRecDepth 8192 in
/-- Every operation of the window determines its results. -/
theorem w8_fresh : ∀ op ∈ (w8 : List (HloOp τ sig (Elt F))), op.fresh = ∅ := by
  unfold w8
  intro _ h; (repeat (cases h with | head => rfl | tail _ h => ?_)); exact nomatch h

/-- The buffers the window's operations write. -/
abbrev w8_W : List (Ref sig .tc) := [main_v149, main_cst_21, main_v150, main_v151, main_v152, main_v153, main_v154, main_v155]

set_option maxRecDepth 8192 in
theorem w8_writes : (w8 : List (HloOp τ sig (Elt F))).Forall fun op => op.writes ⊆ (w8_W.map (Proc.devRef (τ := τ) .tc)).toFinset := by
  unfold w8
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w8_keep (V : Valuation τ sig (Elt F)) (r : Ref sig .tc) (h : r ∉ w8_W) :
    after w8 V (no_index (Proc.devRef .tc r)) = V (Proc.devRef .tc r) :=
  after_of_writes_sub w8 V w8_writes h

/-! ### Window `w9` -/

set_option maxRecDepth 8192 in
/-- Every operation of the window touches TensorCore references only. -/
theorem w9_sub : (w9 : List (HloOp τ sig (Elt F))).Forall fun op => op.bufs ⊆ tcRefs τ sig := by
  unfold w9
  exact ⟨binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub ..⟩

set_option maxRecDepth 8192 in
/-- Every operation of the window determines its results. -/
theorem w9_fresh : ∀ op ∈ (w9 : List (HloOp τ sig (Elt F))), op.fresh = ∅ := by
  unfold w9
  intro _ h; (repeat (cases h with | head => rfl | tail _ h => ?_)); exact nomatch h

/-- The buffers the window's operations write. -/
abbrev w9_W : List (Ref sig .tc) := [main_v156, main_call6_cst, main_call6_v0, main_call6_v1, main_call6_cst_0, main_call6_v2, main_call6_v3, main_v157, main_v158, main_v159, main_v160, main_v161]

set_option maxRecDepth 8192 in
theorem w9_writes : (w9 : List (HloOp τ sig (Elt F))).Forall fun op => op.writes ⊆ (w9_W.map (Proc.devRef (τ := τ) .tc)).toFinset := by
  unfold w9
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- A buffer the window does not write keeps its contents through it. -/
theorem w9_keep (V : Valuation τ sig (Elt F)) (r : Ref sig .tc) (h : r ∉ w9_W) :
    after w9 V (no_index (Proc.devRef .tc r)) = V (Proc.devRef .tc r) :=
  after_of_writes_sub w9 V w9_writes h

/-! ### The whole list -/

theorem ops_sub : (ops : List (HloOp τ sig (Elt F))).Forall fun op => op.bufs ⊆ tcRefs τ sig :=
  List.forall_iff_forall_mem.mpr fun op h => by
    simp only [ops, ops_part0, ops_part1, ops_part2, ops_part3, List.mem_append] at h
    rcases h with (h | h | h) | (h | h | h) | (h | h | h) | h
    exacts [List.forall_iff_forall_mem.mp w0_sub op h, List.forall_iff_forall_mem.mp w1_sub op h, List.forall_iff_forall_mem.mp w2_sub op h,
      List.forall_iff_forall_mem.mp w3_sub op h, List.forall_iff_forall_mem.mp w4_sub op h, List.forall_iff_forall_mem.mp w5_sub op h,
      List.forall_iff_forall_mem.mp w6_sub op h, List.forall_iff_forall_mem.mp w7_sub op h, List.forall_iff_forall_mem.mp w8_sub op h,
      List.forall_iff_forall_mem.mp w9_sub op h]

theorem ops_fresh : ∀ op ∈ (ops : List (HloOp τ sig (Elt F))), op.fresh = ∅ := fun op h => by
  simp only [ops, ops_part0, ops_part1, ops_part2, ops_part3, List.mem_append] at h
  rcases h with (h | h | h) | (h | h | h) | (h | h | h) | h
  exacts [w0_fresh op h, w1_fresh op h, w2_fresh op h, w3_fresh op h, w4_fresh op h, w5_fresh op h, w6_fresh op h, w7_fresh op h,
    w8_fresh op h, w9_fresh op h]

end Cert.ReferenceIdeal.RefRun

end
-- ==== Proof.Ref.Run2.lean ====
/- The stages of the reference's forward pass as pure functions, and what each window of its operation list leaves
   in the buffers later windows read, as those functions of the window's inputs. -/
import proofs.«128986_j27779848471455_1_alg».proof.Proof.Ref.Run1
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
/-- Contents of a tensor of shape `s` and element type `e`. -/
local notation "T[" s ", " e "]" => BufTy.Contents (Elt F) (BufTy.mk s e)

/-! ## The stages of the forward pass, as pure functions

Node features are `100000 × 64`, edges `1600000`, graphs `512`. Each definition is the composition of the host
operations of one stretch of @main, read as a function of the stretch's inputs. -/

/-- A 64-vector repeated along the node axis. -/
def rowN (b : T[S64, .f32]) : T[S100000x64, .f32] :=
  broadcastInDim S100000x64 ![0, 1] bcast_S1x64_S100000x64_0_1 (broadcastInDim S1x64 ![1] bcast_S64_S1x64_1 b)

/-- A 64-vector repeated along the edge axis. -/
def rowE (b : T[S64, .f32]) : T[S1600000x64, .f32] :=
  broadcastInDim S1600000x64 ![0, 1] bcast_S1x64_S1600000x64_0_1 (broadcastInDim S1x64 ![1] bcast_S64_S1x64_1 b)

/-- A 320-vector repeated along the graph axis. -/
def rowG (b : T[S320, .f32]) : T[S512x320, .f32] :=
  broadcastInDim S512x320 ![0, 1] bcast_S1x320_S512x320_0_1 (broadcastInDim S1x320 ![1] bcast_S320_S1x320_1 b)

/-- The all-zero node features. -/
def zeroN : T[S100000x64, .f32] :=
  broadcastInDim S100000x64 ![] bcast_S_S100000x64 (constant S_ .f32 0x00000000#32)

/-- `x W + b` on node features. -/
def linearN (x : T[S100000x64, .f32]) (W : T[S64x64, .f32]) (b : T[S64, .f32]) : T[S100000x64, .f32] :=
  addf (Host.dotGeneral dot_S100000x64_S64x64_S100000x64_1_0_0_1_n_n none x W) (rowN b)

/-- PReLU with a per-feature slope: `x` where `x ≥ 0`, `a x` elsewhere. -/
def preluN (x : T[S100000x64, .f32]) (a : T[S64, .f32]) : T[S100000x64, .f32] :=
  select (cmpf .oge x zeroN) x (mulf (rowN a) x)

/-- The two input layers: linear, PReLU, linear, PReLU. -/
def pre (x : T[S100000x64, .f32]) (W1 : T[S64x64, .f32]) (b1 a1 : T[S64, .f32]) (W2 : T[S64x64, .f32]) (b2 a2 : T[S64, .f32]) :
    T[S100000x64, .f32] :=
  preluN (linearN (preluN (linearN x W1 b1) a1) W2 b2) a2

/-- The mean over the node axis: the sum from zero, divided by 100000. -/
def meanN (x : T[S100000x64, .f32]) : T[S64, .f32] :=
  Host.divf (Host.reduceAdd x (constant S_ .f32 0x00000000#32) reducesTo_S100000x64_S64_d0 h_S_)
    (broadcastInDim S64 ![] bcast_S_S64 (constant S_ .f32 0x47C35000#32))

/-- `x` minus its mean over the node axis. -/
def centred (x : T[S100000x64, .f32]) : T[S100000x64, .f32] := subf x (rowN (meanN x))

/-- Batch normalisation with batch statistics (biased variance, `ε` the float nearest `1e-5`), scale `g`, shift `b`. -/
def bn (x : T[S100000x64, .f32]) (g b : T[S64, .f32]) : T[S100000x64, .f32] :=
  addf (mulf (Host.divf (centred x)
      (rowN (Host.sqrt (addf (meanN (mulf (centred x) (centred x))) (broadcastInDim S64 ![] bcast_S_S64 (constant S_ .f32 0x3727C5AC#32))))))
    (rowN g)) (rowN b)

/-- Row 0 of the edge list: the source node of each edge. -/
def edgeRow0 (e : T[S2x1600000, .i32]) : T[S1600000, .i32] :=
  shapeCast S1600000 (extractStridedSlice S1x1600000 ![0, 0] e slices_S2x1600000_S1x1600000_0_0) shapeCasts_S1x1600000_S1600000

/-- Row 1 of the edge list: the destination node of each edge. -/
def edgeRow1 (e : T[S2x1600000, .i32]) : T[S1600000, .i32] :=
  shapeCast S1600000 (extractStridedSlice S1x1600000 ![1, 0] e slices_S2x1600000_S1x1600000_1_0) shapeCasts_S1x1600000_S1600000

/-- Per-edge indices as a one-column index array. -/
def colIdx (d : T[S1600000, .i32]) : T[S1600000x1, .i32] :=
  broadcastInDim S1600000x1 ![0] bcast_S1600000_S1600000x1_0 d

/-- Per-edge indices with a negative one wrapped around by adding 100000, as a one-column index array. -/
def wrapIdx (s : T[S1600000, .i32]) : T[S1600000x1, .i32] :=
  colIdx (select (cmpi .slt s (broadcastInDim S1600000 ![] bcast_S_S1600000 (constantI S_ 32 0#32)))
    (addi s (broadcastInDim S1600000 ![] bcast_S_S1600000 (constantI S_ 32 100000#32))) s)

/-- Message weight matrix 0. -/
def msgW0 (W : T[S4x64x64, .f32]) : T[S64x64, .f32] :=
  shapeCast S64x64 (extractStridedSlice S1x64x64 ![0, 0, 0] W slices_S4x64x64_S1x64x64_0_0_0) shapeCasts_S1x64x64_S64x64

/-- Message bias 0. -/
def msgB0 (b : T[S4x64, .f32]) : T[S64, .f32] :=
  shapeCast S64 (extractStridedSlice S1x64 ![0, 0] b slices_S4x64_S1x64_0_0) shapeCasts_S1x64_S64

/-- Message weight matrix 1. -/
def msgW1 (W : T[S4x64x64, .f32]) : T[S64x64, .f32] :=
  shapeCast S64x64 (extractStridedSlice S1x64x64 ![1, 0, 0] W slices_S4x64x64_S1x64x64_1_0_0) shapeCasts_S1x64x64_S64x64

/-- Message bias 1. -/
def msgB1 (b : T[S4x64, .f32]) : T[S64, .f32] :=
  shapeCast S64 (extractStridedSlice S1x64 ![1, 0] b slices_S4x64_S1x64_1_0) shapeCasts_S1x64_S64

/-- Message weight matrix 2. -/
def msgW2 (W : T[S4x64x64, .f32]) : T[S64x64, .f32] :=
  shapeCast S64x64 (extractStridedSlice S1x64x64 ![2, 0, 0] W slices_S4x64x64_S1x64x64_2_0_0) shapeCasts_S1x64x64_S64x64

/-- Message bias 2. -/
def msgB2 (b : T[S4x64, .f32]) : T[S64, .f32] :=
  shapeCast S64 (extractStridedSlice S1x64 ![2, 0] b slices_S4x64_S1x64_2_0) shapeCasts_S1x64_S64

/-- Message weight matrix 3. -/
def msgW3 (W : T[S4x64x64, .f32]) : T[S64x64, .f32] :=
  shapeCast S64x64 (extractStridedSlice S1x64x64 ![3, 0, 0] W slices_S4x64x64_S1x64x64_3_0_0) shapeCasts_S1x64x64_S64x64

/-- Message bias 3. -/
def msgB3 (b : T[S4x64, .f32]) : T[S64, .f32] :=
  shapeCast S64 (extractStridedSlice S1x64 ![3, 0] b slices_S4x64_S1x64_3_0) shapeCasts_S1x64_S64

/-- One message-passing layer: gather the source rows of `h`, apply the linear map, add the messages into their
    destination rows from zero, add `h` itself, PReLU. -/
def conv (h : T[S100000x64, .f32]) (src dst : T[S1600000x1, .i32]) (W : T[S64x64, .f32]) (b a : T[S64, .f32]) :
    T[S100000x64, .f32] :=
  preluN (addf (Host.scatterAdd scatter_S100000x64_S1600000x1_S1600000x64_1_0_0_1 zeroN dst
      (addf (Host.dotGeneral dot_S1600000x64_S64x64_S1600000x64_1_0_0_1_n_n none
        (Host.gather gather_S100000x64_S1600000x1_S1600000x64_1_0_n_n_0_1_164 h src) W) (rowE b))) h) a

/-- The five feature blocks side by side, added per graph from zero. -/
def pool (h0 h1 h2 h3 h4 : T[S100000x64, .f32]) (batch : T[S100000, .i32]) : T[S512x320, .f32] :=
  Host.scatterAdd scatter_S512x320_S100000x1_S100000x320_1_0_0_1
    (broadcastInDim S512x320 ![] bcast_S_S512x320 (constant S_ .f32 0x00000000#32))
    (broadcastInDim S100000x1 ![0] bcast_S100000_S100000x1_0 batch)
    (concatenate S100000x320 1 [⟨S100000x64, h0⟩, ⟨S100000x64, h1⟩, ⟨S100000x64, h2⟩, ⟨S100000x64, h3⟩, ⟨S100000x64, h4⟩]
      concatenates_S100000x64_S100000x64_S100000x64_S100000x64_S100000x64_S100000x320_d1)

/-- The pooled features times the first output matrix. -/
def hiddenDot (g : T[S512x320, .f32]) (W : T[S320x320, .f32]) : T[S512x320, .f32] :=
  Host.dotGeneral dot_S512x320_S320x320_S512x320_1_0_0_1_n_n none g W

/-- Leaky ReLU with slope the float nearest `0.01`. -/
def leaky (x : T[S512x320, .f32]) : T[S512x320, .f32] :=
  select (cmpf .oge x (broadcastInDim S512x320 ![] bcast_S_S512x320 (constant S_ .f32 0x00000000#32))) x
    (mulf (broadcastInDim S512x320 ![] bcast_S_S512x320 (constant S_ .f32 0x3C23D70A#32)) x)

/-- The last layers from the first output product `d` and its bias row `r`: `leaky (d + r) W + b`. -/
def out (d r : T[S512x320, .f32]) (W : T[S320x1, .f32]) (b : T[S1, .f32]) : T[S512x1, .f32] :=
  addf (Host.dotGeneral dot_S512x320_S320x1_S512x1_1_0_0_1_n_n none (leaky (addf d r)) W)
    (broadcastInDim S512x1 ![0, 1] bcast_S1x1_S512x1_0_1 (broadcastInDim S1x1 ![1] bcast_S1_S1x1_1 b))

/-! ## What each window leaves in the buffers later windows read

Each lemma runs one window from ANY contents `V` and reads one buffer it writes as a stage function of the
contents `V` has at the window's inputs. -/

set_option maxRecDepth 8192 in
set_option maxHeartbeats 2000000 in
theorem w0_main_v19 (V : Valuation τ sig (Elt F)) :
    after w0 V (no_index (Proc.devRef .tc main_v19)) = pre (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  unfold w0
  after_results_simp
  rfl

set_option maxRecDepth 8192 in
set_option maxHeartbeats 2000000 in
theorem w1_main_v44 (V : Valuation τ sig (Elt F)) :
    after w1 V (no_index (Proc.devRef .tc main_v44)) = bn (V (Proc.devRef .tc main_v19)) (V (Proc.devRef .tc main_arg9)) (V (Proc.devRef .tc main_arg10)) := by
  unfold w1
  after_results_simp
  rfl

set_option maxRecDepth 8192 in
set_option maxHeartbeats 2000000 in
theorem w2_main_v46 (V : Valuation τ sig (Elt F)) :
    after w2 V (no_index (Proc.devRef .tc main_v46)) = edgeRow0 (V (Proc.devRef .tc main_arg1)) := by
  unfold w2
  after_results_simp
  rfl

set_option maxRecDepth 8192 in
set_option maxHeartbeats 2000000 in
theorem w2_main_v48 (V : Valuation τ sig (Elt F)) :
    after w2 V (no_index (Proc.devRef .tc main_v48)) = edgeRow1 (V (Proc.devRef .tc main_arg1)) := by
  unfold w2
  after_results_simp
  rfl

set_option maxRecDepth 8192 in
set_option maxHeartbeats 2000000 in
theorem w2_main_v50 (V : Valuation τ sig (Elt F)) :
    after w2 V (no_index (Proc.devRef .tc main_v50)) = cmpi .slt (edgeRow0 (V (Proc.devRef .tc main_arg1))) (broadcastInDim S1600000 ![] bcast_S_S1600000 (constantI S_ 32 0#32)) := by
  unfold w2
  after_results_simp
  rfl

set_option maxRecDepth 8192 in
set_option maxHeartbeats 2000000 in
theorem w2_main_c_6 (V : Valuation τ sig (Elt F)) :
    after w2 V (no_index (Proc.devRef .tc main_c_6)) = (constantI S_ 32 100000#32 : T[S_, .i32]) := by
  unfold w2
  after_results_simp

set_option maxRecDepth 8192 in
set_option maxHeartbeats 2000000 in
theorem w3_main_v73 (V : Valuation τ sig (Elt F)) :
    after w3 V (no_index (Proc.devRef .tc main_v73)) = conv (V (Proc.devRef .tc main_v44)) (colIdx (select (V (Proc.devRef .tc main_v50)) (addi (V (Proc.devRef .tc main_v46)) (broadcastInDim S1600000 ![] bcast_S_S1600000 (V (Proc.devRef .tc main_c_6)))) (V (Proc.devRef .tc main_v46)))) (colIdx (V (Proc.devRef .tc main_v48))) (msgW0 (V (Proc.devRef .tc main_arg11))) (msgB0 (V (Proc.devRef .tc main_arg12))) (V (Proc.devRef .tc main_arg13)) := by
  unfold w3
  after_results_simp
  rfl

set_option maxRecDepth 8192 in
set_option maxHeartbeats 2000000 in
theorem w4_main_v98 (V : Valuation τ sig (Elt F)) :
    after w4 V (no_index (Proc.devRef .tc main_v98)) = conv (V (Proc.devRef .tc main_v73)) (wrapIdx (V (Proc.devRef .tc main_v46))) (colIdx (V (Proc.devRef .tc main_v48))) (msgW1 (V (Proc.devRef .tc main_arg11))) (msgB1 (V (Proc.devRef .tc main_arg12))) (V (Proc.devRef .tc main_arg13)) := by
  unfold w4
  after_results_simp
  rfl

set_option maxRecDepth 8192 in
set_option maxHeartbeats 2000000 in
theorem w5_main_v100 (V : Valuation τ sig (Elt F)) :
    after w5 V (no_index (Proc.devRef .tc main_v100)) = cmpi .slt (V (Proc.devRef .tc main_v46)) (broadcastInDim S1600000 ![] bcast_S_S1600000 (constantI S_ 32 0#32)) := by
  unfold w5
  after_results_simp

set_option maxRecDepth 8192 in
set_option maxHeartbeats 2000000 in
theorem w5_main_v102 (V : Valuation τ sig (Elt F)) :
    after w5 V (no_index (Proc.devRef .tc main_v102)) = addi (V (Proc.devRef .tc main_v46)) (broadcastInDim S1600000 ![] bcast_S_S1600000 (constantI S_ 32 100000#32)) := by
  unfold w5
  after_results_simp

set_option maxRecDepth 8192 in
set_option maxHeartbeats 2000000 in
theorem w6_main_v123 (V : Valuation τ sig (Elt F)) :
    after w6 V (no_index (Proc.devRef .tc main_v123)) = conv (V (Proc.devRef .tc main_v98)) (colIdx (select (V (Proc.devRef .tc main_v100)) (V (Proc.devRef .tc main_v102)) (V (Proc.devRef .tc main_v46)))) (colIdx (V (Proc.devRef .tc main_v48))) (msgW2 (V (Proc.devRef .tc main_arg11))) (msgB2 (V (Proc.devRef .tc main_arg12))) (V (Proc.devRef .tc main_arg13)) := by
  unfold w6
  after_results_simp
  rfl

set_option maxRecDepth 8192 in
set_option maxHeartbeats 2000000 in
theorem w7_main_v148 (V : Valuation τ sig (Elt F)) :
    after w7 V (no_index (Proc.devRef .tc main_v148)) = conv (V (Proc.devRef .tc main_v123)) (wrapIdx (V (Proc.devRef .tc main_v46))) (colIdx (V (Proc.devRef .tc main_v48))) (msgW3 (V (Proc.devRef .tc main_arg11))) (msgB3 (V (Proc.devRef .tc main_arg12))) (V (Proc.devRef .tc main_arg13)) := by
  unfold w7
  after_results_simp
  rfl

set_option maxRecDepth 8192 in
set_option maxHeartbeats 2000000 in
theorem w8_main_v153 (V : Valuation τ sig (Elt F)) :
    after w8 V (no_index (Proc.devRef .tc main_v153)) = hiddenDot (pool (V (Proc.devRef .tc main_v44)) (V (Proc.devRef .tc main_v73)) (V (Proc.devRef .tc main_v98)) (V (Proc.devRef .tc main_v123)) (V (Proc.devRef .tc main_v148)) (V (Proc.devRef .tc main_arg2))) (V (Proc.devRef .tc main_arg14)) := by
  unfold w8
  after_results_simp
  rfl

set_option maxRecDepth 8192 in
set_option maxHeartbeats 2000000 in
theorem w8_main_v155 (V : Valuation τ sig (Elt F)) :
    after w8 V (no_index (Proc.devRef .tc main_v155)) = rowG (V (Proc.devRef .tc main_arg15)) := by
  unfold w8
  after_results_simp
  rfl

set_option maxRecDepth 8192 in
set_option maxHeartbeats 2000000 in
theorem w9_main_v161 (V : Valuation τ sig (Elt F)) :
    after w9 V (no_index (Proc.devRef .tc main_v161)) = out (V (Proc.devRef .tc main_v153)) (V (Proc.devRef .tc main_v155)) (V (Proc.devRef .tc main_arg16)) (V (Proc.devRef .tc main_arg17)) := by
  unfold w9
  after_results_simp
  rfl

end Cert.ReferenceIdeal.RefRun

end
-- ==== Proof.Ref.Run.lean ====
/- The reference program's run, read back: @main is a straight line of 192 host operations (Run1), each window of
   which leaves the stage functions of Run2 in the buffers read later; composed, every weakly fair execution ends
   with the result buffer at `result` of the eighteen arguments' launch contents, the arguments unchanged. -/
import proofs.«128986_j27779848471455_1_alg».proof.Proof.Ref.Run2
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option quotPrecheck false in
/-- Contents of a tensor of shape `s` and element type `e`. -/
local notation "T[" s ", " e "]" => BufTy.Contents (Elt F) (BufTy.mk s e)

/-! ## The result as a function of the eighteen arguments -/

/-- Node features after the input layers and batch normalisation (the buffer `main_v44`). -/
def res_h0 (a0 : T[S100000x64, .f32]) (a3 : T[S64x64, .f32]) (a4 : T[S64, .f32]) (a5 : T[S64, .f32]) (a6 : T[S64x64, .f32]) (a7 : T[S64, .f32]) (a8 : T[S64, .f32]) (a9 : T[S64, .f32]) (a10 : T[S64, .f32]) : T[S100000x64, .f32] :=
  bn (pre a0 a3 a4 a5 a6 a7 a8) a9 a10

/-- Node features after the first message-passing layer (the buffer `main_v73`). -/
def res_h1 (a0 : T[S100000x64, .f32]) (a1 : T[S2x1600000, .i32]) (a3 : T[S64x64, .f32]) (a4 : T[S64, .f32]) (a5 : T[S64, .f32]) (a6 : T[S64x64, .f32]) (a7 : T[S64, .f32]) (a8 : T[S64, .f32]) (a9 : T[S64, .f32]) (a10 : T[S64, .f32]) (a11 : T[S4x64x64, .f32]) (a12 : T[S4x64, .f32]) (a13 : T[S64, .f32]) : T[S100000x64, .f32] :=
  conv (res_h0 a0 a3 a4 a5 a6 a7 a8 a9 a10) (wrapIdx (edgeRow0 a1)) (colIdx (edgeRow1 a1)) (msgW0 a11) (msgB0 a12) a13

/-- Node features after the second message-passing layer (the buffer `main_v98`). -/
def res_h2 (a0 : T[S100000x64, .f32]) (a1 : T[S2x1600000, .i32]) (a3 : T[S64x64, .f32]) (a4 : T[S64, .f32]) (a5 : T[S64, .f32]) (a6 : T[S64x64, .f32]) (a7 : T[S64, .f32]) (a8 : T[S64, .f32]) (a9 : T[S64, .f32]) (a10 : T[S64, .f32]) (a11 : T[S4x64x64, .f32]) (a12 : T[S4x64, .f32]) (a13 : T[S64, .f32]) : T[S100000x64, .f32] :=
  conv (res_h1 a0 a1 a3 a4 a5 a6 a7 a8 a9 a10 a11 a12 a13) (wrapIdx (edgeRow0 a1)) (colIdx (edgeRow1 a1)) (msgW1 a11) (msgB1 a12) a13

/-- Node features after the third message-passing layer (the buffer `main_v123`). -/
def res_h3 (a0 : T[S100000x64, .f32]) (a1 : T[S2x1600000, .i32]) (a3 : T[S64x64, .f32]) (a4 : T[S64, .f32]) (a5 : T[S64, .f32]) (a6 : T[S64x64, .f32]) (a7 : T[S64, .f32]) (a8 : T[S64, .f32]) (a9 : T[S64, .f32]) (a10 : T[S64, .f32]) (a11 : T[S4x64x64, .f32]) (a12 : T[S4x64, .f32]) (a13 : T[S64, .f32]) : T[S100000x64, .f32] :=
  conv (res_h2 a0 a1 a3 a4 a5 a6 a7 a8 a9 a10 a11 a12 a13) (wrapIdx (edgeRow0 a1)) (colIdx (edgeRow1 a1)) (msgW2 a11) (msgB2 a12) a13

/-- Node features after the fourth message-passing layer (the buffer `main_v148`). -/
def res_h4 (a0 : T[S100000x64, .f32]) (a1 : T[S2x1600000, .i32]) (a3 : T[S64x64, .f32]) (a4 : T[S64, .f32]) (a5 : T[S64, .f32]) (a6 : T[S64x64, .f32]) (a7 : T[S64, .f32]) (a8 : T[S64, .f32]) (a9 : T[S64, .f32]) (a10 : T[S64, .f32]) (a11 : T[S4x64x64, .f32]) (a12 : T[S4x64, .f32]) (a13 : T[S64, .f32]) : T[S100000x64, .f32] :=
  conv (res_h3 a0 a1 a3 a4 a5 a6 a7 a8 a9 a10 a11 a12 a13) (wrapIdx (edgeRow0 a1)) (colIdx (edgeRow1 a1)) (msgW3 a11) (msgB3 a12) a13

/-- The program's result (the buffer `main_v161`): the five feature blocks pooled per graph, then the two output layers. -/
def result (a0 : T[S100000x64, .f32]) (a1 : T[S2x1600000, .i32]) (a2 : T[S100000, .i32]) (a3 : T[S64x64, .f32]) (a4 : T[S64, .f32]) (a5 : T[S64, .f32]) (a6 : T[S64x64, .f32]) (a7 : T[S64, .f32]) (a8 : T[S64, .f32]) (a9 : T[S64, .f32]) (a10 : T[S64, .f32]) (a11 : T[S4x64x64, .f32]) (a12 : T[S4x64, .f32]) (a13 : T[S64, .f32]) (a14 : T[S320x320, .f32]) (a15 : T[S320, .f32]) (a16 : T[S320x1, .f32]) (a17 : T[S1, .f32]) : T[S512x1, .f32] :=
  out (hiddenDot (pool (res_h0 a0 a3 a4 a5 a6 a7 a8 a9 a10) (res_h1 a0 a1 a3 a4 a5 a6 a7 a8 a9 a10 a11 a12 a13) (res_h2 a0 a1 a3 a4 a5 a6 a7 a8 a9 a10 a11 a12 a13) (res_h3 a0 a1 a3 a4 a5 a6 a7 a8 a9 a10 a11 a12 a13) (res_h4 a0 a1 a3 a4 a5 a6 a7 a8 a9 a10 a11 a12 a13) a2) a14) (rowG a15) a16 a17

/-! ## The fold of the whole list -/

set_option maxRecDepth 8192 in
set_option maxHeartbeats 4000000 in
/-- From any contents `V`, the operations leave the result buffer at `result` of `V`'s contents at the arguments. -/
theorem after_ops_result (V : Valuation τ sig (Elt F)) :
    after ops V (Proc.devRef .tc main_v161) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp only [ops, ops_part0, ops_part1, ops_part2, ops_part3, after_append]
  simp (disch := decide) only [w9_main_v161, w8_main_v153, w8_main_v155, w7_main_v148, w6_main_v123, w5_main_v100, w5_main_v102,
    w4_main_v98, w3_main_v73, w2_main_v46, w2_main_v48, w2_main_v50, w2_main_c_6, w1_main_v44, w0_main_v19,
    w0_keep, w1_keep, w2_keep, w3_keep, w4_keep, w5_keep, w6_keep, w7_keep, w8_keep, w9_keep]
  rfl

/-- No operation writes an argument: its buffer keeps its contents through the whole list. -/
theorem after_ops_arg (V : Valuation τ sig (Elt F)) (r : Ref sig .tc)
    (h : r ∉ w0_W ∧ r ∉ w1_W ∧ r ∉ w2_W ∧ r ∉ w3_W ∧ r ∉ w4_W ∧ r ∉ w5_W ∧ r ∉ w6_W ∧ r ∉ w7_W ∧ r ∉ w8_W ∧ r ∉ w9_W) :
    after ops V (Proc.devRef .tc r) = V (Proc.devRef .tc r) := by
  obtain ⟨h0, h1, h2, h3, h4, h5, h6, h7, h8, h9⟩ := h
  simp only [ops, ops_part0, ops_part1, ops_part2, ops_part3, after_append]
  rw [w9_keep _ r h9, w8_keep _ r h8, w7_keep _ r h7, w6_keep _ r h6, w5_keep _ r h5, w4_keep _ r h4, w3_keep _ r h3,
    w2_keep _ r h2, w1_keep _ r h1, w0_keep _ r h0]

/-! ## The run -/

/-- On every device, for any float values, from any memory with zero counters: every weakly fair execution of
    @main terminates with the result buffer at `result` of the arguments' launch contents and every argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v161).trans (after_ops_result (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide)),
      (h c main_arg8).trans (after_ops_arg (launchContents m c) main_arg8 (by decide)),
      (h c main_arg9).trans (after_ops_arg (launchContents m c) main_arg9 (by decide)),
      (h c main_arg10).trans (after_ops_arg (launchContents m c) main_arg10 (by decide)),
      (h c main_arg11).trans (after_ops_arg (launchContents m c) main_arg11 (by decide)),
      (h c main_arg12).trans (after_ops_arg (launchContents m c) main_arg12 (by decide)),
      (h c main_arg13).trans (after_ops_arg (launchContents m c) main_arg13 (by decide)),
      (h c main_arg14).trans (after_ops_arg (launchContents m c) main_arg14 (by decide)),
      (h c main_arg15).trans (after_ops_arg (launchContents m c) main_arg15 (by decide)),
      (h c main_arg16).trans (after_ops_arg (launchContents m c) main_arg16 (by decide)),
      (h c main_arg17).trans (after_ops_arg (launchContents m c) main_arg17 (by decide))⟩)
    (run_seq scopedRefs_eq scopedSems_eq defs main (fun _ => ops) main_eq (fun _ => ops_sub) m ρ (fun _ => ops_fresh))

end Cert.ReferenceIdeal.RefRun

end
-- ==== Proof.Ref.Frame.lean ====
/- The reference program's frame: it runs to the end and leaves its eighteen arguments unchanged — the argument
   conjuncts of its run. -/
import proofs.«128986_j27779848471455_1_alg».proof.Defs
import proofs.«128986_j27779848471455_1_alg».proof.Proof.Gen.ReferenceIdeal
import proofs.«128986_j27779848471455_1_alg».proof.Proof.Gen.Pre_finite_inputs
import proofs.«128986_j27779848471455_1_alg».proof.Proof.Ref.Run

noncomputable section

namespace Cert.ReferenceIdeal.RefRun

open Idealize.ShloMosaic Idealize.SL.Sem

/-- Every weakly fair execution of the reference terminates with each argument buffer as it was at launch. -/
theorem frame_ri : Cert.frame_ReferenceIdeal :=
  fun m ρ _ => (θ_run Cert.ReferenceIdeal.defs _ _).mono (fun _ h c => (h c).2) (run (F := Ideal) m ρ)

end Cert.ReferenceIdeal.RefRun

end
-- ==== Proof.KI.GlueOps.lean ====
/-
  The host operations between the program's pipelined regions, read as pure functions.

  Each stretch of host operations is run from ANY buffer contents `V`, and each buffer it writes that a later region
  reads is stated as a named function of the contents `V` has at the stretch's inputs: a vector laid out as a one-row
  matrix, a slice of the stacked message weights, the batch statistics' mean and inverse deviation from the accumulated
  sums, the gather of source rows, the scatter-add of messages into destination rows, the concatenation and pooling.
  The gather, the scatter-adds and the concatenation are kept closed: each is ONE function of its operands.
-/
import proofs.«128986_j27779848471455_1_alg».proof.Proof.Gen.KernelIdeal.Launch
import Idealize.ShloMosaic.Lib.StableHlo.Run
import Idealize.ShloMosaic.Lib.ValueIdx
import Idealize.ShloMosaic.Lib.ValueLayout

set_option Elab.async false

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

set_option quotPrecheck false in
/-- Contents of a tensor of shape `s` and element type `e`. -/
local notation "T[" s ", " e "]" => BufTy.Contents (Elt F) (BufTy.mk s e)

/-! ## The stages -/

/-- A 64-vector laid out as a one-row matrix. -/
def row1 (b : T[S64, .f32]) : T[S1x64, .f32] := shapeCast S1x64 b shapeCasts_S64_S1x64

/-- A one-row matrix read as a 64-vector. -/
def unrow1 (r : T[S1x64, .f32]) : T[S64, .f32] := shapeCast S64 r shapeCasts_S1x64_S64

/-- The number of rows, 100000, in every column. -/
def rowsVec : T[S64, .f32] := broadcastInDim S64 ![] bcast_S_S64 (constant S_ .f32 0x47C35000#32)

/-- The variance guard (the float nearest 1e-5) in every column. -/
def epsVec : T[S64, .f32] := broadcastInDim S64 ![] bcast_S_S64 (constant S_ .f32 0x3727C5AC#32)

/-- The column means from the accumulated column sums `s`: s / 100000. -/
def meanOf (s : T[S1x64, .f32]) : T[S64, .f32] := Host.divf (unrow1 s) rowsVec

/-- The column variances from the accumulated sums `s` and sums of squares `ss`: ss / 100000 - mean · mean. -/
def varOf (s ss : T[S1x64, .f32]) : T[S64, .f32] := subf (Host.divf (unrow1 ss) rowsVec) (mulf (meanOf s) (meanOf s))

/-- The inverse deviations: 1 / sqrt (var + eps). -/
def invStdOf (s ss : T[S1x64, .f32]) : T[S64, .f32] := Host.rsqrt (addf (varOf s ss) epsVec)

/-- Row 0 of the edge list: the source node of each edge. -/
def edgeRow0 (e : T[S2x1600000, .i32]) : T[S1600000, .i32] :=
  shapeCast S1600000 (extractStridedSlice S1x1600000 ![0, 0] e slices_S2x1600000_S1x1600000_0_0) shapeCasts_S1x1600000_S1600000

/-- Row 1 of the edge list: the destination node of each edge. -/
def edgeRow1 (e : T[S2x1600000, .i32]) : T[S1600000, .i32] :=
  shapeCast S1600000 (extractStridedSlice S1x1600000 ![1, 0] e slices_S2x1600000_S1x1600000_1_0) shapeCasts_S1x1600000_S1600000

/-- Per-edge indices as a one-column index array. -/
def colIdx (d : T[S1600000, .i32]) : T[S1600000x1, .i32] :=
  broadcastInDim S1600000x1 ![0] bcast_S1600000_S1600000x1_0 d

/-- Per-edge indices with a negative one wrapped around by adding 100000, as a one-column index array. -/
def wrapIdx (s : T[S1600000, .i32]) : T[S1600000x1, .i32] :=
  colIdx (select (cmpi .slt s (broadcastInDim S1600000 ![] bcast_S_S1600000 (constantI S_ 32 0#32)))
    (addi s (broadcastInDim S1600000 ![] bcast_S_S1600000 (constantI S_ 32 100000#32))) s)

/-- The rows of the node features `h` at the (wrapped) per-edge node numbers `s`. -/
def gatherAt (h : T[S100000x64, .f32]) (s : T[S1600000, .i32]) : T[S1600000x64, .f32] :=
  Host.gather gather_S100000x64_S1600000x1_S1600000x64_1_0_n_n_0_1_164 h (wrapIdx s)

/-- The source rows of the node features `h`, one per edge of the edge list `e`. -/
def gatherRows (h : T[S100000x64, .f32]) (e : T[S2x1600000, .i32]) : T[S1600000x64, .f32] :=
  gatherAt h (edgeRow0 e)

/-- The all-zero node features. -/
def zeroN : T[S100000x64, .f32] :=
  broadcastInDim S100000x64 ![] bcast_S_S100000x64 (constant S_ .f32 0x00000000#32)

/-- The per-edge messages `msg` added, from zero, into the rows numbered by `d`. -/
def scatterAt (d : T[S1600000, .i32]) (msg : T[S1600000x64, .f32]) : T[S100000x64, .f32] :=
  Host.scatterAdd scatter_S100000x64_S1600000x1_S1600000x64_1_0_0_1 zeroN (colIdx d) msg

/-- The per-edge messages `msg` added, from zero, into the rows of their destination nodes. -/
def edgeAggregate (e : T[S2x1600000, .i32]) (msg : T[S1600000x64, .f32]) : T[S100000x64, .f32] :=
  scatterAt (edgeRow1 e) msg

/-- Message weight matrix 0 … 3 of the stack. -/
def msgW0 (W : T[S4x64x64, .f32]) : T[S64x64, .f32] :=
  shapeCast S64x64 (extractStridedSlice S1x64x64 ![0, 0, 0] W slices_S4x64x64_S1x64x64_0_0_0) shapeCasts_S1x64x64_S64x64
def msgW1 (W : T[S4x64x64, .f32]) : T[S64x64, .f32] :=
  shapeCast S64x64 (extractStridedSlice S1x64x64 ![1, 0, 0] W slices_S4x64x64_S1x64x64_1_0_0) shapeCasts_S1x64x64_S64x64
def msgW2 (W : T[S4x64x64, .f32]) : T[S64x64, .f32] :=
  shapeCast S64x64 (extractStridedSlice S1x64x64 ![2, 0, 0] W slices_S4x64x64_S1x64x64_2_0_0) shapeCasts_S1x64x64_S64x64
def msgW3 (W : T[S4x64x64, .f32]) : T[S64x64, .f32] :=
  shapeCast S64x64 (extractStridedSlice S1x64x64 ![3, 0, 0] W slices_S4x64x64_S1x64x64_3_0_0) shapeCasts_S1x64x64_S64x64

/-- Message bias 0 … 3 of the stack, as a 64-vector. -/
def msgB0 (b : T[S4x64, .f32]) : T[S64, .f32] :=
  shapeCast S64 (extractStridedSlice S1x64 ![0, 0] b slices_S4x64_S1x64_0_0) shapeCasts_S1x64_S64
def msgB1 (b : T[S4x64, .f32]) : T[S64, .f32] :=
  shapeCast S64 (extractStridedSlice S1x64 ![1, 0] b slices_S4x64_S1x64_1_0) shapeCasts_S1x64_S64
def msgB2 (b : T[S4x64, .f32]) : T[S64, .f32] :=
  shapeCast S64 (extractStridedSlice S1x64 ![2, 0] b slices_S4x64_S1x64_2_0) shapeCasts_S1x64_S64
def msgB3 (b : T[S4x64, .f32]) : T[S64, .f32] :=
  shapeCast S64 (extractStridedSlice S1x64 ![3, 0] b slices_S4x64_S1x64_3_0) shapeCasts_S1x64_S64

/-- The five feature blocks side by side, added per graph from zero. -/
def poolConcat (h0 h1 h2 h3 h4 : T[S100000x64, .f32]) (batch : T[S100000, .i32]) : T[S512x320, .f32] :=
  Host.scatterAdd scatter_S512x320_S100000x1_S100000x320_1_0_0_1
    (broadcastInDim S512x320 ![] bcast_S_S512x320 (constant S_ .f32 0x00000000#32))
    (broadcastInDim S100000x1 ![0] bcast_S100000_S100000x1_0 batch)
    (concatenate S100000x320 1 [⟨S100000x64, h0⟩, ⟨S100000x64, h1⟩, ⟨S100000x64, h2⟩, ⟨S100000x64, h3⟩, ⟨S100000x64, h4⟩]
      concatenates_S100000x64_S100000x64_S100000x64_S100000x64_S100000x64_S100000x320_d1)

/-- A 320-vector laid out as a one-row matrix, and a 1-vector as a 1 × 1 matrix. -/
def row320 (b : T[S320, .f32]) : T[S1x320, .f32] := shapeCast S1x320 b shapeCasts_S320_S1x320
def row1x1 (b : T[S1, .f32]) : T[S1x1, .f32] := shapeCast S1x1 b shapeCasts_S1_S1x1

/-! ## What each stretch leaves in the buffers the regions read -/

variable (V : Valuation τ sig (Elt F))

set_option maxRecDepth 8192

/-! ### Before region 0 -/

theorem h0_v0 : after hostOps0 V (Proc.devRef .tc main_v0) = row1 (V (Proc.devRef .tc main_arg4)) := by
  after_results; rfl
theorem h0_v1 : after hostOps0 V (Proc.devRef .tc main_v1) = row1 (V (Proc.devRef .tc main_arg5)) := by
  after_results; rfl
theorem h0_v2 : after hostOps0 V (Proc.devRef .tc main_v2) = row1 (V (Proc.devRef .tc main_arg7)) := by
  after_results; rfl
theorem h0_v3 : after hostOps0 V (Proc.devRef .tc main_v3) = row1 (V (Proc.devRef .tc main_arg8)) := by
  after_results; rfl

/-! ### Before region 1 -/

theorem h1_v16 : after hostOps1 V (Proc.devRef .tc main_v16) = row1 (meanOf (V (Proc.devRef .tc main_v4_1))) := by
  after_results; rfl
theorem h1_v17 : after hostOps1 V (Proc.devRef .tc main_v17)
    = row1 (invStdOf (V (Proc.devRef .tc main_v4_1)) (V (Proc.devRef .tc main_v4_2))) := by
  after_results; rfl
theorem h1_v18 : after hostOps1 V (Proc.devRef .tc main_v18) = row1 (V (Proc.devRef .tc main_arg9)) := by
  after_results; rfl
theorem h1_v19 : after hostOps1 V (Proc.devRef .tc main_v19) = row1 (V (Proc.devRef .tc main_arg10)) := by
  after_results; rfl

/-! ### Before region 2 -/

theorem h2_v22 : after hostOps2 V (Proc.devRef .tc main_v22) = edgeRow0 (V (Proc.devRef .tc main_arg1)) := by
  after_results_simp; rfl
theorem h2_v24 : after hostOps2 V (Proc.devRef .tc main_v24) = edgeRow1 (V (Proc.devRef .tc main_arg1)) := by
  after_results_simp; rfl
theorem h2_v25 : after hostOps2 V (Proc.devRef .tc main_v25) = row1 (V (Proc.devRef .tc main_arg13)) := by
  after_results_simp; rfl
theorem h2_v32 : after hostOps2 V (Proc.devRef .tc main_v32)
    = gatherRows (V (Proc.devRef .tc main_v20)) (V (Proc.devRef .tc main_arg1)) := by
  after_results_simp; rfl
theorem h2_v34 : after hostOps2 V (Proc.devRef .tc main_v34) = msgW0 (V (Proc.devRef .tc main_arg11)) := by
  after_results_simp; rfl
theorem h2_v37 : after hostOps2 V (Proc.devRef .tc main_v37) = row1 (msgB0 (V (Proc.devRef .tc main_arg12))) := by
  after_results_simp; rfl

/-! ### Before region 3 -/

theorem h3_v41 : after hostOps3 V (Proc.devRef .tc main_v41)
    = scatterAt (V (Proc.devRef .tc main_v24)) (V (Proc.devRef .tc main_v38)) := by
  after_results; rfl

/-! ### Before region 4 -/

theorem h4_v49 : after hostOps4 V (Proc.devRef .tc main_v49)
    = gatherAt (V (Proc.devRef .tc main_v42)) (V (Proc.devRef .tc main_v22)) := by
  after_results_simp; rfl
theorem h4_v51 : after hostOps4 V (Proc.devRef .tc main_v51) = msgW1 (V (Proc.devRef .tc main_arg11)) := by
  after_results_simp; rfl
theorem h4_v54 : after hostOps4 V (Proc.devRef .tc main_v54) = row1 (msgB1 (V (Proc.devRef .tc main_arg12))) := by
  after_results_simp; rfl

/-! ### Before region 5 -/

theorem h5_v58 : after hostOps5 V (Proc.devRef .tc main_v58)
    = scatterAt (V (Proc.devRef .tc main_v24)) (V (Proc.devRef .tc main_v55)) := by
  after_results; rfl

/-! ### Before region 6 -/

theorem h6_v66 : after hostOps6 V (Proc.devRef .tc main_v66)
    = gatherAt (V (Proc.devRef .tc main_v59)) (V (Proc.devRef .tc main_v22)) := by
  after_results_simp; rfl
theorem h6_v68 : after hostOps6 V (Proc.devRef .tc main_v68) = msgW2 (V (Proc.devRef .tc main_arg11)) := by
  after_results_simp; rfl
theorem h6_v71 : after hostOps6 V (Proc.devRef .tc main_v71) = row1 (msgB2 (V (Proc.devRef .tc main_arg12))) := by
  after_results_simp; rfl

/-! ### Before region 7 -/

theorem h7_v75 : after hostOps7 V (Proc.devRef .tc main_v75)
    = scatterAt (V (Proc.devRef .tc main_v24)) (V (Proc.devRef .tc main_v72)) := by
  after_results; rfl

/-! ### Before region 8 -/

theorem h8_v83 : after hostOps8 V (Proc.devRef .tc main_v83)
    = gatherAt (V (Proc.devRef .tc main_v76)) (V (Proc.devRef .tc main_v22)) := by
  after_results_simp; rfl
theorem h8_v85 : after hostOps8 V (Proc.devRef .tc main_v85) = msgW3 (V (Proc.devRef .tc main_arg11)) := by
  after_results_simp; rfl
theorem h8_v88 : after hostOps8 V (Proc.devRef .tc main_v88) = row1 (msgB3 (V (Proc.devRef .tc main_arg12))) := by
  after_results_simp; rfl

/-! ### Before region 9 -/

theorem h9_v92 : after hostOps9 V (Proc.devRef .tc main_v92)
    = scatterAt (V (Proc.devRef .tc main_v24)) (V (Proc.devRef .tc main_v89)) := by
  after_results; rfl

/-! ### Before region 10 -/

theorem h10_v97 : after hostOps10 V (Proc.devRef .tc main_v97)
    = poolConcat (V (Proc.devRef .tc main_v20)) (V (Proc.devRef .tc main_v42)) (V (Proc.devRef .tc main_v59))
        (V (Proc.devRef .tc main_v76)) (V (Proc.devRef .tc main_v93)) (V (Proc.devRef .tc main_arg2)) := by
  after_results; rfl
theorem h10_v98 : after hostOps10 V (Proc.devRef .tc main_v98) = row320 (V (Proc.devRef .tc main_arg15)) := by
  after_results; rfl
theorem h10_v99 : after hostOps10 V (Proc.devRef .tc main_v99) = row1x1 (V (Proc.devRef .tc main_arg17)) := by
  after_results; rfl

end Cert.KernelIdeal.Hand

end
-- ==== Proof.KI.Glue.lean ====
/-
  What each input window's array holds when its region is entered, through the fold of buffer contents: the host
  stretch's function (a reshape, a slice of the stacked message weights, the batch statistics, the gather, the
  scatter-add, the pooled concatenation) of the launch arguments and of the arrays earlier regions left. A buffer
  that neither the stretch writes nor a region outputs is carried unchanged from where it was last written.
-/
import proofs.«128986_j27779848471455_1_alg».proof.Proof.KI.Fold
import proofs.«128986_j27779848471455_1_alg».proof.Proof.KI.GlueOps

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo

variable {F : FTy → Type} [FloatOps F]

variable (m : (ℓ : Loc nD τ sig) → Buf (Elt F) ℓ) (ρ : Dev nD → PrngReg)

/-! ## The launch arguments at the boundaries where a stretch or a window reads them -/

theorem W1_main_arg0 (c : Dev nD) : W1 m ρ c (Proc.devRef .tc main_arg0) = m ((c : Thread nD τ).loc main_arg0) :=
  (Wodd_of_0 m ρ c main_arg0 (by decide)).trans <| rfl
theorem W1_main_arg3 (c : Dev nD) : W1 m ρ c (Proc.devRef .tc main_arg3) = m ((c : Thread nD τ).loc main_arg3) :=
  (Wodd_of_0 m ρ c main_arg3 (by decide)).trans <| rfl
theorem W1_main_arg6 (c : Dev nD) : W1 m ρ c (Proc.devRef .tc main_arg6) = m ((c : Thread nD τ).loc main_arg6) :=
  (Wodd_of_0 m ρ c main_arg6 (by decide)).trans <| rfl
theorem W2_main_arg9 (c : Dev nD) : W2 m ρ c (Proc.devRef .tc main_arg9) = m ((c : Thread nD τ).loc main_arg9) :=
  (Weven_of_0 m ρ c main_arg9 (by decide)).trans <| (Wodd_of_0 m ρ c main_arg9 (by decide)).trans <| rfl
theorem W2_main_arg10 (c : Dev nD) : W2 m ρ c (Proc.devRef .tc main_arg10) = m ((c : Thread nD τ).loc main_arg10) :=
  (Weven_of_0 m ρ c main_arg10 (by decide)).trans <| (Wodd_of_0 m ρ c main_arg10 (by decide)).trans <| rfl
theorem W4_main_arg1 (c : Dev nD) : W4 m ρ c (Proc.devRef .tc main_arg1) = m ((c : Thread nD τ).loc main_arg1) :=
  (Weven_of_1 m ρ c main_arg1 (by decide)).trans <| (Wodd_of_1 m ρ c main_arg1 (by decide)).trans <| (Weven_of_0 m ρ c main_arg1 (by decide)).trans <| (Wodd_of_0 m ρ c main_arg1 (by decide)).trans <| rfl
theorem W4_main_arg11 (c : Dev nD) : W4 m ρ c (Proc.devRef .tc main_arg11) = m ((c : Thread nD τ).loc main_arg11) :=
  (Weven_of_1 m ρ c main_arg11 (by decide)).trans <| (Wodd_of_1 m ρ c main_arg11 (by decide)).trans <| (Weven_of_0 m ρ c main_arg11 (by decide)).trans <| (Wodd_of_0 m ρ c main_arg11 (by decide)).trans <| rfl
theorem W4_main_arg12 (c : Dev nD) : W4 m ρ c (Proc.devRef .tc main_arg12) = m ((c : Thread nD τ).loc main_arg12) :=
  (Weven_of_1 m ρ c main_arg12 (by decide)).trans <| (Wodd_of_1 m ρ c main_arg12 (by decide)).trans <| (Weven_of_0 m ρ c main_arg12 (by decide)).trans <| (Wodd_of_0 m ρ c main_arg12 (by decide)).trans <| rfl
theorem W4_main_arg13 (c : Dev nD) : W4 m ρ c (Proc.devRef .tc main_arg13) = m ((c : Thread nD τ).loc main_arg13) :=
  (Weven_of_1 m ρ c main_arg13 (by decide)).trans <| (Wodd_of_1 m ρ c main_arg13 (by decide)).trans <| (Weven_of_0 m ρ c main_arg13 (by decide)).trans <| (Wodd_of_0 m ρ c main_arg13 (by decide)).trans <| rfl
theorem W8_main_arg11 (c : Dev nD) : W8 m ρ c (Proc.devRef .tc main_arg11) = m ((c : Thread nD τ).loc main_arg11) :=
  (Weven_of_3 m ρ c main_arg11 (by decide)).trans <| (Wodd_of_3 m ρ c main_arg11 (by decide)).trans <| (Weven_of_2 m ρ c main_arg11 (by decide)).trans <| (Wodd_of_2 m ρ c main_arg11 (by decide)).trans <| (Weven_of_1 m ρ c main_arg11 (by decide)).trans <| (Wodd_of_1 m ρ c main_arg11 (by decide)).trans <| (Weven_of_0 m ρ c main_arg11 (by decide)).trans <| (Wodd_of_0 m ρ c main_arg11 (by decide)).trans <| rfl
theorem W8_main_arg12 (c : Dev nD) : W8 m ρ c (Proc.devRef .tc main_arg12) = m ((c : Thread nD τ).loc main_arg12) :=
  (Weven_of_3 m ρ c main_arg12 (by decide)).trans <| (Wodd_of_3 m ρ c main_arg12 (by decide)).trans <| (Weven_of_2 m ρ c main_arg12 (by decide)).trans <| (Wodd_of_2 m ρ c main_arg12 (by decide)).trans <| (Weven_of_1 m ρ c main_arg12 (by decide)).trans <| (Wodd_of_1 m ρ c main_arg12 (by decide)).trans <| (Weven_of_0 m ρ c main_arg12 (by decide)).trans <| (Wodd_of_0 m ρ c main_arg12 (by decide)).trans <| rfl
theorem W12_main_arg11 (c : Dev nD) : W12 m ρ c (Proc.devRef .tc main_arg11) = m ((c : Thread nD τ).loc main_arg11) :=
  (Weven_of_5 m ρ c main_arg11 (by decide)).trans <| (Wodd_of_5 m ρ c main_arg11 (by decide)).trans <| (Weven_of_4 m ρ c main_arg11 (by decide)).trans <| (Wodd_of_4 m ρ c main_arg11 (by decide)).trans <| (Weven_of_3 m ρ c main_arg11 (by decide)).trans <| (Wodd_of_3 m ρ c main_arg11 (by decide)).trans <| (Weven_of_2 m ρ c main_arg11 (by decide)).trans <| (Wodd_of_2 m ρ c main_arg11 (by decide)).trans <| (Weven_of_1 m ρ c main_arg11 (by decide)).trans <| (Wodd_of_1 m ρ c main_arg11 (by decide)).trans <| (Weven_of_0 m ρ c main_arg11 (by decide)).trans <| (Wodd_of_0 m ρ c main_arg11 (by decide)).trans <| rfl
theorem W12_main_arg12 (c : Dev nD) : W12 m ρ c (Proc.devRef .tc main_arg12) = m ((c : Thread nD τ).loc main_arg12) :=
  (Weven_of_5 m ρ c main_arg12 (by decide)).trans <| (Wodd_of_5 m ρ c main_arg12 (by decide)).trans <| (Weven_of_4 m ρ c main_arg12 (by decide)).trans <| (Wodd_of_4 m ρ c main_arg12 (by decide)).trans <| (Weven_of_3 m ρ c main_arg12 (by decide)).trans <| (Wodd_of_3 m ρ c main_arg12 (by decide)).trans <| (Weven_of_2 m ρ c main_arg12 (by decide)).trans <| (Wodd_of_2 m ρ c main_arg12 (by decide)).trans <| (Weven_of_1 m ρ c main_arg12 (by decide)).trans <| (Wodd_of_1 m ρ c main_arg12 (by decide)).trans <| (Weven_of_0 m ρ c main_arg12 (by decide)).trans <| (Wodd_of_0 m ρ c main_arg12 (by decide)).trans <| rfl
theorem W16_main_arg11 (c : Dev nD) : W16 m ρ c (Proc.devRef .tc main_arg11) = m ((c : Thread nD τ).loc main_arg11) :=
  (Weven_of_7 m ρ c main_arg11 (by decide)).trans <| (Wodd_of_7 m ρ c main_arg11 (by decide)).trans <| (Weven_of_6 m ρ c main_arg11 (by decide)).trans <| (Wodd_of_6 m ρ c main_arg11 (by decide)).trans <| (Weven_of_5 m ρ c main_arg11 (by decide)).trans <| (Wodd_of_5 m ρ c main_arg11 (by decide)).trans <| (Weven_of_4 m ρ c main_arg11 (by decide)).trans <| (Wodd_of_4 m ρ c main_arg11 (by decide)).trans <| (Weven_of_3 m ρ c main_arg11 (by decide)).trans <| (Wodd_of_3 m ρ c main_arg11 (by decide)).trans <| (Weven_of_2 m ρ c main_arg11 (by decide)).trans <| (Wodd_of_2 m ρ c main_arg11 (by decide)).trans <| (Weven_of_1 m ρ c main_arg11 (by decide)).trans <| (Wodd_of_1 m ρ c main_arg11 (by decide)).trans <| (Weven_of_0 m ρ c main_arg11 (by decide)).trans <| (Wodd_of_0 m ρ c main_arg11 (by decide)).trans <| rfl
theorem W16_main_arg12 (c : Dev nD) : W16 m ρ c (Proc.devRef .tc main_arg12) = m ((c : Thread nD τ).loc main_arg12) :=
  (Weven_of_7 m ρ c main_arg12 (by decide)).trans <| (Wodd_of_7 m ρ c main_arg12 (by decide)).trans <| (Weven_of_6 m ρ c main_arg12 (by decide)).trans <| (Wodd_of_6 m ρ c main_arg12 (by decide)).trans <| (Weven_of_5 m ρ c main_arg12 (by decide)).trans <| (Wodd_of_5 m ρ c main_arg12 (by decide)).trans <| (Weven_of_4 m ρ c main_arg12 (by decide)).trans <| (Wodd_of_4 m ρ c main_arg12 (by decide)).trans <| (Weven_of_3 m ρ c main_arg12 (by decide)).trans <| (Wodd_of_3 m ρ c main_arg12 (by decide)).trans <| (Weven_of_2 m ρ c main_arg12 (by decide)).trans <| (Wodd_of_2 m ρ c main_arg12 (by decide)).trans <| (Weven_of_1 m ρ c main_arg12 (by decide)).trans <| (Wodd_of_1 m ρ c main_arg12 (by decide)).trans <| (Weven_of_0 m ρ c main_arg12 (by decide)).trans <| (Wodd_of_0 m ρ c main_arg12 (by decide)).trans <| rfl
theorem W20_main_arg2 (c : Dev nD) : W20 m ρ c (Proc.devRef .tc main_arg2) = m ((c : Thread nD τ).loc main_arg2) :=
  (Weven_of_9 m ρ c main_arg2 (by decide)).trans <| (Wodd_of_9 m ρ c main_arg2 (by decide)).trans <| (Weven_of_8 m ρ c main_arg2 (by decide)).trans <| (Wodd_of_8 m ρ c main_arg2 (by decide)).trans <| (Weven_of_7 m ρ c main_arg2 (by decide)).trans <| (Wodd_of_7 m ρ c main_arg2 (by decide)).trans <| (Weven_of_6 m ρ c main_arg2 (by decide)).trans <| (Wodd_of_6 m ρ c main_arg2 (by decide)).trans <| (Weven_of_5 m ρ c main_arg2 (by decide)).trans <| (Wodd_of_5 m ρ c main_arg2 (by decide)).trans <| (Weven_of_4 m ρ c main_arg2 (by decide)).trans <| (Wodd_of_4 m ρ c main_arg2 (by decide)).trans <| (Weven_of_3 m ρ c main_arg2 (by decide)).trans <| (Wodd_of_3 m ρ c main_arg2 (by decide)).trans <| (Weven_of_2 m ρ c main_arg2 (by decide)).trans <| (Wodd_of_2 m ρ c main_arg2 (by decide)).trans <| (Weven_of_1 m ρ c main_arg2 (by decide)).trans <| (Wodd_of_1 m ρ c main_arg2 (by decide)).trans <| (Weven_of_0 m ρ c main_arg2 (by decide)).trans <| (Wodd_of_0 m ρ c main_arg2 (by decide)).trans <| rfl
theorem W20_main_arg15 (c : Dev nD) : W20 m ρ c (Proc.devRef .tc main_arg15) = m ((c : Thread nD τ).loc main_arg15) :=
  (Weven_of_9 m ρ c main_arg15 (by decide)).trans <| (Wodd_of_9 m ρ c main_arg15 (by decide)).trans <| (Weven_of_8 m ρ c main_arg15 (by decide)).trans <| (Wodd_of_8 m ρ c main_arg15 (by decide)).trans <| (Weven_of_7 m ρ c main_arg15 (by decide)).trans <| (Wodd_of_7 m ρ c main_arg15 (by decide)).trans <| (Weven_of_6 m ρ c main_arg15 (by decide)).trans <| (Wodd_of_6 m ρ c main_arg15 (by decide)).trans <| (Weven_of_5 m ρ c main_arg15 (by decide)).trans <| (Wodd_of_5 m ρ c main_arg15 (by decide)).trans <| (Weven_of_4 m ρ c main_arg15 (by decide)).trans <| (Wodd_of_4 m ρ c main_arg15 (by decide)).trans <| (Weven_of_3 m ρ c main_arg15 (by decide)).trans <| (Wodd_of_3 m ρ c main_arg15 (by decide)).trans <| (Weven_of_2 m ρ c main_arg15 (by decide)).trans <| (Wodd_of_2 m ρ c main_arg15 (by decide)).trans <| (Weven_of_1 m ρ c main_arg15 (by decide)).trans <| (Wodd_of_1 m ρ c main_arg15 (by decide)).trans <| (Weven_of_0 m ρ c main_arg15 (by decide)).trans <| (Wodd_of_0 m ρ c main_arg15 (by decide)).trans <| rfl
theorem W20_main_arg17 (c : Dev nD) : W20 m ρ c (Proc.devRef .tc main_arg17) = m ((c : Thread nD τ).loc main_arg17) :=
  (Weven_of_9 m ρ c main_arg17 (by decide)).trans <| (Wodd_of_9 m ρ c main_arg17 (by decide)).trans <| (Weven_of_8 m ρ c main_arg17 (by decide)).trans <| (Wodd_of_8 m ρ c main_arg17 (by decide)).trans <| (Weven_of_7 m ρ c main_arg17 (by decide)).trans <| (Wodd_of_7 m ρ c main_arg17 (by decide)).trans <| (Weven_of_6 m ρ c main_arg17 (by decide)).trans <| (Wodd_of_6 m ρ c main_arg17 (by decide)).trans <| (Weven_of_5 m ρ c main_arg17 (by decide)).trans <| (Wodd_of_5 m ρ c main_arg17 (by decide)).trans <| (Weven_of_4 m ρ c main_arg17 (by decide)).trans <| (Wodd_of_4 m ρ c main_arg17 (by decide)).trans <| (Weven_of_3 m ρ c main_arg17 (by decide)).trans <| (Wodd_of_3 m ρ c main_arg17 (by decide)).trans <| (Weven_of_2 m ρ c main_arg17 (by decide)).trans <| (Wodd_of_2 m ρ c main_arg17 (by decide)).trans <| (Weven_of_1 m ρ c main_arg17 (by decide)).trans <| (Wodd_of_1 m ρ c main_arg17 (by decide)).trans <| (Weven_of_0 m ρ c main_arg17 (by decide)).trans <| (Wodd_of_0 m ρ c main_arg17 (by decide)).trans <| rfl
theorem W21_main_arg14 (c : Dev nD) : W21 m ρ c (Proc.devRef .tc main_arg14) = m ((c : Thread nD τ).loc main_arg14) :=
  (Wodd_of_10 m ρ c main_arg14 (by decide)).trans <| (Weven_of_9 m ρ c main_arg14 (by decide)).trans <| (Wodd_of_9 m ρ c main_arg14 (by decide)).trans <| (Weven_of_8 m ρ c main_arg14 (by decide)).trans <| (Wodd_of_8 m ρ c main_arg14 (by decide)).trans <| (Weven_of_7 m ρ c main_arg14 (by decide)).trans <| (Wodd_of_7 m ρ c main_arg14 (by decide)).trans <| (Weven_of_6 m ρ c main_arg14 (by decide)).trans <| (Wodd_of_6 m ρ c main_arg14 (by decide)).trans <| (Weven_of_5 m ρ c main_arg14 (by decide)).trans <| (Wodd_of_5 m ρ c main_arg14 (by decide)).trans <| (Weven_of_4 m ρ c main_arg14 (by decide)).trans <| (Wodd_of_4 m ρ c main_arg14 (by decide)).trans <| (Weven_of_3 m ρ c main_arg14 (by decide)).trans <| (Wodd_of_3 m ρ c main_arg14 (by decide)).trans <| (Weven_of_2 m ρ c main_arg14 (by decide)).trans <| (Wodd_of_2 m ρ c main_arg14 (by decide)).trans <| (Weven_of_1 m ρ c main_arg14 (by decide)).trans <| (Wodd_of_1 m ρ c main_arg14 (by decide)).trans <| (Weven_of_0 m ρ c main_arg14 (by decide)).trans <| (Wodd_of_0 m ρ c main_arg14 (by decide)).trans <| rfl
theorem W21_main_arg16 (c : Dev nD) : W21 m ρ c (Proc.devRef .tc main_arg16) = m ((c : Thread nD τ).loc main_arg16) :=
  (Wodd_of_10 m ρ c main_arg16 (by decide)).trans <| (Weven_of_9 m ρ c main_arg16 (by decide)).trans <| (Wodd_of_9 m ρ c main_arg16 (by decide)).trans <| (Weven_of_8 m ρ c main_arg16 (by decide)).trans <| (Wodd_of_8 m ρ c main_arg16 (by decide)).trans <| (Weven_of_7 m ρ c main_arg16 (by decide)).trans <| (Wodd_of_7 m ρ c main_arg16 (by decide)).trans <| (Weven_of_6 m ρ c main_arg16 (by decide)).trans <| (Wodd_of_6 m ρ c main_arg16 (by decide)).trans <| (Weven_of_5 m ρ c main_arg16 (by decide)).trans <| (Wodd_of_5 m ρ c main_arg16 (by decide)).trans <| (Weven_of_4 m ρ c main_arg16 (by decide)).trans <| (Wodd_of_4 m ρ c main_arg16 (by decide)).trans <| (Weven_of_3 m ρ c main_arg16 (by decide)).trans <| (Wodd_of_3 m ρ c main_arg16 (by decide)).trans <| (Weven_of_2 m ρ c main_arg16 (by decide)).trans <| (Wodd_of_2 m ρ c main_arg16 (by decide)).trans <| (Weven_of_1 m ρ c main_arg16 (by decide)).trans <| (Wodd_of_1 m ρ c main_arg16 (by decide)).trans <| (Weven_of_0 m ρ c main_arg16 (by decide)).trans <| (Wodd_of_0 m ρ c main_arg16 (by decide)).trans <| rfl

/-! ## The edge rows and the activation slope row, written before region 2 and read by later stretches and regions -/

theorem W5_main_v22 (c : Dev nD) : W5 m ρ c (Proc.devRef .tc main_v22) = edgeRow0 (m ((c : Thread nD τ).loc main_arg1)) :=
  (h2_v22 (W4 m ρ c)).trans (congrArg edgeRow0 (W4_main_arg1 m ρ c))
theorem W5_main_v24 (c : Dev nD) : W5 m ρ c (Proc.devRef .tc main_v24) = edgeRow1 (m ((c : Thread nD τ).loc main_arg1)) :=
  (h2_v24 (W4 m ρ c)).trans (congrArg edgeRow1 (W4_main_arg1 m ρ c))
theorem W5_main_v25 (c : Dev nD) : W5 m ρ c (Proc.devRef .tc main_v25) = row1 (m ((c : Thread nD τ).loc main_arg13)) :=
  (h2_v25 (W4 m ρ c)).trans (congrArg row1 (W4_main_arg13 m ρ c))
theorem W8_main_v22 (c : Dev nD) : W8 m ρ c (Proc.devRef .tc main_v22) = edgeRow0 (m ((c : Thread nD τ).loc main_arg1)) :=
  ((Weven_of_3 m ρ c main_v22 (by decide)).trans <| (Wodd_of_3 m ρ c main_v22 (by decide)).trans <| (Weven_of_2 m ρ c main_v22 (by decide)).trans <| W5_main_v22 m ρ c)
theorem W12_main_v22 (c : Dev nD) : W12 m ρ c (Proc.devRef .tc main_v22) = edgeRow0 (m ((c : Thread nD τ).loc main_arg1)) :=
  ((Weven_of_5 m ρ c main_v22 (by decide)).trans <| (Wodd_of_5 m ρ c main_v22 (by decide)).trans <| (Weven_of_4 m ρ c main_v22 (by decide)).trans <| (Wodd_of_4 m ρ c main_v22 (by decide)).trans <| (Weven_of_3 m ρ c main_v22 (by decide)).trans <| (Wodd_of_3 m ρ c main_v22 (by decide)).trans <| (Weven_of_2 m ρ c main_v22 (by decide)).trans <| W5_main_v22 m ρ c)
theorem W16_main_v22 (c : Dev nD) : W16 m ρ c (Proc.devRef .tc main_v22) = edgeRow0 (m ((c : Thread nD τ).loc main_arg1)) :=
  ((Weven_of_7 m ρ c main_v22 (by decide)).trans <| (Wodd_of_7 m ρ c main_v22 (by decide)).trans <| (Weven_of_6 m ρ c main_v22 (by decide)).trans <| (Wodd_of_6 m ρ c main_v22 (by decide)).trans <| (Weven_of_5 m ρ c main_v22 (by decide)).trans <| (Wodd_of_5 m ρ c main_v22 (by decide)).trans <| (Weven_of_4 m ρ c main_v22 (by decide)).trans <| (Wodd_of_4 m ρ c main_v22 (by decide)).trans <| (Weven_of_3 m ρ c main_v22 (by decide)).trans <| (Wodd_of_3 m ρ c main_v22 (by decide)).trans <| (Weven_of_2 m ρ c main_v22 (by decide)).trans <| W5_main_v22 m ρ c)
theorem W6_main_v24 (c : Dev nD) : W6 m ρ c (Proc.devRef .tc main_v24) = edgeRow1 (m ((c : Thread nD τ).loc main_arg1)) :=
  ((Weven_of_2 m ρ c main_v24 (by decide)).trans <| W5_main_v24 m ρ c)
theorem W10_main_v24 (c : Dev nD) : W10 m ρ c (Proc.devRef .tc main_v24) = edgeRow1 (m ((c : Thread nD τ).loc main_arg1)) :=
  ((Weven_of_4 m ρ c main_v24 (by decide)).trans <| (Wodd_of_4 m ρ c main_v24 (by decide)).trans <| (Weven_of_3 m ρ c main_v24 (by decide)).trans <| (Wodd_of_3 m ρ c main_v24 (by decide)).trans <| (Weven_of_2 m ρ c main_v24 (by decide)).trans <| W5_main_v24 m ρ c)
theorem W14_main_v24 (c : Dev nD) : W14 m ρ c (Proc.devRef .tc main_v24) = edgeRow1 (m ((c : Thread nD τ).loc main_arg1)) :=
  ((Weven_of_6 m ρ c main_v24 (by decide)).trans <| (Wodd_of_6 m ρ c main_v24 (by decide)).trans <| (Weven_of_5 m ρ c main_v24 (by decide)).trans <| (Wodd_of_5 m ρ c main_v24 (by decide)).trans <| (Weven_of_4 m ρ c main_v24 (by decide)).trans <| (Wodd_of_4 m ρ c main_v24 (by decide)).trans <| (Weven_of_3 m ρ c main_v24 (by decide)).trans <| (Wodd_of_3 m ρ c main_v24 (by decide)).trans <| (Weven_of_2 m ρ c main_v24 (by decide)).trans <| W5_main_v24 m ρ c)
theorem W18_main_v24 (c : Dev nD) : W18 m ρ c (Proc.devRef .tc main_v24) = edgeRow1 (m ((c : Thread nD τ).loc main_arg1)) :=
  ((Weven_of_8 m ρ c main_v24 (by decide)).trans <| (Wodd_of_8 m ρ c main_v24 (by decide)).trans <| (Weven_of_7 m ρ c main_v24 (by decide)).trans <| (Wodd_of_7 m ρ c main_v24 (by decide)).trans <| (Weven_of_6 m ρ c main_v24 (by decide)).trans <| (Wodd_of_6 m ρ c main_v24 (by decide)).trans <| (Weven_of_5 m ρ c main_v24 (by decide)).trans <| (Wodd_of_5 m ρ c main_v24 (by decide)).trans <| (Weven_of_4 m ρ c main_v24 (by decide)).trans <| (Wodd_of_4 m ρ c main_v24 (by decide)).trans <| (Weven_of_3 m ρ c main_v24 (by decide)).trans <| (Wodd_of_3 m ρ c main_v24 (by decide)).trans <| (Weven_of_2 m ρ c main_v24 (by decide)).trans <| W5_main_v24 m ρ c)
theorem V7_main_v25 (c : Dev nD) : V7 m ρ c main_v25 = row1 (m ((c : Thread nD τ).loc main_arg13)) :=
  ((Wodd_of_3 m ρ c main_v25 (by decide)).trans <| (Weven_of_2 m ρ c main_v25 (by decide)).trans <| W5_main_v25 m ρ c)
theorem V11_main_v25 (c : Dev nD) : V11 m ρ c main_v25 = row1 (m ((c : Thread nD τ).loc main_arg13)) :=
  ((Wodd_of_5 m ρ c main_v25 (by decide)).trans <| (Weven_of_4 m ρ c main_v25 (by decide)).trans <| (Wodd_of_4 m ρ c main_v25 (by decide)).trans <| (Weven_of_3 m ρ c main_v25 (by decide)).trans <| (Wodd_of_3 m ρ c main_v25 (by decide)).trans <| (Weven_of_2 m ρ c main_v25 (by decide)).trans <| W5_main_v25 m ρ c)
theorem V15_main_v25 (c : Dev nD) : V15 m ρ c main_v25 = row1 (m ((c : Thread nD τ).loc main_arg13)) :=
  ((Wodd_of_7 m ρ c main_v25 (by decide)).trans <| (Weven_of_6 m ρ c main_v25 (by decide)).trans <| (Wodd_of_6 m ρ c main_v25 (by decide)).trans <| (Weven_of_5 m ρ c main_v25 (by decide)).trans <| (Wodd_of_5 m ρ c main_v25 (by decide)).trans <| (Weven_of_4 m ρ c main_v25 (by decide)).trans <| (Wodd_of_4 m ρ c main_v25 (by decide)).trans <| (Weven_of_3 m ρ c main_v25 (by decide)).trans <| (Wodd_of_3 m ρ c main_v25 (by decide)).trans <| (Weven_of_2 m ρ c main_v25 (by decide)).trans <| W5_main_v25 m ρ c)
theorem V19_main_v25 (c : Dev nD) : V19 m ρ c main_v25 = row1 (m ((c : Thread nD τ).loc main_arg13)) :=
  ((Wodd_of_9 m ρ c main_v25 (by decide)).trans <| (Weven_of_8 m ρ c main_v25 (by decide)).trans <| (Wodd_of_8 m ρ c main_v25 (by decide)).trans <| (Weven_of_7 m ρ c main_v25 (by decide)).trans <| (Wodd_of_7 m ρ c main_v25 (by decide)).trans <| (Weven_of_6 m ρ c main_v25 (by decide)).trans <| (Wodd_of_6 m ρ c main_v25 (by decide)).trans <| (Weven_of_5 m ρ c main_v25 (by decide)).trans <| (Wodd_of_5 m ρ c main_v25 (by decide)).trans <| (Weven_of_4 m ρ c main_v25 (by decide)).trans <| (Wodd_of_4 m ρ c main_v25 (by decide)).trans <| (Weven_of_3 m ρ c main_v25 (by decide)).trans <| (Wodd_of_3 m ρ c main_v25 (by decide)).trans <| (Weven_of_2 m ρ c main_v25 (by decide)).trans <| W5_main_v25 m ρ c)

/-! ## Region 0's input windows -/

theorem V1_main_arg0 (c : Dev nD) : V1 m ρ c main_arg0 = m ((c : Thread nD τ).loc main_arg0) := W1_main_arg0 m ρ c
theorem V1_main_arg3 (c : Dev nD) : V1 m ρ c main_arg3 = m ((c : Thread nD τ).loc main_arg3) := W1_main_arg3 m ρ c
theorem V1_main_arg6 (c : Dev nD) : V1 m ρ c main_arg6 = m ((c : Thread nD τ).loc main_arg6) := W1_main_arg6 m ρ c
theorem V1_main_v0 (c : Dev nD) : V1 m ρ c main_v0 = row1 (m ((c : Thread nD τ).loc main_arg4)) := h0_v0 (W0 m ρ c)
theorem V1_main_v1 (c : Dev nD) : V1 m ρ c main_v1 = row1 (m ((c : Thread nD τ).loc main_arg5)) := h0_v1 (W0 m ρ c)
theorem V1_main_v2 (c : Dev nD) : V1 m ρ c main_v2 = row1 (m ((c : Thread nD τ).loc main_arg7)) := h0_v2 (W0 m ρ c)
theorem V1_main_v3 (c : Dev nD) : V1 m ρ c main_v3 = row1 (m ((c : Thread nD τ).loc main_arg8)) := h0_v3 (W0 m ρ c)

/-! ## Region 1's input windows: the features region 0 left, the mean and inverse deviation from its two sums -/

theorem V3_main_v4_0 (c : Dev nD) : V3 m ρ c main_v4_0 = W2 m ρ c (Proc.devRef .tc main_v4_0) := Wodd_of_1 m ρ c main_v4_0 (by decide)
theorem V3_main_v16 (c : Dev nD) : V3 m ρ c main_v16 = row1 (meanOf (W2 m ρ c (Proc.devRef .tc main_v4_1))) := h1_v16 (W2 m ρ c)
theorem V3_main_v17 (c : Dev nD) :
    V3 m ρ c main_v17 = row1 (invStdOf (W2 m ρ c (Proc.devRef .tc main_v4_1)) (W2 m ρ c (Proc.devRef .tc main_v4_2))) := h1_v17 (W2 m ρ c)
theorem V3_main_v18 (c : Dev nD) : V3 m ρ c main_v18 = row1 (m ((c : Thread nD τ).loc main_arg9)) :=
  (h1_v18 (W2 m ρ c)).trans (congrArg row1 (W2_main_arg9 m ρ c))
theorem V3_main_v19 (c : Dev nD) : V3 m ρ c main_v19 = row1 (m ((c : Thread nD τ).loc main_arg10)) :=
  (h1_v19 (W2 m ρ c)).trans (congrArg row1 (W2_main_arg10 m ρ c))

/-! ## Regions 2 and 3: message layer 0 -/

theorem V5_main_v32 (c : Dev nD) : V5 m ρ c main_v32 = gatherRows (W4 m ρ c (Proc.devRef .tc main_v20)) (m ((c : Thread nD τ).loc main_arg1)) :=
  (h2_v32 (W4 m ρ c)).trans (congrArg (gatherRows (W4 m ρ c (Proc.devRef .tc main_v20))) (W4_main_arg1 m ρ c))
theorem V5_main_v34 (c : Dev nD) : V5 m ρ c main_v34 = msgW0 (m ((c : Thread nD τ).loc main_arg11)) :=
  (h2_v34 (W4 m ρ c)).trans (congrArg msgW0 (W4_main_arg11 m ρ c))
theorem V5_main_v37 (c : Dev nD) : V5 m ρ c main_v37 = row1 (msgB0 (m ((c : Thread nD τ).loc main_arg12))) :=
  (h2_v37 (W4 m ρ c)).trans (congrArg (fun x => row1 (msgB0 x)) (W4_main_arg12 m ρ c))
theorem V7_main_v41 (c : Dev nD) : V7 m ρ c main_v41 = edgeAggregate (m ((c : Thread nD τ).loc main_arg1)) (W6 m ρ c (Proc.devRef .tc main_v38)) :=
  (h3_v41 (W6 m ρ c)).trans (congrArg (fun d => scatterAt d (W6 m ρ c (Proc.devRef .tc main_v38))) (W6_main_v24 m ρ c))
theorem V7_main_v20 (c : Dev nD) : V7 m ρ c main_v20 = W4 m ρ c (Proc.devRef .tc main_v20) :=
  (Wodd_of_3 m ρ c main_v20 (by decide)).trans <| (Weven_of_2 m ρ c main_v20 (by decide)).trans <| (Wodd_of_2 m ρ c main_v20 (by decide)).trans <| rfl

/-! ## Regions 4 and 5: message layer 1 -/

theorem V9_main_v49 (c : Dev nD) : V9 m ρ c main_v49 = gatherRows (W8 m ρ c (Proc.devRef .tc main_v42)) (m ((c : Thread nD τ).loc main_arg1)) :=
  (h4_v49 (W8 m ρ c)).trans (congrArg (gatherAt (W8 m ρ c (Proc.devRef .tc main_v42))) (W8_main_v22 m ρ c))
theorem V9_main_v51 (c : Dev nD) : V9 m ρ c main_v51 = msgW1 (m ((c : Thread nD τ).loc main_arg11)) :=
  (h4_v51 (W8 m ρ c)).trans (congrArg msgW1 (W8_main_arg11 m ρ c))
theorem V9_main_v54 (c : Dev nD) : V9 m ρ c main_v54 = row1 (msgB1 (m ((c : Thread nD τ).loc main_arg12))) :=
  (h4_v54 (W8 m ρ c)).trans (congrArg (fun x => row1 (msgB1 x)) (W8_main_arg12 m ρ c))
theorem V11_main_v58 (c : Dev nD) : V11 m ρ c main_v58 = edgeAggregate (m ((c : Thread nD τ).loc main_arg1)) (W10 m ρ c (Proc.devRef .tc main_v55)) :=
  (h5_v58 (W10 m ρ c)).trans (congrArg (fun d => scatterAt d (W10 m ρ c (Proc.devRef .tc main_v55))) (W10_main_v24 m ρ c))
theorem V11_main_v42 (c : Dev nD) : V11 m ρ c main_v42 = W8 m ρ c (Proc.devRef .tc main_v42) :=
  (Wodd_of_5 m ρ c main_v42 (by decide)).trans <| (Weven_of_4 m ρ c main_v42 (by decide)).trans <| (Wodd_of_4 m ρ c main_v42 (by decide)).trans <| rfl

/-! ## Regions 6 and 7: message layer 2 -/

theorem V13_main_v66 (c : Dev nD) : V13 m ρ c main_v66 = gatherRows (W12 m ρ c (Proc.devRef .tc main_v59)) (m ((c : Thread nD τ).loc main_arg1)) :=
  (h6_v66 (W12 m ρ c)).trans (congrArg (gatherAt (W12 m ρ c (Proc.devRef .tc main_v59))) (W12_main_v22 m ρ c))
theorem V13_main_v68 (c : Dev nD) : V13 m ρ c main_v68 = msgW2 (m ((c : Thread nD τ).loc main_arg11)) :=
  (h6_v68 (W12 m ρ c)).trans (congrArg msgW2 (W12_main_arg11 m ρ c))
theorem V13_main_v71 (c : Dev nD) : V13 m ρ c main_v71 = row1 (msgB2 (m ((c : Thread nD τ).loc main_arg12))) :=
  (h6_v71 (W12 m ρ c)).trans (congrArg (fun x => row1 (msgB2 x)) (W12_main_arg12 m ρ c))
theorem V15_main_v75 (c : Dev nD) : V15 m ρ c main_v75 = edgeAggregate (m ((c : Thread nD τ).loc main_arg1)) (W14 m ρ c (Proc.devRef .tc main_v72)) :=
  (h7_v75 (W14 m ρ c)).trans (congrArg (fun d => scatterAt d (W14 m ρ c (Proc.devRef .tc main_v72))) (W14_main_v24 m ρ c))
theorem V15_main_v59 (c : Dev nD) : V15 m ρ c main_v59 = W12 m ρ c (Proc.devRef .tc main_v59) :=
  (Wodd_of_7 m ρ c main_v59 (by decide)).trans <| (Weven_of_6 m ρ c main_v59 (by decide)).trans <| (Wodd_of_6 m ρ c main_v59 (by decide)).trans <| rfl

/-! ## Regions 8 and 9: message layer 3 -/

theorem V17_main_v83 (c : Dev nD) : V17 m ρ c main_v83 = gatherRows (W16 m ρ c (Proc.devRef .tc main_v76)) (m ((c : Thread nD τ).loc main_arg1)) :=
  (h8_v83 (W16 m ρ c)).trans (congrArg (gatherAt (W16 m ρ c (Proc.devRef .tc main_v76))) (W16_main_v22 m ρ c))
theorem V17_main_v85 (c : Dev nD) : V17 m ρ c main_v85 = msgW3 (m ((c : Thread nD τ).loc main_arg11)) :=
  (h8_v85 (W16 m ρ c)).trans (congrArg msgW3 (W16_main_arg11 m ρ c))
theorem V17_main_v88 (c : Dev nD) : V17 m ρ c main_v88 = row1 (msgB3 (m ((c : Thread nD τ).loc main_arg12))) :=
  (h8_v88 (W16 m ρ c)).trans (congrArg (fun x => row1 (msgB3 x)) (W16_main_arg12 m ρ c))
theorem V19_main_v92 (c : Dev nD) : V19 m ρ c main_v92 = edgeAggregate (m ((c : Thread nD τ).loc main_arg1)) (W18 m ρ c (Proc.devRef .tc main_v89)) :=
  (h9_v92 (W18 m ρ c)).trans (congrArg (fun d => scatterAt d (W18 m ρ c (Proc.devRef .tc main_v89))) (W18_main_v24 m ρ c))
theorem V19_main_v76 (c : Dev nD) : V19 m ρ c main_v76 = W16 m ρ c (Proc.devRef .tc main_v76) :=
  (Wodd_of_9 m ρ c main_v76 (by decide)).trans <| (Weven_of_8 m ρ c main_v76 (by decide)).trans <| (Wodd_of_8 m ρ c main_v76 (by decide)).trans <| rfl

/-! ## Region 10's input windows: the pooled concatenation of the five feature blocks, and the closing layers' parameters -/

theorem W20_main_v20 (c : Dev nD) : W20 m ρ c (Proc.devRef .tc main_v20) = W4 m ρ c (Proc.devRef .tc main_v20) :=
  (Weven_of_9 m ρ c main_v20 (by decide)).trans <| (Wodd_of_9 m ρ c main_v20 (by decide)).trans <| (Weven_of_8 m ρ c main_v20 (by decide)).trans <| (Wodd_of_8 m ρ c main_v20 (by decide)).trans <| (Weven_of_7 m ρ c main_v20 (by decide)).trans <| (Wodd_of_7 m ρ c main_v20 (by decide)).trans <| (Weven_of_6 m ρ c main_v20 (by decide)).trans <| (Wodd_of_6 m ρ c main_v20 (by decide)).trans <| (Weven_of_5 m ρ c main_v20 (by decide)).trans <| (Wodd_of_5 m ρ c main_v20 (by decide)).trans <| (Weven_of_4 m ρ c main_v20 (by decide)).trans <| (Wodd_of_4 m ρ c main_v20 (by decide)).trans <| (Weven_of_3 m ρ c main_v20 (by decide)).trans <| (Wodd_of_3 m ρ c main_v20 (by decide)).trans <| (Weven_of_2 m ρ c main_v20 (by decide)).trans <| (Wodd_of_2 m ρ c main_v20 (by decide)).trans <| rfl
theorem W20_main_v42 (c : Dev nD) : W20 m ρ c (Proc.devRef .tc main_v42) = W8 m ρ c (Proc.devRef .tc main_v42) :=
  (Weven_of_9 m ρ c main_v42 (by decide)).trans <| (Wodd_of_9 m ρ c main_v42 (by decide)).trans <| (Weven_of_8 m ρ c main_v42 (by decide)).trans <| (Wodd_of_8 m ρ c main_v42 (by decide)).trans <| (Weven_of_7 m ρ c main_v42 (by decide)).trans <| (Wodd_of_7 m ρ c main_v42 (by decide)).trans <| (Weven_of_6 m ρ c main_v42 (by decide)).trans <| (Wodd_of_6 m ρ c main_v42 (by decide)).trans <| (Weven_of_5 m ρ c main_v42 (by decide)).trans <| (Wodd_of_5 m ρ c main_v42 (by decide)).trans <| (Weven_of_4 m ρ c main_v42 (by decide)).trans <| (Wodd_of_4 m ρ c main_v42 (by decide)).trans <| rfl
theorem W20_main_v59 (c : Dev nD) : W20 m ρ c (Proc.devRef .tc main_v59) = W12 m ρ c (Proc.devRef .tc main_v59) :=
  (Weven_of_9 m ρ c main_v59 (by decide)).trans <| (Wodd_of_9 m ρ c main_v59 (by decide)).trans <| (Weven_of_8 m ρ c main_v59 (by decide)).trans <| (Wodd_of_8 m ρ c main_v59 (by decide)).trans <| (Weven_of_7 m ρ c main_v59 (by decide)).trans <| (Wodd_of_7 m ρ c main_v59 (by decide)).trans <| (Weven_of_6 m ρ c main_v59 (by decide)).trans <| (Wodd_of_6 m ρ c main_v59 (by decide)).trans <| rfl
theorem W20_main_v76 (c : Dev nD) : W20 m ρ c (Proc.devRef .tc main_v76) = W16 m ρ c (Proc.devRef .tc main_v76) :=
  (Weven_of_9 m ρ c main_v76 (by decide)).trans <| (Wodd_of_9 m ρ c main_v76 (by decide)).trans <| (Weven_of_8 m ρ c main_v76 (by decide)).trans <| (Wodd_of_8 m ρ c main_v76 (by decide)).trans <| rfl
theorem V21_main_v97 (c : Dev nD) : V21 m ρ c main_v97
    = poolConcat (W4 m ρ c (Proc.devRef .tc main_v20)) (W8 m ρ c (Proc.devRef .tc main_v42)) (W12 m ρ c (Proc.devRef .tc main_v59))
        (W16 m ρ c (Proc.devRef .tc main_v76)) (W20 m ρ c (Proc.devRef .tc main_v93)) (m ((c : Thread nD τ).loc main_arg2)) := by
  refine (h10_v97 (W20 m ρ c)).trans ?_
  rw [W20_main_v20, W20_main_v42, W20_main_v59, W20_main_v76, W20_main_arg2]
theorem V21_main_arg14 (c : Dev nD) : V21 m ρ c main_arg14 = m ((c : Thread nD τ).loc main_arg14) := W21_main_arg14 m ρ c
theorem V21_main_arg16 (c : Dev nD) : V21 m ρ c main_arg16 = m ((c : Thread nD τ).loc main_arg16) := W21_main_arg16 m ρ c
theorem V21_main_v98 (c : Dev nD) : V21 m ρ c main_v98 = row320 (m ((c : Thread nD τ).loc main_arg15)) :=
  (h10_v98 (W20 m ρ c)).trans (congrArg row320 (W20_main_arg15 m ρ c))
theorem V21_main_v99 (c : Dev nD) : V21 m ρ c main_v99 = row1x1 (m ((c : Thread nD τ).loc main_arg17)) :=
  (h10_v99 (W20 m ρ c)).trans (congrArg row1x1 (W20_main_arg17 m ρ c))

end Cert.KernelIdeal.Hand

end
-- ==== Proof.KI.GlueRef.lean ====
/-
  The host operations the program shares with the reference, stated in the reference's own stage functions: the two
  programs print the gather of source rows, the scatter-add of messages, the slices of the stacked message weights and
  the pooled concatenation with the same text over equal shapes, so each of this program's stages IS the reference's
  (by unfolding both), and each window's array at its region's entry is the reference's function of the launch
  arguments and of the arrays earlier regions left.
-/
import proofs.«128986_j27779848471455_1_alg».proof.Proof.KI.Glue
import proofs.«128986_j27779848471455_1_alg».proof.Proof.Ref.Run2

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

set_option quotPrecheck false in
local notation "T[" s ", " e "]" => BufTy.Contents (Elt F) (BufTy.mk s e)

/-! ## Each shared stage is the reference's -/

theorem edgeRow0_ref (e : T[S2x1600000, .i32]) : edgeRow0 e = Cert.ReferenceIdeal.RefRun.edgeRow0 e := rfl
theorem edgeRow1_ref (e : T[S2x1600000, .i32]) : edgeRow1 e = Cert.ReferenceIdeal.RefRun.edgeRow1 e := rfl
theorem colIdx_ref (d : T[S1600000, .i32]) : colIdx d = Cert.ReferenceIdeal.RefRun.colIdx d := rfl
theorem wrapIdx_ref (s : T[S1600000, .i32]) : wrapIdx s = Cert.ReferenceIdeal.RefRun.wrapIdx s := rfl
theorem zeroN_ref : (zeroN : T[S100000x64, .f32]) = Cert.ReferenceIdeal.RefRun.zeroN := rfl
theorem msgW0_ref (W : T[S4x64x64, .f32]) : msgW0 W = Cert.ReferenceIdeal.RefRun.msgW0 W := rfl
theorem msgW1_ref (W : T[S4x64x64, .f32]) : msgW1 W = Cert.ReferenceIdeal.RefRun.msgW1 W := rfl
theorem msgW2_ref (W : T[S4x64x64, .f32]) : msgW2 W = Cert.ReferenceIdeal.RefRun.msgW2 W := rfl
theorem msgW3_ref (W : T[S4x64x64, .f32]) : msgW3 W = Cert.ReferenceIdeal.RefRun.msgW3 W := rfl
theorem msgB0_ref (b : T[S4x64, .f32]) : msgB0 b = Cert.ReferenceIdeal.RefRun.msgB0 b := rfl
theorem msgB1_ref (b : T[S4x64, .f32]) : msgB1 b = Cert.ReferenceIdeal.RefRun.msgB1 b := rfl
theorem msgB2_ref (b : T[S4x64, .f32]) : msgB2 b = Cert.ReferenceIdeal.RefRun.msgB2 b := rfl
theorem msgB3_ref (b : T[S4x64, .f32]) : msgB3 b = Cert.ReferenceIdeal.RefRun.msgB3 b := rfl

/-- The gather of source rows is the reference's gather at its wrapped source indices. -/
theorem gatherRows_ref (h : T[S100000x64, .f32]) (e : T[S2x1600000, .i32]) :
    gatherRows h e = Host.gather Cert.ReferenceIdeal.gather_S100000x64_S1600000x1_S1600000x64_1_0_n_n_0_1_164 h (Cert.ReferenceIdeal.RefRun.wrapIdx (Cert.ReferenceIdeal.RefRun.edgeRow0 e)) := rfl

/-- The scatter-add of messages is the reference's scatter-add, from its zero features, at its destination indices. -/
theorem edgeAggregate_ref (e : T[S2x1600000, .i32]) (msg : T[S1600000x64, .f32]) :
    edgeAggregate e msg = Host.scatterAdd Cert.ReferenceIdeal.scatter_S100000x64_S1600000x1_S1600000x64_1_0_0_1 Cert.ReferenceIdeal.RefRun.zeroN (Cert.ReferenceIdeal.RefRun.colIdx (Cert.ReferenceIdeal.RefRun.edgeRow1 e)) msg := rfl

/-- The pooled concatenation is the reference's. -/
theorem poolConcat_ref (h0 h1 h2 h3 h4 : T[S100000x64, .f32]) (batch : T[S100000, .i32]) :
    poolConcat h0 h1 h2 h3 h4 batch = Cert.ReferenceIdeal.RefRun.pool h0 h1 h2 h3 h4 batch := rfl

/-! ## The windows' arrays in the reference's stages -/

variable (m : (ℓ : Loc nD τ sig) → Buf (Elt F) ℓ) (ρ : Dev nD → PrngReg)

theorem V5_main_v32_ref (c : Dev nD) :
    V5 m ρ c main_v32 = Host.gather Cert.ReferenceIdeal.gather_S100000x64_S1600000x1_S1600000x64_1_0_n_n_0_1_164 (W4 m ρ c (Proc.devRef .tc main_v20)) (Cert.ReferenceIdeal.RefRun.wrapIdx (Cert.ReferenceIdeal.RefRun.edgeRow0 (m ((c : Thread nD τ).loc main_arg1)))) :=
  V5_main_v32 m ρ c
theorem V5_main_v34_ref (c : Dev nD) : V5 m ρ c main_v34 = Cert.ReferenceIdeal.RefRun.msgW0 (m ((c : Thread nD τ).loc main_arg11)) := V5_main_v34 m ρ c
theorem V5_main_v37_ref (c : Dev nD) : V5 m ρ c main_v37 = row1 (Cert.ReferenceIdeal.RefRun.msgB0 (m ((c : Thread nD τ).loc main_arg12))) := V5_main_v37 m ρ c
theorem V7_main_v41_ref (c : Dev nD) :
    V7 m ρ c main_v41 = Host.scatterAdd Cert.ReferenceIdeal.scatter_S100000x64_S1600000x1_S1600000x64_1_0_0_1 Cert.ReferenceIdeal.RefRun.zeroN (Cert.ReferenceIdeal.RefRun.colIdx (Cert.ReferenceIdeal.RefRun.edgeRow1 (m ((c : Thread nD τ).loc main_arg1)))) (W6 m ρ c (Proc.devRef .tc main_v38)) :=
  V7_main_v41 m ρ c

theorem V9_main_v49_ref (c : Dev nD) :
    V9 m ρ c main_v49 = Host.gather Cert.ReferenceIdeal.gather_S100000x64_S1600000x1_S1600000x64_1_0_n_n_0_1_164 (W8 m ρ c (Proc.devRef .tc main_v42)) (Cert.ReferenceIdeal.RefRun.wrapIdx (Cert.ReferenceIdeal.RefRun.edgeRow0 (m ((c : Thread nD τ).loc main_arg1)))) :=
  V9_main_v49 m ρ c
theorem V9_main_v51_ref (c : Dev nD) : V9 m ρ c main_v51 = Cert.ReferenceIdeal.RefRun.msgW1 (m ((c : Thread nD τ).loc main_arg11)) := V9_main_v51 m ρ c
theorem V9_main_v54_ref (c : Dev nD) : V9 m ρ c main_v54 = row1 (Cert.ReferenceIdeal.RefRun.msgB1 (m ((c : Thread nD τ).loc main_arg12))) := V9_main_v54 m ρ c
theorem V11_main_v58_ref (c : Dev nD) :
    V11 m ρ c main_v58 = Host.scatterAdd Cert.ReferenceIdeal.scatter_S100000x64_S1600000x1_S1600000x64_1_0_0_1 Cert.ReferenceIdeal.RefRun.zeroN (Cert.ReferenceIdeal.RefRun.colIdx (Cert.ReferenceIdeal.RefRun.edgeRow1 (m ((c : Thread nD τ).loc main_arg1)))) (W10 m ρ c (Proc.devRef .tc main_v55)) :=
  V11_main_v58 m ρ c

theorem V13_main_v66_ref (c : Dev nD) :
    V13 m ρ c main_v66 = Host.gather Cert.ReferenceIdeal.gather_S100000x64_S1600000x1_S1600000x64_1_0_n_n_0_1_164 (W12 m ρ c (Proc.devRef .tc main_v59)) (Cert.ReferenceIdeal.RefRun.wrapIdx (Cert.ReferenceIdeal.RefRun.edgeRow0 (m ((c : Thread nD τ).loc main_arg1)))) :=
  V13_main_v66 m ρ c
theorem V13_main_v68_ref (c : Dev nD) : V13 m ρ c main_v68 = Cert.ReferenceIdeal.RefRun.msgW2 (m ((c : Thread nD τ).loc main_arg11)) := V13_main_v68 m ρ c
theorem V13_main_v71_ref (c : Dev nD) : V13 m ρ c main_v71 = row1 (Cert.ReferenceIdeal.RefRun.msgB2 (m ((c : Thread nD τ).loc main_arg12))) := V13_main_v71 m ρ c
theorem V15_main_v75_ref (c : Dev nD) :
    V15 m ρ c main_v75 = Host.scatterAdd Cert.ReferenceIdeal.scatter_S100000x64_S1600000x1_S1600000x64_1_0_0_1 Cert.ReferenceIdeal.RefRun.zeroN (Cert.ReferenceIdeal.RefRun.colIdx (Cert.ReferenceIdeal.RefRun.edgeRow1 (m ((c : Thread nD τ).loc main_arg1)))) (W14 m ρ c (Proc.devRef .tc main_v72)) :=
  V15_main_v75 m ρ c

theorem V17_main_v83_ref (c : Dev nD) :
    V17 m ρ c main_v83 = Host.gather Cert.ReferenceIdeal.gather_S100000x64_S1600000x1_S1600000x64_1_0_n_n_0_1_164 (W16 m ρ c (Proc.devRef .tc main_v76)) (Cert.ReferenceIdeal.RefRun.wrapIdx (Cert.ReferenceIdeal.RefRun.edgeRow0 (m ((c : Thread nD τ).loc main_arg1)))) :=
  V17_main_v83 m ρ c
theorem V17_main_v85_ref (c : Dev nD) : V17 m ρ c main_v85 = Cert.ReferenceIdeal.RefRun.msgW3 (m ((c : Thread nD τ).loc main_arg11)) := V17_main_v85 m ρ c
theorem V17_main_v88_ref (c : Dev nD) : V17 m ρ c main_v88 = row1 (Cert.ReferenceIdeal.RefRun.msgB3 (m ((c : Thread nD τ).loc main_arg12))) := V17_main_v88 m ρ c
theorem V19_main_v92_ref (c : Dev nD) :
    V19 m ρ c main_v92 = Host.scatterAdd Cert.ReferenceIdeal.scatter_S100000x64_S1600000x1_S1600000x64_1_0_0_1 Cert.ReferenceIdeal.RefRun.zeroN (Cert.ReferenceIdeal.RefRun.colIdx (Cert.ReferenceIdeal.RefRun.edgeRow1 (m ((c : Thread nD τ).loc main_arg1)))) (W18 m ρ c (Proc.devRef .tc main_v89)) :=
  V19_main_v92 m ρ c

theorem V21_main_v97_ref (c : Dev nD) : V21 m ρ c main_v97
    = Cert.ReferenceIdeal.RefRun.pool (W4 m ρ c (Proc.devRef .tc main_v20)) (W8 m ρ c (Proc.devRef .tc main_v42)) (W12 m ρ c (Proc.devRef .tc main_v59))
        (W16 m ρ c (Proc.devRef .tc main_v76)) (W20 m ρ c (Proc.devRef .tc main_v93)) (m ((c : Thread nD τ).loc main_arg2)) :=
  V21_main_v97 m ρ c

end Cert.KernelIdeal.Hand

end
-- ==== Proof.KI.GlueRead.lean ====
/-
  The host stages read at an index. A vector laid out as a one-row matrix reads the vector's entry; a slice of the
  stacked message weights reads the stack at the slice's number; and, on the extended reals, the batch statistics read
  entrywise: the mean row is the column sum divided by the row count, the inverse-deviation row is the reciprocal
  square root of (sum of squares / count - mean · mean + guard).
-/
import proofs.«128986_j27779848471455_1_alg».proof.Proof.KI.GlueOps
import Idealize.ShloMosaic.Lib.IdealHost
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx

/-! ## At any float model -/

section Any

variable {F : FTy → Type} [FloatOps F]

set_option quotPrecheck false in
local notation "T[" s ", " e "]" => BufTy.Contents (Elt F) (BufTy.mk s e)

/-- A vector as a one-row matrix reads, at (u, q), the vector at q. -/
theorem row1_apply (b : T[S64, .f32]) (u : Fin 1) (q : Fin 64) : row1 b (ix2 u q) = b (ix1 q) :=
  shapeCast_a_1a_apply b shapeCasts_S64_S1x64 u q

/-- A one-row matrix as a vector reads, at q, the matrix at (0, q). -/
theorem unrow1_apply (r : T[S1x64, .f32]) (q : Fin 64) : unrow1 r (ix1 q) = r (ix2 (0 : Fin 1) q) :=
  shapeCast_1a_a_apply r shapeCasts_S1x64_S64 q

theorem row320_apply (b : T[S320, .f32]) (u : Fin 1) (q : Fin 320) : row320 b (ix2 u q) = b (ix1 q) :=
  shapeCast_a_1a_apply b shapeCasts_S320_S1x320 u q

theorem row1x1_apply (b : T[S1, .f32]) (u : Fin 1) (q : Fin 1) : row1x1 b (ix2 u q) = b (ix1 q) :=
  shapeCast_a_1a_apply b shapeCasts_S1_S1x1 u q

/-- Message weight matrix i reads, at (p, q), the stack at (i, p, q). -/
theorem msgW0_apply (W : T[S4x64x64, .f32]) (p q : Fin 64) : msgW0 W (ix2 p q) = W (ix3 (0 : Fin 4) p q) := by
  unfold msgW0
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)
theorem msgW1_apply (W : T[S4x64x64, .f32]) (p q : Fin 64) : msgW1 W (ix2 p q) = W (ix3 (1 : Fin 4) p q) := by
  unfold msgW1
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)
theorem msgW2_apply (W : T[S4x64x64, .f32]) (p q : Fin 64) : msgW2 W (ix2 p q) = W (ix3 (2 : Fin 4) p q) := by
  unfold msgW2
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)
theorem msgW3_apply (W : T[S4x64x64, .f32]) (p q : Fin 64) : msgW3 W (ix2 p q) = W (ix3 (3 : Fin 4) p q) := by
  unfold msgW3
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

/-- Message bias i reads, at q, the stack at (i, q). -/
theorem msgB0_apply (b : T[S4x64, .f32]) (q : Fin 64) : msgB0 b (ix1 q) = b (ix2 (0 : Fin 4) q) := by
  unfold msgB0
  rw [shapeCast_1a_a_apply]
  exact slice2_axis0_apply 0 b _ _ _ _ rfl
theorem msgB1_apply (b : T[S4x64, .f32]) (q : Fin 64) : msgB1 b (ix1 q) = b (ix2 (1 : Fin 4) q) := by
  unfold msgB1
  rw [shapeCast_1a_a_apply]
  exact slice2_axis0_apply 1 b _ _ _ _ rfl
theorem msgB2_apply (b : T[S4x64, .f32]) (q : Fin 64) : msgB2 b (ix1 q) = b (ix2 (2 : Fin 4) q) := by
  unfold msgB2
  rw [shapeCast_1a_a_apply]
  exact slice2_axis0_apply 2 b _ _ _ _ rfl
theorem msgB3_apply (b : T[S4x64, .f32]) (q : Fin 64) : msgB3 b (ix1 q) = b (ix2 (3 : Fin 4) q) := by
  unfold msgB3
  rw [shapeCast_1a_a_apply]
  exact slice2_axis0_apply 3 b _ _ _ _ rfl

/-- The bias rows the message regions read. -/
theorem msgB0_row_apply (b : T[S4x64, .f32]) (u : Fin 1) (q : Fin 64) : row1 (msgB0 b) (ix2 u q) = b (ix2 (0 : Fin 4) q) := by
  rw [row1_apply, msgB0_apply]
theorem msgB1_row_apply (b : T[S4x64, .f32]) (u : Fin 1) (q : Fin 64) : row1 (msgB1 b) (ix2 u q) = b (ix2 (1 : Fin 4) q) := by
  rw [row1_apply, msgB1_apply]
theorem msgB2_row_apply (b : T[S4x64, .f32]) (u : Fin 1) (q : Fin 64) : row1 (msgB2 b) (ix2 u q) = b (ix2 (2 : Fin 4) q) := by
  rw [row1_apply, msgB2_apply]
theorem msgB3_row_apply (b : T[S4x64, .f32]) (u : Fin 1) (q : Fin 64) : row1 (msgB3 b) (ix2 u q) = b (ix2 (3 : Fin 4) q) := by
  rw [row1_apply, msgB3_apply]

end Any

/-! ## On the extended reals: the batch statistics entrywise -/

section OnIdeal

set_option quotPrecheck false in
local notation "R[" s "]" => BufTy.Contents (Elt Ideal) (BufTy.mk s .f32)

/-- The row count and the guard in every column. -/
theorem rowsVec_apply (j : S64.Idx) : (rowsVec (F := Ideal)) j = Ideal.ofBits .f32 0x47C35000#32 := by
  unfold rowsVec; rw [broadcastInDim_scalar_apply]; rfl
theorem epsVec_apply (j : S64.Idx) : (epsVec (F := Ideal)) j = Ideal.ofBits .f32 0x3727C5AC#32 := by
  unfold epsVec; rw [broadcastInDim_scalar_apply]; rfl

/-- The mean at column q: the accumulated sum's entry (0, q) divided by the row count. -/
theorem meanOf_apply (s : R[S1x64]) (q : Fin 64) :
    meanOf s (ix1 q) = Ideal.div (s (ix2 (0 : Fin 1) q)) (Ideal.ofBits .f32 0x47C35000#32) := by
  show Ideal.div (unrow1 s (ix1 q)) (rowsVec (F := Ideal) (ix1 q)) = _
  rw [unrow1_apply, rowsVec_apply]

/-- The variance at column q: sum of squares / count - mean · mean. -/
theorem varOf_apply (s ss : R[S1x64]) (q : Fin 64) :
    varOf s ss (ix1 q) = Ideal.div (ss (ix2 (0 : Fin 1) q)) (Ideal.ofBits .f32 0x47C35000#32)
      - Ideal.div (s (ix2 (0 : Fin 1) q)) (Ideal.ofBits .f32 0x47C35000#32)
        * Ideal.div (s (ix2 (0 : Fin 1) q)) (Ideal.ofBits .f32 0x47C35000#32) := by
  show Ideal.div (unrow1 ss (ix1 q)) (rowsVec (F := Ideal) (ix1 q)) - meanOf s (ix1 q) * meanOf s (ix1 q) = _
  rw [unrow1_apply, rowsVec_apply, meanOf_apply]

/-- The inverse deviation at column q: the reciprocal square root of the guarded variance. -/
theorem invStdOf_apply (s ss : R[S1x64]) (q : Fin 64) :
    invStdOf s ss (ix1 q) = Ideal.rsqrt (Ideal.div (ss (ix2 (0 : Fin 1) q)) (Ideal.ofBits .f32 0x47C35000#32)
      - Ideal.div (s (ix2 (0 : Fin 1) q)) (Ideal.ofBits .f32 0x47C35000#32)
        * Ideal.div (s (ix2 (0 : Fin 1) q)) (Ideal.ofBits .f32 0x47C35000#32)
      + Ideal.ofBits .f32 0x3727C5AC#32) := by
  show Ideal.rsqrt (varOf s ss (ix1 q) + epsVec (F := Ideal) (ix1 q)) = _
  rw [varOf_apply, epsVec_apply]

/-- The two rows the normalising region reads. -/
theorem meanRow_apply (s : R[S1x64]) (u : Fin 1) (q : Fin 64) :
    row1 (meanOf s) (ix2 u q) = Ideal.div (s (ix2 (0 : Fin 1) q)) (Ideal.ofBits .f32 0x47C35000#32) := by
  rw [row1_apply, meanOf_apply]
theorem invRow_apply (s ss : R[S1x64]) (u : Fin 1) (q : Fin 64) :
    row1 (invStdOf s ss) (ix2 u q) = Ideal.rsqrt (Ideal.div (ss (ix2 (0 : Fin 1) q)) (Ideal.ofBits .f32 0x47C35000#32)
      - Ideal.div (s (ix2 (0 : Fin 1) q)) (Ideal.ofBits .f32 0x47C35000#32)
        * Ideal.div (s (ix2 (0 : Fin 1) q)) (Ideal.ofBits .f32 0x47C35000#32)
      + Ideal.ofBits .f32 0x3727C5AC#32) := by
  rw [row1_apply, invStdOf_apply]

end OnIdeal

end Cert.KernelIdeal.Hand

end
-- ==== Proof.Spec.lean ====
/-
  The network's layers as pure functions on the extended reals, over plain row and column indices. Both programs'
  arrays are read into this form (an array `A` of shape [n, m] as `fun p q => A (ix2 p q)`), and each side's stages are
  proved equal to these functions; nothing here mentions a program.
-/
import Idealize.ShloMosaic.PureOps.Ideal
import Idealize.ShloMosaic.Lib.ValueIdx

noncomputable section

namespace Cert.Spec

open Idealize.ShloMosaic

/-- PReLU with slope `a`: `x` where `0 ≤ x`, `a · x` elsewhere. -/
def prelu (a x : EReal) : EReal := if 0 ≤ x then x else a * x

/-- A dense layer: entry (p, q) is the sum over j of x (p, j) · w (j, q), plus the bias b q. -/
def lin {n k m : ℕ} (x : Fin n → Fin k → EReal) (w : Fin k → Fin m → EReal) (b : Fin m → EReal) : Fin n → Fin m → EReal :=
  fun p q => (∑ j : Fin k, x p j * w j q) + b q

/-- A dense layer followed by a per-column PReLU. -/
def linPrelu {n k m : ℕ} (x : Fin n → Fin k → EReal) (w : Fin k → Fin m → EReal) (b a : Fin m → EReal) : Fin n → Fin m → EReal :=
  fun p q => prelu (a q) (lin x w b p q)

/-- The two-layer head: Linear, PReLU, Linear, PReLU. -/
def head {n d : ℕ} (x : Fin n → Fin d → EReal) (w1 : Fin d → Fin d → EReal) (b1 a1 : Fin d → EReal)
    (w2 : Fin d → Fin d → EReal) (b2 a2 : Fin d → EReal) : Fin n → Fin d → EReal :=
  linPrelu (linPrelu x w1 b1 a1) w2 b2 a2

/-- Column sums and column sums of squares of a matrix. -/
def colSum {n m : ℕ} (h : Fin n → Fin m → EReal) : Fin m → EReal := fun q => ∑ p : Fin n, h p q
def colSumSq {n m : ℕ} (h : Fin n → Fin m → EReal) : Fin m → EReal := fun q => ∑ p : Fin n, h p q * h p q

/-- Normalisation with a given per-column mean and inverse deviation, then scale and shift:
    ((h − mean) · inv) · g + b. -/
def normalize {n m : ℕ} (h : Fin n → Fin m → EReal) (mean inv g b : Fin m → EReal) : Fin n → Fin m → EReal :=
  fun p q => ((h p q - mean q) * inv q) * g q + b q

/-- The self-connection update of a graph convolution: PReLU of the aggregate plus the node's own features. -/
def selfUpdate {n m : ℕ} (aggr h : Fin n → Fin m → EReal) (a : Fin m → EReal) : Fin n → Fin m → EReal :=
  fun p q => prelu (a q) (aggr p q + h p q)

/-- The closing feed-forward head: a dense layer, a leaky rectifier of slope `s`, and a dense layer to one column. -/
def ffn {n k : ℕ} (g : Fin n → Fin k → EReal) (w1 : Fin k → Fin k → EReal) (b1 : Fin k → EReal) (s : EReal)
    (w2 : Fin k → EReal) (b2 : EReal) : Fin n → EReal :=
  fun p => (∑ j : Fin k, prelu s (lin g w1 b1 p j) * w2 j) + b2

end Cert.Spec

end
-- ==== Proof.KI.ValLib.lean ====
/- Shared by the regions' value modules: the zero offsets, a select on a comparison with the zero word read as an if,
   the plain matrix product's dimension numbers read at an index (for an [M, K] by [K, N] product the left operand's
   index at result index (p, q) and contraction position k is (p, k), the right's is (k, q)), and the layers' arrays
   index by index over the program's shapes. -/
import proofs.«128986_j27779848471455_1_alg».proof.Proof.Spec
import proofs.«128986_j27779848471455_1_alg».proof.KernelIdeal
import Idealize.ShloMosaic.Lib.ValueIdx
import Idealize.ShloMosaic.PureOps.Ideal.Laws

noncomputable section

open scoped BigOperators

namespace Cert.KernelIdeal.Hand

open Cert.KernelIdeal
open Idealize.ShloMosaic Idealize.ShloMosaic.ValueIdx

theorem hz2 : (![0, 0] : Fin 2 → Nat) = fun _ => 0 := funext fun a => by fin_cases a <;> rfl

/-- A select on "x is at least the zero word" is the if on 0 ≤ x. -/
theorem select_oge_zero (x a b : EReal) :
    Scalar.select (FloatOps.cmpf (F := Ideal) (φ := .f32) .oge x (Scalar.ofBits .f32 0x00000000#32)) a b = if 0 ≤ x then a else b := by
  have h0 : (Scalar.ofBits (F := Ideal) .f32 0x00000000#32 : Ideal .f32) = (0 : EReal) := Ideal.ofBits_zero_f32
  rw [h0, Ideal.cmpf_def]
  unfold Ideal.cmp Scalar.select
  by_cases h : (0 : EReal) ≤ x <;> simp [h]

section Dot

variable {M K N : ℕ} (d : DotDims ⟨2, ![M, K]⟩ ⟨2, ![K, N]⟩ ⟨2, ![M, N]⟩)

/-- The left operand's row coordinate is the result's. -/
theorem lhsIdx_row (hlb : d.lhsBatch = []) (hln : d.lhsNonContracting = [0]) (j : (⟨2, ![M, N]⟩ : Shape).Idx)
    (k : d.contr.Idx) : (d.lhsIdx j k 0).val = (j 0).val := by
  have key : ∀ (p q : Nat) (hp : p < 2) (hq : q < 2), p = q → (j ⟨p, hp⟩).val = (j ⟨q, hq⟩).val :=
    fun p q hp hq h => by subst h; rfl
  unfold DotDims.lhsIdx
  split
  · rename_i hb; rw [hlb] at hb; exact absurd hb List.not_mem_nil
  · split
    · simp only [Fin.val_cast]
      exact key _ _ _ _ (by simp [hlb, hln])
    · rename_i hn; exact absurd (by rw [hln]; exact List.mem_singleton.mpr rfl) hn

/-- The right operand's column coordinate is the result's. -/
theorem rhsIdx_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  have key : ∀ (p q : Nat) (hp : p < 2) (hq : q < 2), p = q → (j ⟨p, hp⟩).val = (j ⟨q, hq⟩).val :=
    fun p q hp hq h => by subst h; rfl
  unfold DotDims.rhsIdx
  split
  · rename_i hb; rw [hrb] at hb; exact absurd hb List.not_mem_nil
  · split
    · simp only [Fin.val_cast]
      exact key _ _ _ _ (by simp [hlb, hln, hrn])
    · rename_i hn; exact absurd (by rw [hrn]; exact List.mem_singleton.mpr rfl) hn

/-- The plain product's contraction sum, re-indexed by the contracted coordinate. -/
theorem plain_sum (hlc : d.lhsContracting = [1]) (hrc : d.rhsContracting = [0]) (hln : d.lhsNonContracting = [0])
    (hrn : d.rhsNonContracting = [1]) (hlb : d.lhsBatch = []) (hrb : d.rhsBatch = [])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    rw [h]
    have : d.lhsContracting[0]'(by rw [hlc]; exact Nat.one_pos) = 1 := by simp [hlc]
    rw [this]; rfl
  rw [← Equiv.sum_comp (contrEquiv1 d K hr hs).symm]
  refine Finset.sum_congr rfl fun k _ => ?_
  have hL : d.lhsIdx (ix2 p q) ((contrEquiv1 d K hr hs).symm k) = ix2 p k := by
    funext a; apply Fin.ext
    match a with
    | ⟨0, _⟩ => exact lhsIdx_row d hlb hln (ix2 p q) _
    | ⟨1, _⟩ => exact (d.lhsIdx_val_of_single hlc (ix2 p q) _).trans (contrEquiv1_symm_val d K hr hs k)
  have hR : d.rhsIdx (ix2 p q) ((contrEquiv1 d K hr hs).symm k) = ix2 k q := by
    funext a; apply Fin.ext
    match a with
    | ⟨0, _⟩ => exact (d.rhsIdx_val_of_single hrc (ix2 p q) _).trans (contrEquiv1_symm_val d K hr hs k)
    | ⟨1, _⟩ => exact rhsIdx_col d hlb hrb hln hrn (ix2 p q) _
  rw [hL, hR]

end Dot

/-- The self-update layer's array, index by index. -/
def suArr (aggr h : S100000x64.Idx → EReal) (a : S1x64.Idx → EReal) : S100000x64.Idx → EReal :=
  fun i => Spec.prelu (a (ix2 (0 : Fin 1) (i 1 : Fin 64))) (aggr i + h i)

/-- The message layer's array, index by index: a row of x against a column of w, plus the column's bias. -/
def linArr (x : S1600000x64.Idx → EReal) (w : S64x64.Idx → EReal) (b : S1x64.Idx → EReal) : S1600000x64.Idx → EReal :=
  fun i => (∑ k : Fin 64, x (ix2 (i 0 : Fin 1600000) k) * w (ix2 k (i 1 : Fin 64))) + b (ix2 (0 : Fin 1) (i 1 : Fin 64))

end Cert.KernelIdeal.Hand

end
-- ==== Proof.KI.Val2.lean ====
/- Region 2's output array after the run, at the ideal float model: every entry as the layer's function (on the
   extended reals) of the arrays the region finds when it is entered. The payload read at an index of a block, each
   block a restriction of one whole-array function, the blocks cover the array. -/
import proofs.«128986_j27779848471455_1_alg».proof.Proof.KI.Reg2
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the block's row r against the weight's column q, plus the bias. -/
theorem lin_payload2 (x0 : Vec Ideal S25000x64 .f32) (x1 : Vec Ideal S64x64 .f32) (x2 : Vec Ideal S1x64 .f32) (r : Fin 25000) (q : Fin 64) :
    k2_pay1 x0 x1 x2 (ix2 r q) = (∑ k : Fin 64, x0 (ix2 r k) * x1 (ix2 k q)) + x2 (ix2 (0 : Fin 1) q) := by
  unfold k2_pay1
  simp only [shapeCast_self, addf_apply, broadcastTo_1b_ab_apply]
  refine congrArg (· + x2 (ix2 (0 : Fin 1) q)) ?_
  refine (Ideal.matmul_constant_zero_apply dot_S25000x64_S64x64_S25000x64_1_0_0_1_n_n none x0 x1 (ix2 r q)).trans ?_
  exact plain_sum dot_S25000x64_S64x64_S25000x64_1_0_0_1_n_n rfl rfl rfl rfl rfl rfl x0 x1 r q

/-- The payload of blocks that are restrictions of the arrays (the block's rows are the array's rows from the
    block's first row on), at an index of the block, is the layer's array at the array's index with the same column. -/
theorem lin_block_point2 (x : S1600000x64.Idx → EReal) (w : S64x64.Idx → EReal) (b : S1x64.Idx → EReal)
    (x0 : Vec Ideal S25000x64 .f32) (x1 : Vec Ideal S64x64 .f32) (x2 : Vec Ideal S1x64 .f32)
    (j : S25000x64.Idx) (i : S1600000x64.Idx) (hq : (i 1).val = (j 1).val)
    (e0 : ∀ (y : S25000x64.Idx) (z : S1600000x64.Idx), (y 0).val = (j 0).val → (z 0).val = (i 0).val → (z 1).val = (y 1).val → x0 y = x z)
    (e1 : x1 = w) (e2 : x2 = b) :
    k2_pay1 x0 x1 x2 j = linArr x w b i := by
  subst e1 e2
  obtain ⟨r, q, rfl⟩ : ∃ (r : Fin 25000) (q : Fin 64), j = ix2 r q := ⟨j 0, j 1, eq_ix2 j⟩
  obtain ⟨P, Q, rfl⟩ : ∃ (P : Fin 1600000) (Q : Fin 64), i = ix2 P Q := ⟨i 0, i 1, eq_ix2 i⟩
  have hQ : Q = q := Fin.ext hq
  subst hQ
  rw [lin_payload2]
  unfold linArr
  refine congrArg (· + x2 (ix2 (0 : Fin 1) Q)) (Finset.sum_congr rfl fun k _ => ?_)
  rw [e0 (ix2 r k) (ix2 P k) rfl rfl rfl]

/-- The index maps, decided over the grid: the row-block index of a window that moves with the grid is the point,
    every other block index is zero. -/
theorem idx_facts2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point t writes back is block t of the layer's array of the arrays the region finds. -/
theorem flushed2_eq (c : Dev nD) (t : Fin cfg2.N) :
    (dat2 (F := Ideal) V c).flushed 3 t = ((cfg2.win 3).blk t).view.read (Elt Ideal)
      (linArr (V c main_v32) (V c main_v34) (V c main_v37)) := by
  show (cfg2.win 3).cut (grid2.coords t) ((dat2 V c).after 3 t) = _
  rw [after2_3]
  unfold out2_3
  rw [View.canon_unit_zero hz2]
  simp only [View.ld_unit_zero (S := S25000x64) hz2, View.ld_unit_zero (S := S64x64) hz2, View.ld_unit_zero (S := S1x64) hz2]
  obtain ⟨f0r, f0c, f1r, f1c, f2r, f2c, f3r, f3c⟩ := idx_facts2 t
  funext j
  refine lin_block_point2 (V c main_v32) (V c main_v34) (V c main_v37) _ _ _ _
    (((cfg2.win 3).blk t).view.emb j) ?_ ?_ ?_ ?_
  · show win2_3.index t (1 : Fin 2) * 64 + 1 * (j 1).val = (j 1).val
    rw [f3c]; omega
  · intro y z h0 h1 h2
    show V c main_v32 (((cfg2.win 0).blk t).view.emb y) = V c main_v32 z
    refine congrArg _ (funext fun a => Fin.ext ?_)
    match a with
    | ⟨0, _⟩ =>
      show win2_0.index t (0 : Fin 2) * 25000 + 1 * (y 0).val = (z 0).val
      rw [h1, h0]
      show _ = win2_3.index t (0 : Fin 2) * 25000 + 1 * (j 0).val
      rw [f0r, f3r]
    | ⟨1, _⟩ => show win2_0.index t (1 : Fin 2) * 64 + 1 * (y 1).val = (z 1).val; rw [h2, f0c]; omega
  · funext y
    show V c main_v34 (((cfg2.win 1).blk t).view.emb y) = V c main_v34 y
    refine congrArg _ (funext fun a => Fin.ext ?_)
    match a with
    | ⟨0, _⟩ => show win2_1.index t (0 : Fin 2) * 64 + 1 * (y 0).val = (y 0).val; rw [f1r]; omega
    | ⟨1, _⟩ => show win2_1.index t (1 : Fin 2) * 64 + 1 * (y 1).val = (y 1).val; rw [f1c]; omega
  · funext y
    show V c main_v37 (((cfg2.win 2).blk t).view.emb y) = V c main_v37 y
    refine congrArg _ (funext fun a => Fin.ext ?_)
    match a with
    | ⟨0, _⟩ => show win2_2.index t (0 : Fin 2) * 1 + 1 * (y 0).val = (y 0).val; rw [f2r]; omega
    | ⟨1, _⟩ => show win2_2.index t (1 : Fin 2) * 64 + 1 * (y 1).val = (y 1).val; rw [f2c]; omega

/-- An index of the array is in point t's block iff each coordinate is in the block's range on its axis. -/
theorem mem_blk2 (t : Fin cfg2.N) (i : S1600000x64.Idx) :
    i ∈ ((cfg2.win 3).blk t).view.set ↔ ∀ a : Fin 2, win2_3.index t a * S25000x64.size a ≤ (i a).val ∧ (i a).val < win2_3.index t a * S25000x64.size a + S25000x64.size a := by
  show i ∈ ((View.whole main_v38).slice (win2_3.rect t)).set ↔ _
  rw [View.set_slice_whole, Rect.mem_set_unit]
  exact Iff.rfl

/-- Every index is in the block of the point its row falls in. -/
theorem cover2 (i : S1600000x64.Idx) : ∃ t : Fin cfg2.N, (cfg2.win 3).flush t = true ∧ i ∈ ((cfg2.win 3).blk t).view.set := by
  have hi0 : (i 0).val < 1600000 := (i 0).isLt
  have hi1 : (i 1).val < 64 := (i 1).isLt
  have hN : cfg2.N = 64 := N_2
  let t : Fin cfg2.N := ⟨(i 0).val / 25000, by rw [hN]; omega⟩
  have ht : t.val = (i 0).val / 25000 := rfl
  have hfr : win2_3.index t (0 : Fin 2) = t.val := (idx_facts2 t).2.2.2.2.2.2.1
  have hfc : win2_3.index t (1 : Fin 2) = 0 := (idx_facts2 t).2.2.2.2.2.2.2
  refine ⟨t, flush2_3 t, ?_⟩
  rw [mem_blk2]
  intro a
  match a with
  | ⟨0, _⟩ => show win2_3.index t (0 : Fin 2) * 25000 ≤ (i 0).val ∧ (i 0).val < win2_3.index t (0 : Fin 2) * 25000 + 25000; rw [hfr, ht]; omega
  | ⟨1, _⟩ => show win2_3.index t (1 : Fin 2) * 64 ≤ (i 1).val ∧ (i 1).val < win2_3.index t (1 : Fin 2) * 64 + 64; rw [hfc]; omega

/-- The output array after the run is the layer's array. -/
theorem final2_arr (c : Dev nD) : (dat2 (F := Ideal) V c).arrAt 3 cfg2.N
    = linArr (V c main_v32) (V c main_v34) (V c main_v37) :=
  (dat2 (F := Ideal) V c).arrAt_eq_of_cover 3 _ (fun t _ => flushed2_eq V c t) cover2

/-- Every entry of the output array after the run is the layer's function of the arrays the region finds: the dense
    layer's sum over the 64 features plus the bias. -/
theorem final2 (c : Dev nD) (p : Fin 1600000) (q : Fin 64) :
    ((dat2 (F := Ideal) V c).arrAt 3 cfg2.N : S1600000x64.Idx → EReal) (ix2 p q)
      = Spec.lin (fun p j => (V c main_v32 : S1600000x64.Idx → EReal) (ix2 p j))
          (fun j q => (V c main_v34 : S64x64.Idx → EReal) (ix2 j q))
          (fun q => (V c main_v37 : S1x64.Idx → EReal) (ix2 0 q)) p q := by
  rw [final2_arr]
  rfl

end Cert.KernelIdeal.Hand

end
-- ==== Proof.KI.Val3.lean ====
/- Region 3's output array after the run, at the ideal float model: every entry as the layer's function (on the
   extended reals) of the arrays the region finds when it is entered. The payload read at an index of a block, each
   block a restriction of one whole-array function, the blocks cover the array. -/
import proofs.«128986_j27779848471455_1_alg».proof.Proof.KI.Reg3
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the rectifier, with the column's slope, of the sum of the two blocks' entries. -/
theorem su_payload3 (x0 x1 : Vec Ideal S10000x64 .f32) (x2 : Vec Ideal S1x64 .f32) (r : Fin 10000) (q : Fin 64) :
    k3_pay1 x0 x1 x2 (ix2 r q) = Spec.prelu (x2 (ix2 (0 : Fin 1) q)) (x0 (ix2 r q) + x1 (ix2 r q)) := by
  unfold k3_pay1
  simp only [shapeCast_self, select_apply, cmpf_apply, addf_apply, mulf_apply, broadcast_apply, broadcastTo_1b_ab_apply]
  rw [select_oge_zero]
  rfl

/-- The payload of blocks that are restrictions of the arrays, at an index of the block, is the updated array at the
    array's index with the same column. -/
theorem su_block_point3 (aggr h : S100000x64.Idx → EReal) (a : S1x64.Idx → EReal)
    (x0 x1 : Vec Ideal S10000x64 .f32) (x2 : Vec Ideal S1x64 .f32)
    (j : S10000x64.Idx) (i : S100000x64.Idx) (hq : (i 1).val = (j 1).val)
    (e0 : x0 j = aggr i) (e1 : x1 j = h i) (e2 : x2 = a) :
    k3_pay1 x0 x1 x2 j = suArr aggr h a i := by
  subst e2
  obtain ⟨r, q, rfl⟩ : ∃ (r : Fin 10000) (q : Fin 64), j = ix2 r q := ⟨j 0, j 1, eq_ix2 j⟩
  rw [su_payload3, e0, e1]
  have hi : (i 1 : Fin 64) = q := Fin.ext hq
  unfold suArr
  rw [hi]

/-- The index maps, decided over the grid: the row-block index of a window that moves with the grid is the point,
    every other block index is zero. -/
theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point t writes back is block t of the layer's array of the arrays the region finds. -/
theorem flushed3_eq (c : Dev nD) (t : Fin cfg3.N) :
    (dat3 (F := Ideal) V c).flushed 3 t = ((cfg3.win 3).blk t).view.read (Elt Ideal)
      (suArr (V c main_v41) (V c main_v20) (V c main_v25)) := by
  show (cfg3.win 3).cut (grid3.coords t) ((dat3 V c).after 3 t) = _
  rw [after3_3]
  unfold out3_3
  rw [View.canon_unit_zero hz2]
  simp only [View.ld_unit_zero (S := S10000x64) hz2, View.ld_unit_zero (S := S1x64) hz2]
  obtain ⟨f0r, f0c, f1r, f1c, f2r, f2c, f3r, f3c⟩ := idx_facts3 t
  funext j
  refine su_block_point3 (V c main_v41) (V c main_v20) (V c main_v25) _ _ _ _
    (((cfg3.win 3).blk t).view.emb j) ?_ ?_ ?_ ?_
  · show win3_3.index t (1 : Fin 2) * 64 + 1 * (j 1).val = (j 1).val
    rw [f3c]; omega
  · show V c main_v41 (((cfg3.win 0).blk t).view.emb j) = V c main_v41 (((cfg3.win 3).blk t).view.emb j)
    refine congrArg _ (funext fun a => Fin.ext ?_)
    match a with
    | ⟨0, _⟩ => show win3_0.index t (0 : Fin 2) * 10000 + 1 * (j 0).val = win3_3.index t (0 : Fin 2) * 10000 + 1 * (j 0).val; rw [f0r, f3r]
    | ⟨1, _⟩ => show win3_0.index t (1 : Fin 2) * 64 + 1 * (j 1).val = win3_3.index t (1 : Fin 2) * 64 + 1 * (j 1).val; rw [f0c, f3c]
  · show V c main_v20 (((cfg3.win 1).blk t).view.emb j) = V c main_v20 (((cfg3.win 3).blk t).view.emb j)
    refine congrArg _ (funext fun a => Fin.ext ?_)
    match a with
    | ⟨0, _⟩ => show win3_1.index t (0 : Fin 2) * 10000 + 1 * (j 0).val = win3_3.index t (0 : Fin 2) * 10000 + 1 * (j 0).val; rw [f1r, f3r]
    | ⟨1, _⟩ => show win3_1.index t (1 : Fin 2) * 64 + 1 * (j 1).val = win3_3.index t (1 : Fin 2) * 64 + 1 * (j 1).val; rw [f1c, f3c]
  · funext y
    show V c main_v25 (((cfg3.win 2).blk t).view.emb y) = V c main_v25 y
    refine congrArg _ (funext fun a => Fin.ext ?_)
    match a with
    | ⟨0, _⟩ => show win3_2.index t (0 : Fin 2) * 1 + 1 * (y 0).val = (y 0).val; rw [f2r]; omega
    | ⟨1, _⟩ => show win3_2.index t (1 : Fin 2) * 64 + 1 * (y 1).val = (y 1).val; rw [f2c]; omega

/-- An index of the array is in point t's block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v42).slice (win3_3.rect t)).set ↔ _
  rw [View.set_slice_whole, Rect.mem_set_unit]
  exact Iff.rfl

/-- Every index is in the block of the point its row falls in. -/
theorem cover3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  let t : Fin cfg3.N := ⟨(i 0).val / 10000, by rw [hN]; omega⟩
  have ht : t.val = (i 0).val / 10000 := rfl
  have hfr : win3_3.index t (0 : Fin 2) = t.val := (idx_facts3 t).2.2.2.2.2.2.1
  have hfc : win3_3.index t (1 : Fin 2) = 0 := (idx_facts3 t).2.2.2.2.2.2.2
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; rw [hfr, ht]; omega
  | ⟨1, _⟩ => show win3_3.index t (1 : Fin 2) * 64 ≤ (i 1).val ∧ (i 1).val < win3_3.index t (1 : Fin 2) * 64 + 64; rw [hfc]; omega

/-- The output array after the run is the layer's array. -/
theorem final3_arr (c : Dev nD) : (dat3 (F := Ideal) V c).arrAt 3 cfg3.N
    = suArr (V c main_v41) (V c main_v20) (V c main_v25) :=
  (dat3 (F := Ideal) V c).arrAt_eq_of_cover 3 _ (fun t _ => flushed3_eq V c t) cover3

/-- Every entry of the output array after the run is the layer's function of the arrays the region finds: the
    rectifier, with the column's slope, of the aggregate plus the node's own features. -/
theorem final3 (c : Dev nD) (p : Fin 100000) (q : Fin 64) :
    ((dat3 (F := Ideal) V c).arrAt 3 cfg3.N : S100000x64.Idx → EReal) (ix2 p q)
      = Spec.selfUpdate (fun p q => (V c main_v41 : S100000x64.Idx → EReal) (ix2 p q))
          (fun p q => (V c main_v20 : S100000x64.Idx → EReal) (ix2 p q))
          (fun q => (V c main_v25 : S1x64.Idx → EReal) (ix2 0 q)) p q := by
  rw [final3_arr]
  rfl

end Cert.KernelIdeal.Hand

end
-- ==== Proof.KI.Val4.lean ====
/- Region 4's output array after the run, at the ideal float model: every entry as the layer's function (on the
   extended reals) of the arrays the region finds when it is entered. The payload read at an index of a block, each
   block a restriction of one whole-array function, the blocks cover the array. -/
import proofs.«128986_j27779848471455_1_alg».proof.Proof.KI.Reg4
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the block's row r against the weight's column q, plus the bias. -/
theorem lin_payload4 (x0 : Vec Ideal S25000x64 .f32) (x1 : Vec Ideal S64x64 .f32) (x2 : Vec Ideal S1x64 .f32) (r : Fin 25000) (q : Fin 64) :
    k4_pay1 x0 x1 x2 (ix2 r q) = (∑ k : Fin 64, x0 (ix2 r k) * x1 (ix2 k q)) + x2 (ix2 (0 : Fin 1) q) := by
  unfold k4_pay1
  simp only [shapeCast_self, addf_apply, broadcastTo_1b_ab_apply]
  refine congrArg (· + x2 (ix2 (0 : Fin 1) q)) ?_
  refine (Ideal.matmul_constant_zero_apply dot_S25000x64_S64x64_S25000x64_1_0_0_1_n_n none x0 x1 (ix2 r q)).trans ?_
  exact plain_sum dot_S25000x64_S64x64_S25000x64_1_0_0_1_n_n rfl rfl rfl rfl rfl rfl x0 x1 r q

/-- The payload of blocks that are restrictions of the arrays (the block's rows are the array's rows from the
    block's first row on), at an index of the block, is the layer's array at the array's index with the same column. -/
theorem lin_block_point4 (x : S1600000x64.Idx → EReal) (w : S64x64.Idx → EReal) (b : S1x64.Idx → EReal)
    (x0 : Vec Ideal S25000x64 .f32) (x1 : Vec Ideal S64x64 .f32) (x2 : Vec Ideal S1x64 .f32)
    (j : S25000x64.Idx) (i : S1600000x64.Idx) (hq : (i 1).val = (j 1).val)
    (e0 : ∀ (y : S25000x64.Idx) (z : S1600000x64.Idx), (y 0).val = (j 0).val → (z 0).val = (i 0).val → (z 1).val = (y 1).val → x0 y = x z)
    (e1 : x1 = w) (e2 : x2 = b) :
    k4_pay1 x0 x1 x2 j = linArr x w b i := by
  subst e1 e2
  obtain ⟨r, q, rfl⟩ : ∃ (r : Fin 25000) (q : Fin 64), j = ix2 r q := ⟨j 0, j 1, eq_ix2 j⟩
  obtain ⟨P, Q, rfl⟩ : ∃ (P : Fin 1600000) (Q : Fin 64), i = ix2 P Q := ⟨i 0, i 1, eq_ix2 i⟩
  have hQ : Q = q := Fin.ext hq
  subst hQ
  rw [lin_payload4]
  unfold linArr
  refine congrArg (· + x2 (ix2 (0 : Fin 1) Q)) (Finset.sum_congr rfl fun k _ => ?_)
  rw [e0 (ix2 r k) (ix2 P k) rfl rfl rfl]

/-- The index maps, decided over the grid: the row-block index of a window that moves with the grid is the point,
    every other block index is zero. -/
theorem idx_facts4 : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What point t writes back is block t of the layer's array of the arrays the region finds. -/
theorem flushed4_eq (c : Dev nD) (t : Fin cfg4.N) :
    (dat4 (F := Ideal) V c).flushed 3 t = ((cfg4.win 3).blk t).view.read (Elt Ideal)
      (linArr (V c main_v49) (V c main_v51) (V c main_v54)) := by
  show (cfg4.win 3).cut (grid4.coords t) ((dat4 V c).after 3 t) = _
  rw [after4_3]
  unfold out4_3
  rw [View.canon_unit_zero hz2]
  simp only [View.ld_unit_zero (S := S25000x64) hz2, View.ld_unit_zero (S := S64x64) hz2, View.ld_unit_zero (S := S1x64) hz2]
  obtain ⟨f0r, f0c, f1r, f1c, f2r, f2c, f3r, f3c⟩ := idx_facts4 t
  funext j
  refine lin_block_point4 (V c main_v49) (V c main_v51) (V c main_v54) _ _ _ _
    (((cfg4.win 3).blk t).view.emb j) ?_ ?_ ?_ ?_
  · show win4_3.index t (1 : Fin 2) * 64 + 1 * (j 1).val = (j 1).val
    rw [f3c]; omega
  · intro y z h0 h1 h2
    show V c main_v49 (((cfg4.win 0).blk t).view.emb y) = V c main_v49 z
    refine congrArg _ (funext fun a => Fin.ext ?_)
    match a with
    | ⟨0, _⟩ =>
      show win4_0.index t (0 : Fin 2) * 25000 + 1 * (y 0).val = (z 0).val
      rw [h1, h0]
      show _ = win4_3.index t (0 : Fin 2) * 25000 + 1 * (j 0).val
      rw [f0r, f3r]
    | ⟨1, _⟩ => show win4_0.index t (1 : Fin 2) * 64 + 1 * (y 1).val = (z 1).val; rw [h2, f0c]; omega
  · funext y
    show V c main_v51 (((cfg4.win 1).blk t).view.emb y) = V c main_v51 y
    refine congrArg _ (funext fun a => Fin.ext ?_)
    match a with
    | ⟨0, _⟩ => show win4_1.index t (0 : Fin 2) * 64 + 1 * (y 0).val = (y 0).val; rw [f1r]; omega
    | ⟨1, _⟩ => show win4_1.index t (1 : Fin 2) * 64 + 1 * (y 1).val = (y 1).val; rw [f1c]; omega
  · funext y
    show V c main_v54 (((cfg4.win 2).blk t).view.emb y) = V c main_v54 y
    refine congrArg _ (funext fun a => Fin.ext ?_)
    match a with
    | ⟨0, _⟩ => show win4_2.index t (0 : Fin 2) * 1 + 1 * (y 0).val = (y 0).val; rw [f2r]; omega
    | ⟨1, _⟩ => show win4_2.index t (1 : Fin 2) * 64 + 1 * (y 1).val = (y 1).val; rw [f2c]; omega

/-- An index of the array is in point t's block iff each coordinate is in the block's range on its axis. -/
theorem mem_blk4 (t : Fin cfg4.N) (i : S1600000x64.Idx) :
    i ∈ ((cfg4.win 3).blk t).view.set ↔ ∀ a : Fin 2, win4_3.index t a * S25000x64.size a ≤ (i a).val ∧ (i a).val < win4_3.index t a * S25000x64.size a + S25000x64.size a := by
  show i ∈ ((View.whole main_v55).slice (win4_3.rect t)).set ↔ _
  rw [View.set_slice_whole, Rect.mem_set_unit]
  exact Iff.rfl

/-- Every index is in the block of the point its row falls in. -/
theorem cover4 (i : S1600000x64.Idx) : ∃ t : Fin cfg4.N, (cfg4.win 3).flush t = true ∧ i ∈ ((cfg4.win 3).blk t).view.set := by
  have hi0 : (i 0).val < 1600000 := (i 0).isLt
  have hi1 : (i 1).val < 64 := (i 1).isLt
  have hN : cfg4.N = 64 := N_4
  let t : Fin cfg4.N := ⟨(i 0).val / 25000, by rw [hN]; omega⟩
  have ht : t.val = (i 0).val / 25000 := rfl
  have hfr : win4_3.index t (0 : Fin 2) = t.val := (idx_facts4 t).2.2.2.2.2.2.1
  have hfc : win4_3.index t (1 : Fin 2) = 0 := (idx_facts4 t).2.2.2.2.2.2.2
  refine ⟨t, flush4_3 t, ?_⟩
  rw [mem_blk4]
  intro a
  match a with
  | ⟨0, _⟩ => show win4_3.index t (0 : Fin 2) * 25000 ≤ (i 0).val ∧ (i 0).val < win4_3.index t (0 : Fin 2) * 25000 + 25000; rw [hfr, ht]; omega
  | ⟨1, _⟩ => show win4_3.index t (1 : Fin 2) * 64 ≤ (i 1).val ∧ (i 1).val < win4_3.index t (1 : Fin 2) * 64 + 64; rw [hfc]; omega

/-- The output array after the run is the layer's array. -/
theorem final4_arr (c : Dev nD) : (dat4 (F := Ideal) V c).arrAt 3 cfg4.N
    = linArr (V c main_v49) (V c main_v51) (V c main_v54) :=
  (dat4 (F := Ideal) V c).arrAt_eq_of_cover 3 _ (fun t _ => flushed4_eq V c t) cover4

/-- Every entry of the output array after the run is the layer's function of the arrays the region finds: the dense
    layer's sum over the 64 features plus the bias. -/
theorem final4 (c : Dev nD) (p : Fin 1600000) (q : Fin 64) :
    ((dat4 (F := Ideal) V c).arrAt 3 cfg4.N : S1600000x64.Idx → EReal) (ix2 p q)
      = Spec.lin (fun p j => (V c main_v49 : S1600000x64.Idx → EReal) (ix2 p j))
          (fun j q => (V c main_v51 : S64x64.Idx → EReal) (ix2 j q))
          (fun q => (V c main_v54 : S1x64.Idx → EReal) (ix2 0 q)) p q := by
  rw [final4_arr]
  rfl

end Cert.KernelIdeal.Hand

end
-- ==== Proof.KI.Val5.lean ====
/- Region 5's output array after the run, at the ideal float model: every entry as the layer's function (on the
   extended reals) of the arrays the region finds when it is entered. The payload read at an index of a block, each
   block a restriction of one whole-array function, the blocks cover the array. -/
import proofs.«128986_j27779848471455_1_alg».proof.Proof.KI.Reg5
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the rectifier, with the column's slope, of the sum of the two blocks' entries. -/
theorem su_payload5 (x0 x1 : Vec Ideal S10000x64 .f32) (x2 : Vec Ideal S1x64 .f32) (r : Fin 10000) (q : Fin 64) :
    k5_pay1 x0 x1 x2 (ix2 r q) = Spec.prelu (x2 (ix2 (0 : Fin 1) q)) (x0 (ix2 r q) + x1 (ix2 r q)) := by
  unfold k5_pay1
  simp only [shapeCast_self, select_apply, cmpf_apply, addf_apply, mulf_apply, broadcast_apply, broadcastTo_1b_ab_apply]
  rw [select_oge_zero]
  rfl

/-- The payload of blocks that are restrictions of the arrays, at an index of the block, is the updated array at the
    array's index with the same column. -/
theorem su_block_point5 (aggr h : S100000x64.Idx → EReal) (a : S1x64.Idx → EReal)
    (x0 x1 : Vec Ideal S10000x64 .f32) (x2 : Vec Ideal S1x64 .f32)
    (j : S10000x64.Idx) (i : S100000x64.Idx) (hq : (i 1).val = (j 1).val)
    (e0 : x0 j = aggr i) (e1 : x1 j = h i) (e2 : x2 = a) :
    k5_pay1 x0 x1 x2 j = suArr aggr h a i := by
  subst e2
  obtain ⟨r, q, rfl⟩ : ∃ (r : Fin 10000) (q : Fin 64), j = ix2 r q := ⟨j 0, j 1, eq_ix2 j⟩
  rw [su_payload5, e0, e1]
  have hi : (i 1 : Fin 64) = q := Fin.ext hq
  unfold suArr
  rw [hi]

/-- The index maps, decided over the grid: the row-block index of a window that moves with the grid is the point,
    every other block index is zero. -/
theorem idx_facts5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- What point t writes back is block t of the layer's array of the arrays the region finds. -/
theorem flushed5_eq (c : Dev nD) (t : Fin cfg5.N) :
    (dat5 (F := Ideal) V c).flushed 3 t = ((cfg5.win 3).blk t).view.read (Elt Ideal)
      (suArr (V c main_v58) (V c main_v42) (V c main_v25)) := by
  show (cfg5.win 3).cut (grid5.coords t) ((dat5 V c).after 3 t) = _
  rw [after5_3]
  unfold out5_3
  rw [View.canon_unit_zero hz2]
  simp only [View.ld_unit_zero (S := S10000x64) hz2, View.ld_unit_zero (S := S1x64) hz2]
  obtain ⟨f0r, f0c, f1r, f1c, f2r, f2c, f3r, f3c⟩ := idx_facts5 t
  funext j
  refine su_block_point5 (V c main_v58) (V c main_v42) (V c main_v25) _ _ _ _
    (((cfg5.win 3).blk t).view.emb j) ?_ ?_ ?_ ?_
  · show win5_3.index t (1 : Fin 2) * 64 + 1 * (j 1).val = (j 1).val
    rw [f3c]; omega
  · show V c main_v58 (((cfg5.win 0).blk t).view.emb j) = V c main_v58 (((cfg5.win 3).blk t).view.emb j)
    refine congrArg _ (funext fun a => Fin.ext ?_)
    match a with
    | ⟨0, _⟩ => show win5_0.index t (0 : Fin 2) * 10000 + 1 * (j 0).val = win5_3.index t (0 : Fin 2) * 10000 + 1 * (j 0).val; rw [f0r, f3r]
    | ⟨1, _⟩ => show win5_0.index t (1 : Fin 2) * 64 + 1 * (j 1).val = win5_3.index t (1 : Fin 2) * 64 + 1 * (j 1).val; rw [f0c, f3c]
  · show V c main_v42 (((cfg5.win 1).blk t).view.emb j) = V c main_v42 (((cfg5.win 3).blk t).view.emb j)
    refine congrArg _ (funext fun a => Fin.ext ?_)
    match a with
    | ⟨0, _⟩ => show win5_1.index t (0 : Fin 2) * 10000 + 1 * (j 0).val = win5_3.index t (0 : Fin 2) * 10000 + 1 * (j 0).val; rw [f1r, f3r]
    | ⟨1, _⟩ => show win5_1.index t (1 : Fin 2) * 64 + 1 * (j 1).val = win5_3.index t (1 : Fin 2) * 64 + 1 * (j 1).val; rw [f1c, f3c]
  · funext y
    show V c main_v25 (((cfg5.win 2).blk t).view.emb y) = V c main_v25 y
    refine congrArg _ (funext fun a => Fin.ext ?_)
    match a with
    | ⟨0, _⟩ => show win5_2.index t (0 : Fin 2) * 1 + 1 * (y 0).val = (y 0).val; rw [f2r]; omega
    | ⟨1, _⟩ => show win5_2.index t (1 : Fin 2) * 64 + 1 * (y 1).val = (y 1).val; rw [f2c]; omega

/-- An index of the array is in point t's block iff each coordinate is in the block's range on its axis. -/
theorem mem_blk5 (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v59).slice (win5_3.rect t)).set ↔ _
  rw [View.set_slice_whole, Rect.mem_set_unit]
  exact Iff.rfl

/-- Every index is in the block of the point its row falls in. -/
theorem cover5 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 10 := N_5
  let t : Fin cfg5.N := ⟨(i 0).val / 10000, by rw [hN]; omega⟩
  have ht : t.val = (i 0).val / 10000 := rfl
  have hfr : win5_3.index t (0 : Fin 2) = t.val := (idx_facts5 t).2.2.2.2.2.2.1
  have hfc : win5_3.index t (1 : Fin 2) = 0 := (idx_facts5 t).2.2.2.2.2.2.2
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; rw [hfr, ht]; omega
  | ⟨1, _⟩ => show win5_3.index t (1 : Fin 2) * 64 ≤ (i 1).val ∧ (i 1).val < win5_3.index t (1 : Fin 2) * 64 + 64; rw [hfc]; omega

/-- The output array after the run is the layer's array. -/
theorem final5_arr (c : Dev nD) : (dat5 (F := Ideal) V c).arrAt 3 cfg5.N
    = suArr (V c main_v58) (V c main_v42) (V c main_v25) :=
  (dat5 (F := Ideal) V c).arrAt_eq_of_cover 3 _ (fun t _ => flushed5_eq V c t) cover5

/-- Every entry of the output array after the run is the layer's function of the arrays the region finds: the
    rectifier, with the column's slope, of the aggregate plus the node's own features. -/
theorem final5 (c : Dev nD) (p : Fin 100000) (q : Fin 64) :
    ((dat5 (F := Ideal) V c).arrAt 3 cfg5.N : S100000x64.Idx → EReal) (ix2 p q)
      = Spec.selfUpdate (fun p q => (V c main_v58 : S100000x64.Idx → EReal) (ix2 p q))
          (fun p q => (V c main_v42 : S100000x64.Idx → EReal) (ix2 p q))
          (fun q => (V c main_v25 : S1x64.Idx → EReal) (ix2 0 q)) p q := by
  rw [final5_arr]
  rfl

end Cert.KernelIdeal.Hand

end
-- ==== Proof.KI.Val6.lean ====
/- Region 6's output array after the run, at the ideal float model: every entry as the layer's function (on the
   extended reals) of the arrays the region finds when it is entered. The payload read at an index of a block, each
   block a restriction of one whole-array function, the blocks cover the array. -/
import proofs.«128986_j27779848471455_1_alg».proof.Proof.KI.Reg6
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the block's row r against the weight's column q, plus the bias. -/
theorem lin_payload6 (x0 : Vec Ideal S25000x64 .f32) (x1 : Vec Ideal S64x64 .f32) (x2 : Vec Ideal S1x64 .f32) (r : Fin 25000) (q : Fin 64) :
    k6_pay1 x0 x1 x2 (ix2 r q) = (∑ k : Fin 64, x0 (ix2 r k) * x1 (ix2 k q)) + x2 (ix2 (0 : Fin 1) q) := by
  unfold k6_pay1
  simp only [shapeCast_self, addf_apply, broadcastTo_1b_ab_apply]
  refine congrArg (· + x2 (ix2 (0 : Fin 1) q)) ?_
  refine (Ideal.matmul_constant_zero_apply dot_S25000x64_S64x64_S25000x64_1_0_0_1_n_n none x0 x1 (ix2 r q)).trans ?_
  exact plain_sum dot_S25000x64_S64x64_S25000x64_1_0_0_1_n_n rfl rfl rfl rfl rfl rfl x0 x1 r q

/-- The payload of blocks that are restrictions of the arrays (the block's rows are the array's rows from the
    block's first row on), at an index of the block, is the layer's array at the array's index with the same column. -/
theorem lin_block_point6 (x : S1600000x64.Idx → EReal) (w : S64x64.Idx → EReal) (b : S1x64.Idx → EReal)
    (x0 : Vec Ideal S25000x64 .f32) (x1 : Vec Ideal S64x64 .f32) (x2 : Vec Ideal S1x64 .f32)
    (j : S25000x64.Idx) (i : S1600000x64.Idx) (hq : (i 1).val = (j 1).val)
    (e0 : ∀ (y : S25000x64.Idx) (z : S1600000x64.Idx), (y 0).val = (j 0).val → (z 0).val = (i 0).val → (z 1).val = (y 1).val → x0 y = x z)
    (e1 : x1 = w) (e2 : x2 = b) :
    k6_pay1 x0 x1 x2 j = linArr x w b i := by
  subst e1 e2
  obtain ⟨r, q, rfl⟩ : ∃ (r : Fin 25000) (q : Fin 64), j = ix2 r q := ⟨j 0, j 1, eq_ix2 j⟩
  obtain ⟨P, Q, rfl⟩ : ∃ (P : Fin 1600000) (Q : Fin 64), i = ix2 P Q := ⟨i 0, i 1, eq_ix2 i⟩
  have hQ : Q = q := Fin.ext hq
  subst hQ
  rw [lin_payload6]
  unfold linArr
  refine congrArg (· + x2 (ix2 (0 : Fin 1) Q)) (Finset.sum_congr rfl fun k _ => ?_)
  rw [e0 (ix2 r k) (ix2 P k) rfl rfl rfl]

/-- The index maps, decided over the grid: the row-block index of a window that moves with the grid is the point,
    every other block index is zero. -/
theorem idx_facts6 : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What point t writes back is block t of the layer's array of the arrays the region finds. -/
theorem flushed6_eq (c : Dev nD) (t : Fin cfg6.N) :
    (dat6 (F := Ideal) V c).flushed 3 t = ((cfg6.win 3).blk t).view.read (Elt Ideal)
      (linArr (V c main_v66) (V c main_v68) (V c main_v71)) := by
  show (cfg6.win 3).cut (grid6.coords t) ((dat6 V c).after 3 t) = _
  rw [after6_3]
  unfold out6_3
  rw [View.canon_unit_zero hz2]
  simp only [View.ld_unit_zero (S := S25000x64) hz2, View.ld_unit_zero (S := S64x64) hz2, View.ld_unit_zero (S := S1x64) hz2]
  obtain ⟨f0r, f0c, f1r, f1c, f2r, f2c, f3r, f3c⟩ := idx_facts6 t
  funext j
  refine lin_block_point6 (V c main_v66) (V c main_v68) (V c main_v71) _ _ _ _
    (((cfg6.win 3).blk t).view.emb j) ?_ ?_ ?_ ?_
  · show win6_3.index t (1 : Fin 2) * 64 + 1 * (j 1).val = (j 1).val
    rw [f3c]; omega
  · intro y z h0 h1 h2
    show V c main_v66 (((cfg6.win 0).blk t).view.emb y) = V c main_v66 z
    refine congrArg _ (funext fun a => Fin.ext ?_)
    match a with
    | ⟨0, _⟩ =>
      show win6_0.index t (0 : Fin 2) * 25000 + 1 * (y 0).val = (z 0).val
      rw [h1, h0]
      show _ = win6_3.index t (0 : Fin 2) * 25000 + 1 * (j 0).val
      rw [f0r, f3r]
    | ⟨1, _⟩ => show win6_0.index t (1 : Fin 2) * 64 + 1 * (y 1).val = (z 1).val; rw [h2, f0c]; omega
  · funext y
    show V c main_v68 (((cfg6.win 1).blk t).view.emb y) = V c main_v68 y
    refine congrArg _ (funext fun a => Fin.ext ?_)
    match a with
    | ⟨0, _⟩ => show win6_1.index t (0 : Fin 2) * 64 + 1 * (y 0).val = (y 0).val; rw [f1r]; omega
    | ⟨1, _⟩ => show win6_1.index t (1 : Fin 2) * 64 + 1 * (y 1).val = (y 1).val; rw [f1c]; omega
  · funext y
    show V c main_v71 (((cfg6.win 2).blk t).view.emb y) = V c main_v71 y
    refine congrArg _ (funext fun a => Fin.ext ?_)
    match a with
    | ⟨0, _⟩ => show win6_2.index t (0 : Fin 2) * 1 + 1 * (y 0).val = (y 0).val; rw [f2r]; omega
    | ⟨1, _⟩ => show win6_2.index t (1 : Fin 2) * 64 + 1 * (y 1).val = (y 1).val; rw [f2c]; omega

/-- An index of the array is in point t's block iff each coordinate is in the block's range on its axis. -/
theorem mem_blk6 (t : Fin cfg6.N) (i : S1600000x64.Idx) :
    i ∈ ((cfg6.win 3).blk t).view.set ↔ ∀ a : Fin 2, win6_3.index t a * S25000x64.size a ≤ (i a).val ∧ (i a).val < win6_3.index t a * S25000x64.size a + S25000x64.size a := by
  show i ∈ ((View.whole main_v72).slice (win6_3.rect t)).set ↔ _
  rw [View.set_slice_whole, Rect.mem_set_unit]
  exact Iff.rfl

/-- Every index is in the block of the point its row falls in. -/
theorem cover6 (i : S1600000x64.Idx) : ∃ t : Fin cfg6.N, (cfg6.win 3).flush t = true ∧ i ∈ ((cfg6.win 3).blk t).view.set := by
  have hi0 : (i 0).val < 1600000 := (i 0).isLt
  have hi1 : (i 1).val < 64 := (i 1).isLt
  have hN : cfg6.N = 64 := N_6
  let t : Fin cfg6.N := ⟨(i 0).val / 25000, by rw [hN]; omega⟩
  have ht : t.val = (i 0).val / 25000 := rfl
  have hfr : win6_3.index t (0 : Fin 2) = t.val := (idx_facts6 t).2.2.2.2.2.2.1
  have hfc : win6_3.index t (1 : Fin 2) = 0 := (idx_facts6 t).2.2.2.2.2.2.2
  refine ⟨t, flush6_3 t, ?_⟩
  rw [mem_blk6]
  intro a
  match a with
  | ⟨0, _⟩ => show win6_3.index t (0 : Fin 2) * 25000 ≤ (i 0).val ∧ (i 0).val < win6_3.index t (0 : Fin 2) * 25000 + 25000; rw [hfr, ht]; omega
  | ⟨1, _⟩ => show win6_3.index t (1 : Fin 2) * 64 ≤ (i 1).val ∧ (i 1).val < win6_3.index t (1 : Fin 2) * 64 + 64; rw [hfc]; omega

/-- The output array after the run is the layer's array. -/
theorem final6_arr (c : Dev nD) : (dat6 (F := Ideal) V c).arrAt 3 cfg6.N
    = linArr (V c main_v66) (V c main_v68) (V c main_v71) :=
  (dat6 (F := Ideal) V c).arrAt_eq_of_cover 3 _ (fun t _ => flushed6_eq V c t) cover6

/-- Every entry of the output array after the run is the layer's function of the arrays the region finds: the dense
    layer's sum over the 64 features plus the bias. -/
theorem final6 (c : Dev nD) (p : Fin 1600000) (q : Fin 64) :
    ((dat6 (F := Ideal) V c).arrAt 3 cfg6.N : S1600000x64.Idx → EReal) (ix2 p q)
      = Spec.lin (fun p j => (V c main_v66 : S1600000x64.Idx → EReal) (ix2 p j))
          (fun j q => (V c main_v68 : S64x64.Idx → EReal) (ix2 j q))
          (fun q => (V c main_v71 : S1x64.Idx → EReal) (ix2 0 q)) p q := by
  rw [final6_arr]
  rfl

end Cert.KernelIdeal.Hand

end
-- ==== Proof.KI.Val7.lean ====
/- Region 7's output array after the run, at the ideal float model: every entry as the layer's function (on the
   extended reals) of the arrays the region finds when it is entered. The payload read at an index of a block, each
   block a restriction of one whole-array function, the blocks cover the array. -/
import proofs.«128986_j27779848471455_1_alg».proof.Proof.KI.Reg7
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the rectifier, with the column's slope, of the sum of the two blocks' entries. -/
theorem su_payload7 (x0 x1 : Vec Ideal S10000x64 .f32) (x2 : Vec Ideal S1x64 .f32) (r : Fin 10000) (q : Fin 64) :
    k7_pay1 x0 x1 x2 (ix2 r q) = Spec.prelu (x2 (ix2 (0 : Fin 1) q)) (x0 (ix2 r q) + x1 (ix2 r q)) := by
  unfold k7_pay1
  simp only [shapeCast_self, select_apply, cmpf_apply, addf_apply, mulf_apply, broadcast_apply, broadcastTo_1b_ab_apply]
  rw [select_oge_zero]
  rfl

/-- The payload of blocks that are restrictions of the arrays, at an index of the block, is the updated array at the
    array's index with the same column. -/
theorem su_block_point7 (aggr h : S100000x64.Idx → EReal) (a : S1x64.Idx → EReal)
    (x0 x1 : Vec Ideal S10000x64 .f32) (x2 : Vec Ideal S1x64 .f32)
    (j : S10000x64.Idx) (i : S100000x64.Idx) (hq : (i 1).val = (j 1).val)
    (e0 : x0 j = aggr i) (e1 : x1 j = h i) (e2 : x2 = a) :
    k7_pay1 x0 x1 x2 j = suArr aggr h a i := by
  subst e2
  obtain ⟨r, q, rfl⟩ : ∃ (r : Fin 10000) (q : Fin 64), j = ix2 r q := ⟨j 0, j 1, eq_ix2 j⟩
  rw [su_payload7, e0, e1]
  have hi : (i 1 : Fin 64) = q := Fin.ext hq
  unfold suArr
  rw [hi]

/-- The index maps, decided over the grid: the row-block index of a window that moves with the grid is the point,
    every other block index is zero. -/
theorem idx_facts7 : ∀ t : Fin cfg7.N,
    win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- What point t writes back is block t of the layer's array of the arrays the region finds. -/
theorem flushed7_eq (c : Dev nD) (t : Fin cfg7.N) :
    (dat7 (F := Ideal) V c).flushed 3 t = ((cfg7.win 3).blk t).view.read (Elt Ideal)
      (suArr (V c main_v75) (V c main_v59) (V c main_v25)) := by
  show (cfg7.win 3).cut (grid7.coords t) ((dat7 V c).after 3 t) = _
  rw [after7_3]
  unfold out7_3
  rw [View.canon_unit_zero hz2]
  simp only [View.ld_unit_zero (S := S10000x64) hz2, View.ld_unit_zero (S := S1x64) hz2]
  obtain ⟨f0r, f0c, f1r, f1c, f2r, f2c, f3r, f3c⟩ := idx_facts7 t
  funext j
  refine su_block_point7 (V c main_v75) (V c main_v59) (V c main_v25) _ _ _ _
    (((cfg7.win 3).blk t).view.emb j) ?_ ?_ ?_ ?_
  · show win7_3.index t (1 : Fin 2) * 64 + 1 * (j 1).val = (j 1).val
    rw [f3c]; omega
  · show V c main_v75 (((cfg7.win 0).blk t).view.emb j) = V c main_v75 (((cfg7.win 3).blk t).view.emb j)
    refine congrArg _ (funext fun a => Fin.ext ?_)
    match a with
    | ⟨0, _⟩ => show win7_0.index t (0 : Fin 2) * 10000 + 1 * (j 0).val = win7_3.index t (0 : Fin 2) * 10000 + 1 * (j 0).val; rw [f0r, f3r]
    | ⟨1, _⟩ => show win7_0.index t (1 : Fin 2) * 64 + 1 * (j 1).val = win7_3.index t (1 : Fin 2) * 64 + 1 * (j 1).val; rw [f0c, f3c]
  · show V c main_v59 (((cfg7.win 1).blk t).view.emb j) = V c main_v59 (((cfg7.win 3).blk t).view.emb j)
    refine congrArg _ (funext fun a => Fin.ext ?_)
    match a with
    | ⟨0, _⟩ => show win7_1.index t (0 : Fin 2) * 10000 + 1 * (j 0).val = win7_3.index t (0 : Fin 2) * 10000 + 1 * (j 0).val; rw [f1r, f3r]
    | ⟨1, _⟩ => show win7_1.index t (1 : Fin 2) * 64 + 1 * (j 1).val = win7_3.index t (1 : Fin 2) * 64 + 1 * (j 1).val; rw [f1c, f3c]
  · funext y
    show V c main_v25 (((cfg7.win 2).blk t).view.emb y) = V c main_v25 y
    refine congrArg _ (funext fun a => Fin.ext ?_)
    match a with
    | ⟨0, _⟩ => show win7_2.index t (0 : Fin 2) * 1 + 1 * (y 0).val = (y 0).val; rw [f2r]; omega
    | ⟨1, _⟩ => show win7_2.index t (1 : Fin 2) * 64 + 1 * (y 1).val = (y 1).val; rw [f2c]; omega

/-- An index of the array is in point t's block iff each coordinate is in the block's range on its axis. -/
theorem mem_blk7 (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole main_v76).slice (win7_3.rect t)).set ↔ _
  rw [View.set_slice_whole, Rect.mem_set_unit]
  exact Iff.rfl

/-- Every index is in the block of the point its row falls in. -/
theorem cover7 (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  have hN : cfg7.N = 10 := N_7
  let t : Fin cfg7.N := ⟨(i 0).val / 10000, by rw [hN]; omega⟩
  have ht : t.val = (i 0).val / 10000 := rfl
  have hfr : win7_3.index t (0 : Fin 2) = t.val := (idx_facts7 t).2.2.2.2.2.2.1
  have hfc : win7_3.index t (1 : Fin 2) = 0 := (idx_facts7 t).2.2.2.2.2.2.2
  refine ⟨t, flush7_3 t, ?_⟩
  rw [mem_blk7]
  intro a
  match a with
  | ⟨0, _⟩ => show win7_3.index t (0 : Fin 2) * 10000 ≤ (i 0).val ∧ (i 0).val < win7_3.index t (0 : Fin 2) * 10000 + 10000; rw [hfr, ht]; omega
  | ⟨1, _⟩ => show win7_3.index t (1 : Fin 2) * 64 ≤ (i 1).val ∧ (i 1).val < win7_3.index t (1 : Fin 2) * 64 + 64; rw [hfc]; omega

/-- The output array after the run is the layer's array. -/
theorem final7_arr (c : Dev nD) : (dat7 (F := Ideal) V c).arrAt 3 cfg7.N
    = suArr (V c main_v75) (V c main_v59) (V c main_v25) :=
  (dat7 (F := Ideal) V c).arrAt_eq_of_cover 3 _ (fun t _ => flushed7_eq V c t) cover7

/-- Every entry of the output array after the run is the layer's function of the arrays the region finds: the
    rectifier, with the column's slope, of the aggregate plus the node's own features. -/
theorem final7 (c : Dev nD) (p : Fin 100000) (q : Fin 64) :
    ((dat7 (F := Ideal) V c).arrAt 3 cfg7.N : S100000x64.Idx → EReal) (ix2 p q)
      = Spec.selfUpdate (fun p q => (V c main_v75 : S100000x64.Idx → EReal) (ix2 p q))
          (fun p q => (V c main_v59 : S100000x64.Idx → EReal) (ix2 p q))
          (fun q => (V c main_v25 : S1x64.Idx → EReal) (ix2 0 q)) p q := by
  rw [final7_arr]
  rfl

end Cert.KernelIdeal.Hand

end
-- ==== Proof.KI.Val8.lean ====
/- Region 8's output array after the run, at the ideal float model: every entry as the layer's function (on the
   extended reals) of the arrays the region finds when it is entered. The payload read at an index of a block, each
   block a restriction of one whole-array function, the blocks cover the array. -/
import proofs.«128986_j27779848471455_1_alg».proof.Proof.KI.Reg8
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the block's row r against the weight's column q, plus the bias. -/
theorem lin_payload8 (x0 : Vec Ideal S25000x64 .f32) (x1 : Vec Ideal S64x64 .f32) (x2 : Vec Ideal S1x64 .f32) (r : Fin 25000) (q : Fin 64) :
    k8_pay1 x0 x1 x2 (ix2 r q) = (∑ k : Fin 64, x0 (ix2 r k) * x1 (ix2 k q)) + x2 (ix2 (0 : Fin 1) q) := by
  unfold k8_pay1
  simp only [shapeCast_self, addf_apply, broadcastTo_1b_ab_apply]
  refine congrArg (· + x2 (ix2 (0 : Fin 1) q)) ?_
  refine (Ideal.matmul_constant_zero_apply dot_S25000x64_S64x64_S25000x64_1_0_0_1_n_n none x0 x1 (ix2 r q)).trans ?_
  exact plain_sum dot_S25000x64_S64x64_S25000x64_1_0_0_1_n_n rfl rfl rfl rfl rfl rfl x0 x1 r q

/-- The payload of blocks that are restrictions of the arrays (the block's rows are the array's rows from the
    block's first row on), at an index of the block, is the layer's array at the array's index with the same column. -/
theorem lin_block_point8 (x : S1600000x64.Idx → EReal) (w : S64x64.Idx → EReal) (b : S1x64.Idx → EReal)
    (x0 : Vec Ideal S25000x64 .f32) (x1 : Vec Ideal S64x64 .f32) (x2 : Vec Ideal S1x64 .f32)
    (j : S25000x64.Idx) (i : S1600000x64.Idx) (hq : (i 1).val = (j 1).val)
    (e0 : ∀ (y : S25000x64.Idx) (z : S1600000x64.Idx), (y 0).val = (j 0).val → (z 0).val = (i 0).val → (z 1).val = (y 1).val → x0 y = x z)
    (e1 : x1 = w) (e2 : x2 = b) :
    k8_pay1 x0 x1 x2 j = linArr x w b i := by
  subst e1 e2
  obtain ⟨r, q, rfl⟩ : ∃ (r : Fin 25000) (q : Fin 64), j = ix2 r q := ⟨j 0, j 1, eq_ix2 j⟩
  obtain ⟨P, Q, rfl⟩ : ∃ (P : Fin 1600000) (Q : Fin 64), i = ix2 P Q := ⟨i 0, i 1, eq_ix2 i⟩
  have hQ : Q = q := Fin.ext hq
  subst hQ
  rw [lin_payload8]
  unfold linArr
  refine congrArg (· + x2 (ix2 (0 : Fin 1) Q)) (Finset.sum_congr rfl fun k _ => ?_)
  rw [e0 (ix2 r k) (ix2 P k) rfl rfl rfl]

/-- The index maps, decided over the grid: the row-block index of a window that moves with the grid is the point,
    every other block index is zero. -/
theorem idx_facts8 : ∀ t : Fin cfg8.N,
    win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- What point t writes back is block t of the layer's array of the arrays the region finds. -/
theorem flushed8_eq (c : Dev nD) (t : Fin cfg8.N) :
    (dat8 (F := Ideal) V c).flushed 3 t = ((cfg8.win 3).blk t).view.read (Elt Ideal)
      (linArr (V c main_v83) (V c main_v85) (V c main_v88)) := by
  show (cfg8.win 3).cut (grid8.coords t) ((dat8 V c).after 3 t) = _
  rw [after8_3]
  unfold out8_3
  rw [View.canon_unit_zero hz2]
  simp only [View.ld_unit_zero (S := S25000x64) hz2, View.ld_unit_zero (S := S64x64) hz2, View.ld_unit_zero (S := S1x64) hz2]
  obtain ⟨f0r, f0c, f1r, f1c, f2r, f2c, f3r, f3c⟩ := idx_facts8 t
  funext j
  refine lin_block_point8 (V c main_v83) (V c main_v85) (V c main_v88) _ _ _ _
    (((cfg8.win 3).blk t).view.emb j) ?_ ?_ ?_ ?_
  · show win8_3.index t (1 : Fin 2) * 64 + 1 * (j 1).val = (j 1).val
    rw [f3c]; omega
  · intro y z h0 h1 h2
    show V c main_v83 (((cfg8.win 0).blk t).view.emb y) = V c main_v83 z
    refine congrArg _ (funext fun a => Fin.ext ?_)
    match a with
    | ⟨0, _⟩ =>
      show win8_0.index t (0 : Fin 2) * 25000 + 1 * (y 0).val = (z 0).val
      rw [h1, h0]
      show _ = win8_3.index t (0 : Fin 2) * 25000 + 1 * (j 0).val
      rw [f0r, f3r]
    | ⟨1, _⟩ => show win8_0.index t (1 : Fin 2) * 64 + 1 * (y 1).val = (z 1).val; rw [h2, f0c]; omega
  · funext y
    show V c main_v85 (((cfg8.win 1).blk t).view.emb y) = V c main_v85 y
    refine congrArg _ (funext fun a => Fin.ext ?_)
    match a with
    | ⟨0, _⟩ => show win8_1.index t (0 : Fin 2) * 64 + 1 * (y 0).val = (y 0).val; rw [f1r]; omega
    | ⟨1, _⟩ => show win8_1.index t (1 : Fin 2) * 64 + 1 * (y 1).val = (y 1).val; rw [f1c]; omega
  · funext y
    show V c main_v88 (((cfg8.win 2).blk t).view.emb y) = V c main_v88 y
    refine congrArg _ (funext fun a => Fin.ext ?_)
    match a with
    | ⟨0, _⟩ => show win8_2.index t (0 : Fin 2) * 1 + 1 * (y 0).val = (y 0).val; rw [f2r]; omega
    | ⟨1, _⟩ => show win8_2.index t (1 : Fin 2) * 64 + 1 * (y 1).val = (y 1).val; rw [f2c]; omega

/-- An index of the array is in point t's block iff each coordinate is in the block's range on its axis. -/
theorem mem_blk8 (t : Fin cfg8.N) (i : S1600000x64.Idx) :
    i ∈ ((cfg8.win 3).blk t).view.set ↔ ∀ a : Fin 2, win8_3.index t a * S25000x64.size a ≤ (i a).val ∧ (i a).val < win8_3.index t a * S25000x64.size a + S25000x64.size a := by
  show i ∈ ((View.whole main_v89).slice (win8_3.rect t)).set ↔ _
  rw [View.set_slice_whole, Rect.mem_set_unit]
  exact Iff.rfl

/-- Every index is in the block of the point its row falls in. -/
theorem cover8 (i : S1600000x64.Idx) : ∃ t : Fin cfg8.N, (cfg8.win 3).flush t = true ∧ i ∈ ((cfg8.win 3).blk t).view.set := by
  have hi0 : (i 0).val < 1600000 := (i 0).isLt
  have hi1 : (i 1).val < 64 := (i 1).isLt
  have hN : cfg8.N = 64 := N_8
  let t : Fin cfg8.N := ⟨(i 0).val / 25000, by rw [hN]; omega⟩
  have ht : t.val = (i 0).val / 25000 := rfl
  have hfr : win8_3.index t (0 : Fin 2) = t.val := (idx_facts8 t).2.2.2.2.2.2.1
  have hfc : win8_3.index t (1 : Fin 2) = 0 := (idx_facts8 t).2.2.2.2.2.2.2
  refine ⟨t, flush8_3 t, ?_⟩
  rw [mem_blk8]
  intro a
  match a with
  | ⟨0, _⟩ => show win8_3.index t (0 : Fin 2) * 25000 ≤ (i 0).val ∧ (i 0).val < win8_3.index t (0 : Fin 2) * 25000 + 25000; rw [hfr, ht]; omega
  | ⟨1, _⟩ => show win8_3.index t (1 : Fin 2) * 64 ≤ (i 1).val ∧ (i 1).val < win8_3.index t (1 : Fin 2) * 64 + 64; rw [hfc]; omega

/-- The output array after the run is the layer's array. -/
theorem final8_arr (c : Dev nD) : (dat8 (F := Ideal) V c).arrAt 3 cfg8.N
    = linArr (V c main_v83) (V c main_v85) (V c main_v88) :=
  (dat8 (F := Ideal) V c).arrAt_eq_of_cover 3 _ (fun t _ => flushed8_eq V c t) cover8

/-- Every entry of the output array after the run is the layer's function of the arrays the region finds: the dense
    layer's sum over the 64 features plus the bias. -/
theorem final8 (c : Dev nD) (p : Fin 1600000) (q : Fin 64) :
    ((dat8 (F := Ideal) V c).arrAt 3 cfg8.N : S1600000x64.Idx → EReal) (ix2 p q)
      = Spec.lin (fun p j => (V c main_v83 : S1600000x64.Idx → EReal) (ix2 p j))
          (fun j q => (V c main_v85 : S64x64.Idx → EReal) (ix2 j q))
          (fun q => (V c main_v88 : S1x64.Idx → EReal) (ix2 0 q)) p q := by
  rw [final8_arr]
  rfl

end Cert.KernelIdeal.Hand

end
-- ==== Proof.KI.Val9.lean ====
/- Region 9's output array after the run, at the ideal float model: every entry as the layer's function (on the
   extended reals) of the arrays the region finds when it is entered. The payload read at an index of a block, each
   block a restriction of one whole-array function, the blocks cover the array. -/
import proofs.«128986_j27779848471455_1_alg».proof.Proof.KI.Reg9
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block: the rectifier, with the column's slope, of the sum of the two blocks' entries. -/
theorem su_payload9 (x0 x1 : Vec Ideal S10000x64 .f32) (x2 : Vec Ideal S1x64 .f32) (r : Fin 10000) (q : Fin 64) :
    k9_pay1 x0 x1 x2 (ix2 r q) = Spec.prelu (x2 (ix2 (0 : Fin 1) q)) (x0 (ix2 r q) + x1 (ix2 r q)) := by
  unfold k9_pay1
  simp only [shapeCast_self, select_apply, cmpf_apply, addf_apply, mulf_apply, broadcast_apply, broadcastTo_1b_ab_apply]
  rw [select_oge_zero]
  rfl

/-- The payload of blocks that are restrictions of the arrays, at an index of the block, is the updated array at the
    array's index with the same column. -/
theorem su_block_point9 (aggr h : S100000x64.Idx → EReal) (a : S1x64.Idx → EReal)
    (x0 x1 : Vec Ideal S10000x64 .f32) (x2 : Vec Ideal S1x64 .f32)
    (j : S10000x64.Idx) (i : S100000x64.Idx) (hq : (i 1).val = (j 1).val)
    (e0 : x0 j = aggr i) (e1 : x1 j = h i) (e2 : x2 = a) :
    k9_pay1 x0 x1 x2 j = suArr aggr h a i := by
  subst e2
  obtain ⟨r, q, rfl⟩ : ∃ (r : Fin 10000) (q : Fin 64), j = ix2 r q := ⟨j 0, j 1, eq_ix2 j⟩
  rw [su_payload9, e0, e1]
  have hi : (i 1 : Fin 64) = q := Fin.ext hq
  unfold suArr
  rw [hi]

/-- The index maps, decided over the grid: the row-block index of a window that moves with the grid is the point,
    every other block index is zero. -/
theorem idx_facts9 : ∀ t : Fin cfg9.N,
    win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0 :=
  (by decide +kernel : ∀ t : Fin grid9.N, _)

/-- What point t writes back is block t of the layer's array of the arrays the region finds. -/
theorem flushed9_eq (c : Dev nD) (t : Fin cfg9.N) :
    (dat9 (F := Ideal) V c).flushed 3 t = ((cfg9.win 3).blk t).view.read (Elt Ideal)
      (suArr (V c main_v92) (V c main_v76) (V c main_v25)) := by
  show (cfg9.win 3).cut (grid9.coords t) ((dat9 V c).after 3 t) = _
  rw [after9_3]
  unfold out9_3
  rw [View.canon_unit_zero hz2]
  simp only [View.ld_unit_zero (S := S10000x64) hz2, View.ld_unit_zero (S := S1x64) hz2]
  obtain ⟨f0r, f0c, f1r, f1c, f2r, f2c, f3r, f3c⟩ := idx_facts9 t
  funext j
  refine su_block_point9 (V c main_v92) (V c main_v76) (V c main_v25) _ _ _ _
    (((cfg9.win 3).blk t).view.emb j) ?_ ?_ ?_ ?_
  · show win9_3.index t (1 : Fin 2) * 64 + 1 * (j 1).val = (j 1).val
    rw [f3c]; omega
  · show V c main_v92 (((cfg9.win 0).blk t).view.emb j) = V c main_v92 (((cfg9.win 3).blk t).view.emb j)
    refine congrArg _ (funext fun a => Fin.ext ?_)
    match a with
    | ⟨0, _⟩ => show win9_0.index t (0 : Fin 2) * 10000 + 1 * (j 0).val = win9_3.index t (0 : Fin 2) * 10000 + 1 * (j 0).val; rw [f0r, f3r]
    | ⟨1, _⟩ => show win9_0.index t (1 : Fin 2) * 64 + 1 * (j 1).val = win9_3.index t (1 : Fin 2) * 64 + 1 * (j 1).val; rw [f0c, f3c]
  · show V c main_v76 (((cfg9.win 1).blk t).view.emb j) = V c main_v76 (((cfg9.win 3).blk t).view.emb j)
    refine congrArg _ (funext fun a => Fin.ext ?_)
    match a with
    | ⟨0, _⟩ => show win9_1.index t (0 : Fin 2) * 10000 + 1 * (j 0).val = win9_3.index t (0 : Fin 2) * 10000 + 1 * (j 0).val; rw [f1r, f3r]
    | ⟨1, _⟩ => show win9_1.index t (1 : Fin 2) * 64 + 1 * (j 1).val = win9_3.index t (1 : Fin 2) * 64 + 1 * (j 1).val; rw [f1c, f3c]
  · funext y
    show V c main_v25 (((cfg9.win 2).blk t).view.emb y) = V c main_v25 y
    refine congrArg _ (funext fun a => Fin.ext ?_)
    match a with
    | ⟨0, _⟩ => show win9_2.index t (0 : Fin 2) * 1 + 1 * (y 0).val = (y 0).val; rw [f2r]; omega
    | ⟨1, _⟩ => show win9_2.index t (1 : Fin 2) * 64 + 1 * (y 1).val = (y 1).val; rw [f2c]; omega

/-- An index of the array is in point t's block iff each coordinate is in the block's range on its axis. -/
theorem mem_blk9 (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v93).slice (win9_3.rect t)).set ↔ _
  rw [View.set_slice_whole, Rect.mem_set_unit]
  exact Iff.rfl

/-- Every index is in the block of the point its row falls in. -/
theorem cover9 (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have hN : cfg9.N = 10 := N_9
  let t : Fin cfg9.N := ⟨(i 0).val / 10000, by rw [hN]; omega⟩
  have ht : t.val = (i 0).val / 10000 := rfl
  have hfr : win9_3.index t (0 : Fin 2) = t.val := (idx_facts9 t).2.2.2.2.2.2.1
  have hfc : win9_3.index t (1 : Fin 2) = 0 := (idx_facts9 t).2.2.2.2.2.2.2
  refine ⟨t, flush9_3 t, ?_⟩
  rw [mem_blk9]
  intro a
  match a with
  | ⟨0, _⟩ => show win9_3.index t (0 : Fin 2) * 10000 ≤ (i 0).val ∧ (i 0).val < win9_3.index t (0 : Fin 2) * 10000 + 10000; rw [hfr, ht]; omega
  | ⟨1, _⟩ => show win9_3.index t (1 : Fin 2) * 64 ≤ (i 1).val ∧ (i 1).val < win9_3.index t (1 : Fin 2) * 64 + 64; rw [hfc]; omega

/-- The output array after the run is the layer's array. -/
theorem final9_arr (c : Dev nD) : (dat9 (F := Ideal) V c).arrAt 3 cfg9.N
    = suArr (V c main_v92) (V c main_v76) (V c main_v25) :=
  (dat9 (F := Ideal) V c).arrAt_eq_of_cover 3 _ (fun t _ => flushed9_eq V c t) cover9

/-- Every entry of the output array after the run is the layer's function of the arrays the region finds: the
    rectifier, with the column's slope, of the aggregate plus the node's own features. -/
theorem final9 (c : Dev nD) (p : Fin 100000) (q : Fin 64) :
    ((dat9 (F := Ideal) V c).arrAt 3 cfg9.N : S100000x64.Idx → EReal) (ix2 p q)
      = Spec.selfUpdate (fun p q => (V c main_v92 : S100000x64.Idx → EReal) (ix2 p q))
          (fun p q => (V c main_v76 : S100000x64.Idx → EReal) (ix2 p q))
          (fun q => (V c main_v25 : S1x64.Idx → EReal) (ix2 0 q)) p q := by
  rw [final9_arr]
  rfl

end Cert.KernelIdeal.Hand

end
-- ==== Proof.KI.Val10.lean ====
/- Region 10's output array after the run, at the ideal float model: every entry as the layer's function (on the
   extended reals) of the arrays the region finds when it is entered. The payload read at an index of a block, each
   block a restriction of one whole-array function, the blocks cover the array. -/
import proofs.«128986_j27779848471455_1_alg».proof.Proof.KI.Reg10
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row p of the one block: the first dense layer's row, through the leaky rectifier of slope the
    kernel's constant, against the second layer's column, plus its bias. -/
theorem ffn_payload (x0 : Vec Ideal S512x320 .f32) (x1 : Vec Ideal S320x320 .f32) (x2 : Vec Ideal S1x320 .f32)
    (x3 : Vec Ideal S320x1 .f32) (x4 : Vec Ideal S1x1 .f32) (p : Fin 512) (c : Fin 1) :
    k10_pay1 x0 x1 x2 x3 x4 (ix2 p c)
      = (∑ j : Fin 320, Spec.prelu (Ideal.ofBits .f32 0x3C23D70A#32)
            ((∑ k : Fin 320, x0 (ix2 p k) * x1 (ix2 k j)) + x2 (ix2 (0 : Fin 1) j)) * x3 (ix2 j c))
          + x4 (ix2 (0 : Fin 1) c) := by
  unfold k10_pay1
  simp only [shapeCast_self, addf_apply, broadcastTo_1b_ab_apply]
  refine congrArg (· + x4 (ix2 (0 : Fin 1) c)) ?_
  refine (Ideal.matmul_constant_zero_apply dot_S512x320_S320x1_S512x1_1_0_0_1_n_n none _ x3 (ix2 p c)).trans ?_
  refine (plain_sum dot_S512x320_S320x1_S512x1_1_0_0_1_n_n rfl rfl rfl rfl rfl rfl _ x3 p c).trans ?_
  refine Finset.sum_congr rfl fun j _ => ?_
  refine congrArg (· * x3 (ix2 j c)) ?_
  have hX : (matmul (φ₁ := .f32) (φ₂ := .f32) dot_S512x320_S320x320_S512x320_1_0_0_1_n_n none x0 x1 (constant (F := Ideal) S512x320 .f32 0x00000000#32) : FVec Ideal S512x320 .f32) (ix2 p j)
      = ∑ k : Fin 320, x0 (ix2 p k) * x1 (ix2 k j) :=
    (Ideal.matmul_constant_zero_apply (φ₁ := .f32) (φ₂ := .f32) dot_S512x320_S320x320_S512x320_1_0_0_1_n_n none x0 x1 (ix2 p j)).trans
      (plain_sum dot_S512x320_S320x320_S512x320_1_0_0_1_n_n rfl rfl rfl rfl rfl rfl x0 x1 p j)
  simp only [select_apply, cmpf_apply, mulf_apply, addf_apply, broadcast_apply, broadcastTo_1b_ab_apply, hX]
  rw [select_oge_zero]
  rfl

/-- The head's array, index by index. -/
def ffnArr (g : S512x320.Idx → EReal) (w1 : S320x320.Idx → EReal) (b1 : S1x320.Idx → EReal) (w2 : S320x1.Idx → EReal)
    (b2 : S1x1.Idx → EReal) : S512x1.Idx → EReal :=
  fun i => (∑ j : Fin 320, Spec.prelu (Ideal.ofBits .f32 0x3C23D70A#32)
      ((∑ k : Fin 320, g (ix2 (i 0 : Fin 512) k) * w1 (ix2 k j)) + b1 (ix2 (0 : Fin 1) j)) * w2 (ix2 j (i 1 : Fin 1)))
    + b2 (ix2 (0 : Fin 1) (i 1 : Fin 1))

/-- The payload of the blocks, which are the whole arrays, at an index is the head's array at that index. -/
theorem ffn_block_point (g : S512x320.Idx → EReal) (w1 : S320x320.Idx → EReal) (b1 : S1x320.Idx → EReal)
    (w2 : S320x1.Idx → EReal) (b2 : S1x1.Idx → EReal)
    (x0 : Vec Ideal S512x320 .f32) (x1 : Vec Ideal S320x320 .f32) (x2 : Vec Ideal S1x320 .f32)
    (x3 : Vec Ideal S320x1 .f32) (x4 : Vec Ideal S1x1 .f32)
    (j : S512x1.Idx) (i : S512x1.Idx) (hp : (i 0).val = (j 0).val) (hq : (i 1).val = (j 1).val)
    (e0 : x0 = g) (e1 : x1 = w1) (e2 : x2 = b1) (e3 : x3 = w2) (e4 : x4 = b2) :
    k10_pay1 x0 x1 x2 x3 x4 j = ffnArr g w1 b1 w2 b2 i := by
  subst e0 e1 e2 e3 e4
  have hij : i = j := funext fun a => Fin.ext (by
    match a with
    | ⟨0, _⟩ => exact hp
    | ⟨1, _⟩ => exact hq)
  subst hij
  obtain ⟨p, c, rfl⟩ : ∃ (p : Fin 512) (c : Fin 1), i = ix2 p c := ⟨i 0, i 1, eq_ix2 i⟩
  rw [ffn_payload]
  rfl

/-- The index maps, decided over the grid: the row-block index of a window that moves with the grid is the point,
    every other block index is zero. -/
theorem idx_facts10 : ∀ t : Fin cfg10.N,
    win10_0.index t (0 : Fin 2) = 0
    ∧ win10_0.index t (1 : Fin 2) = 0
    ∧ win10_1.index t (0 : Fin 2) = 0
    ∧ win10_1.index t (1 : Fin 2) = 0
    ∧ win10_2.index t (0 : Fin 2) = 0
    ∧ win10_2.index t (1 : Fin 2) = 0
    ∧ win10_3.index t (0 : Fin 2) = 0
    ∧ win10_3.index t (1 : Fin 2) = 0
    ∧ win10_4.index t (0 : Fin 2) = 0
    ∧ win10_4.index t (1 : Fin 2) = 0
    ∧ win10_5.index t (0 : Fin 2) = 0
    ∧ win10_5.index t (1 : Fin 2) = 0 :=
  (by decide +kernel : ∀ t : Fin grid10.N, _)

/-- What point t writes back is block t of the layer's array of the arrays the region finds. -/
theorem flushed10_eq (c : Dev nD) (t : Fin cfg10.N) :
    (dat10 (F := Ideal) V c).flushed 5 t = ((cfg10.win 5).blk t).view.read (Elt Ideal)
      (ffnArr (V c main_v97) (V c main_arg14) (V c main_v98) (V c main_arg16) (V c main_v99)) := by
  show (cfg10.win 5).cut (grid10.coords t) ((dat10 V c).after 5 t) = _
  rw [after10_5]
  unfold out10_5
  rw [View.canon_unit_zero hz2]
  simp only [View.ld_unit_zero (S := S512x320) hz2, View.ld_unit_zero (S := S320x320) hz2, View.ld_unit_zero (S := S1x320) hz2, View.ld_unit_zero (S := S320x1) hz2, View.ld_unit_zero (S := S1x1) hz2, View.ld_unit_zero (S := S512x1) hz2]
  obtain ⟨f0r, f0c, f1r, f1c, f2r, f2c, f3r, f3c, f4r, f4c, f5r, f5c⟩ := idx_facts10 t
  funext j
  refine ffn_block_point (V c main_v97) (V c main_arg14) (V c main_v98) (V c main_arg16) (V c main_v99) _ _ _ _ _ _
    (((cfg10.win 5).blk t).view.emb j) ?_ ?_ ?_ ?_ ?_ ?_ ?_
  · show win10_5.index t (0 : Fin 2) * 512 + 1 * (j 0).val = (j 0).val
    rw [f5r]; omega
  · show win10_5.index t (1 : Fin 2) * 1 + 1 * (j 1).val = (j 1).val
    rw [f5c]; omega
  · funext y
    show V c main_v97 (((cfg10.win 0).blk t).view.emb y) = V c main_v97 y
    refine congrArg _ (funext fun a => Fin.ext ?_)
    match a with
    | ⟨0, _⟩ => show win10_0.index t (0 : Fin 2) * 512 + 1 * (y 0).val = (y 0).val; rw [f0r]; omega
    | ⟨1, _⟩ => show win10_0.index t (1 : Fin 2) * 320 + 1 * (y 1).val = (y 1).val; rw [f0c]; omega
  · funext y
    show V c main_arg14 (((cfg10.win 1).blk t).view.emb y) = V c main_arg14 y
    refine congrArg _ (funext fun a => Fin.ext ?_)
    match a with
    | ⟨0, _⟩ => show win10_1.index t (0 : Fin 2) * 320 + 1 * (y 0).val = (y 0).val; rw [f1r]; omega
    | ⟨1, _⟩ => show win10_1.index t (1 : Fin 2) * 320 + 1 * (y 1).val = (y 1).val; rw [f1c]; omega
  · funext y
    show V c main_v98 (((cfg10.win 2).blk t).view.emb y) = V c main_v98 y
    refine congrArg _ (funext fun a => Fin.ext ?_)
    match a with
    | ⟨0, _⟩ => show win10_2.index t (0 : Fin 2) * 1 + 1 * (y 0).val = (y 0).val; rw [f2r]; omega
    | ⟨1, _⟩ => show win10_2.index t (1 : Fin 2) * 320 + 1 * (y 1).val = (y 1).val; rw [f2c]; omega
  · funext y
    show V c main_arg16 (((cfg10.win 3).blk t).view.emb y) = V c main_arg16 y
    refine congrArg _ (funext fun a => Fin.ext ?_)
    match a with
    | ⟨0, _⟩ => show win10_3.index t (0 : Fin 2) * 320 + 1 * (y 0).val = (y 0).val; rw [f3r]; omega
    | ⟨1, _⟩ => show win10_3.index t (1 : Fin 2) * 1 + 1 * (y 1).val = (y 1).val; rw [f3c]; omega
  · funext y
    show V c main_v99 (((cfg10.win 4).blk t).view.emb y) = V c main_v99 y
    refine congrArg _ (funext fun a => Fin.ext ?_)
    match a with
    | ⟨0, _⟩ => show win10_4.index t (0 : Fin 2) * 1 + 1 * (y 0).val = (y 0).val; rw [f4r]; omega
    | ⟨1, _⟩ => show win10_4.index t (1 : Fin 2) * 1 + 1 * (y 1).val = (y 1).val; rw [f4c]; omega

/-- An index of the array is in point t's block iff each coordinate is in the block's range on its axis. -/
theorem mem_blk10 (t : Fin cfg10.N) (i : S512x1.Idx) :
    i ∈ ((cfg10.win 5).blk t).view.set ↔ ∀ a : Fin 2, win10_5.index t a * S512x1.size a ≤ (i a).val ∧ (i a).val < win10_5.index t a * S512x1.size a + S512x1.size a := by
  show i ∈ ((View.whole main_v100).slice (win10_5.rect t)).set ↔ _
  rw [View.set_slice_whole, Rect.mem_set_unit]
  exact Iff.rfl

/-- Every index is in the block of the point its row falls in. -/
theorem cover10 (i : S512x1.Idx) : ∃ t : Fin cfg10.N, (cfg10.win 5).flush t = true ∧ i ∈ ((cfg10.win 5).blk t).view.set := by
  have hi0 : (i 0).val < 512 := (i 0).isLt
  have hi1 : (i 1).val < 1 := (i 1).isLt
  have hN : cfg10.N = 1 := N_10
  let t : Fin cfg10.N := ⟨(i 0).val / 512, by rw [hN]; omega⟩
  have ht : t.val = (i 0).val / 512 := rfl
  have hfr : win10_5.index t (0 : Fin 2) = 0 := (idx_facts10 t).2.2.2.2.2.2.2.2.2.2.1
  have hfc : win10_5.index t (1 : Fin 2) = 0 := (idx_facts10 t).2.2.2.2.2.2.2.2.2.2.2
  refine ⟨t, flush10_5 t, ?_⟩
  rw [mem_blk10]
  intro a
  match a with
  | ⟨0, _⟩ => show win10_5.index t (0 : Fin 2) * 512 ≤ (i 0).val ∧ (i 0).val < win10_5.index t (0 : Fin 2) * 512 + 512; rw [hfr]; omega
  | ⟨1, _⟩ => show win10_5.index t (1 : Fin 2) * 1 ≤ (i 1).val ∧ (i 1).val < win10_5.index t (1 : Fin 2) * 1 + 1; rw [hfc]; omega

/-- The output array after the run is the layer's array. -/
theorem final10_arr (c : Dev nD) : (dat10 (F := Ideal) V c).arrAt 5 cfg10.N
    = ffnArr (V c main_v97) (V c main_arg14) (V c main_v98) (V c main_arg16) (V c main_v99) :=
  (dat10 (F := Ideal) V c).arrAt_eq_of_cover 5 _ (fun t _ => flushed10_eq V c t) cover10

/-- Every entry of the output array after the run is the closing head's function of the arrays the region finds; the
    rectifier's slope is the kernel's constant, kept as its word. -/
theorem final10 (c : Dev nD) (p : Fin 512) :
    ((dat10 (F := Ideal) V c).arrAt 5 cfg10.N : S512x1.Idx → EReal) (ix2 p (0 : Fin 1))
      = Spec.ffn (fun p j => (V c main_v97 : S512x320.Idx → EReal) (ix2 p j))
          (fun k j => (V c main_arg14 : S320x320.Idx → EReal) (ix2 k j))
          (fun j => (V c main_v98 : S1x320.Idx → EReal) (ix2 0 j))
          (Ideal.ofBits .f32 0x3C23D70A#32)
          (fun j => (V c main_arg16 : S320x1.Idx → EReal) (ix2 j 0))
          ((V c main_v99 : S1x1.Idx → EReal) (ix2 0 0)) p := by
  rw [final10_arr]
  rfl

end Cert.KernelIdeal.Hand

end
-- ==== Proof.LibBatchStats.lean ====
/-
  Laws of batch statistics on the extended reals, over real data, at any finite index type.

  * A finite sum of reals, cast, is the sum of the casts.
  * Division by a nonzero real constant, on casts of reals, is the real quotient.
  * THE VARIANCE IDENTITY. For real data x over n points (n the real number of points, nonzero) with mean
    m = (sum x) / n, the mean of the squared deviations equals the mean of the squares less the squared mean:
        (sum_i (x_i - m)^2) / n  =  (sum_i x_i^2) / n  -  m^2,
    because sum_i (x_i - m)^2 = sum x_i^2 - 2 m sum x_i + n m^2 and sum x_i = n m. Both sides are real, and the
    common value is nonnegative. A batch normalisation that accumulates sum and sum of squares and one that centres
    first compute the same variance; the law needs real (finite) data, since at an infinity the cross term is lost.
  * THE STRAIGHT-THROUGH LAW. t + (b - t) = b for real t, b: a value replaced by another "through" a difference
    whose gradient is stopped is, in the forward direction, the other value. It fails at t infinite. In particular
    the binarized value (sign x + 1) * h of a real x is real, so x + (binarize x - x) = binarize x.
  * The reciprocal square root of a positive real is the real 1 / sqrt, positive.
-/
import Idealize.ShloMosaic.PureOps.Ideal
import Mathlib

noncomputable section

namespace Cert.Lib.BatchStats

open Idealize.ShloMosaic

/-! ## Casts of sums and quotients -/

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The ideal quotient of a real by a nonzero real is the real quotient. -/
theorem div_coe_coe (a : ℝ) {n : ℝ} (hn : n ≠ 0) : Ideal.div (a : EReal) (n : EReal) = ((a / n : ℝ) : EReal) := by
  rw [Ideal.div_coe hn, ← EReal.coe_mul]; congr 1; rw [mul_one_div]

/-! ## The variance identity -/

section Variance

variable {ι : Type*} [Fintype ι]

/-- Over the reals: the mean squared deviation is the mean square less the squared mean. -/
theorem var_real (x : ι → ℝ) (n : ℝ) (hn : n ≠ 0) (hc : (Fintype.card ι : ℝ) = n) :
    (∑ i, (x i - (∑ j, x j) / n) * (x i - (∑ j, x j) / n)) / n
      = (∑ i, x i * x i) / n - ((∑ j, x j) / n) * ((∑ j, x j) / n) := by
  set S := ∑ j, x j with hS
  set m := S / n with hm
  have hexp : ∀ i, (x i - m) * (x i - m) = x i * x i - 2 * m * x i + m * m := fun i => by ring
  have h1 : ∑ i, (x i - m) * (x i - m) = (∑ i, x i * x i) - 2 * m * S + n * (m * m) := by
    simp only [hexp, Finset.sum_add_distrib, Finset.sum_sub_distrib, ← Finset.mul_sum, Finset.sum_const,
      Finset.card_univ, nsmul_eq_mul, hc, ← hS]
    ring
  rw [h1, hm]
  field_simp
  ring

/-- The mean squared deviation of real data is nonnegative. -/
theorem var_real_nonneg (x : ι → ℝ) (n : ℝ) (hn : 0 < n) :
    0 ≤ (∑ i, (x i - (∑ j, x j) / n) * (x i - (∑ j, x j) / n)) / n :=
  div_nonneg (Finset.sum_nonneg fun i _ => mul_self_nonneg _) hn.le

/-- The mean of real data, by the ideal quotient, is the real mean. -/
theorem mean_coe (x : ι → ℝ) {n : ℝ} (hn : n ≠ 0) :
    Ideal.div (∑ j, (x j : EReal)) (n : EReal) = (((∑ j, x j) / n : ℝ) : EReal) := by
  rw [← coe_sum, div_coe_coe _ hn]

/-- The centred form of the variance, on the extended reals over real data, is the real mean squared deviation. -/
theorem var_centred_coe (x : ι → ℝ) {n : ℝ} (hn : n ≠ 0) :
    Ideal.div (∑ i, ((x i : EReal) - Ideal.div (∑ j, (x j : EReal)) (n : EReal))
        * ((x i : EReal) - Ideal.div (∑ j, (x j : EReal)) (n : EReal))) (n : EReal)
      = (((∑ i, (x i - (∑ j, x j) / n) * (x i - (∑ j, x j) / n)) / n : ℝ) : EReal) := by
  rw [mean_coe x hn]
  simp only [← EReal.coe_sub, ← EReal.coe_mul]
  rw [← coe_sum, div_coe_coe _ hn]

/-- The moment form of the variance, on the extended reals over real data, is the real mean square less the squared
    real mean. -/
theorem var_moment_coe (x : ι → ℝ) {n : ℝ} (hn : n ≠ 0) :
    Ideal.div (∑ i, (x i : EReal) * (x i : EReal)) (n : EReal)
        - Ideal.div (∑ j, (x j : EReal)) (n : EReal) * Ideal.div (∑ j, (x j : EReal)) (n : EReal)
      = (((∑ i, x i * x i) / n - ((∑ j, x j) / n) * ((∑ j, x j) / n) : ℝ) : EReal) := by
  rw [mean_coe x hn]
  simp only [← EReal.coe_mul]
  rw [← coe_sum, div_coe_coe _ hn, ← EReal.coe_sub]

/-- THE VARIANCE IDENTITY on the extended reals over real data: centred form = moment form. -/
theorem var_centred_eq_moment (x : ι → ℝ) {n : ℝ} (hn : n ≠ 0) (hc : (Fintype.card ι : ℝ) = n) :
    Ideal.div (∑ i, ((x i : EReal) - Ideal.div (∑ j, (x j : EReal)) (n : EReal))
        * ((x i : EReal) - Ideal.div (∑ j, (x j : EReal)) (n : EReal))) (n : EReal)
      = Ideal.div (∑ i, (x i : EReal) * (x i : EReal)) (n : EReal)
        - Ideal.div (∑ j, (x j : EReal)) (n : EReal) * Ideal.div (∑ j, (x j : EReal)) (n : EReal) := by
  rw [var_centred_coe x hn, var_moment_coe x hn, var_real x n hn hc]

end Variance

/-! ## The straight-through law -/

/-- t + (b - t) = b at real t and b. -/
theorem straight_through (t b : ℝ) : (t : EReal) + ((b : EReal) - (t : EReal)) = (b : EReal) := by
  rw [← EReal.coe_sub, ← EReal.coe_add]; congr 1; ring

/-- The binarized value (sign x + 1) * h of a real x, h a real constant (one half for values in {0, 1/2, 1}), is real. -/
theorem binarize_coe (r h : ℝ) :
    (Ideal.sign (r : EReal) + ((1 : ℝ) : EReal)) * (h : EReal) = ((((SignType.sign r : ℝ) + 1) * h : ℝ) : EReal) := by
  rw [Ideal.sign_coe, ← EReal.coe_add, ← EReal.coe_mul]

/-- So the straight-through spelling x + (binarize x - x) of it, at a real x, is the binarized value itself. -/
theorem binarize_straight_through (r h : ℝ) :
    (r : EReal) + ((Ideal.sign (r : EReal) + ((1 : ℝ) : EReal)) * (h : EReal) - (r : EReal))
      = (Ideal.sign (r : EReal) + ((1 : ℝ) : EReal)) * (h : EReal) := by
  rw [binarize_coe]; exact straight_through _ _

/-! ## The reciprocal square root off zero -/

/-- The reciprocal square root of a positive real is the real 1 / sqrt. -/
theorem rsqrt_coe_pos {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- and it is positive. -/
theorem rsqrt_real_pos {r : ℝ} (hr : 0 < r) : 0 < (Real.sqrt r)⁻¹ := inv_pos.mpr (Real.sqrt_pos.mpr hr)

end Cert.Lib.BatchStats

end
-- ==== Proof.LibErealLaws.lean ====
/- General laws of the extended reals `[-∞, +∞]` and of finite sums, stated over the
   idealized float operations (`Ideal.div`, `Ideal.sqrt`, `Ideal.rsqrt`, `Ideal.ofBits`). Nothing here
   mentions a program: the laws are about extended reals, finite index types and additive commutative
   monoids only.

   Contents:
   * a product with a reciprocal square root is a quotient by the square root, for a positive argument
     (at `+∞` both sides are `0`);
   * a square is nonnegative at every extended real (`(-∞)·(-∞) = +∞`), hence so is a sum of squares;
   * the float words `0x43000000` and `0x3727C5AC` denote the reals `128` and `10995116 · 2⁻⁴⁰`
     (about `1e-5`), both positive; dividing a nonnegative extended real by a positive real keeps it
     nonnegative, adding a positive real to it makes it positive;
   * a sum over `Fin (A * B)` is a sum over `A` blocks of `B` consecutive indices, and the same on
     three levels;
   * a running total defined by a recurrence is the sum over an initial segment, and a sum over
     `Finset.range N` is the sum over `Fin N`. -/
import Idealize.ShloMosaic.PureOps.Ideal
import Mathlib.Algebra.BigOperators.Fin
import Mathlib.Algebra.Order.BigOperators.Group.Finset

noncomputable section

namespace Cert.LibErealLaws

open Idealize.ShloMosaic
open scoped BigOperators

/-! ### Reciprocal square root -/

/-- For `0 < v` in the extended reals, `a · (1/√v) = a / √v`. At `v = +∞` the reciprocal square root
    is `0` and the square root is `+∞`, whose inverse is `0`: both sides are `a · 0 = 0`. At a positive
    real `r` the square root `√r` is a nonzero real, division by it is the product with its inverse,
    and the inverse of a real in the extended reals is the real inverse. -/
theorem mul_rsqrt_eq_div_sqrt {a v : EReal} (hv : 0 < v) :
    a * Ideal.rsqrt v = Ideal.div a (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.mpr hr).ne'
    have hs' : ((Real.sqrt r : ℝ) : EReal) ≠ 0 := by exact_mod_cast hs
    rw [Ideal.rsqrt_coe, if_neg (not_lt.mpr hr.le), if_neg hr.ne', Ideal.sqrt_coe,
      if_neg (not_lt.mpr hr.le), Ideal.div, if_neg hs', EReal.coe_inv]

/-! ### Squares and sums of squares -/

/-- A square is nonnegative at every extended real: `(+∞)² = (-∞)² = +∞`, and a real square is
    nonnegative. (Both factors are on the same side of `0`.) -/
theorem mul_self_nonneg (x : EReal) : 0 ≤ x * x :=
  EReal.mul_nonneg_iff.mpr ((le_total 0 x).imp (fun h => ⟨h, h⟩) (fun h => ⟨h, h⟩))

/-- A finite sum of squares of extended reals is nonnegative. -/
theorem sum_mul_self_nonneg {ι : Type*} (s : Finset ι) (g : ι → EReal) :
    0 ≤ ∑ i ∈ s, g i * g i :=
  Finset.sum_nonneg fun i _ => mul_self_nonneg (g i)

/-! ### Division by a positive real, addition of a positive real -/

/-- Dividing a nonnegative extended real by a positive real leaves it nonnegative: the quotient is
    the product with the positive real `1/y`. -/
theorem div_coe_nonneg {x : EReal} {y : ℝ} (hx : 0 ≤ x) (hy : 0 < y) :
    0 ≤ Ideal.div x (y : EReal) := by
  rw [Ideal.div_coe hy.ne']
  exact EReal.mul_nonneg hx (by exact_mod_cast (one_div_pos.mpr hy).le)

/-- Adding a positive real to a nonnegative extended real gives a positive one:
    `0 < ε = 0 + ε ≤ x + ε`. -/
theorem add_coe_pos {x : EReal} {ε : ℝ} (hx : 0 ≤ x) (hε : 0 < ε) : 0 < x + (ε : EReal) := by
  have h : (0 : EReal) + (ε : EReal) ≤ x + (ε : EReal) := add_le_add hx le_rfl
  rw [zero_add] at h
  exact lt_of_lt_of_le (by exact_mod_cast hε) h

/-! ### Two float words -/

/-- The `f32` word `0x43000000` (sign `0`, exponent field `134`, fraction `0`) denotes
    `2²³ · 2^(134 - 127 - 23) = 128`. -/
theorem ofBits_c128 : Ideal.ofBits .f32 0x43000000#32 = ((128 : ℝ) : EReal) := by
  simp [Ideal.ofBits, Ideal.ieee, -EReal.coe_mul]; norm_num

/-- The `f32` word `0x3727C5AC` (sign `0`, exponent field `110`, fraction `0x27C5AC = 2606508`)
    denotes `(2²³ + 2606508) · 2^(110 - 127 - 23) = 10995116 · 2⁻⁴⁰`, about `1.0000000e-5`. -/
theorem ofBits_epsLn :
    Ideal.ofBits .f32 0x3727C5AC#32 = ((10995116 * (2 : ℝ) ^ (-40 : ℤ) : ℝ) : EReal) := by
  simp [Ideal.ofBits, Ideal.ieee, -EReal.coe_mul]

/-- The word `0x3727C5AC` denotes a positive real. -/
theorem ofBits_epsLn_pos :
    ∃ ε : ℝ, 0 < ε ∧ Ideal.ofBits .f32 0x3727C5AC#32 = (ε : EReal) :=
  ⟨10995116 * (2 : ℝ) ^ (-40 : ℤ), by positivity, ofBits_epsLn⟩

/-- A nonnegative extended real divided by the float `128.0` is nonnegative. -/
theorem div_c128_nonneg {x : EReal} (hx : 0 ≤ x) :
    0 ≤ Ideal.div x (Ideal.ofBits .f32 0x43000000#32) := by
  rw [ofBits_c128]; exact div_coe_nonneg hx (by norm_num)

/-- A nonnegative extended real plus the float `0x3727C5AC` (about `1e-5`) is positive. -/
theorem add_epsLn_pos {x : EReal} (hx : 0 ≤ x) :
    0 < x + Ideal.ofBits .f32 0x3727C5AC#32 := by
  obtain ⟨ε, hε, he⟩ := ofBits_epsLn_pos
  rw [he]; exact add_coe_pos hx hε

/-- The guarded mean of squares `(∑ i, g i · g i) / 128 + ε` (with `ε` the float `0x3727C5AC`) is
    positive, whatever the extended reals `g i` are: the sum of squares is nonnegative, so is its
    quotient by `128`, and adding the positive real `ε` makes it positive. -/
theorem var_guard_pos {ι : Type*} [Fintype ι] (g : ι → EReal) :
    0 < Ideal.div (∑ i, g i * g i) (Ideal.ofBits .f32 0x43000000#32)
      + Ideal.ofBits .f32 0x3727C5AC#32 :=
  add_epsLn_pos (div_c128_nonneg (sum_mul_self_nonneg Finset.univ g))

/-! ### Regrouping a sum into blocks -/

section Blocks
variable {M : Type*} [AddCommMonoid M]

/-- Index `a · B + b` of block `a < A`, offset `b < B`, lies below `A · B`. -/
theorem block_index_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over the `A` blocks of the sums over the `B` consecutive
    indices `a · B + b` of each block: `(a, b) ↦ a · B + b` is a bijection from `Fin A × Fin B` onto
    `Fin (A * B)`, and addition is commutative and associative. -/
theorem sum_fin_blocks (A B : ℕ) (f : Fin (A * B) → M) :
    ∑ n, f n = ∑ a : Fin A, ∑ b : Fin B, f ⟨a.val * B + b.val, block_index_lt a b⟩ := by
  rw [← Equiv.sum_comp finProdFinEquiv f, Fintype.sum_prod_type]
  refine Finset.sum_congr rfl fun a _ => Finset.sum_congr rfl fun b _ => ?_
  congr 1
  apply Fin.ext
  show b.val + B * a.val = a.val * B + b.val
  rw [Nat.mul_comm, Nat.add_comm]

/-- Index `(a · B + b) · C + c` lies below `A · B · C`. -/
theorem block_index_lt3 {A B C : ℕ} (a : Fin A) (b : Fin B) (c : Fin C) :
    (a.val * B + b.val) * C + c.val < A * B * C :=
  block_index_lt (⟨a.val * B + b.val, block_index_lt a b⟩ : Fin (A * B)) c

/-- The same on three levels: a sum over `Fin (A * B * C)` is the sum over `a < A`, `b < B`,
    `c < C` of the term at `(a · B + b) · C + c`. -/
theorem sum_fin_blocks3 (A B C : ℕ) (f : Fin (A * B * C) → M) :
    ∑ n, f n = ∑ a : Fin A, ∑ b : Fin B, ∑ c : Fin C,
      f ⟨(a.val * B + b.val) * C + c.val, block_index_lt3 a b c⟩ := by
  rw [sum_fin_blocks (A * B) C f,
    sum_fin_blocks A B (fun n : Fin (A * B) => ∑ c : Fin C, f ⟨n.val * C + c.val, block_index_lt n c⟩)]

/-- `32768 = 2 · 64 · 256` rows as `2` halves of `64` groups of `256` consecutive rows. -/
theorem sum_rows_2_64_256 (f : Fin 32768 → M) :
    ∑ n, f n = ∑ c : Fin 2, ∑ i : Fin 64, ∑ r : Fin 256,
      f ⟨(c.val * 64 + i.val) * 256 + r.val, by omega⟩ :=
  sum_fin_blocks3 2 64 256 f

end Blocks

/-! ### A running total is a sum -/

section Fold
variable {M : Type*} [AddCommMonoid M]

/-- A sequence that starts at `p 0` and adds `p (n + 1)` at step `n + 1` is the sequence of partial
    sums `∑ i ≤ n, p i`. -/
theorem fold_eq_sum (p acc : ℕ → M) (h0 : acc 0 = p 0)
    (hs : ∀ n, acc (n + 1) = acc n + p (n + 1)) (n : ℕ) :
    acc n = ∑ i ∈ Finset.range (n + 1), p i := by
  induction n with
  | zero => rw [h0, Finset.sum_range_one]
  | succ k ih => rw [hs k, ih, Finset.sum_range_succ p (k + 1)]

/-- A sum over the first `N` naturals is the sum over `Fin N` of the values. -/
theorem sum_range_eq_sum_fin (N : ℕ) (p : ℕ → M) :
    ∑ i ∈ Finset.range N, p i = ∑ i : Fin N, p i.val :=
  (Fin.sum_univ_eq_sum_range p N).symm

end Fold

end Cert.LibErealLaws

end
-- ==== Proof.BnLaw.lean ====
/-
  The batch-normalisation law on the extended reals, over real data.

  One form accumulates the column sums S and the column sums of squares SS of a matrix h with n rows, and
  normalises with
      mean = S / N,   var = SS / N - mean · mean,   inv = 1/sqrt (var + eps),   out = ((h - mean) · inv) · g + b.
  The other centres first:
      mu = (sum_p h p) / N,   var' = (sum_p (h p - mu) · (h p - mu)) / N,   out' = ((h - mu) / sqrt (var' + eps)) · g + b.
  For REAL data h, N the number of rows (nonzero) and eps a positive real the two agree entrywise: mean = mu by
  definition; var = var' is the variance identity (sum (x - m)^2 = sum x^2 - 2 m sum x + n m^2 with sum x = n m);
  var' is a nonnegative real, so var' + eps is a positive real v, and a · (1/sqrt v) = a / sqrt v there. The scale g and
  the shift b may be any extended reals: the two sides apply them to the same value.

  The law needs real data (at an infinite entry the cross term of the variance identity is lost), so the file also
  proves that the layers before the normalisation keep real data real: sums, products and differences of reals are
  real, a PReLU of reals is one of two reals, hence a dense layer and the two-layer head of real inputs are real.
-/
import proofs.«128986_j27779848471455_1_alg».proof.Proof.Spec
import proofs.«128986_j27779848471455_1_alg».proof.Proof.LibBatchStats
import proofs.«128986_j27779848471455_1_alg».proof.Proof.LibErealLaws
import Mathlib

noncomputable section

namespace Cert.Spec

open Idealize.ShloMosaic

/-! ## Real-valued extended reals -/

/-- An extended real that is (the cast of) a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

/-- A finite sum of reals is real. -/
theorem IsReal.sum {ι : Type*} (s : Finset ι) (f : ι → EReal) (hf : ∀ i ∈ s, IsReal (f i)) :
    IsReal (∑ i ∈ s, f i) :=
  Finset.sum_induction f IsReal (fun _ _ => IsReal.add) IsReal.zero hf

/-- A real is neither infinity. -/
theorem IsReal.ne_top {x : EReal} (hx : IsReal x) : x ≠ ⊤ := by
  obtain ⟨r, rfl⟩ := hx; exact EReal.coe_ne_top r

theorem IsReal.ne_bot {x : EReal} (hx : IsReal x) : x ≠ ⊥ := by
  obtain ⟨r, rfl⟩ := hx; exact EReal.coe_ne_bot r

/-- An extended real that is neither infinity is real. -/
theorem isReal_of_ne {x : EReal} (ht : x ≠ ⊤) (hb : x ≠ ⊥) : IsReal x :=
  ⟨x.toReal, (EReal.coe_toReal ht hb).symm⟩

/-- The ideal quotient of a real by a nonzero real is real. -/
theorem IsReal.div {x : EReal} (hx : IsReal x) {y : ℝ} (hy : y ≠ 0) : IsReal (Ideal.div x (y : EReal)) := by
  obtain ⟨r, rfl⟩ := hx; exact ⟨r / y, Cert.Lib.BatchStats.div_coe_coe r hy⟩

/-! ## The layers keep real data real -/

theorem isReal_prelu {a x : EReal} (ha : IsReal a) (hx : IsReal x) : IsReal (prelu a x) := by
  unfold prelu; split
  · exact hx
  · exact ha.mul hx

theorem isReal_lin {n k m : ℕ} {x : Fin n → Fin k → EReal} {w : Fin k → Fin m → EReal} {b : Fin m → EReal}
    (hx : ∀ p j, IsReal (x p j)) (hw : ∀ j q, IsReal (w j q)) (hb : ∀ q, IsReal (b q)) (p : Fin n) (q : Fin m) :
    IsReal (lin x w b p q) :=
  (IsReal.sum _ _ fun j _ => (hx p j).mul (hw j q)).add (hb q)

theorem isReal_linPrelu {n k m : ℕ} {x : Fin n → Fin k → EReal} {w : Fin k → Fin m → EReal} {b a : Fin m → EReal}
    (hx : ∀ p j, IsReal (x p j)) (hw : ∀ j q, IsReal (w j q)) (hb : ∀ q, IsReal (b q)) (ha : ∀ q, IsReal (a q))
    (p : Fin n) (q : Fin m) : IsReal (linPrelu x w b a p q) :=
  isReal_prelu (ha q) (isReal_lin hx hw hb p q)

/-- The two-layer head of real inputs is real. -/
theorem isReal_head {n d : ℕ} {x : Fin n → Fin d → EReal} {w1 : Fin d → Fin d → EReal} {b1 a1 : Fin d → EReal}
    {w2 : Fin d → Fin d → EReal} {b2 a2 : Fin d → EReal}
    (hx : ∀ p j, IsReal (x p j)) (hw1 : ∀ j q, IsReal (w1 j q)) (hb1 : ∀ q, IsReal (b1 q)) (ha1 : ∀ q, IsReal (a1 q))
    (hw2 : ∀ j q, IsReal (w2 j q)) (hb2 : ∀ q, IsReal (b2 q)) (ha2 : ∀ q, IsReal (a2 q)) (p : Fin n) (q : Fin d) :
    IsReal (head x w1 b1 a1 w2 b2 a2 p q) :=
  isReal_linPrelu (fun p j => isReal_linPrelu hx hw1 hb1 ha1 p j) hw2 hb2 ha2 p q

/-- Column sums and column sums of squares of real data are real. -/
theorem isReal_colSum {n m : ℕ} {h : Fin n → Fin m → EReal} (hh : ∀ p q, IsReal (h p q)) (q : Fin m) :
    IsReal (colSum h q) :=
  IsReal.sum _ _ fun p _ => hh p q

theorem isReal_colSumSq {n m : ℕ} {h : Fin n → Fin m → EReal} (hh : ∀ p q, IsReal (h p q)) (q : Fin m) :
    IsReal (colSumSq h q) :=
  IsReal.sum _ _ fun p _ => (hh p q).mul (hh p q)

/-! ## The two forms of the normalisation -/

/-- The moment form's mean, variance and inverse deviation, from the column sums and sums of squares. -/
def momentMean {n m : ℕ} (h : Fin n → Fin m → EReal) (N : EReal) : Fin m → EReal :=
  fun q => Ideal.div (colSum h q) N

def momentVar {n m : ℕ} (h : Fin n → Fin m → EReal) (N : EReal) : Fin m → EReal :=
  fun q => Ideal.div (colSumSq h q) N - momentMean h N q * momentMean h N q

def momentInv {n m : ℕ} (h : Fin n → Fin m → EReal) (N eps : EReal) : Fin m → EReal :=
  fun q => Ideal.rsqrt (momentVar h N q + eps)

/-- The centred form: the column mean, the mean squared deviation, and the normalisation that divides by the
    square root of the guarded variance. -/
def centredMean {n m : ℕ} (h : Fin n → Fin m → EReal) (N : EReal) : Fin m → EReal :=
  fun q => Ideal.div (∑ p : Fin n, h p q) N

def centredVar {n m : ℕ} (h : Fin n → Fin m → EReal) (N : EReal) : Fin m → EReal :=
  fun q => Ideal.div (∑ p : Fin n, (h p q - centredMean h N q) * (h p q - centredMean h N q)) N

def normalizeCentred {n m : ℕ} (h : Fin n → Fin m → EReal) (N eps : EReal) (g b : Fin m → EReal) :
    Fin n → Fin m → EReal :=
  fun p q => Ideal.div (h p q - centredMean h N q) (Ideal.sqrt (centredVar h N q + eps)) * g q + b q

/-- The two means are the same quotient. -/
theorem momentMean_eq_centredMean {n m : ℕ} (h : Fin n → Fin m → EReal) (N : EReal) :
    momentMean h N = centredMean h N := rfl

section Law

variable {n m : ℕ} (h : Fin n → Fin m → EReal) (hh : ∀ p q, IsReal (h p q)) {N eps : ℝ}
include hh

/-- THE VARIANCE IDENTITY for a real matrix: the moment form of the variance is the centred form. -/
theorem momentVar_eq_centredVar (hN : N = (n : ℝ)) (hn : 0 < n) (q : Fin m) :
    momentVar h (N : EReal) q = centredVar h (N : EReal) q := by
  choose x hx using fun p' => hh p' q
  have hN0 : N ≠ 0 := by rw [hN]; exact_mod_cast hn.ne'
  have hc : (Fintype.card (Fin n) : ℝ) = N := by rw [Fintype.card_fin, hN]
  show Ideal.div (∑ p : Fin n, h p q * h p q) (N : EReal)
        - Ideal.div (∑ p : Fin n, h p q) (N : EReal) * Ideal.div (∑ p : Fin n, h p q) (N : EReal)
      = Ideal.div (∑ p : Fin n, (h p q - Ideal.div (∑ p' : Fin n, h p' q) (N : EReal))
          * (h p q - Ideal.div (∑ p' : Fin n, h p' q) (N : EReal))) (N : EReal)
  simp only [hx]
  exact (Cert.Lib.BatchStats.var_centred_eq_moment x hN0 hc).symm

/-- The centred variance of a real matrix is a nonnegative real. -/
theorem centredVar_real (hN : N = (n : ℝ)) (hn : 0 < n) (q : Fin m) :
    ∃ v : ℝ, 0 ≤ v ∧ centredVar h (N : EReal) q = (v : EReal) := by
  choose x hx using fun p' => hh p' q
  have hNpos : 0 < N := by rw [hN]; exact_mod_cast hn
  refine ⟨_, Cert.Lib.BatchStats.var_real_nonneg x N hNpos, ?_⟩
  show Ideal.div (∑ p : Fin n, (h p q - Ideal.div (∑ p' : Fin n, h p' q) (N : EReal))
          * (h p q - Ideal.div (∑ p' : Fin n, h p' q) (N : EReal))) (N : EReal) = _
  simp only [hx]
  exact Cert.Lib.BatchStats.var_centred_coe x hNpos.ne'

/-- The guarded centred variance of a real matrix is positive. -/
theorem centredVar_add_eps_pos (hN : N = (n : ℝ)) (hn : 0 < n) (heps : 0 < eps) (q : Fin m) :
    0 < centredVar h (N : EReal) q + (eps : EReal) := by
  obtain ⟨v, hv, e⟩ := centredVar_real h hh hN hn q
  rw [e]
  exact Cert.LibErealLaws.add_coe_pos (by exact_mod_cast hv) heps

/-- THE NORMALISATION LAW, entrywise: on a real matrix with n > 0 rows, N = n and eps > 0, the moment form
    ((h - mean) · inv) · g + b is the centred form ((h - mu) / sqrt (var' + eps)) · g + b. -/
theorem normalize_moment_eq_centred (hN : N = (n : ℝ)) (hn : 0 < n) (heps : 0 < eps) (g b : Fin m → EReal)
    (p : Fin n) (q : Fin m) :
    normalize h (momentMean h (N : EReal)) (momentInv h (N : EReal) (eps : EReal)) g b p q
      = normalizeCentred h (N : EReal) (eps : EReal) g b p q := by
  show ((h p q - momentMean h (N : EReal) q) * Ideal.rsqrt (momentVar h (N : EReal) q + (eps : EReal))) * g q + b q
      = Ideal.div (h p q - centredMean h (N : EReal) q) (Ideal.sqrt (centredVar h (N : EReal) q + (eps : EReal))) * g q
        + b q
  rw [momentVar_eq_centredVar h hh hN hn q, momentMean_eq_centredMean,
    Cert.LibErealLaws.mul_rsqrt_eq_div_sqrt (centredVar_add_eps_pos h hh hN hn heps q)]

/-- The same with the mean and the inverse deviation given by their defining equations (as arrays computed elsewhere). -/
theorem normalize_eq_centred_of (hN : N = (n : ℝ)) (hn : 0 < n) (heps : 0 < eps) (g b mean inv : Fin m → EReal)
    (hmean : ∀ q, mean q = Ideal.div (colSum h q) (N : EReal))
    (hinv : ∀ q, inv q = Ideal.rsqrt (Ideal.div (colSumSq h q) (N : EReal) - mean q * mean q + (eps : EReal)))
    (p : Fin n) (q : Fin m) :
    normalize h mean inv g b p q = normalizeCentred h (N : EReal) (eps : EReal) g b p q := by
  rw [← normalize_moment_eq_centred h hh hN hn heps g b p q]
  show ((h p q - mean q) * inv q) * g q + b q
      = ((h p q - momentMean h (N : EReal) q) * momentInv h (N : EReal) (eps : EReal) q) * g q + b q
  rw [hinv q, hmean q]; rfl

end Law

/-! ## The two float words of the law -/

/-- The `f32` word `0x47C35000` (sign 0, exponent field 143, fraction 0x435000 = 4411392) denotes
    (2^23 + 4411392) · 2^(143 - 127 - 23) = 12800000 / 128 = 100000. -/
theorem ofBits_rows : Ideal.ofBits .f32 0x47C35000#32 = ((100000 : ℝ) : EReal) := by
  simp [Ideal.ofBits, Ideal.ieee, -EReal.coe_mul]; norm_num

/-- THE LAW AT THE PROGRAM'S TWO FLOAT WORDS: 100000 rows (the word `0x47C35000`) and the guard `0x3727C5AC`, the float
    nearest 1e-5, a positive real. -/
theorem normalize_eq_centred_words {m : ℕ} (h : Fin 100000 → Fin m → EReal) (hh : ∀ p q, IsReal (h p q))
    (g b mean inv : Fin m → EReal)
    (hmean : ∀ q, mean q = Ideal.div (colSum h q) (Ideal.ofBits .f32 0x47C35000#32))
    (hinv : ∀ q, inv q = Ideal.rsqrt (Ideal.div (colSumSq h q) (Ideal.ofBits .f32 0x47C35000#32) - mean q * mean q
        + Ideal.ofBits .f32 0x3727C5AC#32))
    (p : Fin 100000) (q : Fin m) :
    normalize h mean inv g b p q
      = normalizeCentred h (Ideal.ofBits .f32 0x47C35000#32) (Ideal.ofBits .f32 0x3727C5AC#32) g b p q := by
  obtain ⟨ε, hε, he⟩ := Cert.LibErealLaws.ofBits_epsLn_pos
  rw [ofBits_rows] at hmean hinv ⊢
  rw [he] at hinv ⊢
  exact normalize_eq_centred_of h hh (by norm_num) (by norm_num) hε g b mean inv hmean hinv p q

end Cert.Spec

end
-- ==== Proof.Ref.Read.lean ====
/- The reference's stage functions read at an index, at the ideal values, as the pure specification's layers: a bias row
   at (p, q) is the vector at q; a dot_general at (p, q) is the sum over j of x (p, j) · W (j, q); the column sum from zero
   is the sum over the rows; PReLU and the leaky rectifier are the specification's `prelu`; so the two input layers are
   `Spec.head`, batch normalisation is `Spec.normalizeCentred`, an edge-message layer is `Spec.lin`, a message-passing
   layer is `Spec.selfUpdate` of its aggregate (the gather and the scatter-add left closed), and the output layers are
   `Spec.ffn`. Commutativity and associativity only; no distributivity. -/
import proofs.«128986_j27779848471455_1_alg».proof.Proof.Ref.Run2
import proofs.«128986_j27779848471455_1_alg».proof.Proof.Spec
import proofs.«128986_j27779848471455_1_alg».proof.Proof.BnLaw
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.ValueIdx

set_option quotPrecheck false in
/-- Contents, at the ideal values, of a tensor of shape `s` and element type `e`. -/
local notation "TI[" s ", " e "]" => BufTy.Contents (Elt Ideal) (BufTy.mk s e)

/-! ## Layout: a bias vector repeated along the rows -/

/-- The repeated vector at (p, q) is the vector at q. -/
theorem rows_N_apply {α : Type} (b : (S64).Idx → α) (p : Fin 100000) (q : Fin 64) :
    broadcastInDim S100000x64 ![0, 1] bcast_S1x64_S100000x64_0_1 (broadcastInDim S1x64 ![1] bcast_S64_S1x64_1 b) (ix2 p q) = b (ix1 q) := by
  rw [broadcastInDim_apply _ bcast_S1x64_S100000x64_0_1 _ (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)]),
    broadcastInDim_apply _ bcast_S64_S1x64_1 b (ix2 (0 : Fin 1) q) (ix1 q) (fun a => match a with
      | ⟨0, _⟩ => by show q.val = if (64 : Nat) = 1 then 0 else q.val; rw [if_neg (by decide)])]

/-- The repeated vector at (p, q) is the vector at q. -/
theorem rows_E_apply {α : Type} (b : (S64).Idx → α) (p : Fin 1600000) (q : Fin 64) :
    broadcastInDim S1600000x64 ![0, 1] bcast_S1x64_S1600000x64_0_1 (broadcastInDim S1x64 ![1] bcast_S64_S1x64_1 b) (ix2 p q) = b (ix1 q) := by
  rw [broadcastInDim_apply _ bcast_S1x64_S1600000x64_0_1 _ (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)]),
    broadcastInDim_apply _ bcast_S64_S1x64_1 b (ix2 (0 : Fin 1) q) (ix1 q) (fun a => match a with
      | ⟨0, _⟩ => by show q.val = if (64 : Nat) = 1 then 0 else q.val; rw [if_neg (by decide)])]

/-- The repeated vector at (p, q) is the vector at q. -/
theorem rows_G_apply {α : Type} (b : (S320).Idx → α) (p : Fin 512) (q : Fin 320) :
    broadcastInDim S512x320 ![0, 1] bcast_S1x320_S512x320_0_1 (broadcastInDim S1x320 ![1] bcast_S320_S1x320_1 b) (ix2 p q) = b (ix1 q) := by
  rw [broadcastInDim_apply _ bcast_S1x320_S512x320_0_1 _ (ix2 p q) (ix2 (0 : Fin 1) q) (fun a => match a with
      | ⟨0, _⟩ => by show 0 = if (1 : Nat) = 1 then 0 else p.val; rw [if_pos rfl]
      | ⟨1, _⟩ => by show q.val = if (320 : Nat) = 1 then 0 else q.val; rw [if_neg (by decide)]),
    broadcastInDim_apply _ bcast_S320_S1x320_1 b (ix2 (0 : Fin 1) q) (ix1 q) (fun a => match a with
      | ⟨0, _⟩ => by show q.val = if (320 : Nat) = 1 then 0 else q.val; rw [if_neg (by decide)])]

theorem rowN_apply (b : TI[S64, .f32]) (p : Fin 100000) (q : Fin 64) : rowN b (ix2 p q) = b (ix1 q) := rows_N_apply b p q
theorem rowE_apply (b : TI[S64, .f32]) (p : Fin 1600000) (q : Fin 64) : rowE b (ix2 p q) = b (ix1 q) := rows_E_apply b p q
theorem rowG_apply (b : TI[S320, .f32]) (p : Fin 512) (q : Fin 320) : rowG b (ix2 p q) = b (ix1 q) := rows_G_apply b p q

/-- The all-zero node features read zero. -/
theorem zeroN_apply (i : S100000x64.Idx) : (zeroN : TI[S100000x64, .f32]) i = (0 : EReal) := by
  unfold zeroN
  rw [broadcastInDim_apply _ bcast_S_S100000x64 _ i ix0 (fun a => a.elim0)]
  exact Ideal.ofBits_zero_f32

/-! ### The product `[100000, 64] × [64, 64]` at an index -/

private theorem lhs0_N (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
private theorem lhs1_N (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
private theorem rhs0_N (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
private theorem rhs1_N (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- Entry (p, q) of the product is the sum over j of x (p, j) · W (j, q). -/
theorem dot_N_apply (x : TI[S100000x64, .f32]) (W : TI[S64x64, .f32]) (p : Fin 100000) (q : Fin 64) :
    Host.dotGeneral (F := Ideal) (φ₁ := .f32) (φ₂ := .f32) dot_S100000x64_S64x64_S100000x64_1_0_0_1_n_n none x W (ix2 p q) = ∑ j : Fin 64, x (ix2 p j) * W (ix2 j q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 p q) ((ValueIdx.contrEquiv1 dot_S100000x64_S64x64_S100000x64_1_0_0_1_n_n 64 rfl rfl).symm k) = ix2 p k := funext fun a => Fin.ext (by
    match a with
    | ⟨0, _⟩ => exact lhs0_N _ _
    | ⟨1, _⟩ => exact (lhs1_N _ _).trans hk)
  have er : dot_S100000x64_S64x64_S100000x64_1_0_0_1_n_n.rhsIdx (ix2 p q) ((ValueIdx.contrEquiv1 dot_S100000x64_S64x64_S100000x64_1_0_0_1_n_n 64 rfl rfl).symm k) = ix2 k q := funext fun a => Fin.ext (by
    match a with
    | ⟨0, _⟩ => exact (rhs0_N _ _).trans hk
    | ⟨1, _⟩ => exact rhs1_N _ _)
  rw [el, er]

/-! ### The product `[1600000, 64] × [64, 64]` at an index -/

private theorem lhs0_E (i : S1600000x64.Idx) (q : dot_S1600000x64_S64x64_S1600000x64_1_0_0_1_n_n.contr.Idx) : (dot_S1600000x64_S64x64_S1600000x64_1_0_0_1_n_n.lhsIdx i q 0).val = (i 0).val := by
  unfold DotDims.lhsIdx
  rw [dif_neg (show ¬(0 : Fin S1600000x64.rank) ∈ dot_S1600000x64_S64x64_S1600000x64_1_0_0_1_n_n.lhsBatch by decide), dif_pos (show (0 : Fin S1600000x64.rank) ∈ dot_S1600000x64_S64x64_S1600000x64_1_0_0_1_n_n.lhsNonContracting by decide)]
  rfl
private theorem lhs1_E (i : S1600000x64.Idx) (q : dot_S1600000x64_S64x64_S1600000x64_1_0_0_1_n_n.contr.Idx) : (dot_S1600000x64_S64x64_S1600000x64_1_0_0_1_n_n.lhsIdx i q 1).val = (q ⟨0, by decide⟩).val :=
  dot_S1600000x64_S64x64_S1600000x64_1_0_0_1_n_n.lhsIdx_val_of_single rfl i q
private theorem rhs0_E (i : S1600000x64.Idx) (q : dot_S1600000x64_S64x64_S1600000x64_1_0_0_1_n_n.contr.Idx) : (dot_S1600000x64_S64x64_S1600000x64_1_0_0_1_n_n.rhsIdx i q 0).val = (q ⟨0, by decide⟩).val :=
  dot_S1600000x64_S64x64_S1600000x64_1_0_0_1_n_n.rhsIdx_val_of_single rfl i q
private theorem rhs1_E (i : S1600000x64.Idx) (q : dot_S1600000x64_S64x64_S1600000x64_1_0_0_1_n_n.contr.Idx) : (dot_S1600000x64_S64x64_S1600000x64_1_0_0_1_n_n.rhsIdx i q 1).val = (i 1).val := by
  unfold DotDims.rhsIdx
  rw [dif_neg (show ¬(1 : Fin S64x64.rank) ∈ dot_S1600000x64_S64x64_S1600000x64_1_0_0_1_n_n.rhsBatch by decide), dif_pos (show (1 : Fin S64x64.rank) ∈ dot_S1600000x64_S64x64_S1600000x64_1_0_0_1_n_n.rhsNonContracting by decide)]
  rfl

/-- Entry (p, q) of the product is the sum over j of x (p, j) · W (j, q). -/
theorem dot_E_apply (x : TI[S1600000x64, .f32]) (W : TI[S64x64, .f32]) (p : Fin 1600000) (q : Fin 64) :
    Host.dotGeneral (F := Ideal) (φ₁ := .f32) (φ₂ := .f32) dot_S1600000x64_S64x64_S1600000x64_1_0_0_1_n_n none x W (ix2 p q) = ∑ j : Fin 64, x (ix2 p j) * W (ix2 j q) := by
  simp only [Host.dotGeneral]
  rw [Ideal.dotGeneral_apply, ← Equiv.sum_comp (ValueIdx.contrEquiv1 dot_S1600000x64_S64x64_S1600000x64_1_0_0_1_n_n 64 rfl rfl).symm]
  refine Finset.sum_congr rfl fun k _ => ?_
  have hk := ValueIdx.contrEquiv1_symm_val dot_S1600000x64_S64x64_S1600000x64_1_0_0_1_n_n 64 rfl rfl k
  have el : dot_S1600000x64_S64x64_S1600000x64_1_0_0_1_n_n.lhsIdx (ix2 p q) ((ValueIdx.contrEquiv1 dot_S1600000x64_S64x64_S1600000x64_1_0_0_1_n_n 64 rfl rfl).symm k) = ix2 p k := funext fun a => Fin.ext (by
    match a with
    | ⟨0, _⟩ => exact lhs0_E _ _
    | ⟨1, _⟩ => exact (lhs1_E _ _).trans hk)
  have er : dot_S1600000x64_S64x64_S1600000x64_1_0_0_1_n_n.rhsIdx (ix2 p q) ((ValueIdx.contrEquiv1 dot_S1600000x64_S64x64_S1600000x64_1_0_0_1_n_n 64 rfl rfl).symm k) = ix2 k q := funext fun a => Fin.ext (by
    match a with
    | ⟨0, _⟩ => exact (rhs0_E _ _).trans hk
    | ⟨1, _⟩ => exact rhs1_E _ _)
  rw [el, er]

/-! ### The product `[512, 320] × [320, 320]` at an index -/

private theorem lhs0_G (i : S512x320.Idx) (q : dot_S512x320_S320x320_S512x320_1_0_0_1_n_n.contr.Idx) : (dot_S512x320_S320x320_S512x320_1_0_0_1_n_n.lhsIdx i q 0).val = (i 0).val := by
  unfold DotDims.lhsIdx
  rw [dif_neg (show ¬(0 : Fin S512x320.rank) ∈ dot_S512x320_S320x320_S512x320_1_0_0_1_n_n.lhsBatch by decide), dif_pos (show (0 : Fin S512x320.rank) ∈ dot_S512x320_S320x320_S512x320_1_0_0_1_n_n.lhsNonContracting by decide)]
  rfl
private theorem lhs1_G (i : S512x320.Idx) (q : dot_S512x320_S320x320_S512x320_1_0_0_1_n_n.contr.Idx) : (dot_S512x320_S320x320_S512x320_1_0_0_1_n_n.lhsIdx i q 1).val = (q ⟨0, by decide⟩).val :=
  dot_S512x320_S320x320_S512x320_1_0_0_1_n_n.lhsIdx_val_of_single rfl i q
private theorem rhs0_G (i : S512x320.Idx) (q : dot_S512x320_S320x320_S512x320_1_0_0_1_n_n.contr.Idx) : (dot_S512x320_S320x320_S512x320_1_0_0_1_n_n.rhsIdx i q 0).val = (q ⟨0, by decide⟩).val :=
  dot_S512x320_S320x320_S512x320_1_0_0_1_n_n.rhsIdx_val_of_single rfl i q
private theorem rhs1_G (i : S512x320.Idx) (q : dot_S512x320_S320x320_S512x320_1_0_0_1_n_n.contr.Idx) : (dot_S512x320_S320x320_S512x320_1_0_0_1_n_n.rhsIdx i q 1).val = (i 1).val := by
  unfold DotDims.rhsIdx
  rw [dif_neg (show ¬(1 : Fin S320x320.rank) ∈ dot_S512x320_S320x320_S512x320_1_0_0_1_n_n.rhsBatch by decide), dif_pos (show (1 : Fin S320x320.rank) ∈ dot_S512x320_S320x320_S512x320_1_0_0_1_n_n.rhsNonContracting by decide)]
  rfl

/-- Entry (p, q) of the product is the sum over j of x (p, j) · W (j, q). -/
theorem dot_G_apply (x : TI[S512x320, .f32]) (W : TI[S320x320, .f32]) (p : Fin 512) (q : Fin 320) :
    Host.dotGeneral (F := Ideal) (φ₁ := .f32) (φ₂ := .f32) dot_S512x320_S320x320_S512x320_1_0_0_1_n_n none x W (ix2 p q) = ∑ j : Fin 320, x (ix2 p j) * W (ix2 j q) := by
  simp only [Host.dotGeneral]
  rw [Ideal.dotGeneral_apply, ← Equiv.sum_comp (ValueIdx.contrEquiv1 dot_S512x320_S320x320_S512x320_1_0_0_1_n_n 320 rfl rfl).symm]
  refine Finset.sum_congr rfl fun k _ => ?_
  have hk := ValueIdx.contrEquiv1_symm_val dot_S512x320_S320x320_S512x320_1_0_0_1_n_n 320 rfl rfl k
  have el : dot_S512x320_S320x320_S512x320_1_0_0_1_n_n.lhsIdx (ix2 p q) ((ValueIdx.contrEquiv1 dot_S512x320_S320x320_S512x320_1_0_0_1_n_n 320 rfl rfl).symm k) = ix2 p k := funext fun a => Fin.ext (by
    match a with
    | ⟨0, _⟩ => exact lhs0_G _ _
    | ⟨1, _⟩ => exact (lhs1_G _ _).trans hk)
  have er : dot_S512x320_S320x320_S512x320_1_0_0_1_n_n.rhsIdx (ix2 p q) ((ValueIdx.contrEquiv1 dot_S512x320_S320x320_S512x320_1_0_0_1_n_n 320 rfl rfl).symm k) = ix2 k q := funext fun a => Fin.ext (by
    match a with
    | ⟨0, _⟩ => exact (rhs0_G _ _).trans hk
    | ⟨1, _⟩ => exact rhs1_G _ _)
  rw [el, er]

/-! ### The product `[512, 320] × [320, 1]` at an index -/

private theorem lhs0_O (i : S512x1.Idx) (q : dot_S512x320_S320x1_S512x1_1_0_0_1_n_n.contr.Idx) : (dot_S512x320_S320x1_S512x1_1_0_0_1_n_n.lhsIdx i q 0).val = (i 0).val := by
  unfold DotDims.lhsIdx
  rw [dif_neg (show ¬(0 : Fin S512x320.rank) ∈ dot_S512x320_S320x1_S512x1_1_0_0_1_n_n.lhsBatch by decide), dif_pos (show (0 : Fin S512x320.rank) ∈ dot_S512x320_S320x1_S512x1_1_0_0_1_n_n.lhsNonContracting by decide)]
  rfl
private theorem lhs1_O (i : S512x1.Idx) (q : dot_S512x320_S320x1_S512x1_1_0_0_1_n_n.contr.Idx) : (dot_S512x320_S320x1_S512x1_1_0_0_1_n_n.lhsIdx i q 1).val = (q ⟨0, by decide⟩).val :=
  dot_S512x320_S320x1_S512x1_1_0_0_1_n_n.lhsIdx_val_of_single rfl i q
private theorem rhs0_O (i : S512x1.Idx) (q : dot_S512x320_S320x1_S512x1_1_0_0_1_n_n.contr.Idx) : (dot_S512x320_S320x1_S512x1_1_0_0_1_n_n.rhsIdx i q 0).val = (q ⟨0, by decide⟩).val :=
  dot_S512x320_S320x1_S512x1_1_0_0_1_n_n.rhsIdx_val_of_single rfl i q
private theorem rhs1_O (i : S512x1.Idx) (q : dot_S512x320_S320x1_S512x1_1_0_0_1_n_n.contr.Idx) : (dot_S512x320_S320x1_S512x1_1_0_0_1_n_n.rhsIdx i q 1).val = (i 1).val := by
  unfold DotDims.rhsIdx
  rw [dif_neg (show ¬(1 : Fin S320x1.rank) ∈ dot_S512x320_S320x1_S512x1_1_0_0_1_n_n.rhsBatch by decide), dif_pos (show (1 : Fin S320x1.rank) ∈ dot_S512x320_S320x1_S512x1_1_0_0_1_n_n.rhsNonContracting by decide)]
  rfl

/-- Entry (p, q) of the product is the sum over j of x (p, j) · W (j, q). -/
theorem dot_O_apply (x : TI[S512x320, .f32]) (W : TI[S320x1, .f32]) (p : Fin 512) (q : Fin 1) :
    Host.dotGeneral (F := Ideal) (φ₁ := .f32) (φ₂ := .f32) dot_S512x320_S320x1_S512x1_1_0_0_1_n_n none x W (ix2 p q) = ∑ j : Fin 320, x (ix2 p j) * W (ix2 j q) := by
  simp only [Host.dotGeneral]
  rw [Ideal.dotGeneral_apply, ← Equiv.sum_comp (ValueIdx.contrEquiv1 dot_S512x320_S320x1_S512x1_1_0_0_1_n_n 320 rfl rfl).symm]
  refine Finset.sum_congr rfl fun k _ => ?_
  have hk := ValueIdx.contrEquiv1_symm_val dot_S512x320_S320x1_S512x1_1_0_0_1_n_n 320 rfl rfl k
  have el : dot_S512x320_S320x1_S512x1_1_0_0_1_n_n.lhsIdx (ix2 p q) ((ValueIdx.contrEquiv1 dot_S512x320_S320x1_S512x1_1_0_0_1_n_n 320 rfl rfl).symm k) = ix2 p k := funext fun a => Fin.ext (by
    match a with
    | ⟨0, _⟩ => exact lhs0_O _ _
    | ⟨1, _⟩ => exact (lhs1_O _ _).trans hk)
  have er : dot_S512x320_S320x1_S512x1_1_0_0_1_n_n.rhsIdx (ix2 p q) ((ValueIdx.contrEquiv1 dot_S512x320_S320x1_S512x1_1_0_0_1_n_n 320 rfl rfl).symm k) = ix2 k q := funext fun a => Fin.ext (by
    match a with
    | ⟨0, _⟩ => exact (rhs0_O _ _).trans hk
    | ⟨1, _⟩ => exact rhs1_O _ _)
  rw [el, er]

/-! ## PReLU at an entry -/

/-- The comparison `0 ≤ u` selects. -/
theorem select_oge_zero (u a b : EReal) : Scalar.select (Ideal.cmp .oge u 0) a b = if 0 ≤ u then a else b := by
  unfold Scalar.select Ideal.cmp
  by_cases h : (0 : EReal) ≤ u <;> simp [h]

theorem preluN_apply (x : TI[S100000x64, .f32]) (a : TI[S64, .f32]) (p : Fin 100000) (q : Fin 64) :
    preluN x a (ix2 p q) = Cert.Spec.prelu (a (ix1 q)) (x (ix2 p q)) := by
  unfold preluN Cert.Spec.prelu
  rw [select_apply, cmpf_apply, mulf_apply, rowN_apply, zeroN_apply]
  exact select_oge_zero _ _ _

/-! ## The dense layers at an entry -/

theorem linearN_apply (x : TI[S100000x64, .f32]) (W : TI[S64x64, .f32]) (b : TI[S64, .f32]) (p : Fin 100000) (q : Fin 64) :
    linearN x W b (ix2 p q)
      = Cert.Spec.lin (fun p j => x (ix2 p j)) (fun j q => W (ix2 j q)) (fun q => b (ix1 q)) p q := by
  unfold linearN Cert.Spec.lin
  rw [addf_apply, dot_N_apply, rowN_apply]

/-- (1) The two input layers are the specification's two-layer head. -/
theorem pre_apply (x : TI[S100000x64, .f32]) (W1 : TI[S64x64, .f32]) (b1 a1 : TI[S64, .f32]) (W2 : TI[S64x64, .f32])
    (b2 a2 : TI[S64, .f32]) (p : Fin 100000) (q : Fin 64) :
    pre x W1 b1 a1 W2 b2 a2 (ix2 p q)
      = Cert.Spec.head (fun p j => x (ix2 p j)) (fun j q => W1 (ix2 j q)) (fun q => b1 (ix1 q)) (fun q => a1 (ix1 q))
          (fun j q => W2 (ix2 j q)) (fun q => b2 (ix1 q)) (fun q => a2 (ix1 q)) p q := by
  simp only [pre, Cert.Spec.head, Cert.Spec.linPrelu, preluN_apply, linearN_apply]
  rfl

/-- (3) The edge-message layer: a dense layer over the gathered rows. -/
theorem linearE_apply (x : TI[S1600000x64, .f32]) (W : TI[S64x64, .f32]) (b : TI[S64, .f32]) (p : Fin 1600000) (q : Fin 64) :
    addf (Host.dotGeneral (F := Ideal) (φ₁ := .f32) (φ₂ := .f32) dot_S1600000x64_S64x64_S1600000x64_1_0_0_1_n_n none x W) (rowE b) (ix2 p q)
      = Cert.Spec.lin (fun p j => x (ix2 p j)) (fun j q => W (ix2 j q)) (fun q => b (ix1 q)) p q := by
  unfold Cert.Spec.lin
  rw [addf_apply, dot_E_apply, rowE_apply]

/-! ## The message-passing layer: the gather and the scatter-add stay closed -/

/-- The source rows of the node features, one per edge. -/
def gatherRows (h : TI[S100000x64, .f32]) (src : TI[S1600000x1, .i32]) : TI[S1600000x64, .f32] :=
  Host.gather gather_S100000x64_S1600000x1_S1600000x64_1_0_n_n_0_1_164 h src

/-- The per-edge messages: the dense layer over the gathered rows. -/
def edgeMsg (h : TI[S100000x64, .f32]) (src : TI[S1600000x1, .i32]) (W : TI[S64x64, .f32]) (b : TI[S64, .f32]) :
    TI[S1600000x64, .f32] :=
  addf (Host.dotGeneral (F := Ideal) (φ₁ := .f32) (φ₂ := .f32) dot_S1600000x64_S64x64_S1600000x64_1_0_0_1_n_n none (gatherRows h src) W) (rowE b)

/-- The messages added into their destination rows, from zero. -/
def edgeAggregate (dst : TI[S1600000x1, .i32]) (msg : TI[S1600000x64, .f32]) : TI[S100000x64, .f32] :=
  Host.scatterAdd (F := Ideal) (φ := .f32) scatter_S100000x64_S1600000x1_S1600000x64_1_0_0_1 (zeroN (F := Ideal)) dst msg

set_option maxRecDepth 8192 in
/-- The layer is the self update of the aggregated messages. -/
theorem conv_eq (h : TI[S100000x64, .f32]) (src dst : TI[S1600000x1, .i32]) (W : TI[S64x64, .f32]) (b a : TI[S64, .f32]) :
    conv h src dst W b a = preluN (addf (edgeAggregate dst (edgeMsg h src W b)) h) a := rfl

/-- A message entry is the dense layer of the gathered rows. -/
theorem edgeMsg_apply (h : TI[S100000x64, .f32]) (src : TI[S1600000x1, .i32]) (W : TI[S64x64, .f32]) (b : TI[S64, .f32])
    (p : Fin 1600000) (q : Fin 64) :
    edgeMsg h src W b (ix2 p q)
      = Cert.Spec.lin (fun p j => gatherRows h src (ix2 p j)) (fun j q => W (ix2 j q)) (fun q => b (ix1 q)) p q :=
  linearE_apply (gatherRows h src) W b p q

/-- (4) The self update: PReLU of the aggregate plus the node's own features. -/
theorem selfUpdate_apply (s h : TI[S100000x64, .f32]) (a : TI[S64, .f32]) (p : Fin 100000) (q : Fin 64) :
    preluN (addf s h) a (ix2 p q)
      = Cert.Spec.selfUpdate (fun p q => s (ix2 p q)) (fun p q => h (ix2 p q)) (fun q => a (ix1 q)) p q := by
  unfold Cert.Spec.selfUpdate
  rw [preluN_apply, addf_apply]

theorem conv_apply (h : TI[S100000x64, .f32]) (src dst : TI[S1600000x1, .i32]) (W : TI[S64x64, .f32]) (b a : TI[S64, .f32])
    (p : Fin 100000) (q : Fin 64) :
    conv h src dst W b a (ix2 p q)
      = Cert.Spec.selfUpdate (fun p q => edgeAggregate dst (edgeMsg h src W b) (ix2 p q)) (fun p q => h (ix2 p q))
          (fun q => a (ix1 q)) p q := by
  rw [conv_eq]; exact selfUpdate_apply _ _ _ p q

/-! ## Batch normalisation at an entry -/

/-- A scalar broadcast to any shape reads the scalar. -/
theorem bcast0_apply {α : Type} {t : Shape} (h : S_.BroadcastsInDim t (![] : Fin 0 → Fin t.rank)) (c : S_.Idx → α) (i : t.Idx) :
    broadcastInDim t ![] h c i = c ix0 :=
  broadcastInDim_apply _ h c i ix0 (fun a => a.elim0)

/-- The column sum from zero is the sum over the rows. -/
theorem colSum_apply (x : TI[S100000x64, .f32]) (q : Fin 64) :
    Host.reduceAdd (F := Ideal) x (constant S_ .f32 0x00000000#32) reducesTo_S100000x64_S64_d0 h_S_ (ix1 q)
      = ∑ p : Fin 100000, x (ix2 p q) := by
  simp only [Host.reduceAdd, Ideal.hostReduceAdd_def]
  rw [Ideal.hostReduceAdd_single reducesTo_S100000x64_S64_d0 (by decide), constant_apply, Ideal.ofBits_zero_f32, zero_add]
  refine Finset.sum_congr rfl fun k _ => ?_
  exact congrArg x (funext fun a => Fin.ext (by match a with | ⟨0, _⟩ => rfl | ⟨1, _⟩ => rfl))

/-- The column mean: the column sum divided by the word for 100000. -/
theorem meanN_apply (x : TI[S100000x64, .f32]) (q : Fin 64) :
    meanN x (ix1 q) = Ideal.div (∑ p : Fin 100000, x (ix2 p q)) (Ideal.ofBits .f32 0x47C35000#32) := by
  unfold meanN
  show Ideal.div (Host.reduceAdd (F := Ideal) x (constant S_ .f32 0x00000000#32) reducesTo_S100000x64_S64_d0 h_S_ (ix1 q))
      (broadcastInDim S64 ![] bcast_S_S64 (constant (F := Ideal) S_ .f32 0x47C35000#32) (ix1 q)) = _
  rw [colSum_apply, bcast0_apply, constant_apply]

theorem centred_apply (x : TI[S100000x64, .f32]) (p : Fin 100000) (q : Fin 64) :
    centred x (ix2 p q)
      = x (ix2 p q) - Ideal.div (∑ p' : Fin 100000, x (ix2 p' q)) (Ideal.ofBits .f32 0x47C35000#32) := by
  unfold centred
  rw [subf_apply, rowN_apply, meanN_apply]

/-- (2) Batch normalisation is the specification's centred form, with `N` the word `0x47C35000` and `ε` the word
    `0x3727C5AC`. -/
theorem bn_apply (H : TI[S100000x64, .f32]) (g b : TI[S64, .f32]) (p : Fin 100000) (q : Fin 64) :
    bn H g b (ix2 p q)
      = Cert.Spec.normalizeCentred (fun p q => H (ix2 p q)) (Ideal.ofBits .f32 0x47C35000#32) (Ideal.ofBits .f32 0x3727C5AC#32)
          (fun q => g (ix1 q)) (fun q => b (ix1 q)) p q := by
  unfold bn Cert.Spec.normalizeCentred Cert.Spec.centredVar Cert.Spec.centredMean
  rw [addf_apply, mulf_apply, rowN_apply, rowN_apply]
  show Ideal.div (centred H (ix2 p q))
        (rowN (Host.sqrt (addf (meanN (mulf (centred H) (centred H)))
          (broadcastInDim S64 ![] bcast_S_S64 (constant (F := Ideal) S_ .f32 0x3727C5AC#32)))) (ix2 p q)) * g (ix1 q) + b (ix1 q) = _
  rw [rowN_apply]
  show Ideal.div (centred H (ix2 p q))
        (Ideal.sqrt (addf (meanN (mulf (centred H) (centred H)))
          (broadcastInDim S64 ![] bcast_S_S64 (constant (F := Ideal) S_ .f32 0x3727C5AC#32)) (ix1 q))) * g (ix1 q) + b (ix1 q) = _
  rw [addf_apply, meanN_apply, bcast0_apply, constant_apply, centred_apply]
  simp only [mulf_apply, centred_apply]

/-! ## The output layers at a row -/

/-- The one-entry bias repeated along the rows. -/
theorem rows_O_apply {α : Type} (b : S1.Idx → α) (p : Fin 512) :
    broadcastInDim S512x1 ![0, 1] bcast_S1x1_S512x1_0_1 (broadcastInDim S1x1 ![1] bcast_S1_S1x1_1 b) (ix2 p (0 : Fin 1)) = b (ix1 0) := by
  rw [broadcastInDim_apply _ bcast_S1x1_S512x1_0_1 _ (ix2 p (0 : Fin 1)) (ix2 (0 : Fin 1) (0 : Fin 1)) (fun a => match a with
      | ⟨0, _⟩ => by show 0 = if (1 : Nat) = 1 then 0 else p.val; rw [if_pos rfl]
      | ⟨1, _⟩ => by show 0 = if (1 : Nat) = 1 then 0 else 0; rw [if_pos rfl]),
    broadcastInDim_apply _ bcast_S1_S1x1_1 b (ix2 (0 : Fin 1) (0 : Fin 1)) (ix1 0) (fun a => match a with
      | ⟨0, _⟩ => by show 0 = if (1 : Nat) = 1 then 0 else 0; rw [if_pos rfl])]

/-- The leaky rectifier is the specification's PReLU with slope the word `0x3C23D70A`. -/
theorem leaky_apply (x : TI[S512x320, .f32]) (i : S512x320.Idx) :
    leaky x i = Cert.Spec.prelu (Ideal.ofBits .f32 0x3C23D70A#32) (x i) := by
  unfold leaky Cert.Spec.prelu
  rw [select_apply, cmpf_apply, mulf_apply, bcast0_apply, bcast0_apply, constant_apply, constant_apply, Ideal.ofBits_zero_f32]
  exact select_oge_zero _ _ _

theorem hidden_apply (G : TI[S512x320, .f32]) (W1 : TI[S320x320, .f32]) (b1 : TI[S320, .f32]) (p : Fin 512) (j : Fin 320) :
    addf (hiddenDot G W1) (rowG b1) (ix2 p j)
      = Cert.Spec.lin (fun p j => G (ix2 p j)) (fun k j => W1 (ix2 k j)) (fun j => b1 (ix1 j)) p j := by
  unfold hiddenDot Cert.Spec.lin
  rw [addf_apply, dot_G_apply, rowG_apply]

/-- (5) The closing head, row by row. -/
theorem out_apply (G : TI[S512x320, .f32]) (W1 : TI[S320x320, .f32]) (b1 : TI[S320, .f32]) (W2 : TI[S320x1, .f32])
    (b2 : TI[S1, .f32]) (p : Fin 512) :
    out (hiddenDot G W1) (rowG b1) W2 b2 (ix2 p (0 : Fin 1))
      = Cert.Spec.ffn (fun p j => G (ix2 p j)) (fun k j => W1 (ix2 k j)) (fun j => b1 (ix1 j)) (Ideal.ofBits .f32 0x3C23D70A#32)
          (fun j => W2 (ix2 j (0 : Fin 1))) (b2 (ix1 0)) p := by
  unfold out Cert.Spec.ffn
  rw [addf_apply, dot_O_apply, rows_O_apply]
  simp only [leaky_apply, hidden_apply]

end Cert.ReferenceIdeal.RefRun

end
-- ==== Proof.KI.Rounds.lean ====
/- The kernel side of the four message-passing rounds and of the closing head, in the reference's stage functions:
   the array each round's self-update region leaves is the reference's layer applied to the array the previous round
   left, and the closing region leaves the reference's output layers of the pooled features. Entry by entry: the
   region's value, the windows' arrays as the shared host stages of earlier arrays, and the reference's layer read at
   the same entry. The gather, the scatter-add and the pooling stay closed: the same function of equal arrays. -/
import proofs.«128986_j27779848471455_1_alg».proof.Proof.KI.Fold
import proofs.«128986_j27779848471455_1_alg».proof.Proof.KI.GlueRef
import proofs.«128986_j27779848471455_1_alg».proof.Proof.KI.GlueRead
import proofs.«128986_j27779848471455_1_alg».proof.Proof.KI.Val2
import proofs.«128986_j27779848471455_1_alg».proof.Proof.KI.Val3
import proofs.«128986_j27779848471455_1_alg».proof.Proof.KI.Val4
import proofs.«128986_j27779848471455_1_alg».proof.Proof.KI.Val5
import proofs.«128986_j27779848471455_1_alg».proof.Proof.KI.Val6
import proofs.«128986_j27779848471455_1_alg».proof.Proof.KI.Val7
import proofs.«128986_j27779848471455_1_alg».proof.Proof.KI.Val8
import proofs.«128986_j27779848471455_1_alg».proof.Proof.KI.Val9
import proofs.«128986_j27779848471455_1_alg».proof.Proof.KI.Val10
import proofs.«128986_j27779848471455_1_alg».proof.Proof.Ref.Read

set_option maxRecDepth 65536

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## Round 1 -/

/-- The array the message region of round 1 leaves is the reference's edge messages of the previous features. -/
theorem msgs1 (c : Dev nD) :
    W6 m ρ c (Proc.devRef .tc main_v38)
      = Cert.ReferenceIdeal.RefRun.edgeMsg (W4 m ρ c (Proc.devRef .tc main_v20)) (Cert.ReferenceIdeal.RefRun.wrapIdx (Cert.ReferenceIdeal.RefRun.edgeRow0 (m ((c : Thread nD τ).loc main_arg1)))) (Cert.ReferenceIdeal.RefRun.msgW0 (m ((c : Thread nD τ).loc main_arg11))) (Cert.ReferenceIdeal.RefRun.msgB0 (m ((c : Thread nD τ).loc main_arg12))) := by
  funext idx
  obtain ⟨p, q, rfl⟩ : ∃ (p : Fin 1600000) (q : Fin 64), idx = ix2 p q := ⟨idx 0, idx 1, eq_ix2 idx⟩
  refine (congrFun (W6_arr m ρ c 3) (ix2 p q)).trans ?_
  refine (final2 (V5 m ρ) c p q).trans ?_
  refine Eq.trans ?_ (Cert.ReferenceIdeal.RefRun.edgeMsg_apply _ _ _ _ p q).symm
  rw [V5_main_v32_ref m ρ c, V5_main_v34_ref m ρ c, V5_main_v37_ref m ρ c]
  simp only [row1_apply]
  rfl

/-- The array the self-update region of round 1 leaves is the reference's message-passing layer of the previous
    features. -/
theorem round1 (c : Dev nD) :
    W8 m ρ c (Proc.devRef .tc main_v42)
      = Cert.ReferenceIdeal.RefRun.conv (W4 m ρ c (Proc.devRef .tc main_v20)) (Cert.ReferenceIdeal.RefRun.wrapIdx (Cert.ReferenceIdeal.RefRun.edgeRow0 (m ((c : Thread nD τ).loc main_arg1)))) (Cert.ReferenceIdeal.RefRun.colIdx (Cert.ReferenceIdeal.RefRun.edgeRow1 (m ((c : Thread nD τ).loc main_arg1)))) (Cert.ReferenceIdeal.RefRun.msgW0 (m ((c : Thread nD τ).loc main_arg11))) (Cert.ReferenceIdeal.RefRun.msgB0 (m ((c : Thread nD τ).loc main_arg12))) (m ((c : Thread nD τ).loc main_arg13)) := by
  funext idx
  obtain ⟨p, q, rfl⟩ : ∃ (p : Fin 100000) (q : Fin 64), idx = ix2 p q := ⟨idx 0, idx 1, eq_ix2 idx⟩
  refine (congrFun (W8_arr m ρ c 3) (ix2 p q)).trans ?_
  refine (final3 (V7 m ρ) c p q).trans ?_
  refine Eq.trans ?_ (Cert.ReferenceIdeal.RefRun.conv_apply _ _ _ _ _ _ p q).symm
  rw [V7_main_v41_ref m ρ c, V7_main_v20 m ρ c, V7_main_v25 m ρ c, msgs1 m ρ c]
  simp only [row1_apply]
  rfl

/-! ## Round 2 -/

/-- The array the message region of round 2 leaves is the reference's edge messages of the previous features. -/
theorem msgs2 (c : Dev nD) :
    W10 m ρ c (Proc.devRef .tc main_v55)
      = Cert.ReferenceIdeal.RefRun.edgeMsg (W8 m ρ c (Proc.devRef .tc main_v42)) (Cert.ReferenceIdeal.RefRun.wrapIdx (Cert.ReferenceIdeal.RefRun.edgeRow0 (m ((c : Thread nD τ).loc main_arg1)))) (Cert.ReferenceIdeal.RefRun.msgW1 (m ((c : Thread nD τ).loc main_arg11))) (Cert.ReferenceIdeal.RefRun.msgB1 (m ((c : Thread nD τ).loc main_arg12))) := by
  funext idx
  obtain ⟨p, q, rfl⟩ : ∃ (p : Fin 1600000) (q : Fin 64), idx = ix2 p q := ⟨idx 0, idx 1, eq_ix2 idx⟩
  refine (congrFun (W10_arr m ρ c 3) (ix2 p q)).trans ?_
  refine (final4 (V9 m ρ) c p q).trans ?_
  refine Eq.trans ?_ (Cert.ReferenceIdeal.RefRun.edgeMsg_apply _ _ _ _ p q).symm
  rw [V9_main_v49_ref m ρ c, V9_main_v51_ref m ρ c, V9_main_v54_ref m ρ c]
  simp only [row1_apply]
  rfl

/-- The array the self-update region of round 2 leaves is the reference's message-passing layer of the previous
    features. -/
theorem round2 (c : Dev nD) :
    W12 m ρ c (Proc.devRef .tc main_v59)
      = Cert.ReferenceIdeal.RefRun.conv (W8 m ρ c (Proc.devRef .tc main_v42)) (Cert.ReferenceIdeal.RefRun.wrapIdx (Cert.ReferenceIdeal.RefRun.edgeRow0 (m ((c : Thread nD τ).loc main_arg1)))) (Cert.ReferenceIdeal.RefRun.colIdx (Cert.ReferenceIdeal.RefRun.edgeRow1 (m ((c : Thread nD τ).loc main_arg1)))) (Cert.ReferenceIdeal.RefRun.msgW1 (m ((c : Thread nD τ).loc main_arg11))) (Cert.ReferenceIdeal.RefRun.msgB1 (m ((c : Thread nD τ).loc main_arg12))) (m ((c : Thread nD τ).loc main_arg13)) := by
  funext idx
  obtain ⟨p, q, rfl⟩ : ∃ (p : Fin 100000) (q : Fin 64), idx = ix2 p q := ⟨idx 0, idx 1, eq_ix2 idx⟩
  refine (congrFun (W12_arr m ρ c 3) (ix2 p q)).trans ?_
  refine (final5 (V11 m ρ) c p q).trans ?_
  refine Eq.trans ?_ (Cert.ReferenceIdeal.RefRun.conv_apply _ _ _ _ _ _ p q).symm
  rw [V11_main_v58_ref m ρ c, V11_main_v42 m ρ c, V11_main_v25 m ρ c, msgs2 m ρ c]
  simp only [row1_apply]
  rfl

/-! ## Round 3 -/

/-- The array the message region of round 3 leaves is the reference's edge messages of the previous features. -/
theorem msgs3 (c : Dev nD) :
    W14 m ρ c (Proc.devRef .tc main_v72)
      = Cert.ReferenceIdeal.RefRun.edgeMsg (W12 m ρ c (Proc.devRef .tc main_v59)) (Cert.ReferenceIdeal.RefRun.wrapIdx (Cert.ReferenceIdeal.RefRun.edgeRow0 (m ((c : Thread nD τ).loc main_arg1)))) (Cert.ReferenceIdeal.RefRun.msgW2 (m ((c : Thread nD τ).loc main_arg11))) (Cert.ReferenceIdeal.RefRun.msgB2 (m ((c : Thread nD τ).loc main_arg12))) := by
  funext idx
  obtain ⟨p, q, rfl⟩ : ∃ (p : Fin 1600000) (q : Fin 64), idx = ix2 p q := ⟨idx 0, idx 1, eq_ix2 idx⟩
  refine (congrFun (W14_arr m ρ c 3) (ix2 p q)).trans ?_
  refine (final6 (V13 m ρ) c p q).trans ?_
  refine Eq.trans ?_ (Cert.ReferenceIdeal.RefRun.edgeMsg_apply _ _ _ _ p q).symm
  rw [V13_main_v66_ref m ρ c, V13_main_v68_ref m ρ c, V13_main_v71_ref m ρ c]
  simp only [row1_apply]
  rfl

/-- The array the self-update region of round 3 leaves is the reference's message-passing layer of the previous
    features. -/
theorem round3 (c : Dev nD) :
    W16 m ρ c (Proc.devRef .tc main_v76)
      = Cert.ReferenceIdeal.RefRun.conv (W12 m ρ c (Proc.devRef .tc main_v59)) (Cert.ReferenceIdeal.RefRun.wrapIdx (Cert.ReferenceIdeal.RefRun.edgeRow0 (m ((c : Thread nD τ).loc main_arg1)))) (Cert.ReferenceIdeal.RefRun.colIdx (Cert.ReferenceIdeal.RefRun.edgeRow1 (m ((c : Thread nD τ).loc main_arg1)))) (Cert.ReferenceIdeal.RefRun.msgW2 (m ((c : Thread nD τ).loc main_arg11))) (Cert.ReferenceIdeal.RefRun.msgB2 (m ((c : Thread nD τ).loc main_arg12))) (m ((c : Thread nD τ).loc main_arg13)) := by
  funext idx
  obtain ⟨p, q, rfl⟩ : ∃ (p : Fin 100000) (q : Fin 64), idx = ix2 p q := ⟨idx 0, idx 1, eq_ix2 idx⟩
  refine (congrFun (W16_arr m ρ c 3) (ix2 p q)).trans ?_
  refine (final7 (V15 m ρ) c p q).trans ?_
  refine Eq.trans ?_ (Cert.ReferenceIdeal.RefRun.conv_apply _ _ _ _ _ _ p q).symm
  rw [V15_main_v75_ref m ρ c, V15_main_v59 m ρ c, V15_main_v25 m ρ c, msgs3 m ρ c]
  simp only [row1_apply]
  rfl

/-! ## Round 4 -/

/-- The array the message region of round 4 leaves is the reference's edge messages of the previous features. -/
theorem msgs4 (c : Dev nD) :
    W18 m ρ c (Proc.devRef .tc main_v89)
      = Cert.ReferenceIdeal.RefRun.edgeMsg (W16 m ρ c (Proc.devRef .tc main_v76)) (Cert.ReferenceIdeal.RefRun.wrapIdx (Cert.ReferenceIdeal.RefRun.edgeRow0 (m ((c : Thread nD τ).loc main_arg1)))) (Cert.ReferenceIdeal.RefRun.msgW3 (m ((c : Thread nD τ).loc main_arg11))) (Cert.ReferenceIdeal.RefRun.msgB3 (m ((c : Thread nD τ).loc main_arg12))) := by
  funext idx
  obtain ⟨p, q, rfl⟩ : ∃ (p : Fin 1600000) (q : Fin 64), idx = ix2 p q := ⟨idx 0, idx 1, eq_ix2 idx⟩
  refine (congrFun (W18_arr m ρ c 3) (ix2 p q)).trans ?_
  refine (final8 (V17 m ρ) c p q).trans ?_
  refine Eq.trans ?_ (Cert.ReferenceIdeal.RefRun.edgeMsg_apply _ _ _ _ p q).symm
  rw [V17_main_v83_ref m ρ c, V17_main_v85_ref m ρ c, V17_main_v88_ref m ρ c]
  simp only [row1_apply]
  rfl

/-- The array the self-update region of round 4 leaves is the reference's message-passing layer of the previous
    features. -/
theorem round4 (c : Dev nD) :
    W20 m ρ c (Proc.devRef .tc main_v93)
      = Cert.ReferenceIdeal.RefRun.conv (W16 m ρ c (Proc.devRef .tc main_v76)) (Cert.ReferenceIdeal.RefRun.wrapIdx (Cert.ReferenceIdeal.RefRun.edgeRow0 (m ((c : Thread nD τ).loc main_arg1)))) (Cert.ReferenceIdeal.RefRun.colIdx (Cert.ReferenceIdeal.RefRun.edgeRow1 (m ((c : Thread nD τ).loc main_arg1)))) (Cert.ReferenceIdeal.RefRun.msgW3 (m ((c : Thread nD τ).loc main_arg11))) (Cert.ReferenceIdeal.RefRun.msgB3 (m ((c : Thread nD τ).loc main_arg12))) (m ((c : Thread nD τ).loc main_arg13)) := by
  funext idx
  obtain ⟨p, q, rfl⟩ : ∃ (p : Fin 100000) (q : Fin 64), idx = ix2 p q := ⟨idx 0, idx 1, eq_ix2 idx⟩
  refine (congrFun (W20_arr m ρ c 3) (ix2 p q)).trans ?_
  refine (final9 (V19 m ρ) c p q).trans ?_
  refine Eq.trans ?_ (Cert.ReferenceIdeal.RefRun.conv_apply _ _ _ _ _ _ p q).symm
  rw [V19_main_v92_ref m ρ c, V19_main_v76 m ρ c, V19_main_v25 m ρ c, msgs4 m ρ c]
  simp only [row1_apply]
  rfl

/-! ## The closing head -/

/-- The array the closing region leaves is the reference's output layers of the five feature arrays pooled per graph. -/
theorem closing (c : Dev nD) :
    (dat10 (F := Ideal) (V21 m ρ) c).arrAt 5 cfg10.N
      = Cert.ReferenceIdeal.RefRun.out (Cert.ReferenceIdeal.RefRun.hiddenDot (Cert.ReferenceIdeal.RefRun.pool (W4 m ρ c (Proc.devRef .tc main_v20)) (W8 m ρ c (Proc.devRef .tc main_v42))
            (W12 m ρ c (Proc.devRef .tc main_v59)) (W16 m ρ c (Proc.devRef .tc main_v76)) (W20 m ρ c (Proc.devRef .tc main_v93))
            (m ((c : Thread nD τ).loc main_arg2))) (m ((c : Thread nD τ).loc main_arg14)))
          (Cert.ReferenceIdeal.RefRun.rowG (m ((c : Thread nD τ).loc main_arg15))) (m ((c : Thread nD τ).loc main_arg16)) (m ((c : Thread nD τ).loc main_arg17)) := by
  funext idx
  obtain ⟨p, u, rfl⟩ : ∃ (p : Fin 512) (u : Fin 1), idx = ix2 p u := ⟨idx 0, idx 1, eq_ix2 idx⟩
  have hu : u = 0 := Subsingleton.elim u 0
  subst hu
  refine (final10 (V21 m ρ) c p).trans ?_
  refine Eq.trans ?_ (Cert.ReferenceIdeal.RefRun.out_apply _ _ _ _ _ p).symm
  rw [V21_main_v97_ref m ρ c, V21_main_arg14 m ρ c, V21_main_v98 m ρ c, V21_main_arg16 m ρ c, V21_main_v99 m ρ c]
  simp only [row320_apply, row1x1_apply]

end Cert.KernelIdeal.Hand

end
-- ==== Proof.KI.Val0a.lean ====
/-
  Region 0 of @main, the two-layer head with its column statistics: what each of the three control cases leaves in the
  block output, in the two statistics windows and in the two accumulators, as terms of the point's input blocks and of
  what the accumulators held. Every store of the body covers its whole buffer, so a buffer's contents after the body
  are the payload of the last store into it, each load of the payload reading a whole buffer's contents.
    block output        head of the seven input blocks                                  (all three cases)
    accumulator 0       what it held (the zero row at the first point) + column sums of the head
    accumulator 1       what it held (the zero row at the first point) + column sums of squares of the head
    statistics windows  at the last point, the two accumulators as just updated
  All statements hold at every float instance.
-/
import proofs.«128986_j27779848471455_1_alg».proof.Proof.KI.Reg0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx

variable {F : FTy → Type} [FloatOps F]
variable (V : (c : Dev nD) → (b : Ref sig .tc) → Buf (Elt F) ((c : Thread nD τ).loc b))

/-- The zero offsets of a whole-buffer access, as a constant function. -/
theorem hz2 : (![0, 0] : Fin 2 → Nat) = fun _ => 0 := funext fun a => by fin_cases a <;> rfl

/-! ## A middle point -/

/-- A middle point stores the head of its input blocks into the block output. -/
theorem out0_B_7_eq (c : Dev nD) (t : Fin cfg0.N) (hc0 : ¬cond0_0 (grid0.coords t)) (hc1 : ¬cond0_1 (grid0.coords t)) (xs0 xs1 : Vec F S1x64 .f32) :
    out0_B_7 V c t hc0 hc1 xs0 xs1 = (k0_pay5 (iblk0 V c 0 t) (iblk0 V c 1 t) (iblk0 V c 2 t) (iblk0 V c 3 t) (iblk0 V c 4 t) (iblk0 V c 5 t) (iblk0 V c 6 t)) := by
  unfold out0_B_7
  rw [View.read_writes_eq_canon _ _ _ (cover0_B_7 V c t hc0 hc1 xs0 xs1)]
  unfold runB
  unfold kernelRun0_B
  dsimp only
  try sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- A middle point leaves in accumulator 0 what it held plus the column sums of the block's head. -/
theorem sout0_B_0_eq (c : Dev nD) (t : Fin cfg0.N) (hc0 : ¬cond0_0 (grid0.coords t)) (hc1 : ¬cond0_1 (grid0.coords t)) (xs0 xs1 : Vec F S1x64 .f32) :
    sout0_B_0 V c t hc0 hc1 xs0 xs1 = k0_pay1 (k0_pay5 (iblk0 V c 0 t) (iblk0 V c 1 t) (iblk0 V c 2 t) (iblk0 V c 3 t) (iblk0 V c 4 t) (iblk0 V c 5 t) (iblk0 V c 6 t)) xs0 := by
  unfold sout0_B_0
  rw [View.read_writes_eq_canon _ _ _ (scover0_B_0 V c t hc0 hc1 xs0 xs1)]
  unfold runB
  unfold kernelRun0_B
  dsimp only
  try sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- A middle point leaves in accumulator 1 what it held plus the column sums of squares of the block's head. -/
theorem sout0_B_1_eq (c : Dev nD) (t : Fin cfg0.N) (hc0 : ¬cond0_0 (grid0.coords t)) (hc1 : ¬cond0_1 (grid0.coords t)) (xs0 xs1 : Vec F S1x64 .f32) :
    sout0_B_1 V c t hc0 hc1 xs0 xs1 = k0_pay2 (k0_pay5 (iblk0 V c 0 t) (iblk0 V c 1 t) (iblk0 V c 2 t) (iblk0 V c 3 t) (iblk0 V c 4 t) (iblk0 V c 5 t) (iblk0 V c 6 t)) xs1 := by
  unfold sout0_B_1
  rw [View.read_writes_eq_canon _ _ _ (scover0_B_1 V c t hc0 hc1 xs0 xs1)]
  unfold runB
  unfold kernelRun0_B
  dsimp only
  try sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-! ## The first point -/

/-- The first point stores the head of its input blocks into the block output. -/
theorem out0_A_7_eq (c : Dev nD) (t : Fin cfg0.N) (hc0 : cond0_0 (grid0.coords t)) (hc1 : ¬cond0_1 (grid0.coords t)) :
    out0_A_7 V c t hc0 hc1 = (k0_pay5 (iblk0 V c 0 t) (iblk0 V c 1 t) (iblk0 V c 2 t) (iblk0 V c 3 t) (iblk0 V c 4 t) (iblk0 V c 5 t) (iblk0 V c 6 t)) := by
  unfold out0_A_7
  rw [View.read_writes_eq_canon _ _ _ (cover0_A_7 V c t hc0 hc1)]
  unfold runA
  unfold kernelRun0_A
  dsimp only
  try sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- The first point zeroes accumulator 0, then adds the column sums of the block's head onto the zero row. -/
theorem sout0_A_0_eq (c : Dev nD) (t : Fin cfg0.N) (hc0 : cond0_0 (grid0.coords t)) (hc1 : ¬cond0_1 (grid0.coords t)) :
    sout0_A_0 V c t hc0 hc1 = k0_pay1 (k0_pay5 (iblk0 V c 0 t) (iblk0 V c 1 t) (iblk0 V c 2 t) (iblk0 V c 3 t) (iblk0 V c 4 t) (iblk0 V c 5 t) (iblk0 V c 6 t)) (k0_pay3 (F := F)) := by
  unfold sout0_A_0
  rw [View.read_writes_eq_canon _ _ _ (scover0_A_0 V c t hc0 hc1)]
  unfold runA
  unfold kernelRun0_A
  dsimp only
  try sl_unfold_words
  rw [View.canon_cons_unit_zero (S := S1x64) hz2, View.readCov_unit_zero (S := S1x64) _ hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- The first point zeroes accumulator 1, then adds the column sums of squares of the block's head onto the zero row. -/
theorem sout0_A_1_eq (c : Dev nD) (t : Fin cfg0.N) (hc0 : cond0_0 (grid0.coords t)) (hc1 : ¬cond0_1 (grid0.coords t)) :
    sout0_A_1 V c t hc0 hc1 = k0_pay2 (k0_pay5 (iblk0 V c 0 t) (iblk0 V c 1 t) (iblk0 V c 2 t) (iblk0 V c 3 t) (iblk0 V c 4 t) (iblk0 V c 5 t) (iblk0 V c 6 t)) (k0_pay4 (F := F)) := by
  unfold sout0_A_1
  rw [View.read_writes_eq_canon _ _ _ (scover0_A_1 V c t hc0 hc1)]
  unfold runA
  unfold kernelRun0_A
  dsimp only
  try sl_unfold_words
  rw [View.canon_cons_unit_zero (S := S1x64) hz2, View.readCov_unit_zero (S := S1x64) _ hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-! ## The last point -/

/-- The last point stores the head of its input blocks into the block output. -/
theorem out0_C_7_eq (c : Dev nD) (t : Fin cfg0.N) (hc0 : ¬cond0_0 (grid0.coords t)) (hc1 : cond0_1 (grid0.coords t)) (xs0 xs1 : Vec F S1x64 .f32) :
    out0_C_7 V c t hc0 hc1 xs0 xs1 = (k0_pay5 (iblk0 V c 0 t) (iblk0 V c 1 t) (iblk0 V c 2 t) (iblk0 V c 3 t) (iblk0 V c 4 t) (iblk0 V c 5 t) (iblk0 V c 6 t)) := by
  unfold out0_C_7
  rw [View.read_writes_eq_canon _ _ _ (cover0_C_7 V c t hc0 hc1 xs0 xs1)]
  unfold runC
  unfold kernelRun0_C
  dsimp only
  try sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- The last point leaves in accumulator 0 what it held plus the column sums of the block's head. -/
theorem sout0_C_0_eq (c : Dev nD) (t : Fin cfg0.N) (hc0 : ¬cond0_0 (grid0.coords t)) (hc1 : cond0_1 (grid0.coords t)) (xs0 xs1 : Vec F S1x64 .f32) :
    sout0_C_0 V c t hc0 hc1 xs0 xs1 = k0_pay1 (k0_pay5 (iblk0 V c 0 t) (iblk0 V c 1 t) (iblk0 V c 2 t) (iblk0 V c 3 t) (iblk0 V c 4 t) (iblk0 V c 5 t) (iblk0 V c 6 t)) xs0 := by
  unfold sout0_C_0
  rw [View.read_writes_eq_canon _ _ _ (scover0_C_0 V c t hc0 hc1 xs0 xs1)]
  unfold runC
  unfold kernelRun0_C
  dsimp only
  try sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- The last point leaves in accumulator 1 what it held plus the column sums of squares of the block's head. -/
theorem sout0_C_1_eq (c : Dev nD) (t : Fin cfg0.N) (hc0 : ¬cond0_0 (grid0.coords t)) (hc1 : cond0_1 (grid0.coords t)) (xs0 xs1 : Vec F S1x64 .f32) :
    sout0_C_1 V c t hc0 hc1 xs0 xs1 = k0_pay2 (k0_pay5 (iblk0 V c 0 t) (iblk0 V c 1 t) (iblk0 V c 2 t) (iblk0 V c 3 t) (iblk0 V c 4 t) (iblk0 V c 5 t) (iblk0 V c 6 t)) xs1 := by
  unfold sout0_C_1
  rw [View.read_writes_eq_canon _ _ _ (scover0_C_1 V c t hc0 hc1 xs0 xs1)]
  unfold runC
  unfold kernelRun0_C
  dsimp only
  try sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- The last point copies accumulator 0, as it has just updated it, into statistics window 8. -/
theorem out0_C_8_eq (c : Dev nD) (t : Fin cfg0.N) (hc0 : ¬cond0_0 (grid0.coords t)) (hc1 : cond0_1 (grid0.coords t)) (xs0 xs1 : Vec F S1x64 .f32) :
    out0_C_8 V c t hc0 hc1 xs0 xs1 = k0_pay1 (k0_pay5 (iblk0 V c 0 t) (iblk0 V c 1 t) (iblk0 V c 2 t) (iblk0 V c 3 t) (iblk0 V c 4 t) (iblk0 V c 5 t) (iblk0 V c 6 t)) xs0 := by
  unfold out0_C_8
  rw [View.read_writes_eq_canon _ _ _ (cover0_C_8 V c t hc0 hc1 xs0 xs1)]
  unfold runC
  unfold kernelRun0_C
  dsimp only
  try sl_unfold_words
  rw [View.canon_unit_zero hz2, View.readCov_unit_zero (S := S1x64) _ hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

/-- The last point copies accumulator 1, as it has just updated it, into statistics window 9. -/
theorem out0_C_9_eq (c : Dev nD) (t : Fin cfg0.N) (hc0 : ¬cond0_0 (grid0.coords t)) (hc1 : cond0_1 (grid0.coords t)) (xs0 xs1 : Vec F S1x64 .f32) :
    out0_C_9 V c t hc0 hc1 xs0 xs1 = k0_pay2 (k0_pay5 (iblk0 V c 0 t) (iblk0 V c 1 t) (iblk0 V c 2 t) (iblk0 V c 3 t) (iblk0 V c 4 t) (iblk0 V c 5 t) (iblk0 V c 6 t)) xs1 := by
  unfold out0_C_9
  rw [View.read_writes_eq_canon _ _ _ (cover0_C_9 V c t hc0 hc1 xs0 xs1)]
  unfold runC
  unfold kernelRun0_C
  dsimp only
  try sl_unfold_words
  rw [View.canon_unit_zero hz2, View.readCov_unit_zero (S := S1x64) _ hz2]
  simp only [View.readAt_eq_ld, (hs0_0 t).read_unread, (hs0_1 t).read_unread, (hs0_2 t).read_unread, (hs0_3 t).read_unread, (hs0_4 t).read_unread, (hs0_5 t).read_unread, (hs0_6 t).read_unread, (Memref.isWhole_whole cc0_scratch0).read_unread, (Memref.isWhole_whole cc0_scratch1).read_unread, View.ld_unit_zero (S := S1x64) hz2, View.ld_unit_zero (S := S10000x64) hz2, View.ld_unit_zero (S := S64x64) hz2]

end Cert.KernelIdeal.Hand
end
-- ==== Proof.KI.Val0b.lean ====
/-
  The payloads of region 0's body read at an index, over the extended reals. A [n, 64] array is read at row p and
  column q; the statistics rows are [1, 64] arrays read at row 0.
    zero rows       the rows the first point stores into the two accumulators are 0 at every column;
    accumulations   accumulator 0's update at column q is what it held plus the sum over the block's 10000 rows of the
                    column's entries; accumulator 1's the same with the entries squared. A reduction over the rows
                    reads, at column q, the source at (p, q) for each row p;
    the head        the block times a [64, 64] matrix into the zero splat is, at (p, q), the sum over the contracted
                    coordinate j of the products of the entries (p, j) and (j, q); a bias or slope row broadcast down the
                    rows reads its entry q; the select on the comparison with zero between y and slope · y is PReLU; so
                    one layer at (p, q) is PReLU of the dense layer's entry, and the payload, two layers composed, is
                    the two-layer head of the block's rows.
-/
import proofs.«128986_j27779848471455_1_alg».proof.Proof.Gen.KernelIdeal.Skeleton
import proofs.«128986_j27779848471455_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic
open Idealize.ShloMosaic.ValueIdx
open scoped BigOperators

/-! ## The zero rows -/

/-- The row the first point stores into accumulator 0 is zero at every column. -/
theorem k0_pay3_apply (q : Fin 64) : (k0_pay3 (F := Ideal)) (ix2 (0 : Fin 1) q) = 0 := by
  unfold k0_pay3
  refine (congrFun (shapeCast_self _ _) _).trans ?_
  exact Ideal.ofBits_zero_f32

/-- The row the first point stores into accumulator 1 is zero at every column. -/
theorem k0_pay4_apply (q : Fin 64) : (k0_pay4 (F := Ideal)) (ix2 (0 : Fin 1) q) = 0 := by
  unfold k0_pay4
  refine (congrFun (shapeCast_self _ _) _).trans ?_
  exact Ideal.ofBits_zero_f32

/-! ## The two accumulations -/

/-- The source index over column `q` with row `p` inserted on the reduced axis is `(p, q)`. -/
theorem lift_rows (q : Fin 64) (p : Fin 10000) :
    (reduces_S10000x64_S64 : S10000x64.Reduces [0] S64).lift (ix1 q) p = ix2 p q :=
  funext fun c => match c with
    | ⟨0, _⟩ => rfl
    | ⟨1, _⟩ => rfl

/-- Column `q` of the reduction over the rows of a [10000, 64] block is the sum of the column's entries. -/
theorem colsum_apply (v : FVec Ideal S10000x64 .f32) (hacc : (0x00000000#32 : BitVec 32) = 0x00000000#32) (q : Fin 64) :
    multiReduction .add [0] S64 v 0x00000000#32 reduces_S10000x64_S64 (.inl rfl) hacc (ix1 q) = ∑ p : Fin 10000, v (ix2 p q) :=
  (Ideal.multiReduction_add_single v 0x00000000#32 reduces_S10000x64_S64 (.inl rfl) hacc (ix1 q)).trans
    (Finset.sum_congr rfl fun p _ => congrArg v (lift_rows q p))

/-- Accumulator 0's update at column `q`: what it held plus the column's sum over the block. -/
theorem k0_pay1_apply (v29 : FVec Ideal S10000x64 .f32) (v31 : Vec Ideal S1x64 .f32) (q : Fin 64) :
    k0_pay1 v29 v31 (ix2 (0 : Fin 1) q) = v31 (ix2 (0 : Fin 1) q) + ∑ p : Fin 10000, v29 (ix2 p q) := by
  unfold k0_pay1
  refine (congrFun (shapeCast_self _ _) _).trans ?_
  refine congrArg (v31 (ix2 (0 : Fin 1) q) + ·) ?_
  refine (shapeCast_a_1a_apply _ _ (0 : Fin 1) q).trans ?_
  exact colsum_apply v29 rfl q

/-- Accumulator 1's update at column `q`: what it held plus the column's sum of squares over the block. -/
theorem k0_pay2_apply (v29 : FVec Ideal S10000x64 .f32) (v38 : Vec Ideal S1x64 .f32) (q : Fin 64) :
    k0_pay2 v29 v38 (ix2 (0 : Fin 1) q) = v38 (ix2 (0 : Fin 1) q) + ∑ p : Fin 10000, v29 (ix2 p q) * v29 (ix2 p q) := by
  unfold k0_pay2
  refine (congrFun (shapeCast_self _ _) _).trans ?_
  refine congrArg (v38 (ix2 (0 : Fin 1) q) + ·) ?_
  refine (shapeCast_a_1a_apply _ _ (0 : Fin 1) q).trans ?_
  exact colsum_apply (mulf v29 v29) rfl q

/-! ## The head -/

/-- PReLU as the payload spells it: a select on the comparison `0 ≤ y` between `y` and `a · y`. -/
theorem prelu_of_select (A Y : EReal) :
    Scalar.select (Ideal.cmp .oge Y (Ideal.ofBits .f32 0x00000000#32)) Y (A * Y) = Cert.Spec.prelu A Y := by
  rw [Ideal.ofBits_zero_f32]
  unfold Cert.Spec.prelu Scalar.select Ideal.cmp
  by_cases h : (0 : EReal) ≤ Y
  · simp [h]
  · simp [h]

/-- The product of a [10000, 64] block by a [64, 64] matrix into the zero splat, at row `p` and column `q`: the sum
    over the contracted coordinate `j` of the products of the entries `(p, j)` and `(j, q)`. -/
theorem mm_apply (A : FVec Ideal S10000x64 .f32) (B : FVec Ideal S64x64 .f32) (p : Fin 10000) (q : Fin 64) :
    matmul dot_S10000x64_S64x64_S10000x64_1_0_0_1_n_n none A B (constant S10000x64 .f32 0x00000000#32) (ix2 p q)
      = ∑ j : Fin 64, A (ix2 p j) * B (ix2 j q) := by
  refine (Ideal.matmul_constant_zero_apply dot_S10000x64_S64x64_S10000x64_1_0_0_1_n_n none A B (ix2 p q)).trans ?_
  refine (Equiv.sum_comp (contrEquiv1 dot_S10000x64_S64x64_S10000x64_1_0_0_1_n_n 64 rfl rfl).symm
    (fun k => A (dot_S10000x64_S64x64_S10000x64_1_0_0_1_n_n.lhsIdx (ix2 p q) k) * B (dot_S10000x64_S64x64_S10000x64_1_0_0_1_n_n.rhsIdx (ix2 p q) k))).symm.trans ?_
  refine Finset.sum_congr rfl fun j _ => ?_
  have hl : dot_S10000x64_S64x64_S10000x64_1_0_0_1_n_n.lhsIdx (ix2 p q) ((contrEquiv1 dot_S10000x64_S64x64_S10000x64_1_0_0_1_n_n 64 rfl rfl).symm j) = ix2 p j :=
    funext fun c => match c with
      | ⟨0, _⟩ => rfl
      | ⟨1, _⟩ => rfl
  have hr : dot_S10000x64_S64x64_S10000x64_1_0_0_1_n_n.rhsIdx (ix2 p q) ((contrEquiv1 dot_S10000x64_S64x64_S10000x64_1_0_0_1_n_n 64 rfl rfl).symm j) = ix2 j q :=
    funext fun c => match c with
      | ⟨0, _⟩ => rfl
      | ⟨1, _⟩ => rfl
  exact congrArg₂ (· * ·) (congrArg A hl) (congrArg B hr)

/-- One layer as the payload spells it: the block times the matrix, the bias row broadcast down the rows and added,
    then a select between the result and the slope row (broadcast down the rows) times it, on the comparison with zero. -/
def layerV (X : FVec Ideal S10000x64 .f32) (W : FVec Ideal S64x64 .f32) (b a : FVec Ideal S1x64 .f32) : FVec Ideal S10000x64 .f32 :=
  select
    (cmpf .oge
      (addf (matmul dot_S10000x64_S64x64_S10000x64_1_0_0_1_n_n none X W (constant S10000x64 .f32 0x00000000#32))
        (broadcastTo S10000x64 (shapeCast S1x64 b shapeCasts_S1x64_S1x64) broadcasts_S1x64_S10000x64))
      (broadcast S10000x64 (Scalar.ofBits .f32 0x00000000#32)))
    (addf (matmul dot_S10000x64_S64x64_S10000x64_1_0_0_1_n_n none X W (constant S10000x64 .f32 0x00000000#32))
      (broadcastTo S10000x64 (shapeCast S1x64 b shapeCasts_S1x64_S1x64) broadcasts_S1x64_S10000x64))
    (mulf (broadcastTo S10000x64 (shapeCast S1x64 a shapeCasts_S1x64_S1x64) broadcasts_S1x64_S10000x64)
      (addf (matmul dot_S10000x64_S64x64_S10000x64_1_0_0_1_n_n none X W (constant S10000x64 .f32 0x00000000#32))
        (broadcastTo S10000x64 (shapeCast S1x64 b shapeCasts_S1x64_S1x64) broadcasts_S1x64_S10000x64)))

/-- A row of 64 broadcast down 10000 rows, read at `(p, q)`, is the row's entry `q`. -/
theorem bcast_row_apply (v : FVec Ideal S1x64 .f32) (p : Fin 10000) (q : Fin 64) :
    broadcastTo S10000x64 (shapeCast S1x64 v shapeCasts_S1x64_S1x64) broadcasts_S1x64_S10000x64 (ix2 p q) = v (ix2 (0 : Fin 1) q) :=
  (broadcastTo_1b_ab_apply _ _ p q).trans (congrFun (shapeCast_self v _) _)

/-- One layer at `(p, q)`: PReLU, with the slope of column `q`, of the dense layer's entry. -/
theorem layerV_apply (X : FVec Ideal S10000x64 .f32) (W : FVec Ideal S64x64 .f32) (b a : FVec Ideal S1x64 .f32) (p : Fin 10000) (q : Fin 64) :
    layerV X W b a (ix2 p q)
      = Cert.Spec.prelu (a (ix2 (0 : Fin 1) q)) ((∑ j : Fin 64, X (ix2 p j) * W (ix2 j q)) + b (ix2 (0 : Fin 1) q)) := by
  have hy : (addf (matmul dot_S10000x64_S64x64_S10000x64_1_0_0_1_n_n none X W (constant S10000x64 .f32 0x00000000#32))
        (broadcastTo S10000x64 (shapeCast S1x64 b shapeCasts_S1x64_S1x64) broadcasts_S1x64_S10000x64)) (ix2 p q)
      = (∑ j : Fin 64, X (ix2 p j) * W (ix2 j q)) + b (ix2 (0 : Fin 1) q) :=
    congrArg₂ (· + ·) (mm_apply X W p q) (bcast_row_apply b p q)
  have ha := bcast_row_apply a p q
  exact (prelu_of_select _ _).trans (congrArg₂ Cert.Spec.prelu ha hy)

/-- The head payload is two layers, the second on the first's result. -/
theorem k0_pay5_eq (x : Vec Ideal S10000x64 .f32) (w1 : Vec Ideal S64x64 .f32) (b1 a1 : Vec Ideal S1x64 .f32)
    (w2 : Vec Ideal S64x64 .f32) (b2 a2 : Vec Ideal S1x64 .f32) :
    k0_pay5 x w1 b1 a1 w2 b2 a2 = layerV (layerV x w1 b1 a1) w2 b2 a2 := rfl

/-- The head payload at row `p` and column `q` of a block: the two-layer head of the block's rows. -/
theorem k0_pay5_apply (x : Vec Ideal S10000x64 .f32) (w1 : Vec Ideal S64x64 .f32) (b1 a1 : Vec Ideal S1x64 .f32)
    (w2 : Vec Ideal S64x64 .f32) (b2 a2 : Vec Ideal S1x64 .f32) (p : Fin 10000) (q : Fin 64) :
    k0_pay5 x w1 b1 a1 w2 b2 a2 (ix2 p q)
      = Cert.Spec.head (fun p j => x (ix2 p j)) (fun j q => w1 (ix2 j q)) (fun q => b1 (ix2 (0 : Fin 1) q)) (fun q => a1 (ix2 (0 : Fin 1) q))
          (fun j q => w2 (ix2 j q)) (fun q => b2 (ix2 (0 : Fin 1) q)) (fun q => a2 (ix2 (0 : Fin 1) q)) p q := by
  refine (congrFun (k0_pay5_eq x w1 b1 a1 w2 b2 a2) _).trans ?_
  refine (layerV_apply (layerV x w1 b1 a1) w2 b2 a2 p q).trans ?_
  unfold Cert.Spec.head Cert.Spec.linPrelu Cert.Spec.lin
  refine congrArg (fun s => Cert.Spec.prelu (a2 (ix2 (0 : Fin 1) q)) (s + b2 (ix2 (0 : Fin 1) q))) ?_
  refine Finset.sum_congr rfl fun j _ => ?_
  exact congrArg (· * w2 (ix2 j q)) (layerV_apply x w1 b1 a1 p j)

end Cert.KernelIdeal.Hand
end
-- ==== Proof.KI.Val0c.lean ====
/-
  Region 0's input blocks as entries of the arrays the region finds, and the head of a block as the head of the array.
    the feature block at point t      row r, column q is row 10000 t + r, column q of the [100000, 64] feature array
                                      (its window's block index is (t, 0));
    the weights, biases and slopes    their windows' block index is (0, 0) at every point and the block is the whole
                                      array, so each block entry is the array's entry at the same place;
    the head of a block               the head of a row depends on that row only, so the head payload of the seven
                                      blocks at point t, at row r and column q, is the head of the whole feature array
                                      at row 10000 t + r and column q.
  The block lemmas hold at every float instance; the head is read over the extended reals.
-/
import proofs.«128986_j27779848471455_1_alg».proof.Proof.KI.Reg0
import Idealize.ShloMosaic.Lib.ValueIdx
import Idealize.ShloMosaic.Lib.Pipeline.Value
import Idealize.ShloMosaic.Lib.ValueLayout
import Idealize.ShloMosaic.PureOps.Ideal.Laws
import proofs.«128986_j27779848471455_1_alg».proof.Proof.Spec
import proofs.«128986_j27779848471455_1_alg».proof.Proof.KI.Val0b

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

section

variable {F : FTy → Type} [FloatOps F]
variable (V : (c : Dev nD) → (b : Ref sig .tc) → Buf (Elt F) ((c : Thread nD τ).loc b))

/-! ## The input blocks as entries of the arrays -/

/-- Window 0's block index at point `t` is `(t, 0)`; the other six inputs' is `(0, 0)` at every point. -/
theorem index0_0 : ∀ t : Fin cfg0.N, win0_0.index t 0 = t.val ∧ win0_0.index t 1 = 0 := by decide +kernel
theorem index0_1 : ∀ t : Fin cfg0.N, win0_1.index t 0 = 0 ∧ win0_1.index t 1 = 0 := by decide +kernel
theorem index0_2 : ∀ t : Fin cfg0.N, win0_2.index t 0 = 0 ∧ win0_2.index t 1 = 0 := by decide +kernel
theorem index0_3 : ∀ t : Fin cfg0.N, win0_3.index t 0 = 0 ∧ win0_3.index t 1 = 0 := by decide +kernel
theorem index0_4 : ∀ t : Fin cfg0.N, win0_4.index t 0 = 0 ∧ win0_4.index t 1 = 0 := by decide +kernel
theorem index0_5 : ∀ t : Fin cfg0.N, win0_5.index t 0 = 0 ∧ win0_5.index t 1 = 0 := by decide +kernel
theorem index0_6 : ∀ t : Fin cfg0.N, win0_6.index t 0 = 0 ∧ win0_6.index t 1 = 0 := by decide +kernel

/-- Row `r`, column `q` of the feature block at point `t` is row `10000 t + r`, column `q` of the feature array. -/
theorem iblk0_0_apply (c : Dev nD) (t : Fin cfg0.N) (r : Fin 10000) (q : Fin 64) (k : Fin 100000) (hk : k.val = 10000 * t.val + r.val) :
    (iblk0 V c 0 t : Vec F S10000x64 .f32) (ix2 r q) = (V c main_arg0 : S100000x64.Idx → Elt F .f32) (ix2 k q) := by
  have hi := index0_0 t
  unfold iblk0
  rw [View.read_apply]
  show V c main_arg0 _ = V c main_arg0 _
  congr 1
  funext a
  apply Fin.ext
  match a with
  | ⟨0, _⟩ => show win0_0.index t 0 * 10000 + 1 * r.val = k.val; rw [hi.1, hk]; omega
  | ⟨1, _⟩ => show win0_0.index t 1 * 64 + 1 * q.val = q.val; rw [hi.2]; omega

/-- The first weight matrix's block is the whole array at every point. -/
theorem iblk0_1_apply (c : Dev nD) (t : Fin cfg0.N) (j : Fin 64) (q : Fin 64) :
    (iblk0 V c 1 t : Vec F S64x64 .f32) (ix2 j q) = (V c main_arg3 : S64x64.Idx → Elt F .f32) (ix2 j q) := by
  have hi := index0_1 t
  unfold iblk0
  rw [View.read_apply]
  show V c main_arg3 _ = V c main_arg3 _
  congr 1
  funext a
  apply Fin.ext
  match a with
  | ⟨0, _⟩ => show win0_1.index t 0 * 64 + 1 * j.val = j.val; rw [hi.1]; omega
  | ⟨1, _⟩ => show win0_1.index t 1 * 64 + 1 * q.val = q.val; rw [hi.2]; omega

/-- The first bias row's block is the whole array at every point. -/
theorem iblk0_2_apply (c : Dev nD) (t : Fin cfg0.N) (j : Fin 1) (q : Fin 64) :
    (iblk0 V c 2 t : Vec F S1x64 .f32) (ix2 j q) = (V c main_v0 : S1x64.Idx → Elt F .f32) (ix2 j q) := by
  have hi := index0_2 t
  unfold iblk0
  rw [View.read_apply]
  show V c main_v0 _ = V c main_v0 _
  congr 1
  funext a
  apply Fin.ext
  match a with
  | ⟨0, _⟩ => show win0_2.index t 0 * 1 + 1 * j.val = j.val; rw [hi.1]; omega
  | ⟨1, _⟩ => show win0_2.index t 1 * 64 + 1 * q.val = q.val; rw [hi.2]; omega

/-- The first slope row's block is the whole array at every point. -/
theorem iblk0_3_apply (c : Dev nD) (t : Fin cfg0.N) (j : Fin 1) (q : Fin 64) :
    (iblk0 V c 3 t : Vec F S1x64 .f32) (ix2 j q) = (V c main_v1 : S1x64.Idx → Elt F .f32) (ix2 j q) := by
  have hi := index0_3 t
  unfold iblk0
  rw [View.read_apply]
  show V c main_v1 _ = V c main_v1 _
  congr 1
  funext a
  apply Fin.ext
  match a with
  | ⟨0, _⟩ => show win0_3.index t 0 * 1 + 1 * j.val = j.val; rw [hi.1]; omega
  | ⟨1, _⟩ => show win0_3.index t 1 * 64 + 1 * q.val = q.val; rw [hi.2]; omega

/-- The second weight matrix's block is the whole array at every point. -/
theorem iblk0_4_apply (c : Dev nD) (t : Fin cfg0.N) (j : Fin 64) (q : Fin 64) :
    (iblk0 V c 4 t : Vec F S64x64 .f32) (ix2 j q) = (V c main_arg6 : S64x64.Idx → Elt F .f32) (ix2 j q) := by
  have hi := index0_4 t
  unfold iblk0
  rw [View.read_apply]
  show V c main_arg6 _ = V c main_arg6 _
  congr 1
  funext a
  apply Fin.ext
  match a with
  | ⟨0, _⟩ => show win0_4.index t 0 * 64 + 1 * j.val = j.val; rw [hi.1]; omega
  | ⟨1, _⟩ => show win0_4.index t 1 * 64 + 1 * q.val = q.val; rw [hi.2]; omega

/-- The second bias row's block is the whole array at every point. -/
theorem iblk0_5_apply (c : Dev nD) (t : Fin cfg0.N) (j : Fin 1) (q : Fin 64) :
    (iblk0 V c 5 t : Vec F S1x64 .f32) (ix2 j q) = (V c main_v2 : S1x64.Idx → Elt F .f32) (ix2 j q) := by
  have hi := index0_5 t
  unfold iblk0
  rw [View.read_apply]
  show V c main_v2 _ = V c main_v2 _
  congr 1
  funext a
  apply Fin.ext
  match a with
  | ⟨0, _⟩ => show win0_5.index t 0 * 1 + 1 * j.val = j.val; rw [hi.1]; omega
  | ⟨1, _⟩ => show win0_5.index t 1 * 64 + 1 * q.val = q.val; rw [hi.2]; omega

/-- The second slope row's block is the whole array at every point. -/
theorem iblk0_6_apply (c : Dev nD) (t : Fin cfg0.N) (j : Fin 1) (q : Fin 64) :
    (iblk0 V c 6 t : Vec F S1x64 .f32) (ix2 j q) = (V c main_v3 : S1x64.Idx → Elt F .f32) (ix2 j q) := by
  have hi := index0_6 t
  unfold iblk0
  rw [View.read_apply]
  show V c main_v3 _ = V c main_v3 _
  congr 1
  funext a
  apply Fin.ext
  match a with
  | ⟨0, _⟩ => show win0_6.index t 0 * 1 + 1 * j.val = j.val; rw [hi.1]; omega
  | ⟨1, _⟩ => show win0_6.index t 1 * 64 + 1 * q.val = q.val; rw [hi.2]; omega

end

/-! ## The head of the whole feature array, and of a block -/

section
variable (V : (c : Dev nD) → (b : Ref sig .tc) → Buf (Elt Ideal) ((c : Thread nD τ).loc b))

/-- The two-layer head of the feature array as the region finds it, over the weights, biases and slopes as it finds them. -/
abbrev H0 (c : Dev nD) : Fin 100000 → Fin 64 → EReal :=
  Cert.Spec.head (fun p j => (V c main_arg0 : S100000x64.Idx → EReal) (ix2 p j)) (fun j q => (V c main_arg3 : S64x64.Idx → EReal) (ix2 j q))
    (fun q => (V c main_v0 : S1x64.Idx → EReal) (ix2 (0 : Fin 1) q)) (fun q => (V c main_v1 : S1x64.Idx → EReal) (ix2 (0 : Fin 1) q))
    (fun j q => (V c main_arg6 : S64x64.Idx → EReal) (ix2 j q))
    (fun q => (V c main_v2 : S1x64.Idx → EReal) (ix2 (0 : Fin 1) q)) (fun q => (V c main_v3 : S1x64.Idx → EReal) (ix2 (0 : Fin 1) q))

/-- The head of a row depends on that row only: two feature arrays that agree on a row have the same head there. -/
theorem head_row_congr {n n' d : ℕ} (x : Fin n → Fin d → EReal) (x' : Fin n' → Fin d → EReal)
    (w1 : Fin d → Fin d → EReal) (b1 a1 : Fin d → EReal) (w2 : Fin d → Fin d → EReal) (b2 a2 : Fin d → EReal)
    (p : Fin n) (p' : Fin n') (h : ∀ j, x p j = x' p' j) (q : Fin d) :
    Cert.Spec.head x w1 b1 a1 w2 b2 a2 p q = Cert.Spec.head x' w1 b1 a1 w2 b2 a2 p' q := by
  unfold Cert.Spec.head Cert.Spec.linPrelu Cert.Spec.lin
  simp only [h]

/-- The head payload of the seven input blocks at point `t`, at row `r` and column `q`, is the head of the feature
    array at row `10000 t + r`. -/
theorem head_block (c : Dev nD) (t : Fin cfg0.N) (r : Fin 10000) (q : Fin 64) (k : Fin 100000) (hk : k.val = 10000 * t.val + r.val) :
    (k0_pay5 (iblk0 V c 0 t) (iblk0 V c 1 t) (iblk0 V c 2 t) (iblk0 V c 3 t) (iblk0 V c 4 t) (iblk0 V c 5 t) (iblk0 V c 6 t)) (ix2 r q) = H0 V c k q := by
  refine (k0_pay5_apply (iblk0 V c 0 t) (iblk0 V c 1 t) (iblk0 V c 2 t) (iblk0 V c 3 t) (iblk0 V c 4 t) (iblk0 V c 5 t) (iblk0 V c 6 t) r q).trans ?_
  have e1 : (fun (j : Fin 64) (q : Fin 64) => (iblk0 V c 1 t : Vec Ideal S64x64 .f32) (ix2 j q)) = fun j q => (V c main_arg3 : S64x64.Idx → EReal) (ix2 j q) :=
    funext fun j => funext fun q => iblk0_1_apply V c t j q
  have e2 : (fun (q : Fin 64) => (iblk0 V c 2 t : Vec Ideal S1x64 .f32) (ix2 (0 : Fin 1) q)) = fun q => (V c main_v0 : S1x64.Idx → EReal) (ix2 (0 : Fin 1) q) :=
    funext fun q => iblk0_2_apply V c t 0 q
  have e3 : (fun (q : Fin 64) => (iblk0 V c 3 t : Vec Ideal S1x64 .f32) (ix2 (0 : Fin 1) q)) = fun q => (V c main_v1 : S1x64.Idx → EReal) (ix2 (0 : Fin 1) q) :=
    funext fun q => iblk0_3_apply V c t 0 q
  have e4 : (fun (j : Fin 64) (q : Fin 64) => (iblk0 V c 4 t : Vec Ideal S64x64 .f32) (ix2 j q)) = fun j q => (V c main_arg6 : S64x64.Idx → EReal) (ix2 j q) :=
    funext fun j => funext fun q => iblk0_4_apply V c t j q
  have e5 : (fun (q : Fin 64) => (iblk0 V c 5 t : Vec Ideal S1x64 .f32) (ix2 (0 : Fin 1) q)) = fun q => (V c main_v2 : S1x64.Idx → EReal) (ix2 (0 : Fin 1) q) :=
    funext fun q => iblk0_5_apply V c t 0 q
  have e6 : (fun (q : Fin 64) => (iblk0 V c 6 t : Vec Ideal S1x64 .f32) (ix2 (0 : Fin 1) q)) = fun q => (V c main_v3 : S1x64.Idx → EReal) (ix2 (0 : Fin 1) q) :=
    funext fun q => iblk0_6_apply V c t 0 q
  rw [e1, e2, e3, e4, e5, e6]
  exact head_row_congr _ _ _ _ _ _ _ _ r k (fun j => iblk0_0_apply V c t r j k hk) q

end

end Cert.KernelIdeal.Hand
end
-- ==== Proof.KI.Val0d.lean ====
/-
  Region 0 along the grid, over the extended reals. With H the two-layer head of the whole feature array:
    what a case leaves, at an index   the block output at (r, q) is H at row 10000 t + r; an accumulator at column q is
                                      what it held plus the sum over the block's rows of H (of H · H for the second),
                                      the first point adding onto the zero row; at the last point the statistics
                                      windows hold what the accumulators then hold;
    the invariant                     after point n the block output holds H on rows 10000 n … 10000 n + 9999, and the
                                      accumulators hold, at column q, the sum over the row blocks 0 … n of the block's
                                      column sum (of squares); after point 9 the statistics windows hold the same;
    by induction on the point         point 0 is the first case, point 9 the last, the others the middle case; each step
                                      adds one block's sum to the running total: sum over range (n + 2) = sum over
                                      range (n + 1) + the term at n + 1.
-/
import proofs.«128986_j27779848471455_1_alg».proof.Proof.KI.Reg0
import Idealize.ShloMosaic.Lib.ValueIdx
import Idealize.ShloMosaic.Lib.Pipeline.Value
import Idealize.ShloMosaic.Lib.ValueLayout
import Idealize.ShloMosaic.PureOps.Ideal.Laws
import proofs.«128986_j27779848471455_1_alg».proof.Proof.Spec
import proofs.«128986_j27779848471455_1_alg».proof.Proof.KI.Val0a
import proofs.«128986_j27779848471455_1_alg».proof.Proof.KI.Val0c

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

section
variable (V : (c : Dev nD) → (b : Ref sig .tc) → Buf (Elt Ideal) ((c : Thread nD τ).loc b))

/-! ## Block sums -/

/-- The head of the feature array at a row number, as a function of the natural number: zero past the last row. -/
def Hn (c : Dev nD) (k : ℕ) (q : Fin 64) : EReal := if h : k < 100000 then H0 V c ⟨k, h⟩ q else 0

theorem Hn_eq (c : Dev nD) (k : Fin 100000) (q : Fin 64) : Hn V c k.val q = H0 V c k q := dif_pos k.isLt

/-- Column `q`'s sum of the head over row block `i` (rows `10000 i … 10000 i + 9999`). -/
def bs (c : Dev nD) (i : ℕ) (q : Fin 64) : EReal := ∑ r : Fin 10000, Hn V c (10000 * i + r.val) q
/-- Column `q`'s sum of squares of the head over row block `i`. -/
def bq (c : Dev nD) (i : ℕ) (q : Fin 64) : EReal := ∑ r : Fin 10000, Hn V c (10000 * i + r.val) q * Hn V c (10000 * i + r.val) q

/-- An entry of the head payload of point `t`'s blocks, as the head at a row number. -/
theorem head_block_n (c : Dev nD) (t : Fin cfg0.N) (r : Fin 10000) (q : Fin 64) :
    (k0_pay5 (iblk0 V c 0 t) (iblk0 V c 1 t) (iblk0 V c 2 t) (iblk0 V c 3 t) (iblk0 V c 4 t) (iblk0 V c 5 t) (iblk0 V c 6 t)) (ix2 r q) = Hn V c (10000 * t.val + r.val) q := by
  have hN : t.val < 10 := lt_of_lt_of_eq t.isLt N_0
  have hr : r.val < 10000 := r.isLt
  have hk : 10000 * t.val + r.val < 100000 := by omega
  exact (head_block V c t r q ⟨10000 * t.val + r.val, hk⟩ rfl).trans (Hn_eq V c ⟨10000 * t.val + r.val, hk⟩ q).symm

theorem block_colsum (c : Dev nD) (t : Fin cfg0.N) (q : Fin 64) :
    ∑ p : Fin 10000, (k0_pay5 (iblk0 V c 0 t) (iblk0 V c 1 t) (iblk0 V c 2 t) (iblk0 V c 3 t) (iblk0 V c 4 t) (iblk0 V c 5 t) (iblk0 V c 6 t)) (ix2 p q) = bs V c t.val q :=
  Finset.sum_congr rfl fun r _ => head_block_n V c t r q

theorem block_colsumsq (c : Dev nD) (t : Fin cfg0.N) (q : Fin 64) :
    ∑ p : Fin 10000, (k0_pay5 (iblk0 V c 0 t) (iblk0 V c 1 t) (iblk0 V c 2 t) (iblk0 V c 3 t) (iblk0 V c 4 t) (iblk0 V c 5 t) (iblk0 V c 6 t)) (ix2 p q) * (k0_pay5 (iblk0 V c 0 t) (iblk0 V c 1 t) (iblk0 V c 2 t) (iblk0 V c 3 t) (iblk0 V c 4 t) (iblk0 V c 5 t) (iblk0 V c 6 t)) (ix2 p q) = bq V c t.val q :=
  Finset.sum_congr rfl fun r _ => congrArg₂ (· * ·) (head_block_n V c t r q) (head_block_n V c t r q)

/-! ## What each case leaves, at an index -/

theorem tupleA_7 (c : Dev nD) (t : Fin cfg0.N) (hc0 : cond0_0 (grid0.coords t)) (hc1 : ¬cond0_1 (grid0.coords t)) (r : Fin 10000) (q : Fin 64) (k : Fin 100000) (hk : k.val = 10000 * t.val + r.val) :
    (tuple0_A V c t hc0 hc1).1 (ix2 r q) = H0 V c k q := by
  unfold tuple0_A; dsimp only
  rw [out0_A_7_eq V c t hc0 hc1]; exact head_block V c t r q k hk
theorem tupleA_s0 (c : Dev nD) (t : Fin cfg0.N) (hc0 : cond0_0 (grid0.coords t)) (hc1 : ¬cond0_1 (grid0.coords t)) (q : Fin 64) :
    (tuple0_A V c t hc0 hc1).2.2.2.1 (ix2 (0 : Fin 1) q) = bs V c t.val q := by
  unfold tuple0_A; dsimp only
  rw [sout0_A_0_eq V c t hc0 hc1]
  refine (k0_pay1_apply _ _ q).trans ?_
  rw [k0_pay3_apply q, zero_add]; exact block_colsum V c t q
theorem tupleA_s1 (c : Dev nD) (t : Fin cfg0.N) (hc0 : cond0_0 (grid0.coords t)) (hc1 : ¬cond0_1 (grid0.coords t)) (q : Fin 64) :
    (tuple0_A V c t hc0 hc1).2.2.2.2 (ix2 (0 : Fin 1) q) = bq V c t.val q := by
  unfold tuple0_A; dsimp only
  rw [sout0_A_1_eq V c t hc0 hc1]
  refine (k0_pay2_apply _ _ q).trans ?_
  rw [k0_pay4_apply q, zero_add]; exact block_colsumsq V c t q

theorem tupleB_7 (c : Dev nD) (t : Fin cfg0.N) (hc0 : ¬cond0_0 (grid0.coords t)) (hc1 : ¬cond0_1 (grid0.coords t)) (xs0 xs1 : Vec Ideal S1x64 .f32) (r : Fin 10000) (q : Fin 64) (k : Fin 100000) (hk : k.val = 10000 * t.val + r.val) :
    (tuple0_B V c t hc0 hc1 xs0 xs1).1 (ix2 r q) = H0 V c k q := by
  unfold tuple0_B; dsimp only
  rw [out0_B_7_eq V c t hc0 hc1 xs0 xs1]; exact head_block V c t r q k hk
theorem tupleB_s0 (c : Dev nD) (t : Fin cfg0.N) (hc0 : ¬cond0_0 (grid0.coords t)) (hc1 : ¬cond0_1 (grid0.coords t)) (xs0 xs1 : Vec Ideal S1x64 .f32) (q : Fin 64) :
    (tuple0_B V c t hc0 hc1 xs0 xs1).2.2.2.1 (ix2 (0 : Fin 1) q) = xs0 (ix2 (0 : Fin 1) q) + bs V c t.val q := by
  unfold tuple0_B; dsimp only
  rw [sout0_B_0_eq V c t hc0 hc1 xs0 xs1]
  exact (k0_pay1_apply _ xs0 q).trans (congrArg (xs0 (ix2 (0 : Fin 1) q) + ·) (block_colsum V c t q))
theorem tupleB_s1 (c : Dev nD) (t : Fin cfg0.N) (hc0 : ¬cond0_0 (grid0.coords t)) (hc1 : ¬cond0_1 (grid0.coords t)) (xs0 xs1 : Vec Ideal S1x64 .f32) (q : Fin 64) :
    (tuple0_B V c t hc0 hc1 xs0 xs1).2.2.2.2 (ix2 (0 : Fin 1) q) = xs1 (ix2 (0 : Fin 1) q) + bq V c t.val q := by
  unfold tuple0_B; dsimp only
  rw [sout0_B_1_eq V c t hc0 hc1 xs0 xs1]
  exact (k0_pay2_apply _ xs1 q).trans (congrArg (xs1 (ix2 (0 : Fin 1) q) + ·) (block_colsumsq V c t q))

theorem tupleC_7 (c : Dev nD) (t : Fin cfg0.N) (hc0 : ¬cond0_0 (grid0.coords t)) (hc1 : cond0_1 (grid0.coords t)) (xs0 xs1 : Vec Ideal S1x64 .f32) (r : Fin 10000) (q : Fin 64) (k : Fin 100000) (hk : k.val = 10000 * t.val + r.val) :
    (tuple0_C V c t hc0 hc1 xs0 xs1).1 (ix2 r q) = H0 V c k q := by
  unfold tuple0_C; dsimp only
  rw [out0_C_7_eq V c t hc0 hc1 xs0 xs1]; exact head_block V c t r q k hk
theorem tupleC_s0 (c : Dev nD) (t : Fin cfg0.N) (hc0 : ¬cond0_0 (grid0.coords t)) (hc1 : cond0_1 (grid0.coords t)) (xs0 xs1 : Vec Ideal S1x64 .f32) (q : Fin 64) :
    (tuple0_C V c t hc0 hc1 xs0 xs1).2.2.2.1 (ix2 (0 : Fin 1) q) = xs0 (ix2 (0 : Fin 1) q) + bs V c t.val q := by
  unfold tuple0_C; dsimp only
  rw [sout0_C_0_eq V c t hc0 hc1 xs0 xs1]
  exact (k0_pay1_apply _ xs0 q).trans (congrArg (xs0 (ix2 (0 : Fin 1) q) + ·) (block_colsum V c t q))
theorem tupleC_s1 (c : Dev nD) (t : Fin cfg0.N) (hc0 : ¬cond0_0 (grid0.coords t)) (hc1 : cond0_1 (grid0.coords t)) (xs0 xs1 : Vec Ideal S1x64 .f32) (q : Fin 64) :
    (tuple0_C V c t hc0 hc1 xs0 xs1).2.2.2.2 (ix2 (0 : Fin 1) q) = xs1 (ix2 (0 : Fin 1) q) + bq V c t.val q := by
  unfold tuple0_C; dsimp only
  rw [sout0_C_1_eq V c t hc0 hc1 xs0 xs1]
  exact (k0_pay2_apply _ xs1 q).trans (congrArg (xs1 (ix2 (0 : Fin 1) q) + ·) (block_colsumsq V c t q))
theorem tupleC_8 (c : Dev nD) (t : Fin cfg0.N) (hc0 : ¬cond0_0 (grid0.coords t)) (hc1 : cond0_1 (grid0.coords t)) (xs0 xs1 : Vec Ideal S1x64 .f32) (q : Fin 64) :
    (tuple0_C V c t hc0 hc1 xs0 xs1).2.1 (ix2 (0 : Fin 1) q) = xs0 (ix2 (0 : Fin 1) q) + bs V c t.val q := by
  unfold tuple0_C; dsimp only
  rw [out0_C_8_eq V c t hc0 hc1 xs0 xs1]
  exact (k0_pay1_apply _ xs0 q).trans (congrArg (xs0 (ix2 (0 : Fin 1) q) + ·) (block_colsum V c t q))
theorem tupleC_9 (c : Dev nD) (t : Fin cfg0.N) (hc0 : ¬cond0_0 (grid0.coords t)) (hc1 : cond0_1 (grid0.coords t)) (xs0 xs1 : Vec Ideal S1x64 .f32) (q : Fin 64) :
    (tuple0_C V c t hc0 hc1 xs0 xs1).2.2.1 (ix2 (0 : Fin 1) q) = xs1 (ix2 (0 : Fin 1) q) + bq V c t.val q := by
  unfold tuple0_C; dsimp only
  rw [out0_C_9_eq V c t hc0 hc1 xs0 xs1]
  exact (k0_pay2_apply _ xs1 q).trans (congrArg (xs1 (ix2 (0 : Fin 1) q) + ·) (block_colsumsq V c t q))

/-! ## The invariant along the grid -/

/-- After point `n`: the block output holds the head of rows `10000 n …`; the two accumulators hold the column sums,
    and sums of squares, of the head over the row blocks `0 … n`; after the last point the two statistics windows hold
    what the accumulators hold. -/
def Inv (c : Dev nD) (n : ℕ) (o : Vec Ideal S10000x64 .f32 × Vec Ideal S1x64 .f32 × Vec Ideal S1x64 .f32 × Vec Ideal S1x64 .f32 × Vec Ideal S1x64 .f32) : Prop :=
  (∀ (r : Fin 10000) (q : Fin 64) (k : Fin 100000), k.val = 10000 * n + r.val → o.1 (ix2 r q) = H0 V c k q)
  ∧ (∀ q : Fin 64, o.2.2.2.1 (ix2 (0 : Fin 1) q) = ∑ i ∈ Finset.range (n + 1), bs V c i q)
  ∧ (∀ q : Fin 64, o.2.2.2.2 (ix2 (0 : Fin 1) q) = ∑ i ∈ Finset.range (n + 1), bq V c i q)
  ∧ (n = 9 → (∀ q : Fin 64, o.2.1 (ix2 (0 : Fin 1) q) = ∑ i ∈ Finset.range (n + 1), bs V c i q)
              ∧ (∀ q : Fin 64, o.2.2.1 (ix2 (0 : Fin 1) q) = ∑ i ∈ Finset.range (n + 1), bq V c i q))

/-- The first point establishes the invariant. -/
theorem inv_A (c : Dev nD) (t : Fin cfg0.N) (hc0 : cond0_0 (grid0.coords t)) (hc1 : ¬cond0_1 (grid0.coords t)) (ht : t.val = 0) : Inv V c 0 (tuple0_A V c t hc0 hc1) := by
  refine ⟨fun r q k hk => tupleA_7 V c t hc0 hc1 r q k (by rw [ht]; exact hk), fun q => ?_, fun q => ?_, fun h => absurd h (by decide)⟩
  · rw [Finset.sum_range_one, ← ht]; exact tupleA_s0 V c t hc0 hc1 q
  · rw [Finset.sum_range_one, ← ht]; exact tupleA_s1 V c t hc0 hc1 q

/-- A middle point carries the invariant from position `n` to position `n + 1`. -/
theorem inv_B (c : Dev nD) (t : Fin cfg0.N) (hc0 : ¬cond0_0 (grid0.coords t)) (hc1 : ¬cond0_1 (grid0.coords t)) (xs0 xs1 : Vec Ideal S1x64 .f32) (n : ℕ) (ht : t.val = n + 1) (hn9 : n + 1 ≠ 9)
    (h0 : ∀ q : Fin 64, xs0 (ix2 (0 : Fin 1) q) = ∑ i ∈ Finset.range (n + 1), bs V c i q)
    (h1 : ∀ q : Fin 64, xs1 (ix2 (0 : Fin 1) q) = ∑ i ∈ Finset.range (n + 1), bq V c i q) :
    Inv V c (n + 1) (tuple0_B V c t hc0 hc1 xs0 xs1) := by
  refine ⟨fun r q k hk => tupleB_7 V c t hc0 hc1 xs0 xs1 r q k (by rw [ht]; exact hk), fun q => ?_, fun q => ?_, fun h => absurd h hn9⟩
  · rw [Finset.sum_range_succ _ (n + 1), ← h0 q, ← ht]; exact tupleB_s0 V c t hc0 hc1 xs0 xs1 q
  · rw [Finset.sum_range_succ _ (n + 1), ← h1 q, ← ht]; exact tupleB_s1 V c t hc0 hc1 xs0 xs1 q

/-- The last point carries the invariant on and copies the accumulators out. -/
theorem inv_C (c : Dev nD) (t : Fin cfg0.N) (hc0 : ¬cond0_0 (grid0.coords t)) (hc1 : cond0_1 (grid0.coords t)) (xs0 xs1 : Vec Ideal S1x64 .f32) (n : ℕ) (ht : t.val = n + 1)
    (h0 : ∀ q : Fin 64, xs0 (ix2 (0 : Fin 1) q) = ∑ i ∈ Finset.range (n + 1), bs V c i q)
    (h1 : ∀ q : Fin 64, xs1 (ix2 (0 : Fin 1) q) = ∑ i ∈ Finset.range (n + 1), bq V c i q) :
    Inv V c (n + 1) (tuple0_C V c t hc0 hc1 xs0 xs1) := by
  refine ⟨fun r q k hk => tupleC_7 V c t hc0 hc1 xs0 xs1 r q k (by rw [ht]; exact hk), fun q => ?_, fun q => ?_, fun _ => ⟨fun q => ?_, fun q => ?_⟩⟩
  · rw [Finset.sum_range_succ _ (n + 1), ← h0 q, ← ht]; exact tupleC_s0 V c t hc0 hc1 xs0 xs1 q
  · rw [Finset.sum_range_succ _ (n + 1), ← h1 q, ← ht]; exact tupleC_s1 V c t hc0 hc1 xs0 xs1 q
  · rw [Finset.sum_range_succ _ (n + 1), ← h0 q, ← ht]; exact tupleC_8 V c t hc0 hc1 xs0 xs1 q
  · rw [Finset.sum_range_succ _ (n + 1), ← h1 q, ← ht]; exact tupleC_9 V c t hc0 hc1 xs0 xs1 q

/-- The invariant holds after every point, by induction along the grid. -/
theorem inv0 (c : Dev nD) : ∀ (n : ℕ) (hn : n < cfg0.N), Inv V c n (outsAt0 V c n hn)
  | 0, hn => by
    have e := outsAt0_A V c ⟨0, hn⟩ (Nat.zero_mod _) (by dsimp only; decide)
    rw [show outsAt0 V c 0 hn = _ from e]
    exact inv_A V c ⟨0, hn⟩ _ _ rfl
  | n + 1, hn => by
    have ih := inv0 c n (Nat.lt_of_succ_lt hn)
    have hN : n + 1 < 10 := lt_of_lt_of_eq hn N_0
    have h0 : ¬(⟨n + 1, hn⟩ : Fin cfg0.N).val % 10 = 0 := by dsimp only; omega
    by_cases h1 : (⟨n + 1, hn⟩ : Fin cfg0.N).val % 10 = 9
    · have e := outsAt0_C V c ⟨n + 1, hn⟩ h0 h1
      rw [show outsAt0 V c (n + 1) hn = _ from e]
      exact inv_C V c ⟨n + 1, hn⟩ _ _ _ _ n rfl ih.2.1 ih.2.2.1
    · have e := outsAt0_B V c ⟨n + 1, hn⟩ h0 h1
      rw [show outsAt0 V c (n + 1) hn = _ from e]
      exact inv_B V c ⟨n + 1, hn⟩ _ _ _ _ n rfl (by dsimp only at h1; omega) ih.2.1 ih.2.2.1

end

end Cert.KernelIdeal.Hand
end
-- ==== Proof.KI.Val0e.lean ====
/-
  Region 0's three output arrays after the region, over the extended reals. With H the two-layer head of the whole
  feature array:
    regrouping        the ten block sums of a column add up to its sum over all 100000 rows: a sum over the first ten
                      naturals is a sum over ten blocks, and a sum over 10 · 10000 rows is the sum over the ten blocks of
                      the sums over each block's 10000 consecutive rows (only commutativity and associativity of +);
    the block output  every point writes back its block, which holds H on the block's rows (the invariant along the
                      grid), and row p lies in the block of point p / 10000: the array ends holding H;
    the statistics    only the last point writes them back, its block is the whole [1, 64] array, and it holds the
                      running totals after the last point, which are the column sums (of squares) of H: the arrays end
                      holding these.
-/
import proofs.«128986_j27779848471455_1_alg».proof.Proof.KI.Reg0
import Idealize.ShloMosaic.Lib.ValueIdx
import Idealize.ShloMosaic.Lib.Pipeline.Value
import Idealize.ShloMosaic.Lib.ValueLayout
import Idealize.ShloMosaic.PureOps.Ideal.Laws
import proofs.«128986_j27779848471455_1_alg».proof.Proof.Spec
import proofs.«128986_j27779848471455_1_alg».proof.Proof.KI.Val0d
import proofs.«128986_j27779848471455_1_alg».proof.Proof.LibErealLaws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

section
variable (V : (c : Dev nD) → (b : Ref sig .tc) → Buf (Elt Ideal) ((c : Thread nD τ).loc b))

/-! ## The running totals after the last point are the sums over all rows -/

theorem H0_congr (c : Dev nD) (k k' : Fin 100000) (q q' : Fin 64) (hk : k.val = k'.val) (hq : q.val = q'.val) :
    H0 V c k q = H0 V c k' q' := by
  obtain rfl := Fin.ext hk; obtain rfl := Fin.ext hq; rfl

/-- The ten block sums of a column add up to the column's sum over all 100000 rows. -/
theorem range_bs (c : Dev nD) (q : Fin 64) : ∑ i ∈ Finset.range (9 + 1), bs V c i q = Cert.Spec.colSum (H0 V c) q := by
  unfold Cert.Spec.colSum
  rw [Cert.LibErealLaws.sum_range_eq_sum_fin 10 (fun i => bs V c i q)]
  refine ((Cert.LibErealLaws.sum_fin_blocks 10 10000 (fun p : Fin (10 * 10000) => H0 V c p q)).trans ?_).symm
  refine Finset.sum_congr rfl fun a _ => ?_
  unfold bs
  refine Finset.sum_congr rfl fun b _ => ?_
  have ha : a.val < 10 := a.isLt
  have hb : b.val < 10000 := b.isLt
  have hk : 10000 * a.val + b.val < 100000 := by omega
  refine Eq.trans ?_ (Hn_eq V c ⟨10000 * a.val + b.val, hk⟩ q).symm
  exact H0_congr V c _ _ q q (by show a.val * 10000 + b.val = 10000 * a.val + b.val; omega) rfl

/-- The ten block sums of squares of a column add up to the column's sum of squares over all 100000 rows. -/
theorem range_bq (c : Dev nD) (q : Fin 64) : ∑ i ∈ Finset.range (9 + 1), bq V c i q = Cert.Spec.colSumSq (H0 V c) q := by
  unfold Cert.Spec.colSumSq
  rw [Cert.LibErealLaws.sum_range_eq_sum_fin 10 (fun i => bq V c i q)]
  refine ((Cert.LibErealLaws.sum_fin_blocks 10 10000 (fun p : Fin (10 * 10000) => H0 V c p q * H0 V c p q)).trans ?_).symm
  refine Finset.sum_congr rfl fun a _ => ?_
  unfold bq
  refine Finset.sum_congr rfl fun b _ => ?_
  have ha : a.val < 10 := a.isLt
  have hb : b.val < 10000 := b.isLt
  have hk : 10000 * a.val + b.val < 100000 := by omega
  have e : H0 V c ⟨a.val * 10000 + b.val, Cert.LibErealLaws.block_index_lt a b⟩ q = Hn V c (10000 * a.val + b.val) q :=
    Eq.trans (H0_congr V c _ ⟨10000 * a.val + b.val, hk⟩ q q (by show a.val * 10000 + b.val = 10000 * a.val + b.val; omega) rfl)
      (Hn_eq V c ⟨10000 * a.val + b.val, hk⟩ q).symm
  exact congrArg₂ (· * ·) e e

/-! ## The three output arrays after the region -/

theorem index0_7 : ∀ t : Fin cfg0.N, win0_7.index t 0 = t.val ∧ win0_7.index t 1 = 0 := by decide +kernel
theorem index0_8 : ∀ t : Fin cfg0.N, win0_8.index t 0 = 0 ∧ win0_8.index t 1 = 0 := by decide +kernel
theorem index0_9 : ∀ t : Fin cfg0.N, win0_9.index t 0 = 0 ∧ win0_9.index t 1 = 0 := by decide +kernel

/-- The head of the feature array, as contents of the block output's array. -/
def G7 (c : Dev nD) : Buf (Elt Ideal) ((c : Thread nD τ).loc main_v4_0) :=
  fun i : S100000x64.Idx => H0 V c (i 0) (i 1)
/-- The head's column sums, as contents of the first statistics array. -/
def G8 (c : Dev nD) : Buf (Elt Ideal) ((c : Thread nD τ).loc main_v4_1) :=
  fun i : S1x64.Idx => Cert.Spec.colSum (H0 V c) (i 1)
/-- The head's column sums of squares, as contents of the second statistics array. -/
def G9 (c : Dev nD) : Buf (Elt Ideal) ((c : Thread nD τ).loc main_v4_2) :=
  fun i : S1x64.Idx => Cert.Spec.colSumSq (H0 V c) (i 1)

/-- Every point writes back, into the block output's array, its block of the head. -/
theorem flushed0_7 (c : Dev nD) (t : Fin cfg0.N) (hf : (cfg0.win 7).flush t = true) :
    (dat0 V c).flushed 7 t = ((cfg0.win 7).blk t).view.read (Elt Ideal) (G7 V c) := by
  show (cfg0.win 7).cut (grid0.coords t) ((dat0 V c).after 7 t) = _
  rw [after0_7]
  funext y
  rw [View.read_apply]
  have hi := index0_7 t
  have hy : (cfg0.win 7).xinj (grid0.coords t) y = ix2 (y 0) (y 1) :=
    funext fun a => match a with
      | ⟨0, _⟩ => rfl
      | ⟨1, _⟩ => rfl
  refine (congrArg (outsAt0 V c t.val t.isLt).1 hy).trans ?_
  refine ((inv0 V c t.val t.isLt).1 (y 0) (y 1) ((((cfg0.win 7).blk t).view.emb y) 0) ?_).trans ?_
  · show win0_7.index t 0 * 10000 + 1 * (y 0).val = 10000 * t.val + (y 0).val
    rw [hi.1]; omega
  · refine H0_congr V c _ _ _ _ rfl ?_
    show (y 1).val = win0_7.index t 1 * 64 + 1 * (y 1).val
    rw [hi.2]; omega

end

section
variable (V : (c : Dev nD) → (b : Ref sig .tc) → Buf (Elt Ideal) ((c : Thread nD τ).loc b))

theorem colSum_congr (c : Dev nD) (q q' : Fin 64) (hq : q.val = q'.val) :
    Cert.Spec.colSum (H0 V c) q = Cert.Spec.colSum (H0 V c) q' := by
  obtain rfl := Fin.ext hq; rfl
theorem colSumSq_congr (c : Dev nD) (q q' : Fin 64) (hq : q.val = q'.val) :
    Cert.Spec.colSumSq (H0 V c) q = Cert.Spec.colSumSq (H0 V c) q' := by
  obtain rfl := Fin.ext hq; rfl

end

section
variable (V : (c : Dev nD) → (b : Ref sig .tc) → Buf (Elt Ideal) ((c : Thread nD τ).loc b))

/-- The last point, the only one that writes the first statistics array back, writes the head's column sums. -/
theorem flushed0_8 (c : Dev nD) (t : Fin cfg0.N) (hf : (cfg0.win 8).flush t = true) :
    (dat0 V c).flushed 8 t = ((cfg0.win 8).blk t).view.read (Elt Ideal) (G8 V c) := by
  have hN : t.val < 10 := lt_of_lt_of_eq t.isLt N_0
  have h9 : t.val = 9 := by have := (flush0_8 t).mp hf; omega
  show (cfg0.win 8).cut (grid0.coords t) ((dat0 V c).after 8 t) = _
  rw [after0_8]
  funext y
  rw [View.read_apply]
  refine Eq.trans ?_ (cast_eq _ _).symm
  have hi := index0_8 t
  have hy0 : (y 0).val < 1 := (y 0).isLt
  have hy : (cfg0.win 8).xinj (grid0.coords t) y = ix2 (0 : Fin 1) (y 1) :=
    funext fun a => match a with
      | ⟨0, _⟩ => Fin.ext (by show (y 0).val = 0; omega)
      | ⟨1, _⟩ => rfl
  refine (congrArg (outsAt0 V c t.val t.isLt).2.1 hy).trans ?_
  refine (((inv0 V c t.val t.isLt).2.2.2 h9).1 (y 1)).trans ?_
  refine (congrArg (fun n => ∑ i ∈ Finset.range (n + 1), bs V c i (y 1)) h9).trans ?_
  refine (range_bs V c (y 1)).trans ?_
  unfold G8
  refine colSum_congr V c _ _ ?_
  show (y 1).val = win0_8.index t 1 * 64 + 1 * (y 1).val
  rw [hi.2]; omega

/-- The last point, the only one that writes the second statistics array back, writes the head's column sums of squares. -/
theorem flushed0_9 (c : Dev nD) (t : Fin cfg0.N) (hf : (cfg0.win 9).flush t = true) :
    (dat0 V c).flushed 9 t = ((cfg0.win 9).blk t).view.read (Elt Ideal) (G9 V c) := by
  have hN : t.val < 10 := lt_of_lt_of_eq t.isLt N_0
  have h9 : t.val = 9 := by have := (flush0_9 t).mp hf; omega
  show (cfg0.win 9).cut (grid0.coords t) ((dat0 V c).after 9 t) = _
  rw [after0_9]
  funext y
  rw [View.read_apply]
  refine Eq.trans ?_ (cast_eq _ _).symm
  have hi := index0_9 t
  have hy0 : (y 0).val < 1 := (y 0).isLt
  have hy : (cfg0.win 9).xinj (grid0.coords t) y = ix2 (0 : Fin 1) (y 1) :=
    funext fun a => match a with
      | ⟨0, _⟩ => Fin.ext (by show (y 0).val = 0; omega)
      | ⟨1, _⟩ => rfl
  refine (congrArg (outsAt0 V c t.val t.isLt).2.2.1 hy).trans ?_
  refine (((inv0 V c t.val t.isLt).2.2.2 h9).2 (y 1)).trans ?_
  refine (congrArg (fun n => ∑ i ∈ Finset.range (n + 1), bq V c i (y 1)) h9).trans ?_
  refine (range_bq V c (y 1)).trans ?_
  unfold G9
  refine colSumSq_congr V c _ _ ?_
  show (y 1).val = win0_9.index t 1 * 64 + 1 * (y 1).val
  rw [hi.2]; omega

/-- Row `p` of the block output's array lies in the block of point `p / 10000`, and every point writes back. -/
theorem acover0_7 (c : Dev nD) (i : ((cfg0.win 7).arr.view.loc (c.tc : Thread nD τ)).2.ty.Idx) :
    ∃ t : Fin cfg0.N, (cfg0.win 7).flush t = true ∧ i ∈ ((cfg0.win 7).blk t).view.set := by
  have h0 : (i 0 : ℕ) < 100000 := (i 0).isLt
  have h1 : (i 1 : ℕ) < 64 := (i 1).isLt
  obtain ⟨t, ht⟩ : ∃ t : Fin cfg0.N, t.val = (i 0 : ℕ) / 10000 :=
    ⟨⟨(i 0 : ℕ) / 10000, by rw [show cfg0.N = 10 from N_0]; omega⟩, rfl⟩
  refine ⟨t, flush0_7 t, ?_⟩
  show i ∈ ((View.whole main_v4_0).slice (win0_7.rect t)).set
  rw [View.set_slice_whole, Rect.mem_set_unit]
  intro a
  have hi := index0_7 t
  match a with
  | ⟨0, _⟩ => show win0_7.index t 0 * 10000 ≤ (i 0 : ℕ) ∧ (i 0 : ℕ) < win0_7.index t 0 * 10000 + 10000
              rw [hi.1, ht]; omega
  | ⟨1, _⟩ => show win0_7.index t 1 * 64 ≤ (i 1 : ℕ) ∧ (i 1 : ℕ) < win0_7.index t 1 * 64 + 64
              rw [hi.2]; omega

/-- The last point's block is the whole statistics array. -/
theorem acover0_8 (c : Dev nD) (i : ((cfg0.win 8).arr.view.loc (c.tc : Thread nD τ)).2.ty.Idx) :
    ∃ t : Fin cfg0.N, (cfg0.win 8).flush t = true ∧ i ∈ ((cfg0.win 8).blk t).view.set := by
  refine ⟨t0_9, (flush0_8 t0_9).mpr rfl, ?_⟩
  show i ∈ ((View.whole main_v4_1).slice (win0_8.rect t0_9)).set
  rw [View.set_slice_whole, Rect.mem_set_unit]
  intro a
  have h0 : (i 0 : ℕ) < 1 := (i 0).isLt
  have h1 : (i 1 : ℕ) < 64 := (i 1).isLt
  have hi := index0_8 t0_9
  match a with
  | ⟨0, _⟩ => show win0_8.index t0_9 0 * 1 ≤ (i 0 : ℕ) ∧ (i 0 : ℕ) < win0_8.index t0_9 0 * 1 + 1
              rw [hi.1]; omega
  | ⟨1, _⟩ => show win0_8.index t0_9 1 * 64 ≤ (i 1 : ℕ) ∧ (i 1 : ℕ) < win0_8.index t0_9 1 * 64 + 64
              rw [hi.2]; omega

/-- The last point's block is the whole statistics array. -/
theorem acover0_9 (c : Dev nD) (i : ((cfg0.win 9).arr.view.loc (c.tc : Thread nD τ)).2.ty.Idx) :
    ∃ t : Fin cfg0.N, (cfg0.win 9).flush t = true ∧ i ∈ ((cfg0.win 9).blk t).view.set := by
  refine ⟨t0_9, (flush0_9 t0_9).mpr rfl, ?_⟩
  show i ∈ ((View.whole main_v4_2).slice (win0_9.rect t0_9)).set
  rw [View.set_slice_whole, Rect.mem_set_unit]
  intro a
  have h0 : (i 0 : ℕ) < 1 := (i 0).isLt
  have h1 : (i 1 : ℕ) < 64 := (i 1).isLt
  have hi := index0_9 t0_9
  match a with
  | ⟨0, _⟩ => show win0_9.index t0_9 0 * 1 ≤ (i 0 : ℕ) ∧ (i 0 : ℕ) < win0_9.index t0_9 0 * 1 + 1
              rw [hi.1]; omega
  | ⟨1, _⟩ => show win0_9.index t0_9 1 * 64 ≤ (i 1 : ℕ) ∧ (i 1 : ℕ) < win0_9.index t0_9 1 * 64 + 64
              rw [hi.2]; omega

/-- After the region the block output's array holds the head of the feature array. -/
theorem arr0_7 (c : Dev nD) : (dat0 V c).arrAt 7 cfg0.N = G7 V c :=
  (dat0 V c).arrAt_eq_of_cover 7 (G7 V c) (flushed0_7 V c) (acover0_7 c)
/-- After the region the first statistics array holds the head's column sums. -/
theorem arr0_8 (c : Dev nD) : (dat0 V c).arrAt 8 cfg0.N = G8 V c :=
  (dat0 V c).arrAt_eq_of_cover 8 (G8 V c) (flushed0_8 V c) (acover0_8 c)
/-- After the region the second statistics array holds the head's column sums of squares. -/
theorem arr0_9 (c : Dev nD) : (dat0 V c).arrAt 9 cfg0.N = G9 V c :=
  (dat0 V c).arrAt_eq_of_cover 9 (G9 V c) (flushed0_9 V c) (acover0_9 c)

/-- The block output's array at row `p` and column `q`: the two-layer head of the feature array there. -/
theorem final0_7 (c : Dev nD) (p : Fin 100000) (q : Fin 64) :
    ((dat0 V c).arrAt 7 cfg0.N : S100000x64.Idx → EReal) (ix2 p q) = H0 V c p q :=
  congrFun (arr0_7 V c) (ix2 p q)

/-- The first statistics array at column `q`: the sum over all rows of the head's column `q`. -/
theorem final0_8 (c : Dev nD) (q : Fin 64) :
    ((dat0 V c).arrAt 8 cfg0.N : S1x64.Idx → EReal) (ix2 (0 : Fin 1) q) = Cert.Spec.colSum (H0 V c) q :=
  congrFun (arr0_8 V c) (ix2 (0 : Fin 1) q)

/-- The second statistics array at column `q`: the sum over all rows of the squares of the head's column `q`. -/
theorem final0_9 (c : Dev nD) (q : Fin 64) :
    ((dat0 V c).arrAt 9 cfg0.N : S1x64.Idx → EReal) (ix2 (0 : Fin 1) q) = Cert.Spec.colSumSq (H0 V c) q :=
  congrFun (arr0_9 V c) (ix2 (0 : Fin 1) q)

end

end Cert.KernelIdeal.Hand
end
-- ==== Proof.KI.Val1.lean ====
/- Region 1's output array after the run, at the ideal float model: every entry as the layer's function (on the
   extended reals) of the arrays the region finds when it is entered. The payload read at an index of a block, each
   block a restriction of one whole-array function, the blocks cover the array. -/
import proofs.«128986_j27779848471455_1_alg».proof.Proof.KI.Reg1
import proofs.«128986_j27779848471455_1_alg».proof.Proof.KI.ValLib
import Idealize.ShloMosaic.Lib.ValueIdx
import Idealize.ShloMosaic.Lib.Pipeline.Value
import Idealize.ShloMosaic.Lib.ValueLayout
import Idealize.ShloMosaic.PureOps.Ideal.Laws

set_option maxRecDepth 65536

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The payload at row r, column q of a block. -/
theorem bn_payload (x0 : Vec Ideal S10000x64 .f32) (x1 x2 x3 x4 : Vec Ideal S1x64 .f32) (r : Fin 10000) (q : Fin 64) :
    k1_pay1 x0 x1 x2 x3 x4 (ix2 r q)
      = ((x0 (ix2 r q) - x1 (ix2 (0 : Fin 1) q)) * x2 (ix2 (0 : Fin 1) q)) * x3 (ix2 (0 : Fin 1) q) + x4 (ix2 (0 : Fin 1) q) := by
  unfold k1_pay1
  simp only [shapeCast_self, addf_apply, mulf_apply, subf_apply, broadcastTo_1b_ab_apply]

/-- The normalised array, index by index. -/
def bnArr (h : S100000x64.Idx → EReal) (mean inv g b : S1x64.Idx → EReal) : S100000x64.Idx → EReal :=
  fun i => ((h i - mean (ix2 (0 : Fin 1) (i 1 : Fin 64))) * inv (ix2 (0 : Fin 1) (i 1 : Fin 64))) * g (ix2 (0 : Fin 1) (i 1 : Fin 64)) + b (ix2 (0 : Fin 1) (i 1 : Fin 64))

/-- The payload of blocks that are restrictions of the arrays, at an index of the block, is the normalised array at
    the array's index with the same column. -/
theorem bn_block_point (h : S100000x64.Idx → EReal) (mean inv g b : S1x64.Idx → EReal)
    (x0 : Vec Ideal S10000x64 .f32) (x1 x2 x3 x4 : Vec Ideal S1x64 .f32)
    (j : S10000x64.Idx) (i : S100000x64.Idx) (hq : (i 1).val = (j 1).val)
    (e0 : x0 j = h i) (e1 : x1 = mean) (e2 : x2 = inv) (e3 : x3 = g) (e4 : x4 = b) :
    k1_pay1 x0 x1 x2 x3 x4 j = bnArr h mean inv g b i := by
  subst e1 e2 e3 e4
  obtain ⟨r, q, rfl⟩ : ∃ (r : Fin 10000) (q : Fin 64), j = ix2 r q := ⟨j 0, j 1, eq_ix2 j⟩
  rw [bn_payload, e0]
  have hi : (i 1 : Fin 64) = q := Fin.ext hq
  unfold bnArr
  rw [hi]

/-- The index maps, decided over the grid: the row-block index of windows 0 and 5 is the point, every other block
    index is zero. -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of the normalised array of the arrays the region finds. -/
theorem flushed1_eq (c : Dev nD) (t : Fin cfg1.N) :
    (dat1 (F := Ideal) V c).flushed 5 t = ((cfg1.win 5).blk t).view.read (Elt Ideal)
      (bnArr (V c main_v4_0) (V c main_v16) (V c main_v17) (V c main_v18) (V c main_v19)) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S1x64) hz2]
  obtain ⟨a0, a1, o0, o1, b0, b1, c0, c1, d0, d1, f0, f1⟩ := idx_facts1 t
  funext j
  refine bn_block_point (V c main_v4_0) (V c main_v16) (V c main_v17) (V c main_v18) (V c main_v19) _ _ _ _ _ _
    (((cfg1.win 5).blk t).view.emb j) ?_ ?_ ?_ ?_ ?_ ?_
  · show win1_5.index t (1 : Fin 2) * 64 + 1 * (j 1).val = (j 1).val
    rw [o1]; omega
  · show V c main_v4_0 (((cfg1.win 0).blk t).view.emb j) = V c main_v4_0 (((cfg1.win 5).blk t).view.emb j)
    refine congrArg _ (funext fun a => Fin.ext ?_)
    match a with
    | ⟨0, _⟩ => show win1_0.index t (0 : Fin 2) * 10000 + 1 * (j 0).val = win1_5.index t (0 : Fin 2) * 10000 + 1 * (j 0).val; rw [a0, o0]
    | ⟨1, _⟩ => show win1_0.index t (1 : Fin 2) * 64 + 1 * (j 1).val = win1_5.index t (1 : Fin 2) * 64 + 1 * (j 1).val; rw [a1, o1]
  · funext y
    show V c main_v16 (((cfg1.win 1).blk t).view.emb y) = V c main_v16 y
    refine congrArg _ (funext fun a => Fin.ext ?_)
    match a with
    | ⟨0, _⟩ => show win1_1.index t (0 : Fin 2) * 1 + 1 * (y 0).val = (y 0).val; rw [b0]; omega
    | ⟨1, _⟩ => show win1_1.index t (1 : Fin 2) * 64 + 1 * (y 1).val = (y 1).val; rw [b1]; omega
  · funext y
    show V c main_v17 (((cfg1.win 2).blk t).view.emb y) = V c main_v17 y
    refine congrArg _ (funext fun a => Fin.ext ?_)
    match a with
    | ⟨0, _⟩ => show win1_2.index t (0 : Fin 2) * 1 + 1 * (y 0).val = (y 0).val; rw [c0]; omega
    | ⟨1, _⟩ => show win1_2.index t (1 : Fin 2) * 64 + 1 * (y 1).val = (y 1).val; rw [c1]; omega
  · funext y
    show V c main_v18 (((cfg1.win 3).blk t).view.emb y) = V c main_v18 y
    refine congrArg _ (funext fun a => Fin.ext ?_)
    match a with
    | ⟨0, _⟩ => show win1_3.index t (0 : Fin 2) * 1 + 1 * (y 0).val = (y 0).val; rw [d0]; omega
    | ⟨1, _⟩ => show win1_3.index t (1 : Fin 2) * 64 + 1 * (y 1).val = (y 1).val; rw [d1]; omega
  · funext y
    show V c main_v19 (((cfg1.win 4).blk t).view.emb y) = V c main_v19 y
    refine congrArg _ (funext fun a => Fin.ext ?_)
    match a with
    | ⟨0, _⟩ => show win1_4.index t (0 : Fin 2) * 1 + 1 * (y 0).val = (y 0).val; rw [f0]; omega
    | ⟨1, _⟩ => show win1_4.index t (1 : Fin 2) * 64 + 1 * (y 1).val = (y 1).val; rw [f1]; omega

/-- An index of the array is in point t's block iff each coordinate is in the block's range on its axis. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v20).slice (win1_5.rect t)).set ↔ _
  rw [View.set_slice_whole, Rect.mem_set_unit]
  exact Iff.rfl

/-- Every index is in the block of the point its row falls in. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨a0, a1, o0, o1, -⟩ := idx_facts1 t
  have ht : t.val = (i 0).val / 10000 := rfl
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; rw [o0, ht]; omega
  | ⟨1, _⟩ => show win1_5.index t (1 : Fin 2) * 64 ≤ (i 1).val ∧ (i 1).val < win1_5.index t (1 : Fin 2) * 64 + 64; rw [o1]; omega

/-- The output array after the run is the normalised array. -/
theorem final1_arr (c : Dev nD) : (dat1 (F := Ideal) V c).arrAt 5 cfg1.N
    = bnArr (V c main_v4_0) (V c main_v16) (V c main_v17) (V c main_v18) (V c main_v19) :=
  (dat1 (F := Ideal) V c).arrAt_eq_of_cover 5 _ (fun t _ => flushed1_eq V c t) cover1

/-- Every entry of the output array after the run is the layer's function of the arrays the region finds: the input
    rows normalised with the given per-column mean and inverse deviation, scaled and shifted. -/
theorem final1 (c : Dev nD) (p : Fin 100000) (q : Fin 64) :
    ((dat1 (F := Ideal) V c).arrAt 5 cfg1.N : S100000x64.Idx → EReal) (ix2 p q)
      = Spec.normalize (fun p q => (V c main_v4_0 : S100000x64.Idx → EReal) (ix2 p q))
          (fun q => (V c main_v16 : S1x64.Idx → EReal) (ix2 0 q)) (fun q => (V c main_v17 : S1x64.Idx → EReal) (ix2 0 q))
          (fun q => (V c main_v18 : S1x64.Idx → EReal) (ix2 0 q)) (fun q => (V c main_v19 : S1x64.Idx → EReal) (ix2 0 q)) p q := by
  rw [final1_arr]
  rfl

end Cert.KernelIdeal.Hand

end
-- ==== Proof.KI.GlueAt.lean ====
/-
  The input windows' arrays read at an index, at their regions' entries: a parameter vector laid out as a one-row
  matrix reads the launch argument's entry, a message layer's weights and bias read the stacked arguments at the
  layer's number, and, on the extended reals, the normalising region's mean row and inverse-deviation row read as the
  quotient and the reciprocal square root of the two sums the first region left.
-/
import proofs.«128986_j27779848471455_1_alg».proof.Proof.KI.Glue
import proofs.«128986_j27779848471455_1_alg».proof.Proof.KI.GlueRead

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx

section Any

variable {F : FTy → Type} [FloatOps F]
variable (m : (ℓ : Loc nD τ sig) → Buf (Elt F) ℓ) (ρ : Dev nD → PrngReg)

/-! ## The parameter rows -/

theorem V1_main_v0_at (c : Dev nD) (u : Fin 1) (q : Fin 64) :
    (V1 m ρ c main_v0 : S1x64.Idx → Elt F .f32) (ix2 u q) = (m ((c : Thread nD τ).loc main_arg4) : S64.Idx → Elt F .f32) (ix1 q) :=
  (congrFun (V1_main_v0 m ρ c) (ix2 u q)).trans (row1_apply _ u q)
theorem V1_main_v1_at (c : Dev nD) (u : Fin 1) (q : Fin 64) :
    (V1 m ρ c main_v1 : S1x64.Idx → Elt F .f32) (ix2 u q) = (m ((c : Thread nD τ).loc main_arg5) : S64.Idx → Elt F .f32) (ix1 q) :=
  (congrFun (V1_main_v1 m ρ c) (ix2 u q)).trans (row1_apply _ u q)
theorem V1_main_v2_at (c : Dev nD) (u : Fin 1) (q : Fin 64) :
    (V1 m ρ c main_v2 : S1x64.Idx → Elt F .f32) (ix2 u q) = (m ((c : Thread nD τ).loc main_arg7) : S64.Idx → Elt F .f32) (ix1 q) :=
  (congrFun (V1_main_v2 m ρ c) (ix2 u q)).trans (row1_apply _ u q)
theorem V1_main_v3_at (c : Dev nD) (u : Fin 1) (q : Fin 64) :
    (V1 m ρ c main_v3 : S1x64.Idx → Elt F .f32) (ix2 u q) = (m ((c : Thread nD τ).loc main_arg8) : S64.Idx → Elt F .f32) (ix1 q) :=
  (congrFun (V1_main_v3 m ρ c) (ix2 u q)).trans (row1_apply _ u q)
theorem V3_main_v18_at (c : Dev nD) (u : Fin 1) (q : Fin 64) :
    (V3 m ρ c main_v18 : S1x64.Idx → Elt F .f32) (ix2 u q) = (m ((c : Thread nD τ).loc main_arg9) : S64.Idx → Elt F .f32) (ix1 q) :=
  (congrFun (V3_main_v18 m ρ c) (ix2 u q)).trans (row1_apply _ u q)
theorem V3_main_v19_at (c : Dev nD) (u : Fin 1) (q : Fin 64) :
    (V3 m ρ c main_v19 : S1x64.Idx → Elt F .f32) (ix2 u q) = (m ((c : Thread nD τ).loc main_arg10) : S64.Idx → Elt F .f32) (ix1 q) :=
  (congrFun (V3_main_v19 m ρ c) (ix2 u q)).trans (row1_apply _ u q)
theorem V7_main_v25_at (c : Dev nD) (u : Fin 1) (q : Fin 64) :
    (V7 m ρ c main_v25 : S1x64.Idx → Elt F .f32) (ix2 u q) = (m ((c : Thread nD τ).loc main_arg13) : S64.Idx → Elt F .f32) (ix1 q) :=
  (congrFun (V7_main_v25 m ρ c) (ix2 u q)).trans (row1_apply _ u q)
theorem V11_main_v25_at (c : Dev nD) (u : Fin 1) (q : Fin 64) :
    (V11 m ρ c main_v25 : S1x64.Idx → Elt F .f32) (ix2 u q) = (m ((c : Thread nD τ).loc main_arg13) : S64.Idx → Elt F .f32) (ix1 q) :=
  (congrFun (V11_main_v25 m ρ c) (ix2 u q)).trans (row1_apply _ u q)
theorem V15_main_v25_at (c : Dev nD) (u : Fin 1) (q : Fin 64) :
    (V15 m ρ c main_v25 : S1x64.Idx → Elt F .f32) (ix2 u q) = (m ((c : Thread nD τ).loc main_arg13) : S64.Idx → Elt F .f32) (ix1 q) :=
  (congrFun (V15_main_v25 m ρ c) (ix2 u q)).trans (row1_apply _ u q)
theorem V19_main_v25_at (c : Dev nD) (u : Fin 1) (q : Fin 64) :
    (V19 m ρ c main_v25 : S1x64.Idx → Elt F .f32) (ix2 u q) = (m ((c : Thread nD τ).loc main_arg13) : S64.Idx → Elt F .f32) (ix1 q) :=
  (congrFun (V19_main_v25 m ρ c) (ix2 u q)).trans (row1_apply _ u q)
theorem V21_main_v98_at (c : Dev nD) (u : Fin 1) (q : Fin 320) :
    (V21 m ρ c main_v98 : S1x320.Idx → Elt F .f32) (ix2 u q) = (m ((c : Thread nD τ).loc main_arg15) : S320.Idx → Elt F .f32) (ix1 q) :=
  (congrFun (V21_main_v98 m ρ c) (ix2 u q)).trans (row320_apply _ u q)
theorem V21_main_v99_at (c : Dev nD) (u : Fin 1) (q : Fin 1) :
    (V21 m ρ c main_v99 : S1x1.Idx → Elt F .f32) (ix2 u q) = (m ((c : Thread nD τ).loc main_arg17) : S1.Idx → Elt F .f32) (ix1 q) :=
  (congrFun (V21_main_v99 m ρ c) (ix2 u q)).trans (row1x1_apply _ u q)

/-! ## The message layers' weights and biases -/

theorem V5_main_v34_at (c : Dev nD) (p q : Fin 64) :
    (V5 m ρ c main_v34 : S64x64.Idx → Elt F .f32) (ix2 p q) = (m ((c : Thread nD τ).loc main_arg11) : S4x64x64.Idx → Elt F .f32) (ix3 (0 : Fin 4) p q) :=
  (congrFun (V5_main_v34 m ρ c) (ix2 p q)).trans (msgW0_apply _ p q)
theorem V5_main_v37_at (c : Dev nD) (u : Fin 1) (q : Fin 64) :
    (V5 m ρ c main_v37 : S1x64.Idx → Elt F .f32) (ix2 u q) = (m ((c : Thread nD τ).loc main_arg12) : S4x64.Idx → Elt F .f32) (ix2 (0 : Fin 4) q) :=
  (congrFun (V5_main_v37 m ρ c) (ix2 u q)).trans (msgB0_row_apply _ u q)
theorem V9_main_v51_at (c : Dev nD) (p q : Fin 64) :
    (V9 m ρ c main_v51 : S64x64.Idx → Elt F .f32) (ix2 p q) = (m ((c : Thread nD τ).loc main_arg11) : S4x64x64.Idx → Elt F .f32) (ix3 (1 : Fin 4) p q) :=
  (congrFun (V9_main_v51 m ρ c) (ix2 p q)).trans (msgW1_apply _ p q)
theorem V9_main_v54_at (c : Dev nD) (u : Fin 1) (q : Fin 64) :
    (V9 m ρ c main_v54 : S1x64.Idx → Elt F .f32) (ix2 u q) = (m ((c : Thread nD τ).loc main_arg12) : S4x64.Idx → Elt F .f32) (ix2 (1 : Fin 4) q) :=
  (congrFun (V9_main_v54 m ρ c) (ix2 u q)).trans (msgB1_row_apply _ u q)
theorem V13_main_v68_at (c : Dev nD) (p q : Fin 64) :
    (V13 m ρ c main_v68 : S64x64.Idx → Elt F .f32) (ix2 p q) = (m ((c : Thread nD τ).loc main_arg11) : S4x64x64.Idx → Elt F .f32) (ix3 (2 : Fin 4) p q) :=
  (congrFun (V13_main_v68 m ρ c) (ix2 p q)).trans (msgW2_apply _ p q)
theorem V13_main_v71_at (c : Dev nD) (u : Fin 1) (q : Fin 64) :
    (V13 m ρ c main_v71 : S1x64.Idx → Elt F .f32) (ix2 u q) = (m ((c : Thread nD τ).loc main_arg12) : S4x64.Idx → Elt F .f32) (ix2 (2 : Fin 4) q) :=
  (congrFun (V13_main_v71 m ρ c) (ix2 u q)).trans (msgB2_row_apply _ u q)
theorem V17_main_v85_at (c : Dev nD) (p q : Fin 64) :
    (V17 m ρ c main_v85 : S64x64.Idx → Elt F .f32) (ix2 p q) = (m ((c : Thread nD τ).loc main_arg11) : S4x64x64.Idx → Elt F .f32) (ix3 (3 : Fin 4) p q) :=
  (congrFun (V17_main_v85 m ρ c) (ix2 p q)).trans (msgW3_apply _ p q)
theorem V17_main_v88_at (c : Dev nD) (u : Fin 1) (q : Fin 64) :
    (V17 m ρ c main_v88 : S1x64.Idx → Elt F .f32) (ix2 u q) = (m ((c : Thread nD τ).loc main_arg12) : S4x64.Idx → Elt F .f32) (ix2 (3 : Fin 4) q) :=
  (congrFun (V17_main_v88 m ρ c) (ix2 u q)).trans (msgB3_row_apply _ u q)

end Any

/-! ## On the extended reals: the normalising region's mean and inverse-deviation rows -/

section OnIdeal

variable (m : (ℓ : Loc nD τ sig) → Buf (Elt Ideal) ℓ) (ρ : Dev nD → PrngReg)

/-- The mean row at (u, q): the column sum region 0 left at (0, q), divided by the row count. -/
theorem V3_main_v16_at (c : Dev nD) (u : Fin 1) (q : Fin 64) :
    (V3 m ρ c main_v16 : S1x64.Idx → EReal) (ix2 u q)
      = Ideal.div ((W2 m ρ c (Proc.devRef .tc main_v4_1) : S1x64.Idx → EReal) (ix2 (0 : Fin 1) q)) (Ideal.ofBits .f32 0x47C35000#32) :=
  (congrFun (V3_main_v16 m ρ c) (ix2 u q)).trans (meanRow_apply _ u q)

/-- The inverse-deviation row at (u, q): the reciprocal square root of (sum of squares / count - mean · mean + guard),
    from the two sums region 0 left at (0, q). -/
theorem V3_main_v17_at (c : Dev nD) (u : Fin 1) (q : Fin 64) :
    (V3 m ρ c main_v17 : S1x64.Idx → EReal) (ix2 u q)
      = Ideal.rsqrt (Ideal.div ((W2 m ρ c (Proc.devRef .tc main_v4_2) : S1x64.Idx → EReal) (ix2 (0 : Fin 1) q)) (Ideal.ofBits .f32 0x47C35000#32)
          - Ideal.div ((W2 m ρ c (Proc.devRef .tc main_v4_1) : S1x64.Idx → EReal) (ix2 (0 : Fin 1) q)) (Ideal.ofBits .f32 0x47C35000#32)
            * Ideal.div ((W2 m ρ c (Proc.devRef .tc main_v4_1) : S1x64.Idx → EReal) (ix2 (0 : Fin 1) q)) (Ideal.ofBits .f32 0x47C35000#32)
          + Ideal.ofBits .f32 0x3727C5AC#32) :=
  (congrFun (V3_main_v17 m ρ c) (ix2 u q)).trans (invRow_apply _ _ u q)

end OnIdeal

end Cert.KernelIdeal.Hand

end
-- ==== Proof.KI.BridgeH0.lean ====
/-
  The normalised node features are one array on both sides. This program's second region leaves, entry by entry, the
  moment form of the batch normalisation of the two-layer head (mean and inverse deviation from the column sums and
  sums of squares the first region accumulated); the reference computes the centred form of the same head. On real
  inputs the head is real, so the two forms agree (the variance identity), and the two arrays are equal.
-/
import proofs.«128986_j27779848471455_1_alg».proof.Proof.KI.Fold
import proofs.«128986_j27779848471455_1_alg».proof.Proof.KI.Val0e
import proofs.«128986_j27779848471455_1_alg».proof.Proof.KI.Val1
import proofs.«128986_j27779848471455_1_alg».proof.Proof.KI.Glue
import proofs.«128986_j27779848471455_1_alg».proof.Proof.KI.GlueAt
import proofs.«128986_j27779848471455_1_alg».proof.Proof.BnLaw
import proofs.«128986_j27779848471455_1_alg».proof.Proof.Ref.Read
import proofs.«128986_j27779848471455_1_alg».proof.Proof.Ref.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open Cert.Spec (IsReal)

variable (m : (ℓ : Loc nD τ sig) → Buf (Elt Ideal) ℓ) (ρ : Dev nD → PrngReg)

/-- The two-layer head of the launch arguments: features, two weight matrices, two biases, two slopes. -/
def headArgs (c : Dev nD) : Fin 100000 → Fin 64 → EReal :=
  Cert.Spec.head (fun p j => ((m ((c : Thread nD τ).loc main_arg0)) : S100000x64.Idx → EReal) (ix2 p j))
    (fun j q => ((m ((c : Thread nD τ).loc main_arg3)) : S64x64.Idx → EReal) (ix2 j q))
    (fun q => ((m ((c : Thread nD τ).loc main_arg4)) : S64.Idx → EReal) (ix1 q)) (fun q => ((m ((c : Thread nD τ).loc main_arg5)) : S64.Idx → EReal) (ix1 q))
    (fun j q => ((m ((c : Thread nD τ).loc main_arg6)) : S64x64.Idx → EReal) (ix2 j q))
    (fun q => ((m ((c : Thread nD τ).loc main_arg7)) : S64.Idx → EReal) (ix1 q)) (fun q => ((m ((c : Thread nD τ).loc main_arg8)) : S64.Idx → EReal) (ix1 q))

/-- The head of the arrays region 0 finds is the head of the launch arguments: the features and the weights are the
    arguments, the bias and slope rows are the argument vectors laid out as one-row matrices. -/
theorem H0_V1 (c : Dev nD) : H0 (V1 m ρ) c = headArgs m c := by
  have ex : (fun p j => (V1 m ρ c main_arg0 : S100000x64.Idx → EReal) (ix2 p j))
      = fun p j => ((m ((c : Thread nD τ).loc main_arg0)) : S100000x64.Idx → EReal) (ix2 p j) :=
    funext fun p => funext fun j => congrFun (V1_main_arg0 m ρ c) (ix2 p j)
  have ew1 : (fun j q => (V1 m ρ c main_arg3 : S64x64.Idx → EReal) (ix2 j q))
      = fun j q => ((m ((c : Thread nD τ).loc main_arg3)) : S64x64.Idx → EReal) (ix2 j q) :=
    funext fun j => funext fun q => congrFun (V1_main_arg3 m ρ c) (ix2 j q)
  have ew2 : (fun j q => (V1 m ρ c main_arg6 : S64x64.Idx → EReal) (ix2 j q))
      = fun j q => ((m ((c : Thread nD τ).loc main_arg6)) : S64x64.Idx → EReal) (ix2 j q) :=
    funext fun j => funext fun q => congrFun (V1_main_arg6 m ρ c) (ix2 j q)
  have eb1 : (fun q => (V1 m ρ c main_v0 : S1x64.Idx → EReal) (ix2 (0 : Fin 1) q))
      = fun q => ((m ((c : Thread nD τ).loc main_arg4)) : S64.Idx → EReal) (ix1 q) := funext fun q => V1_main_v0_at m ρ c 0 q
  have ea1 : (fun q => (V1 m ρ c main_v1 : S1x64.Idx → EReal) (ix2 (0 : Fin 1) q))
      = fun q => ((m ((c : Thread nD τ).loc main_arg5)) : S64.Idx → EReal) (ix1 q) := funext fun q => V1_main_v1_at m ρ c 0 q
  have eb2 : (fun q => (V1 m ρ c main_v2 : S1x64.Idx → EReal) (ix2 (0 : Fin 1) q))
      = fun q => ((m ((c : Thread nD τ).loc main_arg7)) : S64.Idx → EReal) (ix1 q) := funext fun q => V1_main_v2_at m ρ c 0 q
  have ea2 : (fun q => (V1 m ρ c main_v3 : S1x64.Idx → EReal) (ix2 (0 : Fin 1) q))
      = fun q => ((m ((c : Thread nD τ).loc main_arg8)) : S64.Idx → EReal) (ix1 q) := funext fun q => V1_main_v3_at m ρ c 0 q
  show Cert.Spec.head (fun p j => (V1 m ρ c main_arg0 : S100000x64.Idx → EReal) (ix2 p j))
      (fun j q => (V1 m ρ c main_arg3 : S64x64.Idx → EReal) (ix2 j q))
      (fun q => (V1 m ρ c main_v0 : S1x64.Idx → EReal) (ix2 (0 : Fin 1) q))
      (fun q => (V1 m ρ c main_v1 : S1x64.Idx → EReal) (ix2 (0 : Fin 1) q))
      (fun j q => (V1 m ρ c main_arg6 : S64x64.Idx → EReal) (ix2 j q))
      (fun q => (V1 m ρ c main_v2 : S1x64.Idx → EReal) (ix2 (0 : Fin 1) q))
      (fun q => (V1 m ρ c main_v3 : S1x64.Idx → EReal) (ix2 (0 : Fin 1) q)) = _
  rw [ex, ew1, ew2, eb1, ea1, eb2, ea2]
  rfl

/-- The head of real arguments is real. -/
theorem headArgs_real (c : Dev nD)
    (r0 : ∀ i, IsReal (((m ((c : Thread nD τ).loc main_arg0)) : S100000x64.Idx → EReal) i)) (r3 : ∀ i, IsReal (((m ((c : Thread nD τ).loc main_arg3)) : S64x64.Idx → EReal) i))
    (r4 : ∀ i, IsReal (((m ((c : Thread nD τ).loc main_arg4)) : S64.Idx → EReal) i)) (r5 : ∀ i, IsReal (((m ((c : Thread nD τ).loc main_arg5)) : S64.Idx → EReal) i))
    (r6 : ∀ i, IsReal (((m ((c : Thread nD τ).loc main_arg6)) : S64x64.Idx → EReal) i)) (r7 : ∀ i, IsReal (((m ((c : Thread nD τ).loc main_arg7)) : S64.Idx → EReal) i))
    (r8 : ∀ i, IsReal (((m ((c : Thread nD τ).loc main_arg8)) : S64.Idx → EReal) i)) (p : Fin 100000) (q : Fin 64) : IsReal (headArgs m c p q) :=
  Cert.Spec.isReal_head (fun p j => r0 (ix2 p j)) (fun j q => r3 (ix2 j q)) (fun q => r4 (ix1 q)) (fun q => r5 (ix1 q))
    (fun j q => r6 (ix2 j q)) (fun q => r7 (ix1 q)) (fun q => r8 (ix1 q)) p q

/-- The reference's normalised features, entrywise: the centred form of the head of the arguments. -/
theorem res_h0_apply (c : Dev nD) (p : Fin 100000) (q : Fin 64) :
    Cert.ReferenceIdeal.RefRun.res_h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 p q)
      = Cert.Spec.normalizeCentred (headArgs m c) (Ideal.ofBits .f32 0x47C35000#32) (Ideal.ofBits .f32 0x3727C5AC#32)
          (fun q => ((m ((c : Thread nD τ).loc main_arg9)) : S64.Idx → EReal) (ix1 q)) (fun q => ((m ((c : Thread nD τ).loc main_arg10)) : S64.Idx → EReal) (ix1 q)) p q := by
  unfold Cert.ReferenceIdeal.RefRun.res_h0
  rw [Cert.ReferenceIdeal.RefRun.bn_apply]
  have e : (fun p q => Cert.ReferenceIdeal.RefRun.pre (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 p q))
      = headArgs m c := funext fun p => funext fun q => Cert.ReferenceIdeal.RefRun.pre_apply _ _ _ _ _ _ _ p q
  rw [e]

/-- The normalised features region 1 leaves are the reference's, given what region 0 left in its three output arrays:
    the head, its column sums and its column sums of squares. -/
theorem h0_eq_of (c : Dev nD)
    (hf7 : ∀ (p : Fin 100000) (q : Fin 64),
      ((dat0 (F := Ideal) (V1 m ρ) c).arrAt 7 cfg0.N : S100000x64.Idx → EReal) (ix2 p q) = H0 (V1 m ρ) c p q)
    (hf8 : ∀ q : Fin 64,
      ((dat0 (F := Ideal) (V1 m ρ) c).arrAt 8 cfg0.N : S1x64.Idx → EReal) (ix2 (0 : Fin 1) q) = Cert.Spec.colSum (H0 (V1 m ρ) c) q)
    (hf9 : ∀ q : Fin 64,
      ((dat0 (F := Ideal) (V1 m ρ) c).arrAt 9 cfg0.N : S1x64.Idx → EReal) (ix2 (0 : Fin 1) q) = Cert.Spec.colSumSq (H0 (V1 m ρ) c) q)
    (r0 : ∀ i, IsReal (((m ((c : Thread nD τ).loc main_arg0)) : S100000x64.Idx → EReal) i)) (r3 : ∀ i, IsReal (((m ((c : Thread nD τ).loc main_arg3)) : S64x64.Idx → EReal) i))
    (r4 : ∀ i, IsReal (((m ((c : Thread nD τ).loc main_arg4)) : S64.Idx → EReal) i)) (r5 : ∀ i, IsReal (((m ((c : Thread nD τ).loc main_arg5)) : S64.Idx → EReal) i))
    (r6 : ∀ i, IsReal (((m ((c : Thread nD τ).loc main_arg6)) : S64x64.Idx → EReal) i)) (r7 : ∀ i, IsReal (((m ((c : Thread nD τ).loc main_arg7)) : S64.Idx → EReal) i))
    (r8 : ∀ i, IsReal (((m ((c : Thread nD τ).loc main_arg8)) : S64.Idx → EReal) i)) :
    W4 m ρ c (Proc.devRef .tc main_v20)
      = Cert.ReferenceIdeal.RefRun.res_h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  -- what region 0 left, in terms of the head of the arguments
  have e7 : ∀ (p : Fin 100000) (q : Fin 64),
      (V3 m ρ c main_v4_0 : S100000x64.Idx → EReal) (ix2 p q) = headArgs m c p q := fun p q => by
    rw [← H0_V1 m ρ c, ← hf7 p q]
    exact congrFun ((V3_main_v4_0 m ρ c).trans (W2_arr m ρ c 7)) (ix2 p q)
  have e8 : ∀ q : Fin 64, (W2 m ρ c (Proc.devRef .tc main_v4_1) : S1x64.Idx → EReal) (ix2 (0 : Fin 1) q)
      = Cert.Spec.colSum (headArgs m c) q := fun q => by
    rw [← H0_V1 m ρ c, ← hf8 q]
    exact congrFun (W2_arr m ρ c 8) (ix2 (0 : Fin 1) q)
  have e9 : ∀ q : Fin 64, (W2 m ρ c (Proc.devRef .tc main_v4_2) : S1x64.Idx → EReal) (ix2 (0 : Fin 1) q)
      = Cert.Spec.colSumSq (headArgs m c) q := fun q => by
    rw [← H0_V1 m ρ c, ← hf9 q]
    exact congrFun (W2_arr m ρ c 9) (ix2 (0 : Fin 1) q)
  funext idx
  obtain ⟨p, q, rfl⟩ : ∃ (p : Fin 100000) (q : Fin 64), idx = ix2 p q := ⟨idx 0, idx 1, eq_ix2 idx⟩
  rw [res_h0_apply]
  -- region 1's output entry: the moment form over the arrays it finds
  have hL : (W4 m ρ c (Proc.devRef .tc main_v20) : S100000x64.Idx → EReal) (ix2 p q)
      = Cert.Spec.normalize (fun p q => (V3 m ρ c main_v4_0 : S100000x64.Idx → EReal) (ix2 p q))
          (fun q => (V3 m ρ c main_v16 : S1x64.Idx → EReal) (ix2 0 q)) (fun q => (V3 m ρ c main_v17 : S1x64.Idx → EReal) (ix2 0 q))
          (fun q => (V3 m ρ c main_v18 : S1x64.Idx → EReal) (ix2 0 q)) (fun q => (V3 m ρ c main_v19 : S1x64.Idx → EReal) (ix2 0 q)) p q :=
    (congrFun (W4_arr m ρ c 5) (ix2 p q)).trans (final1 (V3 m ρ) c p q)
  have eh : (fun p q => (V3 m ρ c main_v4_0 : S100000x64.Idx → EReal) (ix2 p q)) = headArgs m c :=
    funext fun p => funext fun q => e7 p q
  have eg : (fun q => (V3 m ρ c main_v18 : S1x64.Idx → EReal) (ix2 (0 : Fin 1) q))
      = fun q => ((m ((c : Thread nD τ).loc main_arg9)) : S64.Idx → EReal) (ix1 q) := funext fun q => V3_main_v18_at m ρ c 0 q
  have eb : (fun q => (V3 m ρ c main_v19 : S1x64.Idx → EReal) (ix2 (0 : Fin 1) q))
      = fun q => ((m ((c : Thread nD τ).loc main_arg10)) : S64.Idx → EReal) (ix1 q) := funext fun q => V3_main_v19_at m ρ c 0 q
  rw [hL, eh, eg, eb]
  refine Cert.Spec.normalize_eq_centred_words (headArgs m c) (headArgs_real m c r0 r3 r4 r5 r6 r7 r8) _ _ _ _ ?_ ?_ p q
  · intro q
    beta_reduce
    rw [V3_main_v16_at, e8]
  · intro q
    beta_reduce
    rw [V3_main_v17_at, V3_main_v16_at, e8, e9]

/-- The normalised node features region 1 leaves are the reference's normalised features of the launch arguments, when
    the seven arguments the head reads are real. -/
theorem h0_eq (c : Dev nD)
    (r0 : ∀ i, IsReal (((m ((c : Thread nD τ).loc main_arg0)) : S100000x64.Idx → EReal) i)) (r3 : ∀ i, IsReal (((m ((c : Thread nD τ).loc main_arg3)) : S64x64.Idx → EReal) i))
    (r4 : ∀ i, IsReal (((m ((c : Thread nD τ).loc main_arg4)) : S64.Idx → EReal) i)) (r5 : ∀ i, IsReal (((m ((c : Thread nD τ).loc main_arg5)) : S64.Idx → EReal) i))
    (r6 : ∀ i, IsReal (((m ((c : Thread nD τ).loc main_arg6)) : S64x64.Idx → EReal) i)) (r7 : ∀ i, IsReal (((m ((c : Thread nD τ).loc main_arg7)) : S64.Idx → EReal) i))
    (r8 : ∀ i, IsReal (((m ((c : Thread nD τ).loc main_arg8)) : S64.Idx → EReal) i)) :
    W4 m ρ c (Proc.devRef .tc main_v20)
      = Cert.ReferenceIdeal.RefRun.res_h0 (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  h0_eq_of m ρ c (final0_7 (V1 m ρ) c) (final0_8 (V1 m ρ) c) (final0_9 (V1 m ρ) c) r0 r3 r4 r5 r6 r7 r8

end Cert.KernelIdeal.Hand

end
-- ==== Proof.Finite.lean ====
/-
  From the precondition to real data. The precondition says, for each float argument, that every entry's absolute
  value is below +∞ — a conjunction of sixteen such statements, nested to the left. An extended real whose absolute
  value is below +∞ is a real number; read at every index, the seven arrays the two-layer head consumes hold reals.
-/
import proofs.«128986_j27779848471455_1_alg».proof.Defs
import proofs.«128986_j27779848471455_1_alg».proof.Proof.Gen.Pre_finite_inputs
import proofs.«128986_j27779848471455_1_alg».proof.Proof.BnLaw
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs

instance : Subsingleton Cert.Pre_finite_inputs.S_.Idx := ⟨fun a b => funext fun d => d.elim0⟩

/-- |x| < +∞ on the extended reals means x is real. -/
theorem real_of_abs_lt_top (x : EReal)
    (h : FloatOps.cmpf (F := Ideal) (φ := .f32) .olt (FloatOps.hostAbsf (F := Ideal) (φ := .f32) x) (FloatOps.ofBits (F := Ideal) .f32 0x7F800000#32) = 1#1) :
    Cert.Spec.IsReal x := by
  induction x using EReal.rec with
  | bot => simp [Ideal.cmpf_def, Ideal.absf_def, Ideal.cmp, Ideal.ofBits, Ideal.ieee] at h
  | top => simp [Ideal.cmpf_def, Ideal.absf_def, Ideal.cmp, Ideal.ofBits, Ideal.ieee] at h
  | coe r => exact ⟨r, rfl⟩

/-- One conjunct of the precondition: "all entries of x have absolute value below +∞" gives a real at every index. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ValueIdx.ix0 = 1#1) (i : s.Idx) : Cert.Spec.IsReal (x i) :=
  real_of_abs_lt_top (x i) (Host.reduce_andi_all _ _ hr hu ValueIdx.ix0 e i)

/-- A conjunction of two one-word truth values that is true has both true. -/
theorem both (a b : IVec S_ 1) (h : andi a b ValueIdx.ix0 = 1#1) : a ValueIdx.ix0 = 1#1 ∧ b ValueIdx.ix0 = 1#1 :=
  IntOp.andi_eq_one.mp h

variable [Cert.Pre_finite_inputs.Facts]

/-- The seven arrays the two-layer head consumes hold reals, when the precondition is all ones. -/
theorem head_inputs_real
    (a0 : FVec Ideal S100000x64 .f32) (a1 : IVec S2x1600000 32) (a2 : IVec S100000 32) (a3 : FVec Ideal S64x64 .f32) (a4 : FVec Ideal S64 .f32)
    (a5 : FVec Ideal S64 .f32) (a6 : FVec Ideal S64x64 .f32) (a7 : FVec Ideal S64 .f32) (a8 : FVec Ideal S64 .f32) (a9 : FVec Ideal S64 .f32)
    (a10 : FVec Ideal S64 .f32) (a11 : FVec Ideal S4x64x64 .f32) (a12 : FVec Ideal S4x64 .f32) (a13 : FVec Ideal S64 .f32)
    (a14 : FVec Ideal S320x320 .f32) (a15 : FVec Ideal S320 .f32) (a16 : FVec Ideal S320x1 .f32) (a17 : FVec Ideal S1 .f32)
    (h : Cert.Pre_finite_inputs.fn (F := Ideal) a0 a1 a2 a3 a4 a5 a6 a7 a8 a9 a10 a11 a12 a13 a14 a15 a16 a17 = fun _ => 1#1) :
    (∀ i, Cert.Spec.IsReal (a0 i)) ∧ (∀ i, Cert.Spec.IsReal (a3 i)) ∧ (∀ i, Cert.Spec.IsReal (a4 i)) ∧ (∀ i, Cert.Spec.IsReal (a5 i))
      ∧ (∀ i, Cert.Spec.IsReal (a6 i)) ∧ (∀ i, Cert.Spec.IsReal (a7 i)) ∧ (∀ i, Cert.Spec.IsReal (a8 i)) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h1, -⟩ := both _ _ h0
  obtain ⟨h2, -⟩ := both _ _ h1
  obtain ⟨h3, -⟩ := both _ _ h2
  obtain ⟨h4, -⟩ := both _ _ h3
  obtain ⟨h5, -⟩ := both _ _ h4
  obtain ⟨h6, -⟩ := both _ _ h5
  obtain ⟨h7, -⟩ := both _ _ h6
  obtain ⟨h8, -⟩ := both _ _ h7
  obtain ⟨h9, -⟩ := both _ _ h8
  obtain ⟨h10, e8⟩ := both _ _ h9
  obtain ⟨h11, e7⟩ := both _ _ h10
  obtain ⟨h12, e6⟩ := both _ _ h11
  obtain ⟨h13, e5⟩ := both _ _ h12
  obtain ⟨h14, e4⟩ := both _ _ h13
  obtain ⟨e0, e3⟩ := both _ _ h14
  exact ⟨all_real a0 _ _ _ e0, all_real a3 _ _ _ e3, all_real a4 _ _ _ e4, all_real a5 _ _ _ e5,
    all_real a6 _ _ _ e6, all_real a7 _ _ _ e7, all_real a8 _ _ _ e8⟩

end Cert.Finite

end
-- ==== Proof.Bridge.lean ====
/-
  The two programs' results are one array. The reference's result is its closing head applied to the pooled
  concatenation of five feature blocks, each block one graph-convolution round of the block before it, the first block
  the normalised two-layer head. The kernel program's result is the same closing head of the same pooling of ITS five
  blocks; its rounds are the reference's rounds of its blocks; and its first block is the reference's on real data
  (the inputs are finite). So, block by block, the two chains carry equal arrays, and the results agree.
-/
import proofs.«128986_j27779848471455_1_alg».proof.Defs
import proofs.«128986_j27779848471455_1_alg».proof.Proof.Gen.Pre_finite_inputs
import proofs.«128986_j27779848471455_1_alg».proof.Proof.KI.Rounds
import proofs.«128986_j27779848471455_1_alg».proof.Proof.KI.BridgeH0
import proofs.«128986_j27779848471455_1_alg».proof.Proof.Finite
import proofs.«128986_j27779848471455_1_alg».proof.Proof.Ref.Run

noncomputable section

namespace Cert.Bridge

open Idealize.ShloMosaic Idealize.SL.Sem
open Cert.KernelIdeal Cert.KernelIdeal.Hand

/-- Under finite inputs the reference's composed result term of the arguments is the kernel program's last output array. -/
theorem result_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.RefRun.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
      = (dat10 (F := Ideal) (V21 m ρ) c).arrAt 5 cfg10.N := by
  obtain ⟨r0, r3, r4, r5, r6, r7, r8⟩ := Cert.Finite.head_inputs_real _ _ _ _ _ _ _ _ _ _ _ _ _ _ _ _ _ _ (hpre c)
  have e0 := h0_eq m ρ c r0 r3 r4 r5 r6 r7 r8
  have e1 := round1 m ρ c
  rw [e0] at e1
  have e2 := round2 m ρ c
  rw [e1] at e2
  have e3 := round3 m ρ c
  rw [e2] at e3
  have e4 := round4 m ρ c
  rw [e3] at e4
  rw [closing m ρ c, e0, e1, e2, e3, e4]
  rfl

end Cert.Bridge

end
-- ==== Proof.lean ====
/-
  The certificate of a graph network's forward pass: a two-layer head with PReLU (Linear, PReLU, Linear, PReLU), a batch
  normalisation over the node axis, four graph-convolution rounds (gather the source rows of every edge, a dense layer on
  the edge messages, scatter-add them to the destination nodes, PReLU of the aggregate plus the node's own features), the
  concatenation of the five feature blocks pooled per graph by a scatter-add, and a closing feed-forward head.
  The kernel program runs the dense stages as eleven tiled kernel regions between stretches of host operations and takes
  the batch statistics from running column sums (mean = S/N, variance = SS/N − mean², then a product with the reciprocal
  square root); the reference is one host program that centres first and divides by the square root. Each program's
  frame is its run read at the argument arrays; the idealization rewrote nothing; and at the ideal instance the two
  results agree entry by entry: the dense stages and the gather / scatter-add / concatenate operations are the same
  functions of equal operands, and the two normalisations agree on real data by the variance identity
  Σ(h − μ)²/N = Σh²/N − μ² and a · v^(-1/2) = a / √v for v > 0, the data being real because the inputs are finite.
-/
import proofs.«128986_j27779848471455_1_alg».proof.Defs
import proofs.«128986_j27779848471455_1_alg».proof.Proof.Gen.Kernel
import proofs.«128986_j27779848471455_1_alg».proof.Proof.Gen.KernelIdeal
import proofs.«128986_j27779848471455_1_alg».proof.Proof.Gen.ReferenceIdeal
import proofs.«128986_j27779848471455_1_alg».proof.Proof.Gen.Pre_finite_inputs
import proofs.«128986_j27779848471455_1_alg».proof.Proof.K.Run
import proofs.«128986_j27779848471455_1_alg».proof.Proof.KI.Run
import proofs.«128986_j27779848471455_1_alg».proof.Proof.Ref.Frame
import proofs.«128986_j27779848471455_1_alg».proof.Proof.Bridge
import Idealize.ShloMosaic.Adequacy
import Idealize.ShloMosaic.Init

noncomputable section

namespace Cert.Proof

open Idealize.ShloMosaic Idealize.SL.Sem

/-- The word-level kernel program runs and leaves its arguments unchanged: the run over its eleven regions. -/
theorem frame_k : Cert.frame_Kernel := fun m ρ _ => Cert.Kernel.Hand.frame (F := Bits) m ρ

/-- The idealized kernel program likewise (the same run, read at the ideal instance). -/
theorem frame_ki : Cert.frame_KernelIdeal := fun m ρ _ => Cert.KernelIdeal.Hand.frame (F := Ideal) m ρ

/-- The reference's frame is its run with the result dropped. -/
theorem frame_ri : Cert.frame_ReferenceIdeal := Cert.ReferenceIdeal.RefRun.frame_ri

/-- The ideal pass rewrote no operation: the idealization is the program's own text read at the ideal instance. -/
theorem preserves : Cert.preserves_Kernel_KernelIdeal := trivial

/-- At the ideal instance the kernel program's result array is the last region's output after its write-back, the
    reference's is its operations' composed term of the arguments, and under finite inputs the two are one array. -/
theorem algebraic : Cert.algebraic_KernelIdeal_ReferenceIdeal := by
  intro m ρ m' ρ' hpre hagree
  refine ⟨fun c => (Cert.KernelIdeal.Hand.dat10 (F := Ideal) (Cert.KernelIdeal.Hand.V21 m ρ) c).arrAt 5 Cert.KernelIdeal.cfg10.N,
    Cert.KernelIdeal.Hand.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  exact Cert.Bridge.result_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
